-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 512]⟩ ⟨2, ![2048, 2048]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 512]⟩ ⟨2, ![2048, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x2048 : Shape := ⟨2, ![512, 2048]⟩
abbrev S2048x512 : Shape := ⟨2, ![2048, 512]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S512x2048 .f32) (main_arg1 : FVec F S2048x512 .f32) : IVec S_ 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  main_v8
-- ==== Pre_finite_inputs_ReferenceIdeal.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel

variable [Facts]

def fn {F : FTy → Type} [FloatOps F] (main_arg0 : FVec F S2048x2048 .f32) (main_arg1 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S512x2048 : Shape := ⟨2, ![512, 2048]⟩
abbrev S2048x512 : Shape := ⟨2, ![2048, 512]⟩
abbrev S3x2x128x2048 : Shape := ⟨4, ![3, 2, 128, 2048]⟩
abbrev S3x2 : Shape := ⟨2, ![3, 2]⟩
abbrev S_ : Shape := ⟨0, ![]⟩
abbrev S1x1 : Shape := ⟨2, ![1, 1]⟩
abbrev S1x1x128x2048 : Shape := ⟨4, ![1, 1, 128, 2048]⟩
abbrev S128x2048 : Shape := ⟨2, ![128, 2048]⟩
abbrev S512x512 : Shape := ⟨2, ![512, 512]⟩
abbrev S128x512 : Shape := ⟨2, ![128, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x2048, .f32⟩
  | .hbm, ⟨1, _⟩ => ⟨S2048x512, .f32⟩
  | .hbm, ⟨2, _⟩ => ⟨S2048x512, .f32⟩
  | .local _ .vmem, ⟨0, _⟩ => ⟨S512x2048, .f32⟩
  | .local _ .vmem, ⟨1, _⟩ => ⟨S2048x512, .f32⟩
  | .local _ .vmem, ⟨2, _⟩ => ⟨S2048x512, .f32⟩
  | .local _ .vmem, ⟨3, _⟩ => ⟨S3x2x128x2048, .f32⟩
  | .local _ .vmem, ⟨4, _⟩ => ⟨S3x2x128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => false
  | ⟨1, _⟩ => true
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  { ofTc nBuf bufTy 2 27 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_25 : BitVec 32 := 1#32
  let v30 : BitVec 32 := Scalar.muli v24 c1_i32_25
  let v31 : BitVec 32 := Scalar.addi c0_i32_26 v30
  v31.toNat
def k0_dev4 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_37 : BitVec 32 := 1#32
  let v39 : BitVec 32 := Scalar.muli v13 c1_i32_37
  let v40 : BitVec 32 := Scalar.addi c0_i32_38 v39
  v40.toNat
def k0_dev5 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_48 : BitVec 32 := 1#32
  let v48 : BitVec 32 := Scalar.muli v24 c1_i32_48
  let v49 : BitVec 32 := Scalar.addi c0_i32_49 v48
  v49.toNat
def k0_dev6 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_59 : BitVec 32 := 1#32
  let v57 : BitVec 32 := Scalar.muli v13 c1_i32_59
  let v58 : BitVec 32 := Scalar.addi c0_i32_60 v57
  v58.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v71 : BitVec 32 := Scalar.muli v2 c512_i32
  let v72 : Index := Scalar.indexCast v71
  let c0_67 : Index := 0#32
  ![v72.toNat, 0]
def k0_dev7 (d0 : Dev nD) : Nat :=
  let c0_i32_91 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_90 : BitVec 32 := 1#32
  let v82 : BitVec 32 := Scalar.muli v24 c1_i32_90
  let v83 : BitVec 32 := Scalar.addi c0_i32_91 v82
  v83.toNat
def k0_dev8 (d0 : Dev nD) : Nat :=
  let c0_i32_119 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_118 : BitVec 32 := 1#32
  let v100 : BitVec 32 := Scalar.muli v13 c1_i32_118
  let v101 : BitVec 32 := Scalar.addi c0_i32_119 v100
  v101.toNat
def k0_off2 (d0 : Dev nD) (c0_i32_125 : BitVec 32) (c0_i32_140 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_124 : BitVec 32 := 1#32
  let v110 : BitVec 32 := Scalar.subi v2 c1_i32_124
  let v111 : BitVec 32 := Scalar.subi v110 c0_i32_125
  let c4_i32_126 : BitVec 32 := 4#32
  let c0_i32_127 : BitVec 32 := 0#32
  let v112 : BitVec 1 := Scalar.cmpi .eq c4_i32_126 c0_i32_127
  let c1_i32_128 : BitVec 32 := 1#32
  let v113 : BitVec 32 := Scalar.select v112 c1_i32_128 c4_i32_126
  let v114 : BitVec 32 := Scalar.remsi v111 v113
  let c0_i32_130 : BitVec 32 := 0#32
  let v116 : BitVec 1 := Scalar.cmpi .slt v114 c0_i32_130
  let c0_i32_131 : BitVec 32 := 0#32
  let v117 : BitVec 1 := Scalar.cmpi .slt v113 c0_i32_131
  let v118 : BitVec 1 := Scalar.xori v116 v117
  let c0_i32_129 : BitVec 32 := 0#32
  let v115 : BitVec 1 := Scalar.cmpi .ne v114 c0_i32_129
  let v119 : BitVec 1 := Scalar.andi v118 v115
  let v120 : BitVec 32 := Scalar.addi v114 v113
  let v121 : BitVec 32 := Scalar.select v119 v120 v114
  let c512_i32_139 : BitVec 32 := 512#32
  let v127 : BitVec 32 := Scalar.muli v121 c512_i32_139
  let v128 : BitVec 32 := Scalar.addi v127 c0_i32_140
  let v129 : Index := Scalar.indexCast v128
  let c0_141 : Index := 0#32
  ![v129.toNat, 0]
def k0_off3 (d0 : Dev nD) (c0_i32_143 : BitVec 32) (c0_i32_159 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_142 : BitVec 32 := 1#32
  let v131 : BitVec 32 := Scalar.addi v2 c1_i32_142
  let v132 : BitVec 32 := Scalar.addi v131 c0_i32_143
  let c4_i32_144 : BitVec 32 := 4#32
  let c0_i32_145 : BitVec 32 := 0#32
  let v133 : BitVec 1 := Scalar.cmpi .eq c4_i32_144 c0_i32_145
  let c1_i32_146 : BitVec 32 := 1#32
  let v134 : BitVec 32 := Scalar.select v133 c1_i32_146 c4_i32_144
  let v135 : BitVec 32 := Scalar.remsi v132 v134
  let c0_i32_148 : BitVec 32 := 0#32
  let v137 : BitVec 1 := Scalar.cmpi .slt v135 c0_i32_148
  let c0_i32_149 : BitVec 32 := 0#32
  let v138 : BitVec 1 := Scalar.cmpi .slt v134 c0_i32_149
  let v139 : BitVec 1 := Scalar.xori v137 v138
  let c0_i32_147 : BitVec 32 := 0#32
  let v136 : BitVec 1 := Scalar.cmpi .ne v135 c0_i32_147
  let v140 : BitVec 1 := Scalar.andi v139 v136
  let v141 : BitVec 32 := Scalar.addi v135 v134
  let v142 : BitVec 32 := Scalar.select v140 v141 v135
  let c512_i32_157 : BitVec 32 := 512#32
  let v148 : BitVec 32 := Scalar.muli v142 c512_i32_157
  let c256_i32_158 : BitVec 32 := 256#32
  let v149 : BitVec 32 := Scalar.addi v148 c256_i32_158
  let v150 : BitVec 32 := Scalar.addi v149 c0_i32_159
  let v151 : Index := Scalar.indexCast v150
  let c0_160 : Index := 0#32
  ![v151.toNat, 0]
def k0_dev9 (d0 : Dev nD) : Nat :=
  let c0_i32_184 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_183 : BitVec 32 := 1#32
  let v161 : BitVec 32 := Scalar.muli v24 c1_i32_183
  let v162 : BitVec 32 := Scalar.addi c0_i32_184 v161
  v162.toNat
def k0_dev10 (d0 : Dev nD) : Nat :=
  let c0_i32_212 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_211 : BitVec 32 := 1#32
  let v179 : BitVec 32 := Scalar.muli v13 c1_i32_211
  let v180 : BitVec 32 := Scalar.addi c0_i32_212 v179
  v180.toNat
def k0_dev11 (d0 : Dev nD) : Nat :=
  let c0_i32_276 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_275 : BitVec 32 := 1#32
  let v240 : BitVec 32 := Scalar.muli v24 c1_i32_275
  let v241 : BitVec 32 := Scalar.addi c0_i32_276 v240
  v241.toNat
def k0_dev12 (d0 : Dev nD) : Nat :=
  let c0_i32_304 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_303 : BitVec 32 := 1#32
  let v258 : BitVec 32 := Scalar.muli v13 c1_i32_303
  let v259 : BitVec 32 := Scalar.addi c0_i32_304 v258
  v259.toNat
def k0_dev13 (d0 : Dev nD) : Nat :=
  let c0_i32_369 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_368 : BitVec 32 := 1#32
  let v319 : BitVec 32 := Scalar.muli v24 c1_i32_368
  let v320 : BitVec 32 := Scalar.addi c0_i32_369 v319
  v320.toNat
def k0_dev14 (d0 : Dev nD) : Nat :=
  let c0_i32_397 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_396 : BitVec 32 := 1#32
  let v337 : BitVec 32 := Scalar.muli v13 c1_i32_396
  let v338 : BitVec 32 := Scalar.addi c0_i32_397 v337
  v338.toNat
def k0_dev15 (d0 : Dev nD) : Nat :=
  let c0_i32_718_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_717_r0 : BitVec 32 := 1#32
  let v577_r0 : BitVec 32 := Scalar.muli v13 c1_i32_717_r0
  let v578_r0 : BitVec 32 := Scalar.addi c0_i32_718_r0 v577_r0
  v578_r0.toNat
def k0_dev16 (d0 : Dev nD) : Nat :=
  let c0_i32_721_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_720_r0 : BitVec 32 := 1#32
  let v579_r0 : BitVec 32 := Scalar.muli v24 c1_i32_720_r0
  let v580_r0 : BitVec 32 := Scalar.addi c0_i32_721_r0 v579_r0
  v580_r0.toNat
abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  hamt_2 : (2#32 : BitVec 32).msb = false
  inb_S3x2_S1x1_0_0 : ∀ a, (![0, 0] : Fin 2 → Nat) a + S1x1.size a ≤ S3x2.size a
  squeezes_S1x1_S_ : S1x1.Squeezes S_
  inb_S3x2x128x2048_S1x1x128x2048_0_0_0_0 : ∀ a, (![0, 0, 0, 0] : Fin 4 → Nat) a + S1x1x128x2048.size a ≤ S3x2x128x2048.size a
  squeezes_S1x1x128x2048_S128x2048 : S1x1x128x2048.Squeezes S128x2048
  inb_S512x2048_S128x2048_0_0 : ∀ a, (![0, 0] : Fin 2 → Nat) a + S128x2048.size a ≤ S512x2048.size a
  inb_S512x2048_S128x2048_256_0 : ∀ a, (![256, 0] : Fin 2 → Nat) a + S128x2048.size a ≤ S512x2048.size a
  inb_S3x2_S1x1_0_1 : ∀ a, (![0, 1] : Fin 2 → Nat) a + S1x1.size a ≤ S3x2.size a
  inb_S3x2x128x2048_S1x1x128x2048_0_1_0_0 : ∀ a, (![0, 1, 0, 0] : Fin 4 → Nat) a + S1x1x128x2048.size a ≤ S3x2x128x2048.size a
  inb_S512x2048_S128x2048_128_0 : ∀ a, (![128, 0] : Fin 2 → Nat) a + S128x2048.size a ≤ S512x2048.size a
  inb_S512x2048_S128x2048_384_0 : ∀ a, (![384, 0] : Fin 2 → Nat) a + S128x2048.size a ≤ S512x2048.size a
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  h_S512x512 : 0 < S512x512.numel
  inb_S3x2_S1x1_1_0 : ∀ a, (![1, 0] : Fin 2 → Nat) a + S1x1.size a ≤ S3x2.size a
  inb_S3x2x128x2048_S1x1x128x2048_1_0_0_0 : ∀ a, (![1, 0, 0, 0] : Fin 4 → Nat) a + S1x1x128x2048.size a ≤ S3x2x128x2048.size a
  h_S1x1x128x2048 : 0 < S1x1x128x2048.numel
  shapeCasts_S1x1x128x2048_S128x2048 : S1x1x128x2048.ShapeCasts S128x2048
  h_S128x512 : 0 < S128x512.numel
  inb_S3x2_S1x1_1_1 : ∀ a, (![1, 1] : Fin 2 → Nat) a + S1x1.size a ≤ S3x2.size a
  inb_S3x2x128x2048_S1x1x128x2048_1_1_0_0 : ∀ a, (![1, 1, 0, 0] : Fin 4 → Nat) a + S1x1x128x2048.size a ≤ S3x2x128x2048.size a
  inb_S3x2_S1x1_2_0 : ∀ a, (![2, 0] : Fin 2 → Nat) a + S1x1.size a ≤ S3x2.size a
  inb_S3x2x128x2048_S1x1x128x2048_2_0_0_0 : ∀ a, (![2, 0, 0, 0] : Fin 4 → Nat) a + S1x1x128x2048.size a ≤ S3x2x128x2048.size a
  inb_S3x2_S1x1_2_1 : ∀ a, (![2, 1] : Fin 2 → Nat) a + S1x1.size a ≤ S3x2.size a
  inb_S3x2x128x2048_S1x1x128x2048_2_1_0_0 : ∀ a, (![2, 1, 0, 0] : Fin 4 → Nat) a + S1x1x128x2048.size a ≤ S3x2x128x2048.size a
  dot_S512x2048_S2048x512_S512x512_1_0_0_1_n_n_wf : DotDims.WF S512x2048 S2048x512 S512x512 [1] [0] [0] [1] [] []
  dot_S128x2048_S2048x512_S128x512_1_0_0_1_n_n_wf : DotDims.WF S128x2048 S2048x512 S128x512 [1] [0] [0] [1] [] []
  hcc0_scoped0 : 1 + S_.numel ≤ 2
  hcc0_scratch2 : 3 + S3x2.numel ≤ 27
  hcc0_scratch3 : 9 + S3x2.numel ≤ 27
  hcc0_scratch4 : 15 + S3x2.numel ≤ 27
  hcc0_scratch5 : 21 + S3x2.numel ≤ 27
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_off1_inb : ∀ d0 : Dev nD, ∀ a, (k0_off1 d0) a + S512x512.size a ≤ S2048x512.size a
  k0_dev7_lt : ∀ d0 : Dev nD, (k0_dev7 d0) < nD
  k0_dev8_lt : ∀ d0 : Dev nD, (k0_dev8 d0) < nD
  k0_off2_inb : ∀ d0 : Dev nD, ∀ (r₁ : Fin 3) (r₂ : Fin 2), ∀ a, (k0_off2 d0 (BitVec.ofNat 32 r₁.val) (BitVec.ofNat 32 (128 * r₂.val))) a + S128x512.size a ≤ S2048x512.size a
  k0_off3_inb : ∀ d0 : Dev nD, ∀ (r₁ : Fin 3) (r₂ : Fin 2), ∀ a, (k0_off3 d0 (BitVec.ofNat 32 r₁.val) (BitVec.ofNat 32 (128 * r₂.val))) a + S128x512.size a ≤ S2048x512.size a
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  hstage0_0 : ∀ j, (stage0_0 j).IsWhole
  hstage0_1 : ∀ j, (stage0_1 j).IsWhole
  hstage0_2 : ∀ j, (stage0_2 j).IsWhole

variable [Facts₀]

abbrev cc0_scoped0 : Sems sig S_ := SemArray.consecutive 1 S_ hcc0_scoped0
abbrev cc0_scratch2 : DmaSems sig S3x2 := SemArray.consecutive 3 S3x2 hcc0_scratch2
abbrev cc0_scratch3 : DmaSems sig S3x2 := SemArray.consecutive 9 S3x2 hcc0_scratch3
abbrev cc0_scratch4 : DmaSems sig S3x2 := SemArray.consecutive 15 S3x2 hcc0_scratch4
abbrev cc0_scratch5 : DmaSems sig S3x2 := SemArray.consecutive 21 S3x2 hcc0_scratch5
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S128x2048_S2048x512_S128x512_1_0_0_1_n_n : DotDims S128x2048 S2048x512 S128x512 where
  lhsContracting := [1]
  rhsContracting := [0]
  lhsNonContracting := [0]
  rhsNonContracting := [1]
  lhsBatch := []
  rhsBatch := []
  wf := dot_S128x2048_S2048x512_S128x512_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S2048x2048_S2048x2048_S2048x2048_1_0_0_1_n_n_wf : DotDims.WF S2048x2048 S2048x2048 S2048x2048 [1] [0] [0] [1] [] []

variable [Facts₀]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf

class Facts : Prop extends Facts₀ where

variable [Facts]
-- ==== Proof.Mesh.lean ====
/-
  The ring of four devices and the kernel's integer chains in closed form.

  Device `c`'s right neighbour is `c + 1` and its left neighbour `c + 3` (both modulo four); `shift c k` is the
  device `k` places to the right. Every `device_id` the body computes is one of the two neighbours, and every row
  offset of a store into the result is a block of 512 rows named by a device `h + 1` places to the left (the pieces
  that travelled rightwards) or to the right (those that travelled leftwards), plus the piece's place inside the block.
-/
import proofs.«900337_g7700000000000338_dist_ag_gemm_m2048_k2048_n2048_f32_none_v7x_i4_1_alg».proof.Proof.Gen.KernelIdeal

noncomputable section

namespace Cert.KernelIdeal.Ag

open Cert.KernelIdeal Cert.KernelIdeal.Gen
open Idealize.ShloMosaic

/-- The device `k` places to the right of `c` on the ring of four. -/
def shift (c : Dev nD) (k : ℕ) : Dev nD := ⟨(c.val + k) % 4, Nat.mod_lt _ (by decide)⟩

/-- The right neighbour. -/
abbrev nxt (c : Dev nD) : Dev nD := shift c 1
/-- The left neighbour. -/
abbrev prv (c : Dev nD) : Dev nD := shift c 3

theorem prv_nxt : ∀ c : Dev nD, prv (nxt c) = c := by decide
theorem nxt_prv : ∀ c : Dev nD, nxt (prv c) = c := by decide
theorem nxt_ne_prv : ∀ c : Dev nD, nxt c ≠ prv c := by decide
theorem nxt_ne_self : ∀ c : Dev nD, nxt c ≠ c := by decide
theorem prv_ne_self : ∀ c : Dev nD, prv c ≠ c := by decide

/-- The piece found `h` hops along the rightward road on `nxt c` is the one found `h - 1` hops along on `c`. -/
theorem shift_left_step : ∀ (c : Dev nD) (h : Fin 3), shift (nxt c) (3 * (h.val + 2)) = shift c (3 * (h.val + 1)) := by decide
/-- The same on the leftward road. -/
theorem shift_right_step : ∀ (c : Dev nD) (h : Fin 3), shift (prv c) (h.val + 2) = shift c (h.val + 1) := by decide
theorem shift_left_first : ∀ c : Dev nD, shift (nxt c) 3 = c := by decide
theorem shift_right_first : ∀ c : Dev nD, shift (prv c) 1 = c := by decide

/-! ## The body's `device_id` chains -/

theorem dev1_eq : ∀ c : Dev nD, (⟨k0_dev1 c, k0_dev1_lt c⟩ : Dev nD) = prv c := by decide +kernel
theorem dev2_eq : ∀ c : Dev nD, (⟨k0_dev2 c, k0_dev2_lt c⟩ : Dev nD) = nxt c := by decide +kernel
theorem dev3_eq : ∀ c : Dev nD, (⟨k0_dev3 c, k0_dev3_lt c⟩ : Dev nD) = nxt c := by decide +kernel
theorem dev4_eq : ∀ c : Dev nD, (⟨k0_dev4 c, k0_dev4_lt c⟩ : Dev nD) = prv c := by decide +kernel
theorem dev5_eq : ∀ c : Dev nD, (⟨k0_dev5 c, k0_dev5_lt c⟩ : Dev nD) = nxt c := by decide +kernel
theorem dev6_eq : ∀ c : Dev nD, (⟨k0_dev6 c, k0_dev6_lt c⟩ : Dev nD) = prv c := by decide +kernel
theorem dev7_eq : ∀ c : Dev nD, (⟨k0_dev7 c, k0_dev7_lt c⟩ : Dev nD) = nxt c := by decide +kernel
theorem dev8_eq : ∀ c : Dev nD, (⟨k0_dev8 c, k0_dev8_lt c⟩ : Dev nD) = prv c := by decide +kernel
theorem dev9_eq : ∀ c : Dev nD, (⟨k0_dev9 c, k0_dev9_lt c⟩ : Dev nD) = nxt c := by decide +kernel
theorem dev10_eq : ∀ c : Dev nD, (⟨k0_dev10 c, k0_dev10_lt c⟩ : Dev nD) = prv c := by decide +kernel
theorem dev11_eq : ∀ c : Dev nD, (⟨k0_dev11 c, k0_dev11_lt c⟩ : Dev nD) = nxt c := by decide +kernel
theorem dev12_eq : ∀ c : Dev nD, (⟨k0_dev12 c, k0_dev12_lt c⟩ : Dev nD) = prv c := by decide +kernel
theorem dev13_eq : ∀ c : Dev nD, (⟨k0_dev13 c, k0_dev13_lt c⟩ : Dev nD) = nxt c := by decide +kernel
theorem dev14_eq : ∀ c : Dev nD, (⟨k0_dev14 c, k0_dev14_lt c⟩ : Dev nD) = prv c := by decide +kernel
theorem dev15_eq : ∀ c : Dev nD, (⟨k0_dev15 c, k0_dev15_lt c⟩ : Dev nD) = prv c := by decide +kernel
theorem dev16_eq : ∀ c : Dev nD, (⟨k0_dev16 c, k0_dev16_lt c⟩ : Dev nD) = nxt c := by decide +kernel

/-! ## The stores' row offsets -/

/-- The rows of the piece that came `h + 1` hops from the left: block `c - 1 - h`, its first half, piece `p`. -/
theorem off2_eq : ∀ (c : Dev nD) (h : Fin 3) (p : Fin 2),
    k0_off2 c (BitVec.ofNat 32 h.val) (BitVec.ofNat 32 (128 * p.val)) = ![512 * (shift c (3 * (h.val + 1))).val + 128 * p.val, 0] := by
  decide +kernel
/-- The rows of the piece that came `h + 1` hops from the right: block `c + 1 + h`, its second half, piece `p`. -/
theorem off3_eq : ∀ (c : Dev nD) (h : Fin 3) (p : Fin 2),
    k0_off3 c (BitVec.ofNat 32 h.val) (BitVec.ofNat 32 (128 * p.val)) = ![512 * (shift c (h.val + 1)).val + 256 + 128 * p.val, 0] := by
  decide +kernel

end Cert.KernelIdeal.Ag

end
-- ==== Proof.Cells.lean ====
/-
  The cells of the all-gather and what each hands its owner.

  Every device holds a block `x` of 512 rows and sends its first half (two pieces of 128 rows) rightwards and its
  second half leftwards; a piece is forwarded twice more, so that after three hops on each road every device has seen
  every other device's block. Landing slot `(h, p)` of the rightward road on device `c` receives piece `p` of the
  first half of the block of the device `h + 1` places to the left; on the leftward road, piece `p` of the second
  half of the block of the device `h + 1` places to the right.

  One round per cell. A barrier cell (the entry handshake's, and the closing one's) has two duties, one signal from each
  neighbour; the entry handshake's signal from the right neighbour hands over that neighbour's rightward landing slots
  (this device will write them), the one from the left neighbour its leftward slots. A send cell has one duty, the
  transfer's departure, which gives back the half share of the source it lent; a receive cell has one duty, the
  arrival, which hands over the slot holding the piece named above.
-/
import proofs.«900337_g7700000000000338_dist_ag_gemm_m2048_k2048_n2048_f32_none_v7x_i4_1_alg».proof.Proof.Mesh
import Idealize.ShloMosaic.Lib.Pipeline.Launch
import Idealize.ShloMosaic.Lib.Pipeline.Kit
import Idealize.ShloMosaic.Lib.Tactic

noncomputable section

namespace Cert.KernelIdeal.Ag

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's cells beside the ring's (duty names `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ)

/-! ## Views -/

abbrev xM : Memref sig .tc .vmem S512x2048 .f32 := Memref.whole cc0_stg0_0
abbrev wM : Memref sig .tc .vmem S2048x512 .f32 := Memref.whole cc0_stg1_0
abbrev oM : Memref sig .tc .vmem S2048x512 .f32 := Memref.whole cc0_stg2_0
/-- The rightward road's landing slots, and the leftward road's. -/
abbrev aM : Memref sig .tc .vmem S3x2x128x2048 .f32 := Memref.whole cc0_scratch0
abbrev bM : Memref sig .tc .vmem S3x2x128x2048 .f32 := Memref.whole cc0_scratch1

theorem inb_x : ∀ (j : Fin 4) a, (![128 * j.val, 0] : Fin 2 → Nat) a + S128x2048.size a ≤ S512x2048.size a := by decide
/-- Rows `[128 j, 128 j + 128)` of the staged block of `x`. -/
abbrev xP (j : Fin 4) : Memref sig .tc .vmem S128x2048 .f32 :=
  xM.slice (Rect.unit (s := S512x2048) ![128 * j.val, 0] S128x2048.size (inb_x j)) (fun _ => rfl)

theorem inb_s : ∀ (h : Fin 3) (p : Fin 2) a, (![h.val, p.val, 0, 0] : Fin 4 → Nat) a + S1x1x128x2048.size a ≤ S3x2x128x2048.size a := by decide
/-- Landing slot `(h, p)` of a road's buffer, as the 128 × 2048 block the transfers move. -/
abbrev slot (M : Memref sig .tc .vmem S3x2x128x2048 .f32) (h : Fin 3) (p : Fin 2) : Memref sig .tc .vmem S128x2048 .f32 :=
  (M.slice (Rect.unit (s := S3x2x128x2048) ![h.val, p.val, 0, 0] S1x1x128x2048.size (inb_s h p)) (fun _ => rfl)).squeeze S128x2048 squeezes_S1x1x128x2048_S128x2048

theorem inb_q : ∀ (h : Fin 3) (p : Fin 2) a, (![h.val, p.val] : Fin 2 → Nat) a + S1x1.size a ≤ S3x2.size a := by decide
/-- Semaphore `(h, p)` of one of the four arrays of DMA semaphores. -/
abbrev qsem (Qs : DmaSems sig S3x2) (h : Fin 3) (p : Fin 2) : DmaSem sig :=
  ((Qs.slice (Rect.unit (s := S3x2) ![h.val, p.val] S1x1.size (inb_q h p))).squeeze S_ squeezes_S1x1_S_).sem

/-- The four arrays: rightward send, rightward receive, leftward send, leftward receive. -/
abbrev arr : Fin 4 → DmaSems sig S3x2
  | 0 => cc0_scratch2 | 1 => cc0_scratch3 | 2 => cc0_scratch4 | 3 => cc0_scratch5

theorem qsem_val : ∀ (a : Fin 4) (h : Fin 3) (p : Fin 2), (qsem (arr a) h p).val = 3 + 6 * a.val + 2 * h.val + p.val := by decide

/-- The entry handshake's semaphore (the runtime's), and the closing handshake's (the body's own). -/
abbrev barS : Sem sig := (SemArray.scalar (sig.barrier 0 rfl) : Sems sig S_).sem
abbrev endS : Sem sig := (cc0_scoped0 : Sems sig S_).sem

theorem barS_val : barS.val = 0 := by decide
theorem endS_val : endS.val = 1 := by decide

abbrev regCell (c : Dev nD) (s : Sem sig) : GSem nD τ sig := ((c : Thread nD τ), .reg s)
abbrev dcell (c : Dev nD) (a : Fin 4) (h : Fin 3) (p : Fin 2) : GSem nD τ sig := ((c : Thread nD τ), .dma (qsem (arr a) h p))

/-- One transfer's credit: the 128 × 2048 block's. -/
abbrev N : ℕ := (xP (0 : Fin 4)).view.dmaCredit
theorem N_pos : 0 < N := View.dmaCredit_pos _ (by decide)

/-! ## Contents -/

/-- Device `c`'s block of `x`, as staged. -/
def X (c : Dev nD) : (cc0_stg0_0 : Ref sig .tc).ty.Contents (Elt F) :=
  (win0_0.blk (0 : Fin 1)).view.read (Elt F) (m ((c : Thread nD τ).loc main_arg0))
/-- Device `c`'s block of the weights, as staged. -/
def Wt (c : Dev nD) : (cc0_stg1_0 : Ref sig .tc).ty.Contents (Elt F) :=
  (win0_1.blk (0 : Fin 1)).view.read (Elt F) (m ((c : Thread nD τ).loc main_arg1))

/-- Piece `j` (128 rows) of device `c`'s block of `x`. -/
def piece (c : Dev nD) (j : Fin 4) : S128x2048.Idx → Elt F .f32 := (xP j).view.read (Elt F) (X m c)

abbrev jR (p : Fin 2) : Fin 4 := ⟨p.val, by omega⟩
abbrev jL (p : Fin 2) : Fin 4 := ⟨2 + p.val, by omega⟩

/-- What rightward slot `(h, p)` of device `c` receives, and leftward slot `(h, p)`. -/
def srcR (c : Dev nD) (h : Fin 3) (p : Fin 2) : S128x2048.Idx → Elt F .f32 := piece m (shift c (3 * (h.val + 1))) (jR p)
def srcL (c : Dev nD) (h : Fin 3) (p : Fin 2) : S128x2048.Idx → Elt F .f32 := piece m (shift c (h.val + 1)) (jL p)

/-! ## Payloads -/

/-- A road's slot `(h, p)` on device `c`, held at share `q` and contents `f`. -/
def slotPts (M : Memref sig .tc .vmem S3x2x128x2048 .f32) (c : Dev nD) (h : Fin 3) (p : Fin 2) (q : PosShare TreeShare)
    (f : Buf (Elt F) ((slot M h p).view.loc (c : Thread nD τ))) : sProp 𝕄 :=
  (slot M h p).view.loc (c : Thread nD τ) ↦[(slot M h p).view.set]{q} f

/-- Piece `j` of the staged `x` of device `c`, at share `q`. -/
def xPts (c : Dev nD) (j : Fin 4) (q : PosShare TreeShare) : sProp 𝕄 :=
  (xP j).view.loc (c : Thread nD τ) ↦[(xP j).view.set]{q} X m c

/-- A slot arrived: the whole slot, reading the piece `v`. -/
def landed (M : Memref sig .tc .vmem S3x2x128x2048 .f32) (c : Dev nD) (h : Fin 3) (p : Fin 2) (v : S128x2048.Idx → Elt F .f32) : sProp 𝕄 :=
  iprop(∃ f : Buf (Elt F) ((slot M h p).view.loc (c : Thread nD τ)), ⌜(slot M h p).view.read (Elt F) f = v⌝ ∗ slotPts M c h p fullShare f)

/-- What a send's departure gives back: at hop 0 the lent half of the piece of `x`, later the lent half of the slot
    forwarded. -/
def departed (M : Memref sig .tc .vmem S3x2x128x2048 .f32) (c : Dev nD) (j : Fin 4) : Fin 3 → Fin 2 → sProp 𝕄
  | ⟨0, _⟩, _ => xPts m c j fullShare.left
  | ⟨k + 1, hk⟩, p =>
    iprop(∃ f : Buf (Elt F) ((slot M (⟨k, Nat.lt_of_succ_lt hk⟩ : Fin 3) p).view.loc (c : Thread nD τ)),
      slotPts M c (⟨k, Nat.lt_of_succ_lt hk⟩ : Fin 3) p fullShare.left f)

/-- A DMA cell's payload, by array. -/
def dpay (c : Dev nD) : Fin 4 → Fin 3 → Fin 2 → sProp 𝕄
  | 0, h, p => departed m aM c (jR p) h p
  | 1, h, p => landed aM c h p (srcR m c h p)
  | 2, h, p => departed m bM c (jL p) h p
  | 3, h, p => landed bM c h p (srcL m c h p)

theorem dma_lt (s : DmaSem sig) : s.val < 27 := s.isLt

/-- A DMA cell's payload, by the semaphore's number. -/
def dmaPay (c : Dev nD) (s : DmaSem sig) : sProp 𝕄 :=
  if h : 3 ≤ s.val then dpay m c ⟨(s.val - 3) / 6, by have := dma_lt s; omega⟩ ⟨((s.val - 3) % 6) / 2, by omega⟩ ⟨(s.val - 3) % 2, by omega⟩ else iprop(emp)

/-- All six receive cells of array `a` of device `c` have reached round 0. -/
def reachedAll (c : Dev nD) (a : Fin 4) : sProp 𝕄 := bigSep Finset.univ fun hp : Fin 3 × Fin 2 => reached ER (dcell c a hp.1 hp.2) 0

instance reachedAll_persistent (c : Dev nD) (a : Fin 4) : BI.Persistent (reachedAll (F := F) c a) := by unfold reachedAll; infer_instance

/-- A road's slot `(h, p)` on device `c`, whole, at some contents. -/
def slotAny (M : Memref sig .tc .vmem S3x2x128x2048 .f32) (c : Dev nD) (h : Fin 3) (p : Fin 2) : sProp 𝕄 :=
  iprop(∃ f, slotPts M c h p fullShare f)

instance slotAny_storable (M : Memref sig .tc .vmem S3x2x128x2048 .f32) (c : Dev nD) (h : Fin 3) (p : Fin 2) :
    BI.Storable (upEmb : UEmb _ 𝕄) (slotAny (F := F) M c h p) := by unfold slotAny slotPts; infer_instance
instance reachedAll_storable (c : Dev nD) (a : Fin 4) : BI.Storable (upEmb : UEmb _ 𝕄) (reachedAll (F := F) c a) := by
  unfold reachedAll; infer_instance

/-- The entry handshake: the signal from the right neighbour hands over the six slots of its rightward landing buffer
    (and that its receive cells stand at round 0), the one from the left neighbour those of its leftward one. -/
def barPayT (c : Dev nD) : sProp 𝕄 := iprop(slotAny aM (nxt c) 0 0 ∗ slotAny aM (nxt c) 0 1 ∗ slotAny aM (nxt c) 1 0 ∗ slotAny aM (nxt c) 1 1 ∗ slotAny aM (nxt c) 2 0 ∗ slotAny aM (nxt c) 2 1 ∗ reachedAll (F := F) (nxt c) 1)
def barPayF (c : Dev nD) : sProp 𝕄 := iprop(slotAny bM (prv c) 0 0 ∗ slotAny bM (prv c) 0 1 ∗ slotAny bM (prv c) 1 0 ∗ slotAny bM (prv c) 1 1 ∗ slotAny bM (prv c) 2 0 ∗ slotAny bM (prv c) 2 1 ∗ reachedAll (F := F) (prv c) 3)

/-! ## The schedule -/

def Rd : Rounds.Schedule (GSem nD τ sig) Bool 𝕄 where
  duties g r := if r = 0 ∧ g.1.2 = .tc then (match g.2 with | .reg _ => Finset.univ | .dma s => if 3 ≤ s.val then {false} else ∅) else ∅
  unitless _ := False
  amount g _ _ := match g.2 with | .reg _ => 1 | .dma _ => N
  payload g _ d := match g.2 with
    | .reg s => if s.val = 0 then (if d then barPayT g.1.1 else barPayF g.1.1) else iprop(emp)
    | .dma s => dmaPay m g.1.1 s
  amount_pos g _ _ _ := by
    rcases g with ⟨t, (s | s)⟩
    · exact Nat.one_pos
    · exact N_pos

instance departed_storable (M) (c : Dev nD) (j : Fin 4) (h : Fin 3) (p : Fin 2) : BI.Storable (upEmb : UEmb _ 𝕄) (departed m M c j h p) := by
  rcases h with ⟨_ | k, hk⟩
  · unfold departed xPts; infer_instance
  · unfold departed slotPts; infer_instance

instance dpay_storable (c : Dev nD) (a : Fin 4) (h : Fin 3) (p : Fin 2) : BI.Storable (upEmb : UEmb _ 𝕄) (dpay m c a h p) := by
  fin_cases a
  · show BI.Storable upEmb (departed m aM c (jR p) h p); infer_instance
  · show BI.Storable upEmb (landed aM c h p (srcR m c h p)); unfold landed slotPts; infer_instance
  · show BI.Storable upEmb (departed m bM c (jL p) h p); infer_instance
  · show BI.Storable upEmb (landed bM c h p (srcL m c h p)); unfold landed slotPts; infer_instance

instance Rd_payload_storable (g : GSem nD τ sig) (r : ℕ) (d : Bool) : BI.Storable (upEmb : UEmb _ 𝕄) ((Rd (F := F) m).payload g r d) := by
  rcases g with ⟨t, (s | s)⟩
  · show BI.Storable upEmb (if s.val = 0 then (if d then barPayT t.1 else barPayF t.1) else iprop(emp))
    unfold barPayT barPayF
    (repeat' split) <;> infer_instance
  · show BI.Storable upEmb (dmaPay m t.1 s)
    unfold dmaPay
    split <;> infer_instance

/-! ## The tables -/

section Tables
variable (c : Dev nD) (a : Fin 4) (h : Fin 3) (p : Fin 2)

theorem dmaPay_eq (s : DmaSem sig) (hs : s.val = 3 + 6 * a.val + 2 * h.val + p.val) : dmaPay m c s = dpay m c a h p := by
  have ha := a.isLt; have hh := h.isLt; have hp := p.isLt
  unfold dmaPay
  rw [dif_pos (by omega)]
  congr 1 <;> exact Fin.ext (by simp only []; omega)

theorem duties_reg (s : Sem sig) : (Rd (F := F) m).duties (regCell c s) 0 = Finset.univ := by
  dsimp only [Rd]; exact if_pos ⟨rfl, rfl⟩
theorem duties_dma : (Rd (F := F) m).duties (dcell c a h p) 0 = {false} := by
  dsimp only [Rd]; rw [if_pos ⟨rfl, rfl⟩]; exact if_pos (by rw [qsem_val]; omega)
theorem duties_later (g : GSem nD τ sig) : ∀ r, 1 ≤ r → (Rd (F := F) m).duties g r = ∅ :=
  fun r hr => by dsimp only [Rd]; exact if_neg fun hh => by omega

theorem amount_reg (s : Sem sig) (d : Bool) : (Rd (F := F) m).amount (regCell c s) 0 d = 1 := rfl
theorem amount_dma (d : Bool) : (Rd (F := F) m).amount (dcell c a h p) 0 d = N := rfl

theorem expect_reg (s : Sem sig) : (Rd (F := F) m).expect (regCell c s) 0 = 2 := by
  unfold Schedule.expect Schedule.amountOf
  rw [duties_reg, Finset.sum_congr rfl fun d _ => amount_reg m c s d, Finset.sum_const, Finset.card_univ, Fintype.card_bool, smul_eq_mul]
theorem expect_dma : (Rd (F := F) m).expect (dcell c a h p) 0 = N := by
  unfold Schedule.expect Schedule.amountOf; rw [duties_dma, Finset.sum_singleton, amount_dma]

theorem payload_bar_true : (Rd (F := F) m).payload (regCell c barS) 0 true = barPayT c := by
  show (if barS.val = 0 then (if true then barPayT c else barPayF c) else iprop(emp)) = _
  rw [if_pos barS_val, if_pos rfl]
theorem payload_bar_false : (Rd (F := F) m).payload (regCell c barS) 0 false = barPayF c := by
  show (if barS.val = 0 then (if false then barPayT c else barPayF c) else iprop(emp)) = _
  rw [if_pos barS_val]; exact if_neg Bool.false_ne_true
theorem payload_end (d : Bool) : (Rd (F := F) m).payload (regCell c endS) 0 d = iprop(emp) := by
  show (if endS.val = 0 then (if d then barPayT c else barPayF c) else iprop(emp)) = _
  exact if_neg (by rw [endS_val]; decide)
theorem payload_dma (d : Bool) : (Rd (F := F) m).payload (dcell c a h p) 0 d = dpay m c a h p :=
  dmaPay_eq m c a h p _ (qsem_val a h p)

/-- The whole round of a DMA cell: its one payload. -/
theorem rest_dma : bigSep ((Rd (F := F) m).duties (dcell c a h p) 0 \ ∅) (fun d => (Rd (F := F) m).payload (dcell c a h p) 0 d) = dpay m c a h p := by
  rw [Finset.sdiff_empty, duties_dma, bigSep_singleton, payload_dma]
/-- The whole round of the entry handshake's cell: both neighbours' payloads. -/
theorem rest_bar : bigSep ((Rd (F := F) m).duties (regCell c barS) 0 \ ∅) (fun d => (Rd (F := F) m).payload (regCell c barS) 0 d) = iprop(barPayF c ∗ barPayT c) := by
  rw [Finset.sdiff_empty, duties_reg, bigSep_univ_eq_bigSepL [false, true] (by decide) (by decide), bigSepL_cons_cons, bigSepL_singleton,
    payload_bar_false, payload_bar_true]
  rfl
/-- The whole round of the closing handshake's cell: nothing. -/
theorem rest_end : bigSep ((Rd (F := F) m).duties (regCell c endS) 0 \ ∅) (fun d => (Rd (F := F) m).payload (regCell c endS) 0 d) = iprop(emp ∗ emp) := by
  rw [Finset.sdiff_empty, duties_reg, bigSep_univ_eq_bigSepL [false, true] (by decide) (by decide), bigSepL_cons_cons, bigSepL_singleton,
    payload_end, payload_end]
  rfl

end Tables

end Cert.KernelIdeal.Ag

end
-- ==== Proof.Levels.lean ====
/-
  What each device owes, in the order it pays, and why no wait can block for ever.

  A device pays sixteen debts in program order: one unit to each neighbour's entry-handshake cell, then twelve
  transfers' arrival credits — send `i` goes to the right neighbour's receive cell when `i` is even and to the left
  neighbour's when it is odd, for slot `(i / 4, (i / 2) % 2)` —, then one unit to each neighbour's closing-handshake
  cell. Levels: the entry handshake at 1, the receive cell that send `i` credits at `2 + i`, the closing handshake at
  20, every other cell at 0. A device waits on a receive cell only after it has issued every send whose target is not
  above that cell, so each wait is on a cell below everything still owed.
-/
import proofs.«900337_g7700000000000338_dist_ag_gemm_m2048_k2048_n2048_f32_none_v7x_i4_1_alg».proof.Proof.Cells
import Mathlib.Algebra.Order.BigOperators.Group.LocallyFinite

noncomputable section

namespace Cert.KernelIdeal.Ag

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

def L (g : GSem nD τ sig) : Finset Unit := if g.1.2 = .tc then {()} else ∅

def lv (g : GSem nD τ sig) (_ : Unit) : ℕ := match g.2 with
  | .reg s => if s.val = 0 then 1 else 20
  | .dma s => if 9 ≤ s.val ∧ s.val < 15 then 2 + 2 * (s.val - 9) else if 21 ≤ s.val then 3 + 2 * (s.val - 21) else 0

theorem L_of_ne (g : GSem nD τ sig) (h : g.1.2 ≠ .tc) : L g = ∅ := if_neg h
theorem L_tc (c : Dev nD) (sm : SemLoc sig) : L ((c : Thread nD τ), sm) = {()} := if_pos rfl

/-- The cell the `j`-th payment credits. -/
def tgt (c : Dev nD) (j : ℕ) : GSem nD τ sig :=
  if j = 0 then regCell (prv c) barS else if j = 1 then regCell (nxt c) barS
  else if j = 14 then regCell (prv c) endS else if j = 15 then regCell (nxt c) endS
  else if j % 2 = 0 then dcell (nxt c) 1 ⟨((j - 2) / 4) % 3, Nat.mod_lt _ (by decide)⟩ ⟨((j - 2) / 2) % 2, Nat.mod_lt _ (by decide)⟩
  else dcell (prv c) 3 ⟨((j - 2) / 4) % 3, Nat.mod_lt _ (by decide)⟩ ⟨((j - 2) / 2) % 2, Nat.mod_lt _ (by decide)⟩

/-- Its amount: a unit for a signal, a block's credit for a transfer. -/
def amt (j : ℕ) : ℕ := if j < 2 ∨ 14 ≤ j then 1 else N

/-- What device `c` still owes after its first `k` payments. -/
def owed (c : Dev nD) (k : ℕ) : CellTallies nD τ sig Unit := ∑ j ∈ Finset.Ico k 16, tallyAt (tgt c j) () (amt j)

theorem owed_succ (c : Dev nD) (k : ℕ) (hk : k < 16) : owed c k = owed c (k + 1) + tallyAt (tgt c k) () (amt k) := by
  unfold owed; rw [Finset.sum_eq_sum_Ico_succ_bot hk, add_comm]

theorem owed_done (c : Dev nD) : owed c 16 = 0 := by unfold owed; rw [Finset.Ico_self, Finset.sum_empty]

theorem tgt_tc (c : Dev nD) (j : ℕ) : (tgt c j).1.2 = .tc := by unfold tgt; split_ifs <;> rfl

/-- A wait on the device's own cell `sm`, which sits below every cell still to be paid, may proceed. -/
theorem mayWait_owed (c : Dev nD) (sm : SemLoc sig) (k : ℕ)
    (h : ∀ j, k ≤ j → j < 16 → lv ((c : Thread nD τ), sm) () < lv (tgt c j) ()) :
    (levAts L lv : sProp 𝕄) ⊢ MayWait (c : Thread nD τ) sm () (owed c k) :=
  Pipeline.mayWait_of_levAts (by rw [L_tc]; exact Finset.mem_singleton_self _) fun g i hg => by
    obtain ⟨j, hj, hpos⟩ := Pipeline.sum_pos_exists hg
    obtain ⟨rfl, rfl⟩ := Pipeline.tallyAt_pos hpos
    have hj' := Finset.mem_Ico.mp hj
    refine ⟨?_, h j hj'.1 hj'.2⟩
    unfold L; rw [if_pos (tgt_tc c j)]; exact Finset.mem_singleton_self _

/-! ## The level facts, decided -/

theorem lev_bar : ∀ (c : Dev nD) (j : Fin 16), 2 ≤ j.val → lv (regCell c barS) () < lv (tgt c j.val) () := by decide +kernel
/-- Receive cell `(h, p)` of the rightward road is waited on after `6 + 4h + 2p` payments (all fourteen when `h = 2`). -/
theorem lev_rR : ∀ (c : Dev nD) (h : Fin 3) (p : Fin 2) (j : Fin 16), min 14 (6 + 4 * h.val + 2 * p.val) ≤ j.val →
    lv (dcell c 1 h p) () < lv (tgt c j.val) () := by decide +kernel
theorem lev_rL : ∀ (c : Dev nD) (h : Fin 3) (p : Fin 2) (j : Fin 16), min 14 (7 + 4 * h.val + 2 * p.val) ≤ j.val →
    lv (dcell c 3 h p) () < lv (tgt c j.val) () := by decide +kernel
theorem lev_sR : ∀ (c : Dev nD) (h : Fin 3) (p : Fin 2) (j : Fin 16), 14 ≤ j.val → lv (dcell c 0 h p) () < lv (tgt c j.val) () := by decide +kernel
theorem lev_sL : ∀ (c : Dev nD) (h : Fin 3) (p : Fin 2) (j : Fin 16), 14 ≤ j.val → lv (dcell c 2 h p) () < lv (tgt c j.val) () := by decide +kernel

theorem mayWait_bar (c : Dev nD) : (levAts L lv : sProp 𝕄) ⊢ MayWait (c : Thread nD τ) (.reg barS) () (owed c 2) :=
  mayWait_owed c _ 2 fun j h1 h2 => lev_bar c ⟨j, h2⟩ h1
theorem mayWait_rR (c : Dev nD) (h : Fin 3) (p : Fin 2) :
    (levAts L lv : sProp 𝕄) ⊢ MayWait (c : Thread nD τ) (.dma (qsem (arr 1) h p)) () (owed c (min 14 (6 + 4 * h.val + 2 * p.val))) :=
  mayWait_owed c _ _ fun j h1 h2 => lev_rR c h p ⟨j, h2⟩ h1
theorem mayWait_rL (c : Dev nD) (h : Fin 3) (p : Fin 2) :
    (levAts L lv : sProp 𝕄) ⊢ MayWait (c : Thread nD τ) (.dma (qsem (arr 3) h p)) () (owed c (min 14 (7 + 4 * h.val + 2 * p.val))) :=
  mayWait_owed c _ _ fun j h1 h2 => lev_rL c h p ⟨j, h2⟩ h1
theorem mayWait_sR (c : Dev nD) (h : Fin 3) (p : Fin 2) :
    (levAts L lv : sProp 𝕄) ⊢ MayWait (c : Thread nD τ) (.dma (qsem (arr 0) h p)) () (owed c 14) :=
  mayWait_owed c _ 14 fun j h1 h2 => lev_sR c h p ⟨j, h2⟩ h1
theorem mayWait_sL (c : Dev nD) (h : Fin 3) (p : Fin 2) :
    (levAts L lv : sProp 𝕄) ⊢ MayWait (c : Thread nD τ) (.dma (qsem (arr 2) h p)) () (owed c 14) :=
  mayWait_owed c _ 14 fun j h1 h2 => lev_sL c h p ⟨j, h2⟩ h1

/-- The pipeline's own waits (on its staging cells, numbers 0 to 2, at level 0) are below everything too. -/
theorem lev_stage : ∀ (c : Dev nD) (s : DmaSem sig) (j : Fin 16), s.val < 3 → lv ((c : Thread nD τ), .dma s) () < lv (tgt c j.val) () := by decide +kernel

end Cert.KernelIdeal.Ag

end
-- ==== Proof.Spec.lean ====
/-
  What each device leaves in its block of the result.

  Device `c` stores thirteen pieces into its 2048 × 512 result: its own 512 rows (its block of `x` times its block of the
  weights) at row block `c`, and for every hop `h` and piece `p` the 128 rows that the rightward road delivered (rows
  `128 p` of the first half of row block `c - 1 - h`) and the 128 rows the leftward road delivered (rows `128 p` of the
  second half of row block `c + 1 + h`), each the delivered rows of `x` times the device's block of the weights.
  The pieces are listed last store first.
-/
import proofs.«900337_g7700000000000338_dist_ag_gemm_m2048_k2048_n2048_f32_none_v7x_i4_1_alg».proof.Proof.Cells
import proofs.«900337_g7700000000000338_dist_ag_gemm_m2048_k2048_n2048_f32_none_v7x_i4_1_alg».proof.Proof.Gen.KernelIdeal.Skeleton
import Idealize.ShloMosaic.Lib.Writes

noncomputable section

namespace Cert.KernelIdeal.Ag

open Cert.KernelIdeal Cert.KernelIdeal.Gen
open Idealize.ShloMosaic
open Idealize.ShloMosaic.TcCoe

variable {F : FTy → Type} [FloatOps F]
variable (m : (ℓ : Loc nD τ sig) → Buf (Elt F) ℓ)

/-- 128 rows of `x` times a block of the weights. -/
def mmP (P : FVec F S128x2048 .f32) (w : Vec F S2048x512 .f32) : FVec F S128x512 .f32 :=
  matmul dot_S128x2048_S2048x512_S128x512_1_0_0_1_n_n none P (shapeCast S2048x512 w shapeCasts_S2048x512_S2048x512) (constant S128x512 .f32 0x00000000#32)

/-- Each of the twelve printed products of a landing slot is that one function of the slot's 128 × 2048 contents. -/
theorem pay2_eq (v : Vec F S1x1x128x2048 .f32) (w : Vec F S2048x512 .f32) :
    k0_pay2 v w = mmP (shapeCast S128x2048 v shapeCasts_S1x1x128x2048_S128x2048) w := rfl
theorem pay3_eq (v : Vec F S1x1x128x2048 .f32) (w : Vec F S2048x512 .f32) :
    k0_pay3 v w = mmP (shapeCast S128x2048 v shapeCasts_S1x1x128x2048_S128x2048) w := rfl
theorem pay4_eq (v : Vec F S1x1x128x2048 .f32) (w : Vec F S2048x512 .f32) :
    k0_pay4 v w = mmP (shapeCast S128x2048 v shapeCasts_S1x1x128x2048_S128x2048) w := rfl
theorem pay5_eq (v : Vec F S1x1x128x2048 .f32) (w : Vec F S2048x512 .f32) :
    k0_pay5 v w = mmP (shapeCast S128x2048 v shapeCasts_S1x1x128x2048_S128x2048) w := rfl
theorem pay6_eq (v : Vec F S1x1x128x2048 .f32) (w : Vec F S2048x512 .f32) :
    k0_pay6 v w = mmP (shapeCast S128x2048 v shapeCasts_S1x1x128x2048_S128x2048) w := rfl
theorem pay7_eq (v : Vec F S1x1x128x2048 .f32) (w : Vec F S2048x512 .f32) :
    k0_pay7 v w = mmP (shapeCast S128x2048 v shapeCasts_S1x1x128x2048_S128x2048) w := rfl
theorem pay8_eq (v : Vec F S1x1x128x2048 .f32) (w : Vec F S2048x512 .f32) :
    k0_pay8 v w = mmP (shapeCast S128x2048 v shapeCasts_S1x1x128x2048_S128x2048) w := rfl
theorem pay9_eq (v : Vec F S1x1x128x2048 .f32) (w : Vec F S2048x512 .f32) :
    k0_pay9 v w = mmP (shapeCast S128x2048 v shapeCasts_S1x1x128x2048_S128x2048) w := rfl
theorem pay10_eq (v : Vec F S1x1x128x2048 .f32) (w : Vec F S2048x512 .f32) :
    k0_pay10 v w = mmP (shapeCast S128x2048 v shapeCasts_S1x1x128x2048_S128x2048) w := rfl
theorem pay11_eq (v : Vec F S1x1x128x2048 .f32) (w : Vec F S2048x512 .f32) :
    k0_pay11 v w = mmP (shapeCast S128x2048 v shapeCasts_S1x1x128x2048_S128x2048) w := rfl
theorem pay12_eq (v : Vec F S1x1x128x2048 .f32) (w : Vec F S2048x512 .f32) :
    k0_pay12 v w = mmP (shapeCast S128x2048 v shapeCasts_S1x1x128x2048_S128x2048) w := rfl
theorem pay13_eq (v : Vec F S1x1x128x2048 .f32) (w : Vec F S2048x512 .f32) :
    k0_pay13 v w = mmP (shapeCast S128x2048 v shapeCasts_S1x1x128x2048_S128x2048) w := rfl

abbrev OPiece : Type := View.Piece (Elt F) S2048x512 .f32

/-- The device's own rows. -/
def pieceOwn (c : Dev nD) : OPiece (F := F) :=
  ⟨Rect.unit (s := S2048x512) (k0_off1 c) S512x512.size (k0_off1_inb c), k0_pay1 (X m c) (Wt m c)⟩
/-- The rows the rightward road delivered at hop `h`, piece `p`. -/
def pieceR (c : Dev nD) (h : Fin 3) (p : Fin 2) : OPiece (F := F) :=
  ⟨Rect.unit (s := S2048x512) (k0_off2 c (BitVec.ofNat 32 h.val) (BitVec.ofNat 32 (128 * p.val))) S128x512.size (k0_off2_inb c h p),
    mmP (srcR m c h p) (Wt m c)⟩
/-- The rows the leftward road delivered at hop `h`, piece `p`. -/
def pieceL (c : Dev nD) (h : Fin 3) (p : Fin 2) : OPiece (F := F) :=
  ⟨Rect.unit (s := S2048x512) (k0_off3 c (BitVec.ofNat 32 h.val) (BitVec.ofNat 32 (128 * p.val))) S128x512.size (k0_off3_inb c h p),
    mmP (srcL m c h p) (Wt m c)⟩

/-- The thirteen stores, last first. -/
def Lout (c : Dev nD) : List (OPiece (F := F)) :=
  [pieceL m c 2 1, pieceR m c 2 1, pieceL m c 2 0, pieceR m c 2 0, pieceL m c 1 1, pieceR m c 1 1, pieceL m c 1 0, pieceR m c 1 0,
   pieceL m c 0 1, pieceR m c 0 1, pieceL m c 0 0, pieceR m c 0 0, pieceOwn m c]

/-- Some contents to write over: the stores cover the whole result, so which does not matter. -/
def base : (cc0_stg2_0 : Ref sig .tc).ty.Contents (Elt F) := fun _ => constant S_ .f32 0x00000000#32 (fun a => a.elim0)

/-- The result's staging buffer on device `c` after the body. -/
def outAt (c : Dev nD) : (cc0_stg2_0 : Ref sig .tc).ty.Contents (Elt F) := oM.view.writes (Elt F) (base (F := F)) (Lout m c)

end Cert.KernelIdeal.Ag

end
-- ==== Proof.Ghost.lean ====
/-
  What a device holds when its body starts, and what it must hand back.

  Known to every device: every cell's invariant and that every cell stands at round 0. A device's own: its position at
  round 0 of each of its twenty-six cells; the token of each duty it will pay (a signal to each neighbour's handshake
  cells, the arrival on each receive cell it sends into, the departure on each of its own send cells); the credit for
  what its neighbours owe its handshake and receive cells; its two landing buffers. At the end it hands back the two
  landing buffers and its own twenty-five semaphores at zero (the entry handshake's semaphore is the runtime's).
-/
import proofs.«900337_g7700000000000338_dist_ag_gemm_m2048_k2048_n2048_f32_none_v7x_i4_1_alg».proof.Proof.Levels
import proofs.«900337_g7700000000000338_dist_ag_gemm_m2048_k2048_n2048_f32_none_v7x_i4_1_alg».proof.Proof.Spec
import proofs.«900337_g7700000000000338_dist_ag_gemm_m2048_k2048_n2048_f32_none_v7x_i4_1_alg».proof.Proof.Gen.KernelIdeal.Launch
import proofs.«900337_g7700000000000338_dist_ag_gemm_m2048_k2048_n2048_f32_none_v7x_i4_1_alg».proof.Proof.Gen.KernelIdeal.Points

set_option maxRecDepth 16384

noncomputable section

namespace Cert.KernelIdeal.Ag

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-- The memory at launch. -/
def s₀ : MemSt nD τ sig (Elt F) := ⟨m, fun _ => 0, ρ⟩

/-! ## The cells, indexed -/

/-- A device's cells: the two handshakes' (entry, closing) and the twenty-four DMA cells (array, hop, piece). -/
abbrev CI : Type := Bool ⊕ (Fin 4 × Fin 3 × Fin 2)
abbrev csem : CI → SemLoc sig
  | .inl false => .reg barS
  | .inl true => .reg endS
  | .inr (a, h, p) => .dma (qsem (arr a) h p)
abbrev kcell (ck : Dev nD × CI) : GSem nD τ sig := ((ck.1 : Thread nD τ), csem ck.2)

/-- A device's own (scoped) semaphores: the closing handshake's and the twenty-four DMA semaphores. -/
abbrev OS : Type := Unit ⊕ (Fin 4 × Fin 3 × Fin 2)
abbrev osem : OS → SemLoc sig
  | .inl () => .reg endS
  | .inr (a, h, p) => .dma (qsem (arr a) h p)

/-! ## The ghost state -/

def records (K : Dev nD × CI → ℕ) : sProp 𝕄 :=
  iprop((bigSep Finset.univ fun ck : Dev nD × CI => cellInv ER (Rd m) (K ck) (kcell ck))
    ∗ bigSep Finset.univ fun ck : Dev nD × CI => reached ER (kcell ck) 0)

instance records_persistent (K : Dev nD × CI → ℕ) : BI.Persistent (records m K) := by unfold records; infer_instance

omit [FloatOps F] in
theorem inv_at (K : Dev nD × CI → ℕ) (ck : Dev nD × CI) : records m K ⊢ cellInv ER (Rd m) (K ck) (kcell ck) := by
  unfold records
  exact sep_elim_left.trans (bigSep_elim (Φ := fun ck : Dev nD × CI => (cellInv ER (Rd m) (K ck) (kcell ck) : sProp 𝕄)) (Finset.mem_univ ck))
omit [FloatOps F] in
theorem reached_at (K : Dev nD × CI → ℕ) (ck : Dev nD × CI) : records m K ⊢ reached ER (kcell ck) 0 := by
  unfold records
  exact sep_elim_right.trans (bigSep_elim (Φ := fun ck : Dev nD × CI => (reached ER (kcell ck) 0 : sProp 𝕄)) (Finset.mem_univ ck))

def positions (c : Dev nD) : sProp 𝕄 := bigSep Finset.univ fun k : CI => atPos ER (kcell (c, k)) 0 ∅ 0

/-- The duties a device pays: on each handshake (entry, closing) the signal to its left and to its right neighbour; the
    departures on its own send cells (arrays 0 and 2), the arrivals on its right neighbour's rightward receive cells
    (array 1) and on its left neighbour's leftward receive cells (array 3). -/
abbrev PI : Type := (Bool × Bool) ⊕ (Fin 4 × Fin 3 × Fin 2)
abbrev payOf (cj : Dev nD × PI) : GSem nD τ sig × ℕ × Bool := match cj.2 with
  | .inl (false, false) => (regCell (prv cj.1) barS, 0, true)
  | .inl (false, true) => (regCell (nxt cj.1) barS, 0, false)
  | .inl (true, false) => (regCell (prv cj.1) endS, 0, true)
  | .inl (true, true) => (regCell (nxt cj.1) endS, 0, false)
  | .inr (0, h, p) => (dcell cj.1 0 h p, 0, false)
  | .inr (1, h, p) => (dcell (nxt cj.1) 1 h p, 0, false)
  | .inr (2, h, p) => (dcell cj.1 2 h p, 0, false)
  | .inr (3, h, p) => (dcell (prv cj.1) 3 h p, 0, false)

def payToks (c : Dev nD) : sProp 𝕄 := bigSep Finset.univ fun j : PI => dutyTok ER (payOf (c, j)).1 (payOf (c, j)).2.1 (payOf (c, j)).2.2

def credits (c : Dev nD) : sProp 𝕄 :=
  iprop(cred (tallyAt (regCell c barS) () 2) ∗ cred (tallyAt (regCell c endS) () 2)
    ∗ (bigSep Finset.univ fun t : Fin 3 × Fin 2 => cred (tallyAt (dcell c 1 t.1 t.2) () N))
    ∗ (bigSep Finset.univ fun t : Fin 3 × Fin 2 => cred (tallyAt (dcell c 3 t.1 t.2) () N)))

def ghost (K : Dev nD × CI → ℕ) (c : Dev nD) : sProp 𝕄 := iprop(records m K ∗ positions (F := F) c ∗ payToks (F := F) c)

def start (c : Dev nD) : sProp 𝕄 := iprop((∃ K, ghost m K c) ∗ credits (F := F) c ∗ levAts L lv)

def Φ₀ (c : Dev nD) : sProp 𝕄 :=
  iprop(start m c ∗ (∃ f, (aM.view.loc (c : Thread nD τ)) ↦{fullShare} f) ∗ (∃ f, (bM.view.loc (c : Thread nD τ)) ↦{fullShare} f))

def Φ₁ (c : Dev nD) : sProp 𝕄 :=
  iprop((∃ f, (aM.view.loc (c : Thread nD τ)) ↦{fullShare} f) ∗ (∃ f, (bM.view.loc (c : Thread nD τ)) ↦{fullShare} f)
    ∗ bigSep Finset.univ fun k : OS => semVal ((c : Thread nD τ), osem k) 0)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m c
    | ⟨1, _⟩ => Wt m c
    | ⟨2, _⟩ => outAt m c
  Φ t := match t with
    | ⟨0, _⟩ => Φ₀ m c
    | ⟨_ + 1, _⟩ => Φ₁ (F := F) c
  q _ := fullShare
  owed t := match t with
    | ⟨0, _⟩ => owed c 0
    | ⟨_ + 1, _⟩ => 0

/-! ## The families, conjunct by conjunct -/

omit [FloatOps F] in
theorem bigSep_CI (Φ : CI → sProp 𝕄) : bigSep Finset.univ Φ = iprop(Φ (.inl false : CI) ∗ Φ (.inl true : CI) ∗ Φ (.inr (0, 0, 0) : CI) ∗ Φ (.inr (0, 0, 1) : CI) ∗ Φ (.inr (0, 1, 0) : CI) ∗ Φ (.inr (0, 1, 1) : CI) ∗ Φ (.inr (0, 2, 0) : CI) ∗ Φ (.inr (0, 2, 1) : CI) ∗ Φ (.inr (1, 0, 0) : CI) ∗ Φ (.inr (1, 0, 1) : CI) ∗ Φ (.inr (1, 1, 0) : CI) ∗ Φ (.inr (1, 1, 1) : CI) ∗ Φ (.inr (1, 2, 0) : CI) ∗ Φ (.inr (1, 2, 1) : CI) ∗ Φ (.inr (2, 0, 0) : CI) ∗ Φ (.inr (2, 0, 1) : CI) ∗ Φ (.inr (2, 1, 0) : CI) ∗ Φ (.inr (2, 1, 1) : CI) ∗ Φ (.inr (2, 2, 0) : CI) ∗ Φ (.inr (2, 2, 1) : CI) ∗ Φ (.inr (3, 0, 0) : CI) ∗ Φ (.inr (3, 0, 1) : CI) ∗ Φ (.inr (3, 1, 0) : CI) ∗ Φ (.inr (3, 1, 1) : CI) ∗ Φ (.inr (3, 2, 0) : CI) ∗ Φ (.inr (3, 2, 1) : CI)) :=
  bigSep_univ_eq_bigSepL [(.inl false : CI), (.inl true : CI), (.inr (0, 0, 0) : CI), (.inr (0, 0, 1) : CI), (.inr (0, 1, 0) : CI), (.inr (0, 1, 1) : CI), (.inr (0, 2, 0) : CI), (.inr (0, 2, 1) : CI), (.inr (1, 0, 0) : CI), (.inr (1, 0, 1) : CI), (.inr (1, 1, 0) : CI), (.inr (1, 1, 1) : CI), (.inr (1, 2, 0) : CI), (.inr (1, 2, 1) : CI), (.inr (2, 0, 0) : CI), (.inr (2, 0, 1) : CI), (.inr (2, 1, 0) : CI), (.inr (2, 1, 1) : CI), (.inr (2, 2, 0) : CI), (.inr (2, 2, 1) : CI), (.inr (3, 0, 0) : CI), (.inr (3, 0, 1) : CI), (.inr (3, 1, 0) : CI), (.inr (3, 1, 1) : CI), (.inr (3, 2, 0) : CI), (.inr (3, 2, 1) : CI)] (by decide) (by decide) Φ
omit [FloatOps F] in
theorem bigSep_OS (Φ : OS → sProp 𝕄) : bigSep Finset.univ Φ = iprop(Φ (.inl () : OS) ∗ Φ (.inr (0, 0, 0) : OS) ∗ Φ (.inr (0, 0, 1) : OS) ∗ Φ (.inr (0, 1, 0) : OS) ∗ Φ (.inr (0, 1, 1) : OS) ∗ Φ (.inr (0, 2, 0) : OS) ∗ Φ (.inr (0, 2, 1) : OS) ∗ Φ (.inr (1, 0, 0) : OS) ∗ Φ (.inr (1, 0, 1) : OS) ∗ Φ (.inr (1, 1, 0) : OS) ∗ Φ (.inr (1, 1, 1) : OS) ∗ Φ (.inr (1, 2, 0) : OS) ∗ Φ (.inr (1, 2, 1) : OS) ∗ Φ (.inr (2, 0, 0) : OS) ∗ Φ (.inr (2, 0, 1) : OS) ∗ Φ (.inr (2, 1, 0) : OS) ∗ Φ (.inr (2, 1, 1) : OS) ∗ Φ (.inr (2, 2, 0) : OS) ∗ Φ (.inr (2, 2, 1) : OS) ∗ Φ (.inr (3, 0, 0) : OS) ∗ Φ (.inr (3, 0, 1) : OS) ∗ Φ (.inr (3, 1, 0) : OS) ∗ Φ (.inr (3, 1, 1) : OS) ∗ Φ (.inr (3, 2, 0) : OS) ∗ Φ (.inr (3, 2, 1) : OS)) :=
  bigSep_univ_eq_bigSepL [(.inl () : OS), (.inr (0, 0, 0) : OS), (.inr (0, 0, 1) : OS), (.inr (0, 1, 0) : OS), (.inr (0, 1, 1) : OS), (.inr (0, 2, 0) : OS), (.inr (0, 2, 1) : OS), (.inr (1, 0, 0) : OS), (.inr (1, 0, 1) : OS), (.inr (1, 1, 0) : OS), (.inr (1, 1, 1) : OS), (.inr (1, 2, 0) : OS), (.inr (1, 2, 1) : OS), (.inr (2, 0, 0) : OS), (.inr (2, 0, 1) : OS), (.inr (2, 1, 0) : OS), (.inr (2, 1, 1) : OS), (.inr (2, 2, 0) : OS), (.inr (2, 2, 1) : OS), (.inr (3, 0, 0) : OS), (.inr (3, 0, 1) : OS), (.inr (3, 1, 0) : OS), (.inr (3, 1, 1) : OS), (.inr (3, 2, 0) : OS), (.inr (3, 2, 1) : OS)] (by decide) (by decide) Φ
omit [FloatOps F] in
theorem bigSep_hp (Φ : Fin 3 × Fin 2 → sProp 𝕄) :
    bigSep Finset.univ Φ = iprop(Φ (0, 0) ∗ Φ (0, 1) ∗ Φ (1, 0) ∗ Φ (1, 1) ∗ Φ (2, 0) ∗ Φ (2, 1)) :=
  bigSep_univ_eq_bigSepL [((0 : Fin 3), (0 : Fin 2)), (0, 1), (1, 0), (1, 1), (2, 0), (2, 1)] (by decide) (by decide) Φ

omit [FloatOps F] in
theorem bigSep_PI (Φ : PI → sProp 𝕄) : bigSep Finset.univ Φ = iprop(Φ (.inl (false, false) : PI) ∗ Φ (.inl (false, true) : PI) ∗ Φ (.inl (true, false) : PI) ∗ Φ (.inl (true, true) : PI) ∗ Φ (.inr (0, 0, 0) : PI) ∗ Φ (.inr (0, 0, 1) : PI) ∗ Φ (.inr (0, 1, 0) : PI) ∗ Φ (.inr (0, 1, 1) : PI) ∗ Φ (.inr (0, 2, 0) : PI) ∗ Φ (.inr (0, 2, 1) : PI) ∗ Φ (.inr (1, 0, 0) : PI) ∗ Φ (.inr (1, 0, 1) : PI) ∗ Φ (.inr (1, 1, 0) : PI) ∗ Φ (.inr (1, 1, 1) : PI) ∗ Φ (.inr (1, 2, 0) : PI) ∗ Φ (.inr (1, 2, 1) : PI) ∗ Φ (.inr (2, 0, 0) : PI) ∗ Φ (.inr (2, 0, 1) : PI) ∗ Φ (.inr (2, 1, 0) : PI) ∗ Φ (.inr (2, 1, 1) : PI) ∗ Φ (.inr (2, 2, 0) : PI) ∗ Φ (.inr (2, 2, 1) : PI) ∗ Φ (.inr (3, 0, 0) : PI) ∗ Φ (.inr (3, 0, 1) : PI) ∗ Φ (.inr (3, 1, 0) : PI) ∗ Φ (.inr (3, 1, 1) : PI) ∗ Φ (.inr (3, 2, 0) : PI) ∗ Φ (.inr (3, 2, 1) : PI)) :=
  bigSep_univ_eq_bigSepL [(.inl (false, false) : PI), (.inl (false, true) : PI), (.inl (true, false) : PI), (.inl (true, true) : PI), (.inr (0, 0, 0) : PI), (.inr (0, 0, 1) : PI), (.inr (0, 1, 0) : PI), (.inr (0, 1, 1) : PI), (.inr (0, 2, 0) : PI), (.inr (0, 2, 1) : PI), (.inr (1, 0, 0) : PI), (.inr (1, 0, 1) : PI), (.inr (1, 1, 0) : PI), (.inr (1, 1, 1) : PI), (.inr (1, 2, 0) : PI), (.inr (1, 2, 1) : PI), (.inr (2, 0, 0) : PI), (.inr (2, 0, 1) : PI), (.inr (2, 1, 0) : PI), (.inr (2, 1, 1) : PI), (.inr (2, 2, 0) : PI), (.inr (2, 2, 1) : PI), (.inr (3, 0, 0) : PI), (.inr (3, 0, 1) : PI), (.inr (3, 1, 0) : PI), (.inr (3, 1, 1) : PI), (.inr (3, 2, 0) : PI), (.inr (3, 2, 1) : PI)] (by decide) (by decide) Φ
omit [FloatOps F] in
theorem payToks_eq (c : Dev nD) : payToks (F := F) c = iprop(dutyTok ER (regCell (prv c) barS) 0 true ∗ dutyTok ER (regCell (nxt c) barS) 0 false ∗ dutyTok ER (regCell (prv c) endS) 0 true ∗ dutyTok ER (regCell (nxt c) endS) 0 false ∗ dutyTok ER (dcell c 0 0 0) 0 false ∗ dutyTok ER (dcell c 0 0 1) 0 false ∗ dutyTok ER (dcell c 0 1 0) 0 false ∗ dutyTok ER (dcell c 0 1 1) 0 false ∗ dutyTok ER (dcell c 0 2 0) 0 false ∗ dutyTok ER (dcell c 0 2 1) 0 false ∗ dutyTok ER (dcell (nxt c) 1 0 0) 0 false ∗ dutyTok ER (dcell (nxt c) 1 0 1) 0 false ∗ dutyTok ER (dcell (nxt c) 1 1 0) 0 false ∗ dutyTok ER (dcell (nxt c) 1 1 1) 0 false ∗ dutyTok ER (dcell (nxt c) 1 2 0) 0 false ∗ dutyTok ER (dcell (nxt c) 1 2 1) 0 false ∗ dutyTok ER (dcell c 2 0 0) 0 false ∗ dutyTok ER (dcell c 2 0 1) 0 false ∗ dutyTok ER (dcell c 2 1 0) 0 false ∗ dutyTok ER (dcell c 2 1 1) 0 false ∗ dutyTok ER (dcell c 2 2 0) 0 false ∗ dutyTok ER (dcell c 2 2 1) 0 false ∗ dutyTok ER (dcell (prv c) 3 0 0) 0 false ∗ dutyTok ER (dcell (prv c) 3 0 1) 0 false ∗ dutyTok ER (dcell (prv c) 3 1 0) 0 false ∗ dutyTok ER (dcell (prv c) 3 1 1) 0 false ∗ dutyTok ER (dcell (prv c) 3 2 0) 0 false ∗ dutyTok ER (dcell (prv c) 3 2 1) 0 false) := by
  unfold payToks; rw [bigSep_PI]
omit [FloatOps F] in
theorem positions_eq (c : Dev nD) : positions (F := F) c = iprop(atPos ER (regCell c barS) 0 ∅ 0 ∗ atPos ER (regCell c endS) 0 ∅ 0 ∗ atPos ER (dcell c 0 0 0) 0 ∅ 0 ∗ atPos ER (dcell c 0 0 1) 0 ∅ 0 ∗ atPos ER (dcell c 0 1 0) 0 ∅ 0 ∗ atPos ER (dcell c 0 1 1) 0 ∅ 0 ∗ atPos ER (dcell c 0 2 0) 0 ∅ 0 ∗ atPos ER (dcell c 0 2 1) 0 ∅ 0 ∗ atPos ER (dcell c 1 0 0) 0 ∅ 0 ∗ atPos ER (dcell c 1 0 1) 0 ∅ 0 ∗ atPos ER (dcell c 1 1 0) 0 ∅ 0 ∗ atPos ER (dcell c 1 1 1) 0 ∅ 0 ∗ atPos ER (dcell c 1 2 0) 0 ∅ 0 ∗ atPos ER (dcell c 1 2 1) 0 ∅ 0 ∗ atPos ER (dcell c 2 0 0) 0 ∅ 0 ∗ atPos ER (dcell c 2 0 1) 0 ∅ 0 ∗ atPos ER (dcell c 2 1 0) 0 ∅ 0 ∗ atPos ER (dcell c 2 1 1) 0 ∅ 0 ∗ atPos ER (dcell c 2 2 0) 0 ∅ 0 ∗ atPos ER (dcell c 2 2 1) 0 ∅ 0 ∗ atPos ER (dcell c 3 0 0) 0 ∅ 0 ∗ atPos ER (dcell c 3 0 1) 0 ∅ 0 ∗ atPos ER (dcell c 3 1 0) 0 ∅ 0 ∗ atPos ER (dcell c 3 1 1) 0 ∅ 0 ∗ atPos ER (dcell c 3 2 0) 0 ∅ 0 ∗ atPos ER (dcell c 3 2 1) 0 ∅ 0) := by
  unfold positions; rw [bigSep_CI]
omit [FloatOps F] in
theorem ownSems_eq (c : Dev nD) : (bigSep Finset.univ fun k : OS => (semVal ((c : Thread nD τ), osem k) 0 : sProp 𝕄))
    = iprop(semVal (regCell c endS) 0 ∗ semVal (dcell c 0 0 0) 0 ∗ semVal (dcell c 0 0 1) 0 ∗ semVal (dcell c 0 1 0) 0 ∗ semVal (dcell c 0 1 1) 0 ∗ semVal (dcell c 0 2 0) 0 ∗ semVal (dcell c 0 2 1) 0 ∗ semVal (dcell c 1 0 0) 0 ∗ semVal (dcell c 1 0 1) 0 ∗ semVal (dcell c 1 1 0) 0 ∗ semVal (dcell c 1 1 1) 0 ∗ semVal (dcell c 1 2 0) 0 ∗ semVal (dcell c 1 2 1) 0 ∗ semVal (dcell c 2 0 0) 0 ∗ semVal (dcell c 2 0 1) 0 ∗ semVal (dcell c 2 1 0) 0 ∗ semVal (dcell c 2 1 1) 0 ∗ semVal (dcell c 2 2 0) 0 ∗ semVal (dcell c 2 2 1) 0 ∗ semVal (dcell c 3 0 0) 0 ∗ semVal (dcell c 3 0 1) 0 ∗ semVal (dcell c 3 1 0) 0 ∗ semVal (dcell c 3 1 1) 0 ∗ semVal (dcell c 3 2 0) 0 ∗ semVal (dcell c 3 2 1) 0) := by
  rw [bigSep_OS]

end Cert.KernelIdeal.Ag

end
-- ==== Proof.Split.lean ====
/-
  Carving a buffer into the parts the transfers move, and putting them back.

  A road's landing buffer holds six slots of 128 × 2048 elements; two different slots differ in their hop or in their
  piece, so their rectangles are separated along the first or the second axis and share no element. The block of `x`
  holds four pieces of 128 rows, separated along the rows. A buffer held whole is therefore its parts and what lies
  outside them, each held by itself; and parts held by themselves at whatever contents, with what lies outside them,
  are the buffer held whole at some contents.
-/
import proofs.«900337_g7700000000000338_dist_ag_gemm_m2048_k2048_n2048_f32_none_v7x_i4_1_alg».proof.Proof.Cells
import Idealize.ShloMosaic.Lib.ReshapeSlab
import Idealize.ShloMosaic.Rules.PointsTo

set_option maxRecDepth 65536

noncomputable section

namespace Cert.KernelIdeal.Ag

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The slots of a road's buffer -/

section Slots
variable (M : Memref sig .tc .vmem S3x2x128x2048 .f32)

/-- A slot's elements are those of its rectangle (the squeeze renames indices, not elements). -/
theorem slot_set (h : Fin 3) (p : Fin 2) :
    (slot M h p).view.set = (M.view.slice (Rect.unit (s := S3x2x128x2048) ![h.val, p.val, 0, 0] S1x1x128x2048.size (inb_s h p))).set :=
  View.set_reshape _ _

/-- Two different slots share no element. -/
theorem slot_disj (h h' : Fin 3) (p p' : Fin 2) (hne : h ≠ h' ∨ p ≠ p') : Disjoint (slot M h p).view.set (slot M h' p').view.set := by
  rw [slot_set M h p, slot_set M h' p']
  rcases hne with hh | hp
  · refine View.disjoint_slice_of_sep M.view _ _ (0 : Fin 4) rfl rfl ?_
    show h.val + 1 ≤ h'.val ∨ h'.val + 1 ≤ h.val
    have := Fin.val_ne_of_ne hh; omega
  · refine View.disjoint_slice_of_sep M.view _ _ (1 : Fin 4) rfl rfl ?_
    show p.val + 1 ≤ p'.val ∨ p'.val + 1 ≤ p.val
    have := Fin.val_ne_of_ne hp; omega

/-- Slot `t`'s elements, by the pair (hop, piece). -/
abbrev slotSet (t : Fin 3 × Fin 2) : Finset M.view.ty.Idx := (slot M t.1 t.2).view.set

theorem slotSet_disj : ∀ t ∈ (Finset.univ : Finset (Fin 3 × Fin 2)), ∀ t' ∈ (Finset.univ : Finset (Fin 3 × Fin 2)), t ≠ t' →
    Disjoint (slotSet M t) (slotSet M t') := fun t _ t' _ hne => by
  refine slot_disj M t.1 t'.1 t.2 t'.2 ?_
  by_contra hc
  rw [not_or, not_not, not_not] at hc
  exact hne (Prod.ext hc.1 hc.2)

/-- All six slots' elements. -/
abbrev slotsAll : Finset M.view.ty.Idx := (Finset.univ : Finset (Fin 3 × Fin 2)).biUnion (slotSet M)

end Slots

omit [FloatOps F] in
theorem bigSep_slots (Φ : Fin 3 × Fin 2 → sProp 𝕄) :
    bigSep Finset.univ Φ = iprop(Φ (0, 0) ∗ Φ (0, 1) ∗ Φ (1, 0) ∗ Φ (1, 1) ∗ Φ (2, 0) ∗ Φ (2, 1)) :=
  bigSep_univ_eq_bigSepL [((0 : Fin 3), (0 : Fin 2)), (0, 1), (1, 0), (1, 1), (2, 0), (2, 1)] (by decide) (by decide) Φ

section SlotsPts
variable (M : Memref sig .tc .vmem S3x2x128x2048 .f32) (c : Dev nD)

omit [FloatOps F] in
/-- A slot held by itself, said through the buffer's own location and the slot's elements. -/
theorem slotPts_eq (h : Fin 3) (p : Fin 2) (q : PosShare TreeShare) (f : Buf (Elt F) (M.view.loc (c : Thread nD τ))) :
    (slotPts M c h p q f : sProp 𝕄) = ((M.view.loc (c : Thread nD τ)) ↦[slotSet M (h, p)]{q} f) := rfl

omit [FloatOps F] in
/-- The six slots held one by one, as the family over (hop, piece). -/
theorem six_eq (q : PosShare TreeShare) (g : Fin 3 × Fin 2 → Buf (Elt F) (M.view.loc (c : Thread nD τ))) :
    (bigSep Finset.univ fun t : Fin 3 × Fin 2 => ((M.view.loc (c : Thread nD τ)) ↦[slotSet M t]{q} g t : sProp 𝕄))
      = iprop(slotPts M c 0 0 q (g (0, 0)) ∗ slotPts M c 0 1 q (g (0, 1)) ∗ slotPts M c 1 0 q (g (1, 0)) ∗ slotPts M c 1 1 q (g (1, 1))
          ∗ slotPts M c 2 0 q (g (2, 0)) ∗ slotPts M c 2 1 q (g (2, 1))) :=
  bigSep_slots (F := F) fun t => ((M.view.loc (c : Thread nD τ)) ↦[slotSet M t]{q} g t : sProp 𝕄)

omit [FloatOps F] in
/-- A road's buffer held whole is its six slots, each held by itself, and what lies outside them. -/
theorem slots_split (f : Buf (Elt F) (M.view.loc (c : Thread nD τ))) :
    ((M.view.loc (c : Thread nD τ)) ↦{fullShare} f : sProp 𝕄)
      ⊢ iprop((slotPts M c 0 0 fullShare f ∗ slotPts M c 0 1 fullShare f ∗ slotPts M c 1 0 fullShare f ∗ slotPts M c 1 1 fullShare f
            ∗ slotPts M c 2 0 fullShare f ∗ slotPts M c 2 1 fullShare f)
          ∗ ((M.view.loc (c : Thread nD τ)) ↦[Finset.univ \ slotsAll M]{fullShare} f)) := by
  have h1 : ((M.view.loc (c : Thread nD τ)) ↦[Finset.univ]{fullShare} f : sProp 𝕄)
      ⊢ iprop(((M.view.loc (c : Thread nD τ)) ↦[slotsAll M]{fullShare} f) ∗ ((M.view.loc (c : Thread nD τ)) ↦[Finset.univ \ slotsAll M]{fullShare} f)) :=
    (pointsTo_split_subset (Finset.subset_univ _)).1
  have h2 : ((M.view.loc (c : Thread nD τ)) ↦[slotsAll M]{fullShare} f : sProp 𝕄)
      = bigSep Finset.univ fun t : Fin 3 × Fin 2 => ((M.view.loc (c : Thread nD τ)) ↦[slotSet M t]{fullShare} f : sProp 𝕄) :=
    pointsTo_biUnion (ℓ := M.view.loc (c : Thread nD τ)) (q := fullShare) (f := f) (T := Fin 3 × Fin 2) Finset.univ (slotSet M) (slotSet_disj M)
  exact h1.trans (sep_mono_left (Entails.of_eq (h2.trans (six_eq M c fullShare fun _ => f))))

omit [FloatOps F] in
/-- The six slots, each held by itself at whatever contents, and what lies outside them, are the buffer held whole at
    some contents. -/
theorem slots_join (g : Fin 3 × Fin 2 → Buf (Elt F) (M.view.loc (c : Thread nD τ))) (f : Buf (Elt F) (M.view.loc (c : Thread nD τ))) :
    iprop((slotPts M c 0 0 fullShare (g (0, 0)) ∗ slotPts M c 0 1 fullShare (g (0, 1)) ∗ slotPts M c 1 0 fullShare (g (1, 0))
          ∗ slotPts M c 1 1 fullShare (g (1, 1)) ∗ slotPts M c 2 0 fullShare (g (2, 0)) ∗ slotPts M c 2 1 fullShare (g (2, 1)))
        ∗ ((M.view.loc (c : Thread nD τ)) ↦[Finset.univ \ slotsAll M]{fullShare} f))
      ⊢ (iprop(∃ f', (M.view.loc (c : Thread nD τ)) ↦{fullShare} f') : sProp 𝕄) := by
  have hj : (bigSep Finset.univ fun t : Fin 3 × Fin 2 => ((M.view.loc (c : Thread nD τ)) ↦[slotSet M t]{fullShare} g t : sProp 𝕄))
      ⊢ iprop(∃ g', ⌜∀ t ∈ (Finset.univ : Finset (Fin 3 × Fin 2)), ∀ i ∈ slotSet M t, g' i = g t i⌝ ∗ ((M.view.loc (c : Thread nD τ)) ↦[slotsAll M]{fullShare} g')) :=
    pointsTo_biUnion_join (ℓ := M.view.loc (c : Thread nD τ)) (q := fullShare) (T := Fin 3 × Fin 2) Finset.univ (slotSet M) g f (slotSet_disj M)
  refine (sep_mono_left ((Entails.of_eq (six_eq M c fullShare g).symm).trans hj)).trans ?_
  iintro ⟨⟨%g', -, Hall⟩, Hrest⟩
  iexists (slotsAll M).piecewise g' f
  iapply (pointsTo_join_subset (I := slotsAll M) (S := Finset.univ) (Finset.subset_univ _))
  isplitl [Hall]
  · iexact Hall
  · iexact Hrest

end SlotsPts

/-! ## The two halves of a share -/

omit [FloatOps F] in
/-- Elements held at a share are held at its two halves, and back. -/
theorem halves {ℓ : Loc nD τ sig} (I : Finset (Idx ℓ)) (q : PosShare TreeShare) (f : Buf (Elt F) ℓ) :
    (ℓ ↦[I]{q} f : sProp 𝕄) ⊣⊢ iprop((ℓ ↦[I]{q.left} f) ∗ ℓ ↦[I]{q.right} f) :=
  pointsTo_share (PosShare.mem_left_op_right q)

omit [FloatOps F] in
/-- The two halves come back together even when they are held at contents named differently: the two namings agree on
    the elements held. -/
theorem halves_join {ℓ : Loc nD τ sig} (I : Finset (Idx ℓ)) (q : PosShare TreeShare) (f f' : Buf (Elt F) ℓ) :
    iprop((ℓ ↦[I]{q.left} f') ∗ ℓ ↦[I]{q.right} f) ⊢ (ℓ ↦[I]{q} f : sProp 𝕄) := by
  iintro H
  ihave H' := (persistent_entails_right (pointsTo_agree (I := I) (J := I) (q₁ := q.left) (q₂ := q.right) (f := f') (g := f))) $$ H
  icases H' with ⟨%hag, Hl, Hr⟩
  have e : (ℓ ↦[I]{q.left} f' : sProp 𝕄) = ℓ ↦[I]{q.left} f :=
    pointsTo_congr fun i hi => (hag i (Finset.mem_inter.mpr ⟨hi, hi⟩)).1
  iapply (halves I q f).2
  isplitl [Hl]
  · iapply (Entails.of_eq e); iexact Hl
  · iexact Hr

/-! ## The pieces of the block of `x` -/

omit [FloatOps F] in
theorem xP_disj (j j' : Fin 4) (hne : j ≠ j') : Disjoint (xP j).view.set (xP j').view.set := by
  refine View.disjoint_slice_of_sep xM.view _ _ (0 : Fin 2) rfl rfl ?_
  show 128 * j.val + 128 ≤ 128 * j'.val ∨ 128 * j'.val + 128 ≤ 128 * j.val
  have := Fin.val_ne_of_ne hne; omega

abbrev xSet (j : Fin 4) : Finset xM.view.ty.Idx := (xP j).view.set
abbrev xAll : Finset xM.view.ty.Idx := (Finset.univ : Finset (Fin 4)).biUnion xSet

theorem xSet_disj : ∀ j ∈ (Finset.univ : Finset (Fin 4)), ∀ j' ∈ (Finset.univ : Finset (Fin 4)), j ≠ j' → Disjoint (xSet j) (xSet j') :=
  fun j _ j' _ hne => xP_disj j j' hne

omit [FloatOps F] in
theorem bigSep_fin4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

section XPts
variable (c : Dev nD)

omit [FloatOps F] in
theorem xFour_eq (q : PosShare TreeShare) (f : Buf (Elt F) (xM.view.loc (c : Thread nD τ))) :
    (bigSep Finset.univ fun j : Fin 4 => ((xM.view.loc (c : Thread nD τ)) ↦[xSet j]{q} f : sProp 𝕄))
      = iprop(((xP 0).view.loc (c : Thread nD τ) ↦[(xP 0).view.set]{q} f) ∗ ((xP 1).view.loc (c : Thread nD τ) ↦[(xP 1).view.set]{q} f)
          ∗ ((xP 2).view.loc (c : Thread nD τ) ↦[(xP 2).view.set]{q} f) ∗ ((xP 3).view.loc (c : Thread nD τ) ↦[(xP 3).view.set]{q} f)) :=
  bigSep_fin4 (F := F) fun j => ((xM.view.loc (c : Thread nD τ)) ↦[xSet j]{q} f : sProp 𝕄)

omit [FloatOps F] in
/-- The block of `x` held whole at a share is its four pieces and what lies outside them, each held at that share; -/
theorem x_split (q : PosShare TreeShare) (f : Buf (Elt F) (xM.view.loc (c : Thread nD τ))) :
    ((xM.view.loc (c : Thread nD τ)) ↦{q} f : sProp 𝕄)
      ⊢ iprop((((xP 0).view.loc (c : Thread nD τ) ↦[(xP 0).view.set]{q} f) ∗ ((xP 1).view.loc (c : Thread nD τ) ↦[(xP 1).view.set]{q} f)
            ∗ ((xP 2).view.loc (c : Thread nD τ) ↦[(xP 2).view.set]{q} f) ∗ ((xP 3).view.loc (c : Thread nD τ) ↦[(xP 3).view.set]{q} f))
          ∗ ((xM.view.loc (c : Thread nD τ)) ↦[Finset.univ \ xAll]{q} f)) := by
  have h1 : ((xM.view.loc (c : Thread nD τ)) ↦[Finset.univ]{q} f : sProp 𝕄)
      ⊢ iprop(((xM.view.loc (c : Thread nD τ)) ↦[xAll]{q} f) ∗ ((xM.view.loc (c : Thread nD τ)) ↦[Finset.univ \ xAll]{q} f)) :=
    (pointsTo_split_subset (Finset.subset_univ _)).1
  have h2 : ((xM.view.loc (c : Thread nD τ)) ↦[xAll]{q} f : sProp 𝕄)
      = bigSep Finset.univ fun j : Fin 4 => ((xM.view.loc (c : Thread nD τ)) ↦[xSet j]{q} f : sProp 𝕄) :=
    pointsTo_biUnion (ℓ := xM.view.loc (c : Thread nD τ)) (q := q) (f := f) (T := Fin 4) Finset.univ xSet xSet_disj
  exact h1.trans (sep_mono_left (Entails.of_eq (h2.trans (xFour_eq c q f))))

omit [FloatOps F] in
/-- and back. -/
theorem x_join (q : PosShare TreeShare) (f : Buf (Elt F) (xM.view.loc (c : Thread nD τ))) :
    iprop((((xP 0).view.loc (c : Thread nD τ) ↦[(xP 0).view.set]{q} f) ∗ ((xP 1).view.loc (c : Thread nD τ) ↦[(xP 1).view.set]{q} f)
            ∗ ((xP 2).view.loc (c : Thread nD τ) ↦[(xP 2).view.set]{q} f) ∗ ((xP 3).view.loc (c : Thread nD τ) ↦[(xP 3).view.set]{q} f))
          ∗ ((xM.view.loc (c : Thread nD τ)) ↦[Finset.univ \ xAll]{q} f))
      ⊢ ((xM.view.loc (c : Thread nD τ)) ↦{q} f : sProp 𝕄) := by
  have h1 : iprop(((xM.view.loc (c : Thread nD τ)) ↦[xAll]{q} f) ∗ ((xM.view.loc (c : Thread nD τ)) ↦[Finset.univ \ xAll]{q} f))
      ⊢ ((xM.view.loc (c : Thread nD τ)) ↦[Finset.univ]{q} f : sProp 𝕄) :=
    (pointsTo_split_subset (Finset.subset_univ _)).2
  have h2 : ((xM.view.loc (c : Thread nD τ)) ↦[xAll]{q} f : sProp 𝕄)
      = bigSep Finset.univ fun j : Fin 4 => ((xM.view.loc (c : Thread nD τ)) ↦[xSet j]{q} f : sProp 𝕄) :=
    pointsTo_biUnion (ℓ := xM.view.loc (c : Thread nD τ)) (q := q) (f := f) (T := Fin 4) Finset.univ xSet xSet_disj
  exact (sep_mono_left (Entails.of_eq (h2.trans (xFour_eq c q f)).symm)).trans h1

end XPts

section SlotsJoin6
variable (M : Memref sig .tc .vmem S3x2x128x2048 .f32) (c : Dev nD)

omit [FloatOps F] in
/-- `slots_join` with the six slots' contents named one by one. -/
theorem slots_join6 (f00 f01 f10 f11 f20 f21 f : Buf (Elt F) (M.view.loc (c : Thread nD τ))) :
    iprop((slotPts M c 0 0 fullShare f00 ∗ slotPts M c 0 1 fullShare f01 ∗ slotPts M c 1 0 fullShare f10
          ∗ slotPts M c 1 1 fullShare f11 ∗ slotPts M c 2 0 fullShare f20 ∗ slotPts M c 2 1 fullShare f21)
        ∗ ((M.view.loc (c : Thread nD τ)) ↦[Finset.univ \ slotsAll M]{fullShare} f))
      ⊢ (iprop(∃ f', (M.view.loc (c : Thread nD τ)) ↦{fullShare} f') : sProp 𝕄) :=
  slots_join M c (fun t => if t = (0, 0) then f00 else if t = (0, 1) then f01 else if t = (1, 0) then f10 else if t = (1, 1) then f11
    else if t = (2, 0) then f20 else f21) f

end SlotsJoin6

end Cert.KernelIdeal.Ag

end
-- ==== Proof.Sends.lean ====
/-
  The twelve transfers, as two rules per road.

  A transfer reads a 128 × 2048 block through its source view, lent at half its share, and overwrites the neighbour's
  slot with it; what the slot then reads is the source's reading, whatever it held before. The first hop's source is a
  piece of the device's own block; a later hop's is the slot the previous hop filled, so the piece that came `h + 1` hops
  to this device is the piece that comes `h + 2` hops to its neighbour.
-/
import proofs.«900337_g7700000000000338_dist_ag_gemm_m2048_k2048_n2048_f32_none_v7x_i4_1_alg».proof.Proof.Cells

noncomputable section

namespace Cert.KernelIdeal.Ag

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The first hop on the rightward road: piece `p` of the device's own half-block goes into the neighbour's slot `(0, p)`;
    the neighbour's receive cell is handed the slot reading that piece, the send cell the lent half of the source. -/
theorem send0R (c n : Dev nD) (hn : n = nxt c) (p : Fin 2)
    (src : Memref sig .tc .vmem S128x2048 .f32) (hs : src = xP (jR p))
    (dst : Memref sig .tc .vmem S128x2048 .f32) (hd : dst = slot aM 0 p)
    (sS sV : DmaSem sig) (hsS : sS = qsem (arr 0) 0 p) (hsV : sV = qsem (arr 1) 0 p)
    {hsc : dst.view.ref.isScScratch = false} {hsrc : src.view.WordExact} {hdst : dst.view.WordExact}
    {hsem : DmaTarget.Typed .vmem (.dma sV) (.remote (Dev.tc n : Thread nD τ) dst (.dma sS) hsc)}
    {α : Type} {Q : α → sProp 𝕄} {k : PUnit → Prog (TpuEff nD τ sig (Elt F) Λ₀ .tc) α}
    (κ₁ κ₂ : ℕ) (fd : Buf (Elt F) ((slot aM 0 p).view.loc (nxt c : Thread nD τ))) (W : Waits sig Unit) (O : CellTallies nD τ sig Unit) :
    iprop(cellInv ER (Rd m) κ₁ (dcell c 0 0 p) ∗ cellInv ER (Rd m) κ₂ (dcell (nxt c) 1 0 p)
        ∗ xPts m c (jR p) fullShare.left ∗ slotPts aM (nxt c) 0 p fullShare fd
        ∗ owes (c : Thread nD τ) (O + tallyAt (dcell (nxt c) 1 0 p) () N) W
        ∗ dutyTok ER (dcell c 0 0 p) 0 false ∗ reached ER (dcell c 0 0 p) 0
        ∗ dutyTok ER (dcell (nxt c) 1 0 p) 0 false ∗ reached ER (dcell (nxt c) 1 0 p) 0)
      ⊢ iprop(((cred (tallyAt (dcell c 0 0 p) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sV) hsrc hdst hsem) k) Q) := by
  subst hn hs hd hsS hsV
  unfold xPts slotPts
  exact Rounds.wp_send_pointsTo 𝒱₀ ER (Rd m) (c : Thread nD τ) none (c' := (nxt c : Thread nD τ)) (src := xP (jR p)) (dst := slot aM 0 p)
    (sS := .dma (qsem (arr 0) 0 p)) (sem := .dma (qsem (arr 1) 0 p)) (q := fullShare.left) (fs := X m c) (κ₁ := κ₁) (κ₂ := κ₂)
    (r₁ := 0) (r₂ := 0) (d₁ := false) (d₂ := false) (fd := fd)
    (by rw [duties_dma]; exact Finset.mem_singleton_self _) (by rw [duties_dma]; exact Finset.mem_singleton_self _)
    () () N rfl (amount_dma m c 0 0 p false) (amount_dma m (nxt c) 1 0 p false) O rfl (W := W)
    (by rw [payload_dma]; exact BI.Entails.refl _)
    (by
      rw [payload_dma]
      show _ ⊢ landed aM (nxt c) 0 p (srcR m (nxt c) 0 p)
      unfold landed slotPts
      iintro H
      iexists ((slot aM 0 p).view.write (Elt F) fd ((xP (jR p)).view.read (Elt F) (X m c)) Finset.univ)
      isplitr
      · ipureintro
        rw [View.read_write_univ]
        show piece m c (jR p) = piece m (shift (nxt c) (3 * ((0 : Fin 3).val + 1))) (jR p)
        rw [show shift (nxt c) (3 * ((0 : Fin 3).val + 1)) = c from shift_left_first c]
      · iexact H)

/-- A later hop on the rightward road: slot `(h, p)`, which reads the piece that came `h + 1` hops, is forwarded into the
    neighbour's slot `(h + 1, p)`, where it is the piece that came `h + 2` hops. -/
theorem sendR (c n : Dev nD) (hn : n = nxt c) (h : Fin 3) (hh : h.val + 1 < 3) (p : Fin 2)
    (src : Memref sig .tc .vmem S128x2048 .f32) (hs : src = slot aM h p)
    (dst : Memref sig .tc .vmem S128x2048 .f32) (hd : dst = slot aM ⟨h.val + 1, hh⟩ p)
    (sS sV : DmaSem sig) (hsS : sS = qsem (arr 0) ⟨h.val + 1, hh⟩ p) (hsV : sV = qsem (arr 1) ⟨h.val + 1, hh⟩ p)
    {hsc : dst.view.ref.isScScratch = false} {hsrc : src.view.WordExact} {hdst : dst.view.WordExact}
    {hsem : DmaTarget.Typed .vmem (.dma sV) (.remote (Dev.tc n : Thread nD τ) dst (.dma sS) hsc)}
    {α : Type} {Q : α → sProp 𝕄} {k : PUnit → Prog (TpuEff nD τ sig (Elt F) Λ₀ .tc) α}
    (κ₁ κ₂ : ℕ) (fs : Buf (Elt F) ((slot aM h p).view.loc (c : Thread nD τ))) (hfs : (slot aM h p).view.read (Elt F) fs = srcR m c h p)
    (fd : Buf (Elt F) ((slot aM ⟨h.val + 1, hh⟩ p).view.loc (nxt c : Thread nD τ))) (W : Waits sig Unit) (O : CellTallies nD τ sig Unit) :
    iprop(cellInv ER (Rd m) κ₁ (dcell c 0 ⟨h.val + 1, hh⟩ p) ∗ cellInv ER (Rd m) κ₂ (dcell (nxt c) 1 ⟨h.val + 1, hh⟩ p)
        ∗ slotPts aM c h p fullShare.left fs ∗ slotPts aM (nxt c) ⟨h.val + 1, hh⟩ p fullShare fd
        ∗ owes (c : Thread nD τ) (O + tallyAt (dcell (nxt c) 1 ⟨h.val + 1, hh⟩ p) () N) W
        ∗ dutyTok ER (dcell c 0 ⟨h.val + 1, hh⟩ p) 0 false ∗ reached ER (dcell c 0 ⟨h.val + 1, hh⟩ p) 0
        ∗ dutyTok ER (dcell (nxt c) 1 ⟨h.val + 1, hh⟩ p) 0 false ∗ reached ER (dcell (nxt c) 1 ⟨h.val + 1, hh⟩ p) 0)
      ⊢ iprop(((cred (tallyAt (dcell c 0 ⟨h.val + 1, hh⟩ p) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sV) hsrc hdst hsem) k) Q) := by
  subst hn hs hd hsS hsV
  unfold slotPts
  exact Rounds.wp_send_pointsTo 𝒱₀ ER (Rd m) (c : Thread nD τ) none (c' := (nxt c : Thread nD τ)) (src := slot aM h p) (dst := slot aM ⟨h.val + 1, hh⟩ p)
    (sS := .dma (qsem (arr 0) ⟨h.val + 1, hh⟩ p)) (sem := .dma (qsem (arr 1) ⟨h.val + 1, hh⟩ p)) (q := fullShare.left) (fs := fs) (κ₁ := κ₁) (κ₂ := κ₂)
    (r₁ := 0) (r₂ := 0) (d₁ := false) (d₂ := false) (fd := fd)
    (by rw [duties_dma]; exact Finset.mem_singleton_self _) (by rw [duties_dma]; exact Finset.mem_singleton_self _)
    () () N rfl (amount_dma m c 0 ⟨h.val + 1, hh⟩ p false) (amount_dma m (nxt c) 1 ⟨h.val + 1, hh⟩ p false) O rfl (W := W)
    (by
      rw [payload_dma]
      show _ ⊢ departed m aM c (jR p) ⟨h.val + 1, hh⟩ p
      unfold departed slotPts
      iintro H
      iexists fs
      iexact H)
    (by
      rw [payload_dma]
      show _ ⊢ landed aM (nxt c) ⟨h.val + 1, hh⟩ p (srcR m (nxt c) ⟨h.val + 1, hh⟩ p)
      unfold landed slotPts
      iintro H
      iexists ((slot aM ⟨h.val + 1, hh⟩ p).view.write (Elt F) fd ((slot aM h p).view.read (Elt F) fs) Finset.univ)
      isplitr
      · ipureintro
        rw [View.read_write_univ, hfs]
        unfold srcR
        rw [show shift (nxt c) (3 * ((⟨h.val + 1, hh⟩ : Fin 3).val + 1)) = shift c (3 * (h.val + 1)) from shift_left_step c h]
      · iexact H)

/-- The first hop on the leftward road: piece `p` of the device's own half-block goes into the neighbour's slot `(0, p)`;
    the neighbour's receive cell is handed the slot reading that piece, the send cell the lent half of the source. -/
theorem send0L (c n : Dev nD) (hn : n = prv c) (p : Fin 2)
    (src : Memref sig .tc .vmem S128x2048 .f32) (hs : src = xP (jL p))
    (dst : Memref sig .tc .vmem S128x2048 .f32) (hd : dst = slot bM 0 p)
    (sS sV : DmaSem sig) (hsS : sS = qsem (arr 2) 0 p) (hsV : sV = qsem (arr 3) 0 p)
    {hsc : dst.view.ref.isScScratch = false} {hsrc : src.view.WordExact} {hdst : dst.view.WordExact}
    {hsem : DmaTarget.Typed .vmem (.dma sV) (.remote (Dev.tc n : Thread nD τ) dst (.dma sS) hsc)}
    {α : Type} {Q : α → sProp 𝕄} {k : PUnit → Prog (TpuEff nD τ sig (Elt F) Λ₀ .tc) α}
    (κ₁ κ₂ : ℕ) (fd : Buf (Elt F) ((slot bM 0 p).view.loc (prv c : Thread nD τ))) (W : Waits sig Unit) (O : CellTallies nD τ sig Unit) :
    iprop(cellInv ER (Rd m) κ₁ (dcell c 2 0 p) ∗ cellInv ER (Rd m) κ₂ (dcell (prv c) 3 0 p)
        ∗ xPts m c (jL p) fullShare.left ∗ slotPts bM (prv c) 0 p fullShare fd
        ∗ owes (c : Thread nD τ) (O + tallyAt (dcell (prv c) 3 0 p) () N) W
        ∗ dutyTok ER (dcell c 2 0 p) 0 false ∗ reached ER (dcell c 2 0 p) 0
        ∗ dutyTok ER (dcell (prv c) 3 0 p) 0 false ∗ reached ER (dcell (prv c) 3 0 p) 0)
      ⊢ iprop(((cred (tallyAt (dcell c 2 0 p) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sV) hsrc hdst hsem) k) Q) := by
  subst hn hs hd hsS hsV
  unfold xPts slotPts
  exact Rounds.wp_send_pointsTo 𝒱₀ ER (Rd m) (c : Thread nD τ) none (c' := (prv c : Thread nD τ)) (src := xP (jL p)) (dst := slot bM 0 p)
    (sS := .dma (qsem (arr 2) 0 p)) (sem := .dma (qsem (arr 3) 0 p)) (q := fullShare.left) (fs := X m c) (κ₁ := κ₁) (κ₂ := κ₂)
    (r₁ := 0) (r₂ := 0) (d₁ := false) (d₂ := false) (fd := fd)
    (by rw [duties_dma]; exact Finset.mem_singleton_self _) (by rw [duties_dma]; exact Finset.mem_singleton_self _)
    () () N rfl (amount_dma m c 2 0 p false) (amount_dma m (prv c) 3 0 p false) O rfl (W := W)
    (by rw [payload_dma]; exact BI.Entails.refl _)
    (by
      rw [payload_dma]
      show _ ⊢ landed bM (prv c) 0 p (srcL m (prv c) 0 p)
      unfold landed slotPts
      iintro H
      iexists ((slot bM 0 p).view.write (Elt F) fd ((xP (jL p)).view.read (Elt F) (X m c)) Finset.univ)
      isplitr
      · ipureintro
        rw [View.read_write_univ]
        show piece m c (jL p) = piece m (shift (prv c) ((0 : Fin 3).val + 1)) (jL p)
        rw [show shift (prv c) ((0 : Fin 3).val + 1) = c from shift_right_first c]
      · iexact H)

/-- A later hop on the leftward road: slot `(h, p)`, which reads the piece that came `h + 1` hops, is forwarded into the
    neighbour's slot `(h + 1, p)`, where it is the piece that came `h + 2` hops. -/
theorem sendL (c n : Dev nD) (hn : n = prv c) (h : Fin 3) (hh : h.val + 1 < 3) (p : Fin 2)
    (src : Memref sig .tc .vmem S128x2048 .f32) (hs : src = slot bM h p)
    (dst : Memref sig .tc .vmem S128x2048 .f32) (hd : dst = slot bM ⟨h.val + 1, hh⟩ p)
    (sS sV : DmaSem sig) (hsS : sS = qsem (arr 2) ⟨h.val + 1, hh⟩ p) (hsV : sV = qsem (arr 3) ⟨h.val + 1, hh⟩ p)
    {hsc : dst.view.ref.isScScratch = false} {hsrc : src.view.WordExact} {hdst : dst.view.WordExact}
    {hsem : DmaTarget.Typed .vmem (.dma sV) (.remote (Dev.tc n : Thread nD τ) dst (.dma sS) hsc)}
    {α : Type} {Q : α → sProp 𝕄} {k : PUnit → Prog (TpuEff nD τ sig (Elt F) Λ₀ .tc) α}
    (κ₁ κ₂ : ℕ) (fs : Buf (Elt F) ((slot bM h p).view.loc (c : Thread nD τ))) (hfs : (slot bM h p).view.read (Elt F) fs = srcL m c h p)
    (fd : Buf (Elt F) ((slot bM ⟨h.val + 1, hh⟩ p).view.loc (prv c : Thread nD τ))) (W : Waits sig Unit) (O : CellTallies nD τ sig Unit) :
    iprop(cellInv ER (Rd m) κ₁ (dcell c 2 ⟨h.val + 1, hh⟩ p) ∗ cellInv ER (Rd m) κ₂ (dcell (prv c) 3 ⟨h.val + 1, hh⟩ p)
        ∗ slotPts bM c h p fullShare.left fs ∗ slotPts bM (prv c) ⟨h.val + 1, hh⟩ p fullShare fd
        ∗ owes (c : Thread nD τ) (O + tallyAt (dcell (prv c) 3 ⟨h.val + 1, hh⟩ p) () N) W
        ∗ dutyTok ER (dcell c 2 ⟨h.val + 1, hh⟩ p) 0 false ∗ reached ER (dcell c 2 ⟨h.val + 1, hh⟩ p) 0
        ∗ dutyTok ER (dcell (prv c) 3 ⟨h.val + 1, hh⟩ p) 0 false ∗ reached ER (dcell (prv c) 3 ⟨h.val + 1, hh⟩ p) 0)
      ⊢ iprop(((cred (tallyAt (dcell c 2 ⟨h.val + 1, hh⟩ p) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sV) hsrc hdst hsem) k) Q) := by
  subst hn hs hd hsS hsV
  unfold slotPts
  exact Rounds.wp_send_pointsTo 𝒱₀ ER (Rd m) (c : Thread nD τ) none (c' := (prv c : Thread nD τ)) (src := slot bM h p) (dst := slot bM ⟨h.val + 1, hh⟩ p)
    (sS := .dma (qsem (arr 2) ⟨h.val + 1, hh⟩ p)) (sem := .dma (qsem (arr 3) ⟨h.val + 1, hh⟩ p)) (q := fullShare.left) (fs := fs) (κ₁ := κ₁) (κ₂ := κ₂)
    (r₁ := 0) (r₂ := 0) (d₁ := false) (d₂ := false) (fd := fd)
    (by rw [duties_dma]; exact Finset.mem_singleton_self _) (by rw [duties_dma]; exact Finset.mem_singleton_self _)
    () () N rfl (amount_dma m c 2 ⟨h.val + 1, hh⟩ p false) (amount_dma m (prv c) 3 ⟨h.val + 1, hh⟩ p false) O rfl (W := W)
    (by
      rw [payload_dma]
      show _ ⊢ departed m bM c (jL p) ⟨h.val + 1, hh⟩ p
      unfold departed slotPts
      iintro H
      iexists fs
      iexact H)
    (by
      rw [payload_dma]
      show _ ⊢ landed bM (prv c) ⟨h.val + 1, hh⟩ p (srcL m (prv c) ⟨h.val + 1, hh⟩ p)
      unfold landed slotPts
      iintro H
      iexists ((slot bM ⟨h.val + 1, hh⟩ p).view.write (Elt F) fd ((slot bM h p).view.read (Elt F) fs) Finset.univ)
      isplitr
      · ipureintro
        rw [View.read_write_univ, hfs]
        unfold srcL
        rw [show shift (prv c) ((⟨h.val + 1, hh⟩ : Fin 3).val + 1) = shift c (h.val + 1) from shift_right_step c h]
      · iexact H)

end Cert.KernelIdeal.Ag

end
-- ==== Proof.Cover.lean ====
/-
  The thirteen stores cover the whole result, so what they leave does not depend on what was there before.

  Row `i` of the 2048 × 512 result lies in row block `i / 512` (a device of the ring) at row `i % 512` of that block.
  The device's own block is covered by its own 512 rows. Any other block is, on the ring of four, the block of the
  device `3 (h + 1)` places to the right for exactly one hop `h`, and of the device `h' + 1` places to the right for
  exactly one hop `h'`: its first 256 rows are covered by the two pieces of 128 rows the rightward road delivered at
  hop `h`, its last 256 rows by the two pieces the leftward road delivered at hop `h'`. Every piece spans all 512
  columns.
-/
import proofs.«900337_g7700000000000338_dist_ag_gemm_m2048_k2048_n2048_f32_none_v7x_i4_1_alg».proof.Proof.Spec

noncomputable section

namespace Cert.KernelIdeal.Ag

open Cert.KernelIdeal Cert.KernelIdeal.Gen
open Idealize.ShloMosaic
open Idealize.ShloMosaic.TcCoe

variable {F : FTy → Type} [FloatOps F]
variable (m : (ℓ : Loc nD τ sig) → Buf (Elt F) ℓ)

/-! ## A band of rows -/

/-- The rows `[o, o + n)` at all 512 columns hold every index whose row is one of them. -/
theorem mem_band {off size : Fin 2 → Nat} {inb : ∀ a, off a + size a ≤ S2048x512.size a} (y : S2048x512.Idx) (o n : ℕ)
    (hoff : off = ![o, 0]) (hsize : size = ![n, 512]) (hlo : o ≤ (y 0).val) (hhi : (y 0).val < o + n) :
    y ∈ (Rect.unit (s := S2048x512) off size inb).set := by
  subst hoff hsize
  have h1 : (y 1).val < 512 := (y 1).isLt
  rw [Rect.mem_set_unit, Fin.forall_fin_two]
  refine ⟨⟨hlo, hhi⟩, ⟨Nat.zero_le _, ?_⟩⟩
  show (y 1).val < 0 + 512
  omega

theorem mem_pieceOwn (c : Dev nD) (y : S2048x512.Idx) (hlo : 512 * c.val ≤ (y 0).val) (hhi : (y 0).val < 512 * c.val + 512) :
    y ∈ (pieceOwn m c).1.set :=
  mem_band (inb := k0_off1_inb c) y (512 * c.val) 512 (k0_off1_eq c) rfl hlo hhi

theorem mem_pieceR (c : Dev nD) (h : Fin 3) (p : Fin 2) (y : S2048x512.Idx)
    (hlo : 512 * (shift c (3 * (h.val + 1))).val + 128 * p.val ≤ (y 0).val)
    (hhi : (y 0).val < 512 * (shift c (3 * (h.val + 1))).val + 128 * p.val + 128) :
    y ∈ (pieceR m c h p).1.set :=
  mem_band (inb := k0_off2_inb c h p) y (512 * (shift c (3 * (h.val + 1))).val + 128 * p.val) 128 (off2_eq c h p) rfl hlo hhi

theorem mem_pieceL (c : Dev nD) (h : Fin 3) (p : Fin 2) (y : S2048x512.Idx)
    (hlo : 512 * (shift c (h.val + 1)).val + 256 + 128 * p.val ≤ (y 0).val)
    (hhi : (y 0).val < 512 * (shift c (h.val + 1)).val + 256 + 128 * p.val + 128) :
    y ∈ (pieceL m c h p).1.set :=
  mem_band (inb := k0_off3_inb c h p) y (512 * (shift c (h.val + 1)).val + 256 + 128 * p.val) 128 (off3_eq c h p) rfl hlo hhi

/-! ## The pieces are in the list -/

theorem Lout_length (c : Dev nD) : (Lout m c).length = 13 := rfl

theorem pieceOwn_mem (c : Dev nD) : pieceOwn m c ∈ Lout m c :=
  List.getElem_mem (l := Lout m c) (n := 12) (by rw [Lout_length]; omega)

theorem pieceR_mem (c : Dev nD) (h : Fin 3) (p : Fin 2) : pieceR m c h p ∈ Lout m c := by
  fin_cases h <;> fin_cases p
  · exact List.getElem_mem (l := Lout m c) (n := 11) (by rw [Lout_length]; omega)
  · exact List.getElem_mem (l := Lout m c) (n := 9) (by rw [Lout_length]; omega)
  · exact List.getElem_mem (l := Lout m c) (n := 7) (by rw [Lout_length]; omega)
  · exact List.getElem_mem (l := Lout m c) (n := 5) (by rw [Lout_length]; omega)
  · exact List.getElem_mem (l := Lout m c) (n := 3) (by rw [Lout_length]; omega)
  · exact List.getElem_mem (l := Lout m c) (n := 1) (by rw [Lout_length]; omega)

theorem pieceL_mem (c : Dev nD) (h : Fin 3) (p : Fin 2) : pieceL m c h p ∈ Lout m c := by
  fin_cases h <;> fin_cases p
  · exact List.getElem_mem (l := Lout m c) (n := 10) (by rw [Lout_length]; omega)
  · exact List.getElem_mem (l := Lout m c) (n := 8) (by rw [Lout_length]; omega)
  · exact List.getElem_mem (l := Lout m c) (n := 6) (by rw [Lout_length]; omega)
  · exact List.getElem_mem (l := Lout m c) (n := 4) (by rw [Lout_length]; omega)
  · exact List.getElem_mem (l := Lout m c) (n := 2) (by rw [Lout_length]; omega)
  · exact List.getElem_mem (l := Lout m c) (n := 0) (by rw [Lout_length]; omega)

/-! ## Which hop brought a block -/

/-- Every block but the device's own came along the rightward road at some hop; -/
theorem hop_R : ∀ (c : Dev nD) (j : Fin 4), j.val ≠ c.val → ∃ h : Fin 3, (shift c (3 * (h.val + 1))).val = j.val := by decide
/-- and along the leftward road at some hop. -/
theorem hop_L : ∀ (c : Dev nD) (j : Fin 4), j.val ≠ c.val → ∃ h : Fin 3, (shift c (h.val + 1)).val = j.val := by decide

/-! ## The cover -/

theorem cover (c : Dev nD) : ∀ y : S2048x512.Idx, ∃ p ∈ Lout m c, y ∈ p.1.set := by
  intro y
  have h0 : (y 0).val < 2048 := (y 0).isLt
  have hc : c.val < 4 := c.isLt
  by_cases hj : (y 0).val / 512 = c.val
  · exact ⟨pieceOwn m c, pieceOwn_mem m c, mem_pieceOwn m c y (by omega) (by omega)⟩
  · by_cases hr : (y 0).val % 512 < 256
    · obtain ⟨h, hh⟩ := hop_R c ⟨(y 0).val / 512, by omega⟩ hj
      have hh' : (shift c (3 * (h.val + 1))).val = (y 0).val / 512 := hh
      have hp : (y 0).val % 512 / 128 < 2 := by omega
      have e : ((⟨(y 0).val % 512 / 128, hp⟩ : Fin 2)).val = (y 0).val % 512 / 128 := rfl
      exact ⟨pieceR m c h ⟨(y 0).val % 512 / 128, hp⟩, pieceR_mem m c h _,
        mem_pieceR m c h _ y (by rw [hh', e]; omega) (by rw [hh', e]; omega)⟩
    · obtain ⟨h, hh⟩ := hop_L c ⟨(y 0).val / 512, by omega⟩ hj
      have hh' : (shift c (h.val + 1)).val = (y 0).val / 512 := hh
      have hp : ((y 0).val % 512 - 256) / 128 < 2 := by omega
      have e : ((⟨((y 0).val % 512 - 256) / 128, hp⟩ : Fin 2)).val = ((y 0).val % 512 - 256) / 128 := rfl
      exact ⟨pieceL m c h ⟨((y 0).val % 512 - 256) / 128, hp⟩, pieceL_mem m c h _,
        mem_pieceL m c h _ y (by rw [hh', e]; omega) (by rw [hh', e]; omega)⟩

/-- What the thirteen stores leave is the same over any prior contents. -/
theorem out_any_base (c : Dev nD) (g : (cc0_stg2_0 : Ref sig .tc).ty.Contents (Elt F)) :
    oM.view.writes (Elt F) g (Lout m c) = outAt m c := by
  unfold outAt
  exact View.contents_ext oM.view
    (fun y => View.read_writes_apply_eq oM.view g oM.view (base (F := F)) y (Lout m c) (cover m c y))
    (fun i hi => absurd rfl (hi i))

end Cert.KernelIdeal.Ag

end
-- ==== Proof.Steps.lean ====
/-
  The small steps of a device's run, and its last one.

  Before each payment the device's debt is read as "the rest, and this payment". A round's payloads, once waited for, are
  read off the schedule's tables. At the end: every cell of the device's own has seen its one round and is closed, its
  counter at zero the device's again; the pieces of `x` lent to the first hops are back and make the block whole with
  the half kept; each forwarded slot's lent half is back and makes the slot whole with the half kept, and the six slots
  of a road, with what lies outside them, are the road's buffer again.
-/
import proofs.«900337_g7700000000000338_dist_ag_gemm_m2048_k2048_n2048_f32_none_v7x_i4_1_alg».proof.Proof.Ghost
import proofs.«900337_g7700000000000338_dist_ag_gemm_m2048_k2048_n2048_f32_none_v7x_i4_1_alg».proof.Proof.Split
import proofs.«900337_g7700000000000338_dist_ag_gemm_m2048_k2048_n2048_f32_none_v7x_i4_1_alg».proof.Proof.Sends
import proofs.«900337_g7700000000000338_dist_ag_gemm_m2048_k2048_n2048_f32_none_v7x_i4_1_alg».proof.Proof.Cover

set_option maxRecDepth 16384

noncomputable section

namespace Cert.KernelIdeal.Ag

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The tables at the cells a device pays into -/

theorem pay_bar_prv (c : Dev nD) : (Rd (F := F) m).payload (regCell (prv c) barS) 0 true
    = iprop((∃ f, (slot aM 0 0).view.loc (c : Thread nD τ) ↦[(slot aM 0 0).view.set]{fullShare} f) ∗ (∃ f, (slot aM 0 1).view.loc (c : Thread nD τ) ↦[(slot aM 0 1).view.set]{fullShare} f) ∗ (∃ f, (slot aM 1 0).view.loc (c : Thread nD τ) ↦[(slot aM 1 0).view.set]{fullShare} f) ∗ (∃ f, (slot aM 1 1).view.loc (c : Thread nD τ) ↦[(slot aM 1 1).view.set]{fullShare} f) ∗ (∃ f, (slot aM 2 0).view.loc (c : Thread nD τ) ↦[(slot aM 2 0).view.set]{fullShare} f) ∗ (∃ f, (slot aM 2 1).view.loc (c : Thread nD τ) ↦[(slot aM 2 1).view.set]{fullShare} f) ∗ reachedAll (F := F) c 1) := by
  rw [payload_bar_true]; unfold barPayT slotAny slotPts; rw [nxt_prv]
theorem pay_bar_nxt (c : Dev nD) : (Rd (F := F) m).payload (regCell (nxt c) barS) 0 false
    = iprop((∃ f, (slot bM 0 0).view.loc (c : Thread nD τ) ↦[(slot bM 0 0).view.set]{fullShare} f) ∗ (∃ f, (slot bM 0 1).view.loc (c : Thread nD τ) ↦[(slot bM 0 1).view.set]{fullShare} f) ∗ (∃ f, (slot bM 1 0).view.loc (c : Thread nD τ) ↦[(slot bM 1 0).view.set]{fullShare} f) ∗ (∃ f, (slot bM 1 1).view.loc (c : Thread nD τ) ↦[(slot bM 1 1).view.set]{fullShare} f) ∗ (∃ f, (slot bM 2 0).view.loc (c : Thread nD τ) ↦[(slot bM 2 0).view.set]{fullShare} f) ∗ (∃ f, (slot bM 2 1).view.loc (c : Thread nD τ) ↦[(slot bM 2 1).view.set]{fullShare} f) ∗ reachedAll (F := F) c 3) := by
  rw [payload_bar_false]; unfold barPayF slotAny slotPts; rw [prv_nxt]

theorem owed0 (c : Dev nD) : owed c 0 = owed c 1 + tallyAt (regCell (prv c) barS) () (1#32).toNat := owed_succ c 0 (by decide)
theorem owed1 (c : Dev nD) : owed c 1 = owed c 2 + tallyAt (regCell (nxt c) barS) () (1#32).toNat := owed_succ c 1 (by decide)
theorem owed2 (c : Dev nD) : owed c 2 = owed c 3 + tallyAt (dcell (nxt c) 1 0 0) () N := owed_succ c 2 (by decide)
theorem owed3 (c : Dev nD) : owed c 3 = owed c 4 + tallyAt (dcell (prv c) 3 0 0) () N := owed_succ c 3 (by decide)
theorem owed4 (c : Dev nD) : owed c 4 = owed c 5 + tallyAt (dcell (nxt c) 1 0 1) () N := owed_succ c 4 (by decide)
theorem owed5 (c : Dev nD) : owed c 5 = owed c 6 + tallyAt (dcell (prv c) 3 0 1) () N := owed_succ c 5 (by decide)
theorem owed6 (c : Dev nD) : owed c 6 = owed c 7 + tallyAt (dcell (nxt c) 1 1 0) () N := owed_succ c 6 (by decide)
theorem owed7 (c : Dev nD) : owed c 7 = owed c 8 + tallyAt (dcell (prv c) 3 1 0) () N := owed_succ c 7 (by decide)
theorem owed8 (c : Dev nD) : owed c 8 = owed c 9 + tallyAt (dcell (nxt c) 1 1 1) () N := owed_succ c 8 (by decide)
theorem owed9 (c : Dev nD) : owed c 9 = owed c 10 + tallyAt (dcell (prv c) 3 1 1) () N := owed_succ c 9 (by decide)
theorem owed10 (c : Dev nD) : owed c 10 = owed c 11 + tallyAt (dcell (nxt c) 1 2 0) () N := owed_succ c 10 (by decide)
theorem owed11 (c : Dev nD) : owed c 11 = owed c 12 + tallyAt (dcell (prv c) 3 2 0) () N := owed_succ c 11 (by decide)
theorem owed12 (c : Dev nD) : owed c 12 = owed c 13 + tallyAt (dcell (nxt c) 1 2 1) () N := owed_succ c 12 (by decide)
theorem owed13 (c : Dev nD) : owed c 13 = owed c 14 + tallyAt (dcell (prv c) 3 2 1) () N := owed_succ c 13 (by decide)
theorem owed14 (c : Dev nD) : owed c 14 = owed c 15 + tallyAt (regCell (prv c) endS) () (1#32).toNat := owed_succ c 14 (by decide)
theorem owed15 (c : Dev nD) : owed c 15 = owed c 16 + tallyAt (regCell (nxt c) endS) () (1#32).toNat := owed_succ c 15 (by decide)

omit [FloatOps F] in
theorem peel {O O' : CellTallies nD τ sig Unit} (h : O = O') (c : Dev nD) (W : Waits sig Unit) :
    (owes (c : Thread nD τ) O W : sProp 𝕄) ⊢ owes (c : Thread nD τ) O' W := Entails.of_eq (by rw [h])

/-- A part of the state set aside until the end. -/
def aside (P : sProp 𝕄) : sProp 𝕄 := P
omit [FloatOps F] in
theorem aside_eq (P : sProp 𝕄) : aside P = P := rfl

theorem round_dma (c : Dev nD) (a : Fin 4) (h : Fin 3) (p : Fin 2) :
    bigSep ((Rd (F := F) m).duties (dcell c a h p) 0) (fun d => (Rd (F := F) m).payload (dcell c a h p) 0 d) = dpay m c a h p := by
  rw [duties_dma, bigSep_singleton, payload_dma]

theorem bar_open (c : Dev nD) : (bigSep Finset.univ fun d : Bool => (Rd (F := F) m).payload (regCell c barS) 0 d) = iprop(barPayF c ∗ barPayT c) := by
  rw [bigSep_univ_eq_bigSepL [false, true] (by decide) (by decide), bigSepL_cons_cons, bigSepL_singleton, payload_bar_false, payload_bar_true]
  rfl

/-! ## The stored pieces: what is loaded, multiplied and stored is each piece -/

omit [FloatOps F] in
theorem zeros2 : (![0, 0] : Fin 2 → Nat) = fun _ => 0 := funext fun a => by fin_cases a <;> rfl
omit [FloatOps F] in
theorem readX (f : (cc0_stg0_0 : Ref sig .tc).ty.Contents (Elt F)) :
    xM.view.readAt (Elt F) (Rect.unit (s := S512x2048) ![0, 0] S512x2048.size inb_S512x2048_S512x2048_0_0).toLoadRect f = f :=
  Memref.readAt_unit_zero (Elt F) cc0_stg0_0 zeros2 _ f
omit [FloatOps F] in
theorem readW (f : (cc0_stg1_0 : Ref sig .tc).ty.Contents (Elt F)) :
    wM.view.readAt (Elt F) (Rect.unit (s := S2048x512) ![0, 0] S2048x512.size inb_S2048x512_S2048x512_0_0).toLoadRect f = f :=
  Memref.readAt_unit_zero (Elt F) cc0_stg1_0 zeros2 _ f

/-- The device's own rows: both operands are loaded whole. -/
theorem pieceOwn_eq (c : Dev nD) :
    (⟨Rect.unit (s := S2048x512) (k0_off1 c) S512x512.size (k0_off1_inb c),
      k0_pay1 (xM.view.readAt (Elt F) (Rect.unit (s := S512x2048) ![0, 0] S512x2048.size inb_S512x2048_S512x2048_0_0).toLoadRect (X m c))
        (wM.view.readAt (Elt F) (Rect.unit (s := S2048x512) ![0, 0] S2048x512.size inb_S2048x512_S2048x512_0_0).toLoadRect (Wt m c))⟩ : OPiece (F := F))
      = pieceOwn m c := by
  unfold pieceOwn; rw [readX, readW]

/-- A piece the rightward road delivered: the slot is loaded through the whole landing buffer at the slot's rectangle,
    which reads, reshaped, what the slot's own view reads. -/
theorem pieceR_eq (c : Dev nD) (h : Fin 3) (p : Fin 2) (fr : Buf (Elt F) ((slot aM h p).view.loc (c : Thread nD τ)))
    (hfr : (slot aM h p).view.read (Elt F) fr = srcR m c h p)
    (k : Vec F S1x1x128x2048 .f32 → Vec F S2048x512 .f32 → FVec F S128x512 .f32)
    (hk : ∀ v w, k v w = mmP (shapeCast S128x2048 v shapeCasts_S1x1x128x2048_S128x2048) w) :
    (⟨Rect.unit (s := S2048x512) (k0_off2 c (BitVec.ofNat 32 h.val) (BitVec.ofNat 32 (128 * p.val))) S128x512.size (k0_off2_inb c h p),
      k (aM.view.readAt (Elt F) (Rect.unit (s := S3x2x128x2048) ![h.val, p.val, 0, 0] S1x1x128x2048.size (inb_s h p)).toLoadRect fr)
        (wM.view.readAt (Elt F) (Rect.unit (s := S2048x512) ![0, 0] S2048x512.size inb_S2048x512_S2048x512_0_0).toLoadRect (Wt m c))⟩ : OPiece (F := F))
      = pieceR m c h p := by
  unfold pieceR
  rw [hk, readW, ← hfr]
  rfl

/-- A piece the leftward road delivered. -/
theorem pieceL_eq (c : Dev nD) (h : Fin 3) (p : Fin 2) (fl : Buf (Elt F) ((slot bM h p).view.loc (c : Thread nD τ)))
    (hfl : (slot bM h p).view.read (Elt F) fl = srcL m c h p)
    (k : Vec F S1x1x128x2048 .f32 → Vec F S2048x512 .f32 → FVec F S128x512 .f32)
    (hk : ∀ v w, k v w = mmP (shapeCast S128x2048 v shapeCasts_S1x1x128x2048_S128x2048) w) :
    (⟨Rect.unit (s := S2048x512) (k0_off3 c (BitVec.ofNat 32 h.val) (BitVec.ofNat 32 (128 * p.val))) S128x512.size (k0_off3_inb c h p),
      k (bM.view.readAt (Elt F) (Rect.unit (s := S3x2x128x2048) ![h.val, p.val, 0, 0] S1x1x128x2048.size (inb_s h p)).toLoadRect fl)
        (wM.view.readAt (Elt F) (Rect.unit (s := S2048x512) ![0, 0] S2048x512.size inb_S2048x512_S2048x512_0_0).toLoadRect (Wt m c))⟩ : OPiece (F := F))
      = pieceL m c h p := by
  unfold pieceL
  rw [hk, readW, ← hfl]
  rfl

/-- Thirteen stores that are the thirteen pieces leave the result at its stated contents, whatever was there before. -/
theorem out_final (c : Dev nD) (g : (cc0_stg2_0 : Ref sig .tc).ty.Contents (Elt F)) (Lx : List (OPiece (F := F))) (hL : Lx = Lout m c) :
    oM.view.writes (Elt F) g Lx = outAt m c := by
  subst hL; exact out_any_base m c g

/-- A cell's invariant, and that it stands at round 0, out of the record, with the cell spelt as it is used. -/
theorem inv_at' (K : Dev nD × CI → ℕ) (ck : Dev nD × CI) (g : GSem nD τ sig) (hg : kcell ck = g) : records m K ⊢ cellInv ER (Rd m) (K ck) g := by
  subst hg; exact inv_at m K ck
theorem reached_at' (K : Dev nD × CI → ℕ) (ck : Dev nD × CI) (g : GSem nD τ sig) (hg : kcell ck = g) : records m K ⊢ reached ER g 0 := by
  subst hg; exact reached_at m K ck

theorem reachedAll_of (K : Dev nD × CI → ℕ) (c : Dev nD) (a : Fin 4) : records m K ⊢ reachedAll (F := F) c a := by
  unfold reachedAll
  exact (BI.bigSep_of_persistent Finset.univ (records m K)).trans
    (bigSep_mono fun t _ => reached_at m K (c, .inr (a, t.1, t.2)))

omit [FloatOps F] in
theorem credits_eq (c : Dev nD) : credits (F := F) c = iprop(cred (tallyAt (regCell c barS) () 2) ∗ cred (tallyAt (regCell c endS) () 2) ∗ (cred (tallyAt (dcell c 1 0 0) () N) ∗ cred (tallyAt (dcell c 1 0 1) () N) ∗ cred (tallyAt (dcell c 1 1 0) () N) ∗ cred (tallyAt (dcell c 1 1 1) () N) ∗ cred (tallyAt (dcell c 1 2 0) () N) ∗ cred (tallyAt (dcell c 1 2 1) () N)) ∗ (cred (tallyAt (dcell c 3 0 0) () N) ∗ cred (tallyAt (dcell c 3 0 1) () N) ∗ cred (tallyAt (dcell c 3 1 0) () N) ∗ cred (tallyAt (dcell c 3 1 1) () N) ∗ cred (tallyAt (dcell c 3 2 0) () N) ∗ cred (tallyAt (dcell c 3 2 1) () N))) := by
  unfold credits; rw [bigSep_hp, bigSep_hp]

/-! ## The last step -/

set_option maxHeartbeats 1600000 in
theorem finish (K : Dev nD × CI → ℕ) (c : Dev nD)
    (fr00 : Buf (Elt F) ((slot aM 0 0).view.loc (c : Thread nD τ))) (fr01 : Buf (Elt F) ((slot aM 0 1).view.loc (c : Thread nD τ))) (fr10 : Buf (Elt F) ((slot aM 1 0).view.loc (c : Thread nD τ))) (fr11 : Buf (Elt F) ((slot aM 1 1).view.loc (c : Thread nD τ))) (fr20 : Buf (Elt F) ((slot aM 2 0).view.loc (c : Thread nD τ))) (fr21 : Buf (Elt F) ((slot aM 2 1).view.loc (c : Thread nD τ)))
    (fl00 : Buf (Elt F) ((slot bM 0 0).view.loc (c : Thread nD τ))) (fl01 : Buf (Elt F) ((slot bM 0 1).view.loc (c : Thread nD τ))) (fl10 : Buf (Elt F) ((slot bM 1 0).view.loc (c : Thread nD τ))) (fl11 : Buf (Elt F) ((slot bM 1 1).view.loc (c : Thread nD τ))) (fl20 : Buf (Elt F) ((slot bM 2 0).view.loc (c : Thread nD τ))) (fl21 : Buf (Elt F) ((slot bM 2 1).view.loc (c : Thread nD τ)))
    (A0 : Buf (Elt F) (aM.view.loc (c : Thread nD τ))) (B0 : Buf (Elt F) (bM.view.loc (c : Thread nD τ))) (W : Waits sig Unit) :
    iprop(records m K
        ∗ atPos ER (regCell c endS) 1 ∅ 0
        ∗ atPos ER (dcell c 0 0 0) 1 ∅ 0
        ∗ atPos ER (dcell c 0 0 1) 1 ∅ 0
        ∗ atPos ER (dcell c 0 1 0) 1 ∅ 0
        ∗ atPos ER (dcell c 0 1 1) 1 ∅ 0
        ∗ atPos ER (dcell c 0 2 0) 1 ∅ 0
        ∗ atPos ER (dcell c 0 2 1) 1 ∅ 0
        ∗ atPos ER (dcell c 1 0 0) 1 ∅ 0
        ∗ atPos ER (dcell c 1 0 1) 1 ∅ 0
        ∗ atPos ER (dcell c 1 1 0) 1 ∅ 0
        ∗ atPos ER (dcell c 1 1 1) 1 ∅ 0
        ∗ atPos ER (dcell c 1 2 0) 1 ∅ 0
        ∗ atPos ER (dcell c 1 2 1) 1 ∅ 0
        ∗ atPos ER (dcell c 2 0 0) 1 ∅ 0
        ∗ atPos ER (dcell c 2 0 1) 1 ∅ 0
        ∗ atPos ER (dcell c 2 1 0) 1 ∅ 0
        ∗ atPos ER (dcell c 2 1 1) 1 ∅ 0
        ∗ atPos ER (dcell c 2 2 0) 1 ∅ 0
        ∗ atPos ER (dcell c 2 2 1) 1 ∅ 0
        ∗ atPos ER (dcell c 3 0 0) 1 ∅ 0
        ∗ atPos ER (dcell c 3 0 1) 1 ∅ 0
        ∗ atPos ER (dcell c 3 1 0) 1 ∅ 0
        ∗ atPos ER (dcell c 3 1 1) 1 ∅ 0
        ∗ atPos ER (dcell c 3 2 0) 1 ∅ 0
        ∗ atPos ER (dcell c 3 2 1) 1 ∅ 0
        ∗ (bigSep ((Rd (F := F) m).duties (dcell c 0 0 0) 0) fun d => (Rd (F := F) m).payload (dcell c 0 0 0) 0 d)
        ∗ (bigSep ((Rd (F := F) m).duties (dcell c 0 0 1) 0) fun d => (Rd (F := F) m).payload (dcell c 0 0 1) 0 d)
        ∗ (bigSep ((Rd (F := F) m).duties (dcell c 0 1 0) 0) fun d => (Rd (F := F) m).payload (dcell c 0 1 0) 0 d)
        ∗ (bigSep ((Rd (F := F) m).duties (dcell c 0 1 1) 0) fun d => (Rd (F := F) m).payload (dcell c 0 1 1) 0 d)
        ∗ (bigSep ((Rd (F := F) m).duties (dcell c 0 2 0) 0) fun d => (Rd (F := F) m).payload (dcell c 0 2 0) 0 d)
        ∗ (bigSep ((Rd (F := F) m).duties (dcell c 0 2 1) 0) fun d => (Rd (F := F) m).payload (dcell c 0 2 1) 0 d)
        ∗ (bigSep ((Rd (F := F) m).duties (dcell c 2 0 0) 0) fun d => (Rd (F := F) m).payload (dcell c 2 0 0) 0 d)
        ∗ (bigSep ((Rd (F := F) m).duties (dcell c 2 0 1) 0) fun d => (Rd (F := F) m).payload (dcell c 2 0 1) 0 d)
        ∗ (bigSep ((Rd (F := F) m).duties (dcell c 2 1 0) 0) fun d => (Rd (F := F) m).payload (dcell c 2 1 0) 0 d)
        ∗ (bigSep ((Rd (F := F) m).duties (dcell c 2 1 1) 0) fun d => (Rd (F := F) m).payload (dcell c 2 1 1) 0 d)
        ∗ (bigSep ((Rd (F := F) m).duties (dcell c 2 2 0) 0) fun d => (Rd (F := F) m).payload (dcell c 2 2 0) 0 d)
        ∗ (bigSep ((Rd (F := F) m).duties (dcell c 2 2 1) 0) fun d => (Rd (F := F) m).payload (dcell c 2 2 1) 0 d)
        ∗ ((slot aM 0 0).view.loc (c : Thread nD τ) ↦[(slot aM 0 0).view.set]{fullShare.right} fr00)
        ∗ ((slot aM 0 1).view.loc (c : Thread nD τ) ↦[(slot aM 0 1).view.set]{fullShare.right} fr01)
        ∗ ((slot aM 1 0).view.loc (c : Thread nD τ) ↦[(slot aM 1 0).view.set]{fullShare.right} fr10)
        ∗ ((slot aM 1 1).view.loc (c : Thread nD τ) ↦[(slot aM 1 1).view.set]{fullShare.right} fr11)
        ∗ ((slot aM 2 0).view.loc (c : Thread nD τ) ↦[(slot aM 2 0).view.set]{fullShare} fr20)
        ∗ ((slot aM 2 1).view.loc (c : Thread nD τ) ↦[(slot aM 2 1).view.set]{fullShare} fr21)
        ∗ ((slot bM 0 0).view.loc (c : Thread nD τ) ↦[(slot bM 0 0).view.set]{fullShare.right} fl00)
        ∗ ((slot bM 0 1).view.loc (c : Thread nD τ) ↦[(slot bM 0 1).view.set]{fullShare.right} fl01)
        ∗ ((slot bM 1 0).view.loc (c : Thread nD τ) ↦[(slot bM 1 0).view.set]{fullShare.right} fl10)
        ∗ ((slot bM 1 1).view.loc (c : Thread nD τ) ↦[(slot bM 1 1).view.set]{fullShare.right} fl11)
        ∗ ((slot bM 2 0).view.loc (c : Thread nD τ) ↦[(slot bM 2 0).view.set]{fullShare} fl20)
        ∗ ((slot bM 2 1).view.loc (c : Thread nD τ) ↦[(slot bM 2 1).view.set]{fullShare} fl21)
        ∗ aside ((aM.view.loc (c : Thread nD τ)) ↦[Finset.univ \ slotsAll aM]{fullShare} A0)
        ∗ aside ((bM.view.loc (c : Thread nD τ)) ↦[Finset.univ \ slotsAll bM]{fullShare} B0)
        ∗ ((xM.view.loc (c : Thread nD τ)) ↦{fullShare.right} X m c)
        ∗ aside ((xM.view.loc (c : Thread nD τ)) ↦[Finset.univ \ xAll]{fullShare.left} X m c)
        ∗ owes (c : Thread nD τ) (owed c 16) W)
      ⊢ |={Set.univ}=> iprop(Φ₁ (F := F) c ∗ owes (c : Thread nD τ) 0 W ∗ ((xM.view.loc (c : Thread nD τ)) ↦{fullShare} X m c)) := by
  iintro ⟨#HR, Haec, Had000, Had001, Had010, Had011, Had020, Had021, Had100, Had101, Had110, Had111, Had120, Had121, Had200, Had201, Had210, Had211, Had220, Had221, Had300, Had301, Had310, Had311, Had320, Had321, Hpay000, Hpay001, Hpay010, Hpay011, Hpay020, Hpay021, Hpay200, Hpay201, Hpay210, Hpay211, Hpay220, Hpay221, Hsr00R, Hsr01R, Hsr10R, Hsr11R, Hsr20, Hsr21, Hsl00R, Hsl01R, Hsl10R, Hsl11R, Hsl20, Hsl21, Harest, Hbrest, HxR, Hxlrest, HO⟩
  ihave #HIec := (inv_at' m K (c, .inl true) (regCell c endS) rfl) $$ HR
  ihave #HId000 := (inv_at' m K (c, .inr (0, 0, 0)) (dcell c 0 0 0) rfl) $$ HR
  ihave #HId001 := (inv_at' m K (c, .inr (0, 0, 1)) (dcell c 0 0 1) rfl) $$ HR
  ihave #HId010 := (inv_at' m K (c, .inr (0, 1, 0)) (dcell c 0 1 0) rfl) $$ HR
  ihave #HId011 := (inv_at' m K (c, .inr (0, 1, 1)) (dcell c 0 1 1) rfl) $$ HR
  ihave #HId020 := (inv_at' m K (c, .inr (0, 2, 0)) (dcell c 0 2 0) rfl) $$ HR
  ihave #HId021 := (inv_at' m K (c, .inr (0, 2, 1)) (dcell c 0 2 1) rfl) $$ HR
  ihave #HId100 := (inv_at' m K (c, .inr (1, 0, 0)) (dcell c 1 0 0) rfl) $$ HR
  ihave #HId101 := (inv_at' m K (c, .inr (1, 0, 1)) (dcell c 1 0 1) rfl) $$ HR
  ihave #HId110 := (inv_at' m K (c, .inr (1, 1, 0)) (dcell c 1 1 0) rfl) $$ HR
  ihave #HId111 := (inv_at' m K (c, .inr (1, 1, 1)) (dcell c 1 1 1) rfl) $$ HR
  ihave #HId120 := (inv_at' m K (c, .inr (1, 2, 0)) (dcell c 1 2 0) rfl) $$ HR
  ihave #HId121 := (inv_at' m K (c, .inr (1, 2, 1)) (dcell c 1 2 1) rfl) $$ HR
  ihave #HId200 := (inv_at' m K (c, .inr (2, 0, 0)) (dcell c 2 0 0) rfl) $$ HR
  ihave #HId201 := (inv_at' m K (c, .inr (2, 0, 1)) (dcell c 2 0 1) rfl) $$ HR
  ihave #HId210 := (inv_at' m K (c, .inr (2, 1, 0)) (dcell c 2 1 0) rfl) $$ HR
  ihave #HId211 := (inv_at' m K (c, .inr (2, 1, 1)) (dcell c 2 1 1) rfl) $$ HR
  ihave #HId220 := (inv_at' m K (c, .inr (2, 2, 0)) (dcell c 2 2 0) rfl) $$ HR
  ihave #HId221 := (inv_at' m K (c, .inr (2, 2, 1)) (dcell c 2 2 1) rfl) $$ HR
  ihave #HId300 := (inv_at' m K (c, .inr (3, 0, 0)) (dcell c 3 0 0) rfl) $$ HR
  ihave #HId301 := (inv_at' m K (c, .inr (3, 0, 1)) (dcell c 3 0 1) rfl) $$ HR
  ihave #HId310 := (inv_at' m K (c, .inr (3, 1, 0)) (dcell c 3 1 0) rfl) $$ HR
  ihave #HId311 := (inv_at' m K (c, .inr (3, 1, 1)) (dcell c 3 1 1) rfl) $$ HR
  ihave #HId320 := (inv_at' m K (c, .inr (3, 2, 0)) (dcell c 3 2 0) rfl) $$ HR
  ihave #HId321 := (inv_at' m K (c, .inr (3, 2, 1)) (dcell c 3 2 1) rfl) $$ HR
  imod (Rounds.cell_close ER (Rd m) (Set.mem_univ (K (c, .inl true))) (fun h => h) (R := 1) (duties_later m (regCell c endS))) $$ [Haec] with Hzec
  · isplitr; · iexact HIec
    iexact Haec
  imod (Rounds.cell_close ER (Rd m) (Set.mem_univ (K (c, .inr (0, 0, 0)))) (fun h => h) (R := 1) (duties_later m (dcell c 0 0 0))) $$ [Had000] with Hzd000
  · isplitr; · iexact HId000
    iexact Had000
  imod (Rounds.cell_close ER (Rd m) (Set.mem_univ (K (c, .inr (0, 0, 1)))) (fun h => h) (R := 1) (duties_later m (dcell c 0 0 1))) $$ [Had001] with Hzd001
  · isplitr; · iexact HId001
    iexact Had001
  imod (Rounds.cell_close ER (Rd m) (Set.mem_univ (K (c, .inr (0, 1, 0)))) (fun h => h) (R := 1) (duties_later m (dcell c 0 1 0))) $$ [Had010] with Hzd010
  · isplitr; · iexact HId010
    iexact Had010
  imod (Rounds.cell_close ER (Rd m) (Set.mem_univ (K (c, .inr (0, 1, 1)))) (fun h => h) (R := 1) (duties_later m (dcell c 0 1 1))) $$ [Had011] with Hzd011
  · isplitr; · iexact HId011
    iexact Had011
  imod (Rounds.cell_close ER (Rd m) (Set.mem_univ (K (c, .inr (0, 2, 0)))) (fun h => h) (R := 1) (duties_later m (dcell c 0 2 0))) $$ [Had020] with Hzd020
  · isplitr; · iexact HId020
    iexact Had020
  imod (Rounds.cell_close ER (Rd m) (Set.mem_univ (K (c, .inr (0, 2, 1)))) (fun h => h) (R := 1) (duties_later m (dcell c 0 2 1))) $$ [Had021] with Hzd021
  · isplitr; · iexact HId021
    iexact Had021
  imod (Rounds.cell_close ER (Rd m) (Set.mem_univ (K (c, .inr (1, 0, 0)))) (fun h => h) (R := 1) (duties_later m (dcell c 1 0 0))) $$ [Had100] with Hzd100
  · isplitr; · iexact HId100
    iexact Had100
  imod (Rounds.cell_close ER (Rd m) (Set.mem_univ (K (c, .inr (1, 0, 1)))) (fun h => h) (R := 1) (duties_later m (dcell c 1 0 1))) $$ [Had101] with Hzd101
  · isplitr; · iexact HId101
    iexact Had101
  imod (Rounds.cell_close ER (Rd m) (Set.mem_univ (K (c, .inr (1, 1, 0)))) (fun h => h) (R := 1) (duties_later m (dcell c 1 1 0))) $$ [Had110] with Hzd110
  · isplitr; · iexact HId110
    iexact Had110
  imod (Rounds.cell_close ER (Rd m) (Set.mem_univ (K (c, .inr (1, 1, 1)))) (fun h => h) (R := 1) (duties_later m (dcell c 1 1 1))) $$ [Had111] with Hzd111
  · isplitr; · iexact HId111
    iexact Had111
  imod (Rounds.cell_close ER (Rd m) (Set.mem_univ (K (c, .inr (1, 2, 0)))) (fun h => h) (R := 1) (duties_later m (dcell c 1 2 0))) $$ [Had120] with Hzd120
  · isplitr; · iexact HId120
    iexact Had120
  imod (Rounds.cell_close ER (Rd m) (Set.mem_univ (K (c, .inr (1, 2, 1)))) (fun h => h) (R := 1) (duties_later m (dcell c 1 2 1))) $$ [Had121] with Hzd121
  · isplitr; · iexact HId121
    iexact Had121
  imod (Rounds.cell_close ER (Rd m) (Set.mem_univ (K (c, .inr (2, 0, 0)))) (fun h => h) (R := 1) (duties_later m (dcell c 2 0 0))) $$ [Had200] with Hzd200
  · isplitr; · iexact HId200
    iexact Had200
  imod (Rounds.cell_close ER (Rd m) (Set.mem_univ (K (c, .inr (2, 0, 1)))) (fun h => h) (R := 1) (duties_later m (dcell c 2 0 1))) $$ [Had201] with Hzd201
  · isplitr; · iexact HId201
    iexact Had201
  imod (Rounds.cell_close ER (Rd m) (Set.mem_univ (K (c, .inr (2, 1, 0)))) (fun h => h) (R := 1) (duties_later m (dcell c 2 1 0))) $$ [Had210] with Hzd210
  · isplitr; · iexact HId210
    iexact Had210
  imod (Rounds.cell_close ER (Rd m) (Set.mem_univ (K (c, .inr (2, 1, 1)))) (fun h => h) (R := 1) (duties_later m (dcell c 2 1 1))) $$ [Had211] with Hzd211
  · isplitr; · iexact HId211
    iexact Had211
  imod (Rounds.cell_close ER (Rd m) (Set.mem_univ (K (c, .inr (2, 2, 0)))) (fun h => h) (R := 1) (duties_later m (dcell c 2 2 0))) $$ [Had220] with Hzd220
  · isplitr; · iexact HId220
    iexact Had220
  imod (Rounds.cell_close ER (Rd m) (Set.mem_univ (K (c, .inr (2, 2, 1)))) (fun h => h) (R := 1) (duties_later m (dcell c 2 2 1))) $$ [Had221] with Hzd221
  · isplitr; · iexact HId221
    iexact Had221
  imod (Rounds.cell_close ER (Rd m) (Set.mem_univ (K (c, .inr (3, 0, 0)))) (fun h => h) (R := 1) (duties_later m (dcell c 3 0 0))) $$ [Had300] with Hzd300
  · isplitr; · iexact HId300
    iexact Had300
  imod (Rounds.cell_close ER (Rd m) (Set.mem_univ (K (c, .inr (3, 0, 1)))) (fun h => h) (R := 1) (duties_later m (dcell c 3 0 1))) $$ [Had301] with Hzd301
  · isplitr; · iexact HId301
    iexact Had301
  imod (Rounds.cell_close ER (Rd m) (Set.mem_univ (K (c, .inr (3, 1, 0)))) (fun h => h) (R := 1) (duties_later m (dcell c 3 1 0))) $$ [Had310] with Hzd310
  · isplitr; · iexact HId310
    iexact Had310
  imod (Rounds.cell_close ER (Rd m) (Set.mem_univ (K (c, .inr (3, 1, 1)))) (fun h => h) (R := 1) (duties_later m (dcell c 3 1 1))) $$ [Had311] with Hzd311
  · isplitr; · iexact HId311
    iexact Had311
  imod (Rounds.cell_close ER (Rd m) (Set.mem_univ (K (c, .inr (3, 2, 0)))) (fun h => h) (R := 1) (duties_later m (dcell c 3 2 0))) $$ [Had320] with Hzd320
  · isplitr; · iexact HId320
    iexact Had320
  imod (Rounds.cell_close ER (Rd m) (Set.mem_univ (K (c, .inr (3, 2, 1)))) (fun h => h) (R := 1) (duties_later m (dcell c 3 2 1))) $$ [Had321] with Hzd321
  · isplitr; · iexact HId321
    iexact Had321
  ihave Hq000 := (Entails.of_eq (round_dma m c 0 0 0)) $$ Hpay000
  ihave Hq000 := (show dpay m c 0 0 0 ⊢ ((xP (jR 0)).view.loc (c : Thread nD τ) ↦[(xP (jR 0)).view.set]{fullShare.left} X m c : sProp 𝕄) from BI.Entails.refl _) $$ Hq000
  ihave Hq001 := (Entails.of_eq (round_dma m c 0 0 1)) $$ Hpay001
  ihave Hq001 := (show dpay m c 0 0 1 ⊢ ((xP (jR 1)).view.loc (c : Thread nD τ) ↦[(xP (jR 1)).view.set]{fullShare.left} X m c : sProp 𝕄) from BI.Entails.refl _) $$ Hq001
  ihave Hq010 := (Entails.of_eq (round_dma m c 0 1 0)) $$ Hpay010
  ihave Hq010 := (show dpay m c 0 1 0 ⊢ (iprop(∃ f : Buf (Elt F) ((slot aM 0 0).view.loc (c : Thread nD τ)), (slot aM 0 0).view.loc (c : Thread nD τ) ↦[(slot aM 0 0).view.set]{fullShare.left} f) : sProp 𝕄) from BI.Entails.refl _) $$ Hq010
  icases Hq010 with ⟨%g010, Hq010⟩
  ihave Hq011 := (Entails.of_eq (round_dma m c 0 1 1)) $$ Hpay011
  ihave Hq011 := (show dpay m c 0 1 1 ⊢ (iprop(∃ f : Buf (Elt F) ((slot aM 0 1).view.loc (c : Thread nD τ)), (slot aM 0 1).view.loc (c : Thread nD τ) ↦[(slot aM 0 1).view.set]{fullShare.left} f) : sProp 𝕄) from BI.Entails.refl _) $$ Hq011
  icases Hq011 with ⟨%g011, Hq011⟩
  ihave Hq020 := (Entails.of_eq (round_dma m c 0 2 0)) $$ Hpay020
  ihave Hq020 := (show dpay m c 0 2 0 ⊢ (iprop(∃ f : Buf (Elt F) ((slot aM 1 0).view.loc (c : Thread nD τ)), (slot aM 1 0).view.loc (c : Thread nD τ) ↦[(slot aM 1 0).view.set]{fullShare.left} f) : sProp 𝕄) from BI.Entails.refl _) $$ Hq020
  icases Hq020 with ⟨%g020, Hq020⟩
  ihave Hq021 := (Entails.of_eq (round_dma m c 0 2 1)) $$ Hpay021
  ihave Hq021 := (show dpay m c 0 2 1 ⊢ (iprop(∃ f : Buf (Elt F) ((slot aM 1 1).view.loc (c : Thread nD τ)), (slot aM 1 1).view.loc (c : Thread nD τ) ↦[(slot aM 1 1).view.set]{fullShare.left} f) : sProp 𝕄) from BI.Entails.refl _) $$ Hq021
  icases Hq021 with ⟨%g021, Hq021⟩
  ihave Hq200 := (Entails.of_eq (round_dma m c 2 0 0)) $$ Hpay200
  ihave Hq200 := (show dpay m c 2 0 0 ⊢ ((xP (jL 0)).view.loc (c : Thread nD τ) ↦[(xP (jL 0)).view.set]{fullShare.left} X m c : sProp 𝕄) from BI.Entails.refl _) $$ Hq200
  ihave Hq201 := (Entails.of_eq (round_dma m c 2 0 1)) $$ Hpay201
  ihave Hq201 := (show dpay m c 2 0 1 ⊢ ((xP (jL 1)).view.loc (c : Thread nD τ) ↦[(xP (jL 1)).view.set]{fullShare.left} X m c : sProp 𝕄) from BI.Entails.refl _) $$ Hq201
  ihave Hq210 := (Entails.of_eq (round_dma m c 2 1 0)) $$ Hpay210
  ihave Hq210 := (show dpay m c 2 1 0 ⊢ (iprop(∃ f : Buf (Elt F) ((slot bM 0 0).view.loc (c : Thread nD τ)), (slot bM 0 0).view.loc (c : Thread nD τ) ↦[(slot bM 0 0).view.set]{fullShare.left} f) : sProp 𝕄) from BI.Entails.refl _) $$ Hq210
  icases Hq210 with ⟨%g210, Hq210⟩
  ihave Hq211 := (Entails.of_eq (round_dma m c 2 1 1)) $$ Hpay211
  ihave Hq211 := (show dpay m c 2 1 1 ⊢ (iprop(∃ f : Buf (Elt F) ((slot bM 0 1).view.loc (c : Thread nD τ)), (slot bM 0 1).view.loc (c : Thread nD τ) ↦[(slot bM 0 1).view.set]{fullShare.left} f) : sProp 𝕄) from BI.Entails.refl _) $$ Hq211
  icases Hq211 with ⟨%g211, Hq211⟩
  ihave Hq220 := (Entails.of_eq (round_dma m c 2 2 0)) $$ Hpay220
  ihave Hq220 := (show dpay m c 2 2 0 ⊢ (iprop(∃ f : Buf (Elt F) ((slot bM 1 0).view.loc (c : Thread nD τ)), (slot bM 1 0).view.loc (c : Thread nD τ) ↦[(slot bM 1 0).view.set]{fullShare.left} f) : sProp 𝕄) from BI.Entails.refl _) $$ Hq220
  icases Hq220 with ⟨%g220, Hq220⟩
  ihave Hq221 := (Entails.of_eq (round_dma m c 2 2 1)) $$ Hpay221
  ihave Hq221 := (show dpay m c 2 2 1 ⊢ (iprop(∃ f : Buf (Elt F) ((slot bM 1 1).view.loc (c : Thread nD τ)), (slot bM 1 1).view.loc (c : Thread nD τ) ↦[(slot bM 1 1).view.set]{fullShare.left} f) : sProp 𝕄) from BI.Entails.refl _) $$ Hq221
  icases Hq221 with ⟨%g221, Hq221⟩
  ihave Hxlrest := (Entails.of_eq (aside_eq _)) $$ Hxlrest
  ihave HxL := (x_join c fullShare.left (X m c)) $$ [Hq000 Hq001 Hq200 Hq201 Hxlrest]
  · isplitr [Hxlrest]
    · isplitl [Hq000]; · iexact Hq000
      isplitl [Hq001]; · iexact Hq001
      isplitl [Hq200]; · iexact Hq200
      iexact Hq201
    · iexact Hxlrest
  ihave Hx := (halves (ℓ := xM.view.loc (c : Thread nD τ)) Finset.univ fullShare (X m c)).2 $$ [HxL HxR]
  · isplitl [HxL]; · iexact HxL
    iexact HxR
  ihave Hsr00 := (halves_join (slot aM 0 0).view.set fullShare fr00 g010) $$ [Hq010 Hsr00R]
  · isplitl [Hq010]; · iexact Hq010
    iexact Hsr00R
  ihave Hsr01 := (halves_join (slot aM 0 1).view.set fullShare fr01 g011) $$ [Hq011 Hsr01R]
  · isplitl [Hq011]; · iexact Hq011
    iexact Hsr01R
  ihave Hsr10 := (halves_join (slot aM 1 0).view.set fullShare fr10 g020) $$ [Hq020 Hsr10R]
  · isplitl [Hq020]; · iexact Hq020
    iexact Hsr10R
  ihave Hsr11 := (halves_join (slot aM 1 1).view.set fullShare fr11 g021) $$ [Hq021 Hsr11R]
  · isplitl [Hq021]; · iexact Hq021
    iexact Hsr11R
  ihave Harest := (Entails.of_eq (aside_eq _)) $$ Harest
  ihave HwholeaM := (slots_join6 aM c fr00 fr01 fr10 fr11 fr20 fr21 A0) $$ [Hsr00 Hsr01 Hsr10 Hsr11 Hsr20 Hsr21 Harest]
  · unfold slotPts
    isplitr [Harest]
    · isplitl [Hsr00]; · iexact Hsr00
      isplitl [Hsr01]; · iexact Hsr01
      isplitl [Hsr10]; · iexact Hsr10
      isplitl [Hsr11]; · iexact Hsr11
      isplitl [Hsr20]; · iexact Hsr20
      iexact Hsr21
    · iexact Harest
  ihave Hsl00 := (halves_join (slot bM 0 0).view.set fullShare fl00 g210) $$ [Hq210 Hsl00R]
  · isplitl [Hq210]; · iexact Hq210
    iexact Hsl00R
  ihave Hsl01 := (halves_join (slot bM 0 1).view.set fullShare fl01 g211) $$ [Hq211 Hsl01R]
  · isplitl [Hq211]; · iexact Hq211
    iexact Hsl01R
  ihave Hsl10 := (halves_join (slot bM 1 0).view.set fullShare fl10 g220) $$ [Hq220 Hsl10R]
  · isplitl [Hq220]; · iexact Hq220
    iexact Hsl10R
  ihave Hsl11 := (halves_join (slot bM 1 1).view.set fullShare fl11 g221) $$ [Hq221 Hsl11R]
  · isplitl [Hq221]; · iexact Hq221
    iexact Hsl11R
  ihave Hbrest := (Entails.of_eq (aside_eq _)) $$ Hbrest
  ihave HwholebM := (slots_join6 bM c fl00 fl01 fl10 fl11 fl20 fl21 B0) $$ [Hsl00 Hsl01 Hsl10 Hsl11 Hsl20 Hsl21 Hbrest]
  · unfold slotPts
    isplitr [Hbrest]
    · isplitl [Hsl00]; · iexact Hsl00
      isplitl [Hsl01]; · iexact Hsl01
      isplitl [Hsl10]; · iexact Hsl10
      isplitl [Hsl11]; · iexact Hsl11
      isplitl [Hsl20]; · iexact Hsl20
      iexact Hsl21
    · iexact Hbrest
  ihave HO := (peel (owed_done c) c _) $$ HO
  imodintro
  unfold Φ₁
  isplitr [HO Hx]
  · isplitl [HwholeaM]; · iexact HwholeaM
    isplitl [HwholebM]; · iexact HwholebM
    iapply (Entails.of_eq (ownSems_eq (F := F) c).symm)
    isplitl [Hzec]; · iexact Hzec
    isplitl [Hzd000]; · iexact Hzd000
    isplitl [Hzd001]; · iexact Hzd001
    isplitl [Hzd010]; · iexact Hzd010
    isplitl [Hzd011]; · iexact Hzd011
    isplitl [Hzd020]; · iexact Hzd020
    isplitl [Hzd021]; · iexact Hzd021
    isplitl [Hzd100]; · iexact Hzd100
    isplitl [Hzd101]; · iexact Hzd101
    isplitl [Hzd110]; · iexact Hzd110
    isplitl [Hzd111]; · iexact Hzd111
    isplitl [Hzd120]; · iexact Hzd120
    isplitl [Hzd121]; · iexact Hzd121
    isplitl [Hzd200]; · iexact Hzd200
    isplitl [Hzd201]; · iexact Hzd201
    isplitl [Hzd210]; · iexact Hzd210
    isplitl [Hzd211]; · iexact Hzd211
    isplitl [Hzd220]; · iexact Hzd220
    isplitl [Hzd221]; · iexact Hzd221
    isplitl [Hzd300]; · iexact Hzd300
    isplitl [Hzd301]; · iexact Hzd301
    isplitl [Hzd310]; · iexact Hzd310
    isplitl [Hzd311]; · iexact Hzd311
    isplitl [Hzd320]; · iexact Hzd320
    iexact Hzd321
  · isplitl [HO]; · iexact HO
    iexact Hx

end Cert.KernelIdeal.Ag

end
-- ==== Proof.Body.lean ====
/-
  One device's body, from what it holds at the start to what it hands back.

  In program order: the entry handshake (a signal to each neighbour, handing over the landing slots the neighbour will
  write; a wait for both neighbours' signals, which hand over theirs); the four first hops, each lending half of a piece
  of the device's own block; the device's own product; then, hop by hop and piece by piece on both roads, the wait for a
  slot, its forwarding at half its share while a further hop remains, and its product with the weights stored at the rows
  it came from; the waits for the twelve departures, which give the lent halves back; the closing handshake. What a
  transfer's arrival hands the neighbour is a statement about the slot's new contents: it reads the piece sent.
-/
import proofs.«900337_g7700000000000338_dist_ag_gemm_m2048_k2048_n2048_f32_none_v7x_i4_1_alg».proof.Proof.Steps
import proofs.«900337_g7700000000000338_dist_ag_gemm_m2048_k2048_n2048_f32_none_v7x_i4_1_alg».proof.Proof.Gen.KernelIdeal.Skeleton

set_option maxRecDepth 16384

noncomputable section

namespace Cert.KernelIdeal.Ag

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

attribute [local sl_rounds] duties_reg duties_dma amount_reg amount_dma expect_reg expect_dma pay_bar_prv pay_bar_nxt payload_end payload_dma

abbrev stg (c : Dev nD) (b : Ref sig .tc) (Xc : b.ty.Contents (Elt F)) : sProp 𝕄 :=
  iprop(∃ f : Buf (Elt F) (((c : Dev nD) : Thread nD τ).loc b), ⌜f = Xc⌝ ∗ (((c : Thread nD τ).loc b) ↦{fullShare} f))

def bodyPre (K : Dev nD × CI → ℕ) (c : Dev nD) : sProp 𝕄 :=
  iprop((ghost m K c ∗ credits (F := F) c ∗ levAts L lv ∗ (∃ f, (aM.view.loc (c : Thread nD τ)) ↦{fullShare} f) ∗ (∃ f, (bM.view.loc (c : Thread nD τ)) ↦{fullShare} f))
    ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ (F := F) c ∗ (dats m ρ 0 c).owesAt () t0_0.succ ∗ stg c cc0_stg0_0 (X m c) ∗ stg c cc0_stg1_0 (Wt m c) ∗ stg c cc0_stg2_0 (outAt m c))

set_option maxHeartbeats 8000000 in
theorem sound_body (K : Dev nD × CI → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3 cc0_scratch4 cc0_scratch5 cc0_scoped0) Kt := by
  unfold bodyPre ghost
  iintro ⟨⟨⟨⟨#HR, Hpos, Htoks⟩, Hcreds, #Hlev, ⟨%A0, Ha⟩, ⟨%B0, Hb⟩⟩, Ho', ⟨%d0, %g0, %hg0, Hx⟩, ⟨%d1, %g1, %hg1, Hw⟩, ⟨%d2, %g2, %hg2, Ho⟩⟩, Hk⟩
  have hx : g0 = X m c := by rw [hg0]; unfold Dat.before; rw [if_pos (fetch0_0 t0_0)]; rfl
  have hw : g1 = Wt m c := by rw [hg1]; unfold Dat.before; rw [if_pos (fetch0_1 t0_0)]; rfl
  subst hx hw
  unfold Dat.owesAt Pipeline.owesWithin
  icases Ho' with ⟨%W, %hW, HO⟩
  rw [show (dats m ρ 0 c).owed t0_0.castSucc = owed c 0 from rfl]
  -- the families, member by member
  ihave Hpos := (Entails.of_eq (positions_eq (F := F) c)) $$ Hpos
  icases Hpos with ⟨Habc, Haec, Had000, Had001, Had010, Had011, Had020, Had021, Had100, Had101, Had110, Had111, Had120, Had121, Had200, Had201, Had210, Had211, Had220, Had221, Had300, Had301, Had310, Had311, Had320, Had321⟩
  ihave Htoks := (Entails.of_eq (payToks_eq (F := F) c)) $$ Htoks
  icases Htoks with ⟨Htbp, Htbn, Htep, Hten, Htd000, Htd001, Htd010, Htd011, Htd020, Htd021, Htrn00, Htrn01, Htrn10, Htrn11, Htrn20, Htrn21, Htd200, Htd201, Htd210, Htd211, Htd220, Htd221, Htrp00, Htrp01, Htrp10, Htrp11, Htrp20, Htrp21⟩
  ihave Hcreds := (Entails.of_eq (credits_eq (F := F) c)) $$ Hcreds
  icases Hcreds with ⟨Hcbc, Hcec, ⟨Hcd100, Hcd101, Hcd110, Hcd111, Hcd120, Hcd121⟩, ⟨Hcd300, Hcd301, Hcd310, Hcd311, Hcd320, Hcd321⟩⟩
  ihave #HIbc := (inv_at' m K (c, .inl false) (regCell c barS) rfl) $$ HR
  ihave #HIec := (inv_at' m K (c, .inl true) (regCell c endS) rfl) $$ HR
  ihave #HId000 := (inv_at' m K (c, .inr (0, 0, 0)) (dcell c 0 0 0) rfl) $$ HR
  ihave #HId001 := (inv_at' m K (c, .inr (0, 0, 1)) (dcell c 0 0 1) rfl) $$ HR
  ihave #HId010 := (inv_at' m K (c, .inr (0, 1, 0)) (dcell c 0 1 0) rfl) $$ HR
  ihave #HId011 := (inv_at' m K (c, .inr (0, 1, 1)) (dcell c 0 1 1) rfl) $$ HR
  ihave #HId020 := (inv_at' m K (c, .inr (0, 2, 0)) (dcell c 0 2 0) rfl) $$ HR
  ihave #HId021 := (inv_at' m K (c, .inr (0, 2, 1)) (dcell c 0 2 1) rfl) $$ HR
  ihave #HId100 := (inv_at' m K (c, .inr (1, 0, 0)) (dcell c 1 0 0) rfl) $$ HR
  ihave #HId101 := (inv_at' m K (c, .inr (1, 0, 1)) (dcell c 1 0 1) rfl) $$ HR
  ihave #HId110 := (inv_at' m K (c, .inr (1, 1, 0)) (dcell c 1 1 0) rfl) $$ HR
  ihave #HId111 := (inv_at' m K (c, .inr (1, 1, 1)) (dcell c 1 1 1) rfl) $$ HR
  ihave #HId120 := (inv_at' m K (c, .inr (1, 2, 0)) (dcell c 1 2 0) rfl) $$ HR
  ihave #HId121 := (inv_at' m K (c, .inr (1, 2, 1)) (dcell c 1 2 1) rfl) $$ HR
  ihave #HId200 := (inv_at' m K (c, .inr (2, 0, 0)) (dcell c 2 0 0) rfl) $$ HR
  ihave #HId201 := (inv_at' m K (c, .inr (2, 0, 1)) (dcell c 2 0 1) rfl) $$ HR
  ihave #HId210 := (inv_at' m K (c, .inr (2, 1, 0)) (dcell c 2 1 0) rfl) $$ HR
  ihave #HId211 := (inv_at' m K (c, .inr (2, 1, 1)) (dcell c 2 1 1) rfl) $$ HR
  ihave #HId220 := (inv_at' m K (c, .inr (2, 2, 0)) (dcell c 2 2 0) rfl) $$ HR
  ihave #HId221 := (inv_at' m K (c, .inr (2, 2, 1)) (dcell c 2 2 1) rfl) $$ HR
  ihave #HId300 := (inv_at' m K (c, .inr (3, 0, 0)) (dcell c 3 0 0) rfl) $$ HR
  ihave #HId301 := (inv_at' m K (c, .inr (3, 0, 1)) (dcell c 3 0 1) rfl) $$ HR
  ihave #HId310 := (inv_at' m K (c, .inr (3, 1, 0)) (dcell c 3 1 0) rfl) $$ HR
  ihave #HId311 := (inv_at' m K (c, .inr (3, 1, 1)) (dcell c 3 1 1) rfl) $$ HR
  ihave #HId320 := (inv_at' m K (c, .inr (3, 2, 0)) (dcell c 3 2 0) rfl) $$ HR
  ihave #HId321 := (inv_at' m K (c, .inr (3, 2, 1)) (dcell c 3 2 1) rfl) $$ HR
  ihave #HIbp := (inv_at' m K (prv c, .inl false) (regCell (prv c) barS) rfl) $$ HR
  ihave #HIbn := (inv_at' m K (nxt c, .inl false) (regCell (nxt c) barS) rfl) $$ HR
  ihave #HIep := (inv_at' m K (prv c, .inl true) (regCell (prv c) endS) rfl) $$ HR
  ihave #HIen := (inv_at' m K (nxt c, .inl true) (regCell (nxt c) endS) rfl) $$ HR
  ihave #HIrn00 := (inv_at' m K (nxt c, .inr (1, 0, 0)) (dcell (nxt c) 1 0 0) rfl) $$ HR
  ihave #HIrn01 := (inv_at' m K (nxt c, .inr (1, 0, 1)) (dcell (nxt c) 1 0 1) rfl) $$ HR
  ihave #HIrn10 := (inv_at' m K (nxt c, .inr (1, 1, 0)) (dcell (nxt c) 1 1 0) rfl) $$ HR
  ihave #HIrn11 := (inv_at' m K (nxt c, .inr (1, 1, 1)) (dcell (nxt c) 1 1 1) rfl) $$ HR
  ihave #HIrn20 := (inv_at' m K (nxt c, .inr (1, 2, 0)) (dcell (nxt c) 1 2 0) rfl) $$ HR
  ihave #HIrn21 := (inv_at' m K (nxt c, .inr (1, 2, 1)) (dcell (nxt c) 1 2 1) rfl) $$ HR
  ihave #HIrp00 := (inv_at' m K (prv c, .inr (3, 0, 0)) (dcell (prv c) 3 0 0) rfl) $$ HR
  ihave #HIrp01 := (inv_at' m K (prv c, .inr (3, 0, 1)) (dcell (prv c) 3 0 1) rfl) $$ HR
  ihave #HIrp10 := (inv_at' m K (prv c, .inr (3, 1, 0)) (dcell (prv c) 3 1 0) rfl) $$ HR
  ihave #HIrp11 := (inv_at' m K (prv c, .inr (3, 1, 1)) (dcell (prv c) 3 1 1) rfl) $$ HR
  ihave #HIrp20 := (inv_at' m K (prv c, .inr (3, 2, 0)) (dcell (prv c) 3 2 0) rfl) $$ HR
  ihave #HIrp21 := (inv_at' m K (prv c, .inr (3, 2, 1)) (dcell (prv c) 3 2 1) rfl) $$ HR
  ihave #Hrbp := (reached_at' m K (prv c, .inl false) (regCell (prv c) barS) rfl) $$ HR
  ihave #Hrbn := (reached_at' m K (nxt c, .inl false) (regCell (nxt c) barS) rfl) $$ HR
  ihave #Hrep := (reached_at' m K (prv c, .inl true) (regCell (prv c) endS) rfl) $$ HR
  ihave #Hren := (reached_at' m K (nxt c, .inl true) (regCell (nxt c) endS) rfl) $$ HR
  ihave #Hrrn00 := (reached_at' m K (nxt c, .inr (1, 0, 0)) (dcell (nxt c) 1 0 0) rfl) $$ HR
  ihave #Hrrn01 := (reached_at' m K (nxt c, .inr (1, 0, 1)) (dcell (nxt c) 1 0 1) rfl) $$ HR
  ihave #Hrrn10 := (reached_at' m K (nxt c, .inr (1, 1, 0)) (dcell (nxt c) 1 1 0) rfl) $$ HR
  ihave #Hrrn11 := (reached_at' m K (nxt c, .inr (1, 1, 1)) (dcell (nxt c) 1 1 1) rfl) $$ HR
  ihave #Hrrn20 := (reached_at' m K (nxt c, .inr (1, 2, 0)) (dcell (nxt c) 1 2 0) rfl) $$ HR
  ihave #Hrrn21 := (reached_at' m K (nxt c, .inr (1, 2, 1)) (dcell (nxt c) 1 2 1) rfl) $$ HR
  ihave #Hrrp00 := (reached_at' m K (prv c, .inr (3, 0, 0)) (dcell (prv c) 3 0 0) rfl) $$ HR
  ihave #Hrrp01 := (reached_at' m K (prv c, .inr (3, 0, 1)) (dcell (prv c) 3 0 1) rfl) $$ HR
  ihave #Hrrp10 := (reached_at' m K (prv c, .inr (3, 1, 0)) (dcell (prv c) 3 1 0) rfl) $$ HR
  ihave #Hrrp11 := (reached_at' m K (prv c, .inr (3, 1, 1)) (dcell (prv c) 3 1 1) rfl) $$ HR
  ihave #Hrrp20 := (reached_at' m K (prv c, .inr (3, 2, 0)) (dcell (prv c) 3 2 0) rfl) $$ HR
  ihave #Hrrp21 := (reached_at' m K (prv c, .inr (3, 2, 1)) (dcell (prv c) 3 2 1) rfl) $$ HR
  ihave #Hrd000 := (reached_at' m K (c, .inr (0, 0, 0)) (dcell c 0 0 0) rfl) $$ HR
  ihave #Hrd001 := (reached_at' m K (c, .inr (0, 0, 1)) (dcell c 0 0 1) rfl) $$ HR
  ihave #Hrd010 := (reached_at' m K (c, .inr (0, 1, 0)) (dcell c 0 1 0) rfl) $$ HR
  ihave #Hrd011 := (reached_at' m K (c, .inr (0, 1, 1)) (dcell c 0 1 1) rfl) $$ HR
  ihave #Hrd020 := (reached_at' m K (c, .inr (0, 2, 0)) (dcell c 0 2 0) rfl) $$ HR
  ihave #Hrd021 := (reached_at' m K (c, .inr (0, 2, 1)) (dcell c 0 2 1) rfl) $$ HR
  ihave #Hrd200 := (reached_at' m K (c, .inr (2, 0, 0)) (dcell c 2 0 0) rfl) $$ HR
  ihave #Hrd201 := (reached_at' m K (c, .inr (2, 0, 1)) (dcell c 2 0 1) rfl) $$ HR
  ihave #Hrd210 := (reached_at' m K (c, .inr (2, 1, 0)) (dcell c 2 1 0) rfl) $$ HR
  ihave #Hrd211 := (reached_at' m K (c, .inr (2, 1, 1)) (dcell c 2 1 1) rfl) $$ HR
  ihave #Hrd220 := (reached_at' m K (c, .inr (2, 2, 0)) (dcell c 2 2 0) rfl) $$ HR
  ihave #Hrd221 := (reached_at' m K (c, .inr (2, 2, 1)) (dcell c 2 2 1) rfl) $$ HR
  ihave #HrA1 := (reachedAll_of m K c 1) $$ HR
  ihave #HrA3 := (reachedAll_of m K c 3) $$ HR
  -- the staging buffers, said through their memrefs
  ihave Hx := (show ((((c : Thread nD τ).loc cc0_stg0_0) ↦{fullShare} X m c : sProp 𝕄)) ⊢ ((xM.view.loc (c : Thread nD τ)) ↦{fullShare} X m c) from BI.Entails.refl _) $$ Hx
  ihave Hw := (show ((((c : Thread nD τ).loc cc0_stg1_0) ↦{fullShare} Wt m c : sProp 𝕄)) ⊢ ((wM.view.loc (c : Thread nD τ)) ↦{fullShare} Wt m c) from BI.Entails.refl _) $$ Hw
  ihave Ho := (show ((((c : Thread nD τ).loc cc0_stg2_0) ↦{fullShare} g2 : sProp 𝕄)) ⊢ ((oM.view.loc (c : Thread nD τ)) ↦{fullShare} g2) from BI.Entails.refl _) $$ Ho
  have hd1 := dev1_eq; have hd2 := dev2_eq; have hd3 := dev3_eq; have hd4 := dev4_eq; have hd5 := dev5_eq; have hd6 := dev6_eq
  have hd7 := dev7_eq; have hd8 := dev8_eq; have hd9 := dev9_eq; have hd10 := dev10_eq; have hd11 := dev11_eq; have hd12 := dev12_eq
  have hd13 := dev13_eq; have hd14 := dev14_eq; have hd15 := dev15_eq; have hd16 := dev16_eq
  have hmwb := mayWait_bar (F := F) c
  have hmw_r00 : (levAts L lv : sProp 𝕄) ⊢ MayWait (c : Thread nD τ) (.dma (qsem cc0_scratch3 0 0)) () (owed c 6) := mayWait_rR (F := F) c 0 0
  have hmw_l00 : (levAts L lv : sProp 𝕄) ⊢ MayWait (c : Thread nD τ) (.dma (qsem cc0_scratch5 0 0)) () (owed c 7) := mayWait_rL (F := F) c 0 0
  have hmw_sr00 : (levAts L lv : sProp 𝕄) ⊢ MayWait (c : Thread nD τ) (.dma (qsem cc0_scratch2 0 0)) () (owed c 14) := mayWait_sR (F := F) c 0 0
  have hmw_sl00 : (levAts L lv : sProp 𝕄) ⊢ MayWait (c : Thread nD τ) (.dma (qsem cc0_scratch4 0 0)) () (owed c 14) := mayWait_sL (F := F) c 0 0
  have hmw_r01 : (levAts L lv : sProp 𝕄) ⊢ MayWait (c : Thread nD τ) (.dma (qsem cc0_scratch3 0 1)) () (owed c 8) := mayWait_rR (F := F) c 0 1
  have hmw_l01 : (levAts L lv : sProp 𝕄) ⊢ MayWait (c : Thread nD τ) (.dma (qsem cc0_scratch5 0 1)) () (owed c 9) := mayWait_rL (F := F) c 0 1
  have hmw_sr01 : (levAts L lv : sProp 𝕄) ⊢ MayWait (c : Thread nD τ) (.dma (qsem cc0_scratch2 0 1)) () (owed c 14) := mayWait_sR (F := F) c 0 1
  have hmw_sl01 : (levAts L lv : sProp 𝕄) ⊢ MayWait (c : Thread nD τ) (.dma (qsem cc0_scratch4 0 1)) () (owed c 14) := mayWait_sL (F := F) c 0 1
  have hmw_r10 : (levAts L lv : sProp 𝕄) ⊢ MayWait (c : Thread nD τ) (.dma (qsem cc0_scratch3 1 0)) () (owed c 10) := mayWait_rR (F := F) c 1 0
  have hmw_l10 : (levAts L lv : sProp 𝕄) ⊢ MayWait (c : Thread nD τ) (.dma (qsem cc0_scratch5 1 0)) () (owed c 11) := mayWait_rL (F := F) c 1 0
  have hmw_sr10 : (levAts L lv : sProp 𝕄) ⊢ MayWait (c : Thread nD τ) (.dma (qsem cc0_scratch2 1 0)) () (owed c 14) := mayWait_sR (F := F) c 1 0
  have hmw_sl10 : (levAts L lv : sProp 𝕄) ⊢ MayWait (c : Thread nD τ) (.dma (qsem cc0_scratch4 1 0)) () (owed c 14) := mayWait_sL (F := F) c 1 0
  have hmw_r11 : (levAts L lv : sProp 𝕄) ⊢ MayWait (c : Thread nD τ) (.dma (qsem cc0_scratch3 1 1)) () (owed c 12) := mayWait_rR (F := F) c 1 1
  have hmw_l11 : (levAts L lv : sProp 𝕄) ⊢ MayWait (c : Thread nD τ) (.dma (qsem cc0_scratch5 1 1)) () (owed c 13) := mayWait_rL (F := F) c 1 1
  have hmw_sr11 : (levAts L lv : sProp 𝕄) ⊢ MayWait (c : Thread nD τ) (.dma (qsem cc0_scratch2 1 1)) () (owed c 14) := mayWait_sR (F := F) c 1 1
  have hmw_sl11 : (levAts L lv : sProp 𝕄) ⊢ MayWait (c : Thread nD τ) (.dma (qsem cc0_scratch4 1 1)) () (owed c 14) := mayWait_sL (F := F) c 1 1
  have hmw_r20 : (levAts L lv : sProp 𝕄) ⊢ MayWait (c : Thread nD τ) (.dma (qsem cc0_scratch3 2 0)) () (owed c 14) := mayWait_rR (F := F) c 2 0
  have hmw_l20 : (levAts L lv : sProp 𝕄) ⊢ MayWait (c : Thread nD τ) (.dma (qsem cc0_scratch5 2 0)) () (owed c 14) := mayWait_rL (F := F) c 2 0
  have hmw_sr20 : (levAts L lv : sProp 𝕄) ⊢ MayWait (c : Thread nD τ) (.dma (qsem cc0_scratch2 2 0)) () (owed c 14) := mayWait_sR (F := F) c 2 0
  have hmw_sl20 : (levAts L lv : sProp 𝕄) ⊢ MayWait (c : Thread nD τ) (.dma (qsem cc0_scratch4 2 0)) () (owed c 14) := mayWait_sL (F := F) c 2 0
  have hmw_r21 : (levAts L lv : sProp 𝕄) ⊢ MayWait (c : Thread nD τ) (.dma (qsem cc0_scratch3 2 1)) () (owed c 14) := mayWait_rR (F := F) c 2 1
  have hmw_l21 : (levAts L lv : sProp 𝕄) ⊢ MayWait (c : Thread nD τ) (.dma (qsem cc0_scratch5 2 1)) () (owed c 14) := mayWait_rL (F := F) c 2 1
  have hmw_sr21 : (levAts L lv : sProp 𝕄) ⊢ MayWait (c : Thread nD τ) (.dma (qsem cc0_scratch2 2 1)) () (owed c 14) := mayWait_sR (F := F) c 2 1
  have hmw_sl21 : (levAts L lv : sProp 𝕄) ⊢ MayWait (c : Thread nD τ) (.dma (qsem cc0_scratch4 2 1)) () (owed c 14) := mayWait_sL (F := F) c 2 1
  have hmw_end : (levAts L lv : sProp 𝕄) ⊢ MayWait (c : Thread nD τ) (.reg endS) () (owed c 16) := by rw [owed_done, MayWait_zero]; iintro -; iempintro
  -- the device's two landing buffers, slot by slot: what the entry handshake hands the neighbours
  ihave Ha' := (slots_split aM c A0) $$ Ha
  icases Ha' with ⟨⟨Hsa00, Hsa01, Hsa10, Hsa11, Hsa20, Hsa21⟩, Harest⟩
  ihave Hb' := (slots_split bM c B0) $$ Hb
  icases Hb' with ⟨⟨Hsb00, Hsb01, Hsb10, Hsb11, Hsb20, Hsb21⟩, Hbrest⟩
  ihave Harest := (Entails.of_eq (aside_eq _).symm) $$ Harest
  ihave Hbrest := (Entails.of_eq (aside_eq _).symm) $$ Hbrest
  unfold slotPts
  ihave HO := (peel (owed0 c) c _) $$ HO
  sl_exec_parts
  ihave HO := (peel (owed1 c) c _) $$ HO
  sl_exec_parts
  -- what the handshake's round handed over: the neighbours' landing slots
  ihave Hp := (Entails.of_eq (bar_open m c)) $$ Habc_pay1
  unfold barPayF barPayT slotAny slotPts
  icases Hp with ⟨⟨⟨%fb00, Hpb00⟩, ⟨%fb01, Hpb01⟩, ⟨%fb10, Hpb10⟩, ⟨%fb11, Hpb11⟩, ⟨%fb20, Hpb20⟩, ⟨%fb21, Hpb21⟩, -⟩, ⟨⟨%fa00, Hpa00⟩, ⟨%fa01, Hpa01⟩, ⟨%fa10, Hpa10⟩, ⟨%fa11, Hpa11⟩, ⟨%fa20, Hpa20⟩, ⟨%fa21, Hpa21⟩, -⟩⟩
  -- the block of x: one half stays for the loads, the other goes, piece by piece, to the four first hops
  ihave Hx2 := (halves Finset.univ fullShare (X m c)).1 $$ Hx
  icases Hx2 with ⟨HxL, HxR⟩
  ihave HxL' := (x_split c fullShare.left (X m c)) $$ HxL
  icases HxL' with ⟨⟨Hxl0, Hxl1, Hxl2, Hxl3⟩, Hxlrest⟩
  ihave Hxlrest := (Entails.of_eq (aside_eq _).symm) $$ Hxlrest
  -- the first hop, rightwards, piece 0
  ihave HO := (peel (owed2 c) c _) $$ HO
  iapply (send0R m c (nxt c) rfl 0 _ rfl _ rfl _ _ rfl rfl (K (c, .inr (0, 0, 0))) (K (nxt c, .inr (1, 0, 0))) fa00 _ (owed c 3)) $$ [Hxl0 Hpa00 HO Htd000 Htrn00]
  · isplitr; · iexact HId000
    isplitr; · iexact HIrn00
    isplitl [Hxl0]; · (first | iexact Hxl0 | (unfold xPts; iexact Hxl0))
    isplitl [Hpa00]; · (first | iexact Hpa00 | (unfold slotPts; iexact Hpa00))
    isplitl [HO]; · iexact HO
    isplitl [Htd000]; · iexact Htd000
    isplitr; · iexact Hrd000
    isplitl [Htrn00]; · iexact Htrn00
    iexact Hrrn00
  iintro ⟨Hcs000, HO⟩
  sl_exec_parts
  -- the first hop, leftwards, piece 0
  ihave HO := (peel (owed3 c) c _) $$ HO
  iapply (send0L m c (prv c) rfl 0 _ rfl _ rfl _ _ rfl rfl (K (c, .inr (2, 0, 0))) (K (prv c, .inr (3, 0, 0))) fb00 _ (owed c 4)) $$ [Hxl2 Hpb00 HO Htd200 Htrp00]
  · isplitr; · iexact HId200
    isplitr; · iexact HIrp00
    isplitl [Hxl2]; · (first | iexact Hxl2 | (unfold xPts; iexact Hxl2))
    isplitl [Hpb00]; · (first | iexact Hpb00 | (unfold slotPts; iexact Hpb00))
    isplitl [HO]; · iexact HO
    isplitl [Htd200]; · iexact Htd200
    isplitr; · iexact Hrd200
    isplitl [Htrp00]; · iexact Htrp00
    iexact Hrrp00
  iintro ⟨Hcs200, HO⟩
  sl_exec_parts
  -- the first hop, rightwards, piece 1
  ihave HO := (peel (owed4 c) c _) $$ HO
  iapply (send0R m c (nxt c) rfl 1 _ rfl _ rfl _ _ rfl rfl (K (c, .inr (0, 0, 1))) (K (nxt c, .inr (1, 0, 1))) fa01 _ (owed c 5)) $$ [Hxl1 Hpa01 HO Htd001 Htrn01]
  · isplitr; · iexact HId001
    isplitr; · iexact HIrn01
    isplitl [Hxl1]; · (first | iexact Hxl1 | (unfold xPts; iexact Hxl1))
    isplitl [Hpa01]; · (first | iexact Hpa01 | (unfold slotPts; iexact Hpa01))
    isplitl [HO]; · iexact HO
    isplitl [Htd001]; · iexact Htd001
    isplitr; · iexact Hrd001
    isplitl [Htrn01]; · iexact Htrn01
    iexact Hrrn01
  iintro ⟨Hcs001, HO⟩
  sl_exec_parts
  -- the first hop, leftwards, piece 1
  ihave HO := (peel (owed5 c) c _) $$ HO
  iapply (send0L m c (prv c) rfl 1 _ rfl _ rfl _ _ rfl rfl (K (c, .inr (2, 0, 1))) (K (prv c, .inr (3, 0, 1))) fb01 _ (owed c 6)) $$ [Hxl3 Hpb01 HO Htd201 Htrp01]
  · isplitr; · iexact HId201
    isplitr; · iexact HIrp01
    isplitl [Hxl3]; · (first | iexact Hxl3 | (unfold xPts; iexact Hxl3))
    isplitl [Hpb01]; · (first | iexact Hpb01 | (unfold slotPts; iexact Hpb01))
    isplitl [HO]; · iexact HO
    isplitl [Htd201]; · iexact Htd201
    isplitr; · iexact Hrd201
    isplitl [Htrp01]; · iexact Htrp01
    iexact Hrrp01
  iintro ⟨Hcs201, HO⟩
  sl_exec_parts
  -- slot (0, 0) of the rightward road has arrived
  ihave Hp := (Entails.of_eq (round_dma m c 1 0 0)) $$ Had100_pay1
  ihave Hp := (show dpay m c 1 0 0 ⊢ landed aM c 0 0 (srcR m c 0 0) from BI.Entails.refl _) $$ Hp
  unfold landed slotPts
  icases Hp with ⟨%fr00, %hfr00, Hsr00⟩
  -- half of it is lent to the next hop; the other half stays for the product
  ihave Hh := (halves (slot aM 0 0).view.set fullShare fr00).1 $$ Hsr00
  icases Hh with ⟨Hsr00L, Hsr00R⟩
  ihave HO := (peel (owed6 c) c _) $$ HO
  iapply (sendR m c (nxt c) rfl 0 (by decide) 0 _ rfl _ rfl _ _ rfl rfl (K (c, .inr (0, 1, 0))) (K (nxt c, .inr (1, 1, 0))) fr00 hfr00 fa10 _ (owed c 7)) $$ [Hsr00L Hpa10 HO Htd010 Htrn10]
  · isplitr; · iexact HId010
    isplitr; · iexact HIrn10
    isplitl [Hsr00L]; · (first | iexact Hsr00L | (unfold slotPts; iexact Hsr00L))
    isplitl [Hpa10]; · (first | iexact Hpa10 | (unfold slotPts; iexact Hpa10))
    isplitl [HO]; · iexact HO
    isplitl [Htd010]; · iexact Htd010
    isplitr; · iexact Hrd010
    isplitl [Htrn10]; · iexact Htrn10
    iexact Hrrn10
  iintro ⟨Hcs010, HO⟩
  sl_exec_parts
  -- slot (0, 0) of the leftward road has arrived
  ihave Hp := (Entails.of_eq (round_dma m c 3 0 0)) $$ Had300_pay1
  ihave Hp := (show dpay m c 3 0 0 ⊢ landed bM c 0 0 (srcL m c 0 0) from BI.Entails.refl _) $$ Hp
  unfold landed slotPts
  icases Hp with ⟨%fl00, %hfl00, Hsl00⟩
  -- half of it is lent to the next hop; the other half stays for the product
  ihave Hh := (halves (slot bM 0 0).view.set fullShare fl00).1 $$ Hsl00
  icases Hh with ⟨Hsl00L, Hsl00R⟩
  ihave HO := (peel (owed7 c) c _) $$ HO
  iapply (sendL m c (prv c) rfl 0 (by decide) 0 _ rfl _ rfl _ _ rfl rfl (K (c, .inr (2, 1, 0))) (K (prv c, .inr (3, 1, 0))) fl00 hfl00 fb10 _ (owed c 8)) $$ [Hsl00L Hpb10 HO Htd210 Htrp10]
  · isplitr; · iexact HId210
    isplitr; · iexact HIrp10
    isplitl [Hsl00L]; · (first | iexact Hsl00L | (unfold slotPts; iexact Hsl00L))
    isplitl [Hpb10]; · (first | iexact Hpb10 | (unfold slotPts; iexact Hpb10))
    isplitl [HO]; · iexact HO
    isplitl [Htd210]; · iexact Htd210
    isplitr; · iexact Hrd210
    isplitl [Htrp10]; · iexact Htrp10
    iexact Hrrp10
  iintro ⟨Hcs210, HO⟩
  sl_exec_parts
  -- slot (0, 1) of the rightward road has arrived
  ihave Hp := (Entails.of_eq (round_dma m c 1 0 1)) $$ Had101_pay1
  ihave Hp := (show dpay m c 1 0 1 ⊢ landed aM c 0 1 (srcR m c 0 1) from BI.Entails.refl _) $$ Hp
  unfold landed slotPts
  icases Hp with ⟨%fr01, %hfr01, Hsr01⟩
  -- half of it is lent to the next hop; the other half stays for the product
  ihave Hh := (halves (slot aM 0 1).view.set fullShare fr01).1 $$ Hsr01
  icases Hh with ⟨Hsr01L, Hsr01R⟩
  ihave HO := (peel (owed8 c) c _) $$ HO
  iapply (sendR m c (nxt c) rfl 0 (by decide) 1 _ rfl _ rfl _ _ rfl rfl (K (c, .inr (0, 1, 1))) (K (nxt c, .inr (1, 1, 1))) fr01 hfr01 fa11 _ (owed c 9)) $$ [Hsr01L Hpa11 HO Htd011 Htrn11]
  · isplitr; · iexact HId011
    isplitr; · iexact HIrn11
    isplitl [Hsr01L]; · (first | iexact Hsr01L | (unfold slotPts; iexact Hsr01L))
    isplitl [Hpa11]; · (first | iexact Hpa11 | (unfold slotPts; iexact Hpa11))
    isplitl [HO]; · iexact HO
    isplitl [Htd011]; · iexact Htd011
    isplitr; · iexact Hrd011
    isplitl [Htrn11]; · iexact Htrn11
    iexact Hrrn11
  iintro ⟨Hcs011, HO⟩
  sl_exec_parts
  -- slot (0, 1) of the leftward road has arrived
  ihave Hp := (Entails.of_eq (round_dma m c 3 0 1)) $$ Had301_pay1
  ihave Hp := (show dpay m c 3 0 1 ⊢ landed bM c 0 1 (srcL m c 0 1) from BI.Entails.refl _) $$ Hp
  unfold landed slotPts
  icases Hp with ⟨%fl01, %hfl01, Hsl01⟩
  -- half of it is lent to the next hop; the other half stays for the product
  ihave Hh := (halves (slot bM 0 1).view.set fullShare fl01).1 $$ Hsl01
  icases Hh with ⟨Hsl01L, Hsl01R⟩
  ihave HO := (peel (owed9 c) c _) $$ HO
  iapply (sendL m c (prv c) rfl 0 (by decide) 1 _ rfl _ rfl _ _ rfl rfl (K (c, .inr (2, 1, 1))) (K (prv c, .inr (3, 1, 1))) fl01 hfl01 fb11 _ (owed c 10)) $$ [Hsl01L Hpb11 HO Htd211 Htrp11]
  · isplitr; · iexact HId211
    isplitr; · iexact HIrp11
    isplitl [Hsl01L]; · (first | iexact Hsl01L | (unfold slotPts; iexact Hsl01L))
    isplitl [Hpb11]; · (first | iexact Hpb11 | (unfold slotPts; iexact Hpb11))
    isplitl [HO]; · iexact HO
    isplitl [Htd211]; · iexact Htd211
    isplitr; · iexact Hrd211
    isplitl [Htrp11]; · iexact Htrp11
    iexact Hrrp11
  iintro ⟨Hcs211, HO⟩
  sl_exec_parts
  -- slot (1, 0) of the rightward road has arrived
  ihave Hp := (Entails.of_eq (round_dma m c 1 1 0)) $$ Had110_pay1
  ihave Hp := (show dpay m c 1 1 0 ⊢ landed aM c 1 0 (srcR m c 1 0) from BI.Entails.refl _) $$ Hp
  unfold landed slotPts
  icases Hp with ⟨%fr10, %hfr10, Hsr10⟩
  -- half of it is lent to the next hop; the other half stays for the product
  ihave Hh := (halves (slot aM 1 0).view.set fullShare fr10).1 $$ Hsr10
  icases Hh with ⟨Hsr10L, Hsr10R⟩
  ihave HO := (peel (owed10 c) c _) $$ HO
  iapply (sendR m c (nxt c) rfl 1 (by decide) 0 _ rfl _ rfl _ _ rfl rfl (K (c, .inr (0, 2, 0))) (K (nxt c, .inr (1, 2, 0))) fr10 hfr10 fa20 _ (owed c 11)) $$ [Hsr10L Hpa20 HO Htd020 Htrn20]
  · isplitr; · iexact HId020
    isplitr; · iexact HIrn20
    isplitl [Hsr10L]; · (first | iexact Hsr10L | (unfold slotPts; iexact Hsr10L))
    isplitl [Hpa20]; · (first | iexact Hpa20 | (unfold slotPts; iexact Hpa20))
    isplitl [HO]; · iexact HO
    isplitl [Htd020]; · iexact Htd020
    isplitr; · iexact Hrd020
    isplitl [Htrn20]; · iexact Htrn20
    iexact Hrrn20
  iintro ⟨Hcs020, HO⟩
  sl_exec_parts
  -- slot (1, 0) of the leftward road has arrived
  ihave Hp := (Entails.of_eq (round_dma m c 3 1 0)) $$ Had310_pay1
  ihave Hp := (show dpay m c 3 1 0 ⊢ landed bM c 1 0 (srcL m c 1 0) from BI.Entails.refl _) $$ Hp
  unfold landed slotPts
  icases Hp with ⟨%fl10, %hfl10, Hsl10⟩
  -- half of it is lent to the next hop; the other half stays for the product
  ihave Hh := (halves (slot bM 1 0).view.set fullShare fl10).1 $$ Hsl10
  icases Hh with ⟨Hsl10L, Hsl10R⟩
  ihave HO := (peel (owed11 c) c _) $$ HO
  iapply (sendL m c (prv c) rfl 1 (by decide) 0 _ rfl _ rfl _ _ rfl rfl (K (c, .inr (2, 2, 0))) (K (prv c, .inr (3, 2, 0))) fl10 hfl10 fb20 _ (owed c 12)) $$ [Hsl10L Hpb20 HO Htd220 Htrp20]
  · isplitr; · iexact HId220
    isplitr; · iexact HIrp20
    isplitl [Hsl10L]; · (first | iexact Hsl10L | (unfold slotPts; iexact Hsl10L))
    isplitl [Hpb20]; · (first | iexact Hpb20 | (unfold slotPts; iexact Hpb20))
    isplitl [HO]; · iexact HO
    isplitl [Htd220]; · iexact Htd220
    isplitr; · iexact Hrd220
    isplitl [Htrp20]; · iexact Htrp20
    iexact Hrrp20
  iintro ⟨Hcs220, HO⟩
  sl_exec_parts
  -- slot (1, 1) of the rightward road has arrived
  ihave Hp := (Entails.of_eq (round_dma m c 1 1 1)) $$ Had111_pay1
  ihave Hp := (show dpay m c 1 1 1 ⊢ landed aM c 1 1 (srcR m c 1 1) from BI.Entails.refl _) $$ Hp
  unfold landed slotPts
  icases Hp with ⟨%fr11, %hfr11, Hsr11⟩
  -- half of it is lent to the next hop; the other half stays for the product
  ihave Hh := (halves (slot aM 1 1).view.set fullShare fr11).1 $$ Hsr11
  icases Hh with ⟨Hsr11L, Hsr11R⟩
  ihave HO := (peel (owed12 c) c _) $$ HO
  iapply (sendR m c (nxt c) rfl 1 (by decide) 1 _ rfl _ rfl _ _ rfl rfl (K (c, .inr (0, 2, 1))) (K (nxt c, .inr (1, 2, 1))) fr11 hfr11 fa21 _ (owed c 13)) $$ [Hsr11L Hpa21 HO Htd021 Htrn21]
  · isplitr; · iexact HId021
    isplitr; · iexact HIrn21
    isplitl [Hsr11L]; · (first | iexact Hsr11L | (unfold slotPts; iexact Hsr11L))
    isplitl [Hpa21]; · (first | iexact Hpa21 | (unfold slotPts; iexact Hpa21))
    isplitl [HO]; · iexact HO
    isplitl [Htd021]; · iexact Htd021
    isplitr; · iexact Hrd021
    isplitl [Htrn21]; · iexact Htrn21
    iexact Hrrn21
  iintro ⟨Hcs021, HO⟩
  sl_exec_parts
  -- slot (1, 1) of the leftward road has arrived
  ihave Hp := (Entails.of_eq (round_dma m c 3 1 1)) $$ Had311_pay1
  ihave Hp := (show dpay m c 3 1 1 ⊢ landed bM c 1 1 (srcL m c 1 1) from BI.Entails.refl _) $$ Hp
  unfold landed slotPts
  icases Hp with ⟨%fl11, %hfl11, Hsl11⟩
  -- half of it is lent to the next hop; the other half stays for the product
  ihave Hh := (halves (slot bM 1 1).view.set fullShare fl11).1 $$ Hsl11
  icases Hh with ⟨Hsl11L, Hsl11R⟩
  ihave HO := (peel (owed13 c) c _) $$ HO
  iapply (sendL m c (prv c) rfl 1 (by decide) 1 _ rfl _ rfl _ _ rfl rfl (K (c, .inr (2, 2, 1))) (K (prv c, .inr (3, 2, 1))) fl11 hfl11 fb21 _ (owed c 14)) $$ [Hsl11L Hpb21 HO Htd221 Htrp21]
  · isplitr; · iexact HId221
    isplitr; · iexact HIrp21
    isplitl [Hsl11L]; · (first | iexact Hsl11L | (unfold slotPts; iexact Hsl11L))
    isplitl [Hpb21]; · (first | iexact Hpb21 | (unfold slotPts; iexact Hpb21))
    isplitl [HO]; · iexact HO
    isplitl [Htd221]; · iexact Htd221
    isplitr; · iexact Hrd221
    isplitl [Htrp21]; · iexact Htrp21
    iexact Hrrp21
  iintro ⟨Hcs221, HO⟩
  sl_exec_parts
  -- slot (2, 0) of the rightward road has arrived
  ihave Hp := (Entails.of_eq (round_dma m c 1 2 0)) $$ Had120_pay1
  ihave Hp := (show dpay m c 1 2 0 ⊢ landed aM c 2 0 (srcR m c 2 0) from BI.Entails.refl _) $$ Hp
  unfold landed slotPts
  icases Hp with ⟨%fr20, %hfr20, Hsr20⟩
  sl_exec_parts
  -- slot (2, 0) of the leftward road has arrived
  ihave Hp := (Entails.of_eq (round_dma m c 3 2 0)) $$ Had320_pay1
  ihave Hp := (show dpay m c 3 2 0 ⊢ landed bM c 2 0 (srcL m c 2 0) from BI.Entails.refl _) $$ Hp
  unfold landed slotPts
  icases Hp with ⟨%fl20, %hfl20, Hsl20⟩
  sl_exec_parts
  -- slot (2, 1) of the rightward road has arrived
  ihave Hp := (Entails.of_eq (round_dma m c 1 2 1)) $$ Had121_pay1
  ihave Hp := (show dpay m c 1 2 1 ⊢ landed aM c 2 1 (srcR m c 2 1) from BI.Entails.refl _) $$ Hp
  unfold landed slotPts
  icases Hp with ⟨%fr21, %hfr21, Hsr21⟩
  sl_exec_parts
  -- slot (2, 1) of the leftward road has arrived
  ihave Hp := (Entails.of_eq (round_dma m c 3 2 1)) $$ Had321_pay1
  ihave Hp := (show dpay m c 3 2 1 ⊢ landed bM c 2 1 (srcL m c 2 1) from BI.Entails.refl _) $$ Hp
  unfold landed slotPts
  icases Hp with ⟨%fl21, %hfl21, Hsl21⟩
  sl_exec_parts
  -- the closing handshake
  ihave HO := (peel (owed14 c) c _) $$ HO
  sl_exec_parts
  ihave HO := (peel (owed15 c) c _) $$ HO
  sl_exec_parts
  -- the return: the cells closed, the buffers whole again
  rw [wp_ret]
  imod (finish m K c fr00 fr01 fr10 fr11 fr20 fr21 fl00 fl01 fl10 fl11 fl20 fl21 A0 B0 _) $$ [Haec Had000 Had001 Had010 Had011 Had020 Had021 Had100 Had101 Had110 Had111 Had120 Had121 Had200 Had201 Had210 Had211 Had220 Had221 Had300 Had301 Had310 Had311 Had320 Had321 Had000_pay1 Had001_pay1 Had010_pay1 Had011_pay1 Had020_pay1 Had021_pay1 Had200_pay1 Had201_pay1 Had210_pay1 Had211_pay1 Had220_pay1 Had221_pay1 Hsr00R Hsr01R Hsr10R Hsr11R Hsr20 Hsr21 Hsl00R Hsl01R Hsl10R Hsl11R Hsl20 Hsl21 Harest Hbrest HxR Hxlrest HO] with ⟨HΦ, HO, Hx⟩
  · isplitr; · iexact HR
    isplitl [Haec]; · iexact Haec
    isplitl [Had000]; · iexact Had000
    isplitl [Had001]; · iexact Had001
    isplitl [Had010]; · iexact Had010
    isplitl [Had011]; · iexact Had011
    isplitl [Had020]; · iexact Had020
    isplitl [Had021]; · iexact Had021
    isplitl [Had100]; · iexact Had100
    isplitl [Had101]; · iexact Had101
    isplitl [Had110]; · iexact Had110
    isplitl [Had111]; · iexact Had111
    isplitl [Had120]; · iexact Had120
    isplitl [Had121]; · iexact Had121
    isplitl [Had200]; · iexact Had200
    isplitl [Had201]; · iexact Had201
    isplitl [Had210]; · iexact Had210
    isplitl [Had211]; · iexact Had211
    isplitl [Had220]; · iexact Had220
    isplitl [Had221]; · iexact Had221
    isplitl [Had300]; · iexact Had300
    isplitl [Had301]; · iexact Had301
    isplitl [Had310]; · iexact Had310
    isplitl [Had311]; · iexact Had311
    isplitl [Had320]; · iexact Had320
    isplitl [Had321]; · iexact Had321
    isplitl [Had000_pay1]; · iexact Had000_pay1
    isplitl [Had001_pay1]; · iexact Had001_pay1
    isplitl [Had010_pay1]; · iexact Had010_pay1
    isplitl [Had011_pay1]; · iexact Had011_pay1
    isplitl [Had020_pay1]; · iexact Had020_pay1
    isplitl [Had021_pay1]; · iexact Had021_pay1
    isplitl [Had200_pay1]; · iexact Had200_pay1
    isplitl [Had201_pay1]; · iexact Had201_pay1
    isplitl [Had210_pay1]; · iexact Had210_pay1
    isplitl [Had211_pay1]; · iexact Had211_pay1
    isplitl [Had220_pay1]; · iexact Had220_pay1
    isplitl [Had221_pay1]; · iexact Had221_pay1
    isplitl [Hsr00R]; · iexact Hsr00R
    isplitl [Hsr01R]; · iexact Hsr01R
    isplitl [Hsr10R]; · iexact Hsr10R
    isplitl [Hsr11R]; · iexact Hsr11R
    isplitl [Hsr20]; · iexact Hsr20
    isplitl [Hsr21]; · iexact Hsr21
    isplitl [Hsl00R]; · iexact Hsl00R
    isplitl [Hsl01R]; · iexact Hsl01R
    isplitl [Hsl10R]; · iexact Hsl10R
    isplitl [Hsl11R]; · iexact Hsl11R
    isplitl [Hsl20]; · iexact Hsl20
    isplitl [Hsl21]; · iexact Hsl21
    isplitl [Harest]; · iexact Harest
    isplitl [Hbrest]; · iexact Hbrest
    isplitl [HxR]; · iexact HxR
    isplitl [Hxlrest]; · iexact Hxlrest
    iexact HO
  imodintro
  iapply Hk
  unfold bodyPost Dat.owesAt Pipeline.owesWithin
  rw [show (dats m ρ 0 c).owed t0_0.succ = 0 from rfl]
  isplitl [HΦ]; · iexact HΦ
  isplitl [HO]
  · iexists _
    isplitr
    rotate_left
    · iexact HO
    · ipureintro; exact fun _ _ => Or.inl trivial
  isplitl [Hx]
  · iexists _; isplitr; · (ipureintro; rfl)
    iexact Hx
  isplitl [Hw]
  · iexists _; isplitr; · (ipureintro; rfl)
    iexact Hw
  -- the thirteen stores are the thirteen pieces
  iexists _
  isplitr
  rotate_left
  · iexact Ho
  · ipureintro
    exact out_final m c g2 _ (List.cons_eq_cons.mpr ⟨pieceL_eq m c 2 1 fl21 hfl21 k0_pay13 pay13_eq,
      List.cons_eq_cons.mpr ⟨pieceR_eq m c 2 1 fr21 hfr21 k0_pay12 pay12_eq,
      List.cons_eq_cons.mpr ⟨pieceL_eq m c 2 0 fl20 hfl20 k0_pay11 pay11_eq,
      List.cons_eq_cons.mpr ⟨pieceR_eq m c 2 0 fr20 hfr20 k0_pay10 pay10_eq,
      List.cons_eq_cons.mpr ⟨pieceL_eq m c 1 1 fl11 hfl11 k0_pay9 pay9_eq,
      List.cons_eq_cons.mpr ⟨pieceR_eq m c 1 1 fr11 hfr11 k0_pay8 pay8_eq,
      List.cons_eq_cons.mpr ⟨pieceL_eq m c 1 0 fl10 hfl10 k0_pay7 pay7_eq,
      List.cons_eq_cons.mpr ⟨pieceR_eq m c 1 0 fr10 hfr10 k0_pay6 pay6_eq,
      List.cons_eq_cons.mpr ⟨pieceL_eq m c 0 1 fl01 hfl01 k0_pay5 pay5_eq,
      List.cons_eq_cons.mpr ⟨pieceR_eq m c 0 1 fr01 hfr01 k0_pay4 pay4_eq,
      List.cons_eq_cons.mpr ⟨pieceL_eq m c 0 0 fl00 hfl00 k0_pay3 pay3_eq,
      List.cons_eq_cons.mpr ⟨pieceR_eq m c 0 0 fr00 hfr00 k0_pay2 pay2_eq,
      List.cons_eq_cons.mpr ⟨pieceOwn_eq m c, rfl⟩⟩⟩⟩⟩⟩⟩⟩⟩⟩⟩⟩⟩)

def bodyPre' (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

omit [FloatOps F] in
theorem owns_whole_eq (c : Dev nD) (b : Ref sig .tc) (Xc : b.ty.Contents (Elt F)) :
    (owns (Ix := Unit) (Name := ℕ) (U := UU) (Lvl := ℕ) (c : Thread nD τ) (Memref.whole b) fullShare Xc : sProp 𝕄)
      = iprop(∃ f : Buf (Elt F) (((c : Dev nD) : Thread nD τ).loc b), ⌜f = Xc⌝ ∗ (((c : Thread nD τ).loc b) ↦{fullShare} f)) := by
  unfold owns; simp only [Memref.view_whole, View.read_whole, View.set_whole]

set_option maxRecDepth 65536 in
set_option maxHeartbeats 4000000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  sl_whnfR [defs₀, Defs.onTc]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) cc0_scratch2 cc0_scratch3 cc0_scratch4 cc0_scratch5 cc0_scoped0) (fun _ => bodyPost m ρ c)
  unfold bodyPre' Φ₀ start
  iintro ⟨⟨⟨⟨%K, Hg⟩, Hcr, Hlev⟩, Ha, Hb⟩, Ho, Hx, Hw, Hout⟩
  iapply (sound_body m ρ K c fun _ => bodyPost m ρ c)
  unfold bodyPre
  isplitr []
  · isplitl [Hg Hcr Hlev Ha Hb]
    · isplitl [Hg]; · iexact Hg
      isplitl [Hcr]; · iexact Hcr
      isplitl [Hlev]; · iexact Hlev
      isplitl [Ha]; · iexact Ha
      iexact Hb
    isplitl [Ho]; · iexact Ho
    isplitl [Hx]; · iexact Hx
    isplitl [Hw]; · iexact Hw
    iexact Hout
  · iintro H; iexact H

end Cert.KernelIdeal.Ag

end
-- ==== Proof.Launch.lean ====
/-
  From the four bodies to the whole run.

  At launch every counter is zero. Each device's twenty-six cells get their invariants, all devices' at once (a device
  pays into its neighbours' cells, so the names must be known around the ring); each cell's tokens are minted with it and
  dealt to the duties' payers: a handshake cell's token for the signal from the right neighbour goes to the right
  neighbour, the one for the signal from the left neighbour to the left neighbour, a rightward receive cell's token to
  the left neighbour (who sends into it), a leftward receive cell's to the right neighbour, a send cell's stays. What the
  neighbours owe a device at launch is dealt to it as credit: two units on each handshake cell, a block's credit on each
  receive cell. Levels as in the ledger: the pipeline's own staging waits sit at level 0, below everything.
-/
import proofs.«900337_g7700000000000338_dist_ag_gemm_m2048_k2048_n2048_f32_none_v7x_i4_1_alg».proof.Proof.Ghost

set_option maxRecDepth 16384

noncomputable section

namespace Cert.KernelIdeal.Ag

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The ring -/

def ring : Dev nD ≃ Dev nD := ⟨nxt, prv, prv_nxt, nxt_prv⟩

/-! ## The layout -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × CI → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def ringCells : Finset (GSem nD τ sig) := Finset.univ.map ⟨kcell, kcell_injective⟩

theorem payOf_injective : Function.Injective (payOf : Dev nD × PI → GSem nD τ sig × ℕ × Bool) := by decide +kernel

/-- Every duty's token, listed by the device that pays it. -/
def ringToks : Finset (GSem nD τ sig × ℕ × Bool) := Finset.univ.map ⟨payOf, payOf_injective⟩

def u₀ : UU :=
  (initOf (Pipeline.cells cfgs cellOf_inj) (Pipeline.launchToks cfgs cellOf_inj), initOf ringCells ringToks)

/-! ## What the launch deals, and what the global step makes of it -/

def G (c : Dev nD) : sProp 𝕄 :=
  iprop((bigSep Finset.univ fun k : CI => roundState ER (Rd m) (kcell (c, k)) 0)
    ∗ (bigSep Finset.univ fun k : CI => iprop(atPos ER (kcell (c, k)) 0 ∅ 0 ∗ reached ER (kcell (c, k)) 0)) ∗ payToks (F := F) c)

def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => payToks c := by
    unfold ringToks payToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Allocating the invariants -/

omit [FloatOps F] in
theorem unscopedSems0_eq (c : Dev nD) : (unscopedSems0 c : sProp 𝕄) = semVal (regCell c barS) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [unscopedSems0_eq, bigSep_CI]
  unfold Pipeline.ownSems0
  rw [bigSep_OS]
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (Rd m) κ (kcell (c, k))))
          ∗ (bigSep Finset.univ fun k : CI => iprop(atPos ER (kcell (c, k)) 0 ∅ 0 ∗ reached ER (kcell (c, k)) 0)) ∗ payToks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (Rd m) (kcell (c, k)) 0)
      ⊢ (|={Set.univ}=> bigSep Finset.univ fun k : CI => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CI → ℕ) (c : Dev nD) : iprop(records m K ∗ (positions (F := F) c ∗ payToks (F := F) c)) ⊢ G' m c := by
  unfold G' ghost
  iintro ⟨#HR, Hp, Ht⟩
  iexists K
  isplitr; · iexact HR
  isplitl [Hp]; · iexact Hp
  iexact Ht

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CI => iprop(∃ κ : ℕ, cellInv ER (Rd m) κ (kcell (c, k))))
          ∗ (bigSep Finset.univ fun k : CI => iprop(atPos ER (kcell (c, k)) 0 ∅ 0 ∗ reached ER (kcell (c, k)) 0)) ∗ payToks (F := F) c) : sProp 𝕄)
      ⊢ bigSep Finset.univ (G' m) := by
  rw [bigSep_sep', bigSep_sep', ← bigSep_univ_prod (fun ck : Dev nD × CI => iprop(∃ κ : ℕ, cellInv ER (Rd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd m) κ (kcell ck) : sProp 𝕄))) $$ HI
  icases HK with ⟨%K, #HI⟩
  iapply (bigSep_with_persistent (R := records m K) fun c _ => ghost_intro m K c)
  isplitr
  · unfold records; isplitl; · iexact HI
    iexact HR
  · iapply (Entails.of_eq (bigSep_sep' Finset.univ (fun c : Dev nD => positions (F := F) c) (fun c : Dev nD => payToks (F := F) c)).symm)
    isplitl [Hat]; · iexact Hat
    iexact Htok

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

abbrev O₀ (d : Dev nD) : CellTallies nD τ sig Unit := owed d 0

omit [FloatOps F] in
/-- Payment `j`, which every device `d` makes to semaphore `sm` of its neighbour `f d`, is dealt to the neighbour as credit. -/
theorem cred_j (j : ℕ) (sm : SemLoc sig) (f finv : Dev nD → Dev nD) (h1 : ∀ c, f (finv c) = c) (h2 : ∀ d, finv (f d) = d) (n : ℕ)
    (hj : ∀ d : Dev nD, (tallyAt (tgt d j) () (amt j) : CellTallies nD τ sig Unit) = tallyAt (((f d).tc : Thread nD τ), sm) () n) (c : Dev nD) :
    (Pipeline.launchCred (fun d : Dev nD => (tallyAt (tgt d j) () (amt j) : CellTallies nD τ sig Unit)) c : sProp 𝕄)
      ⊢ cred (tallyAt ((c.tc : Thread nD τ), sm) () n) := by
  rw [show (fun d : Dev nD => (tallyAt (tgt d j) () (amt j) : CellTallies nD τ sig Unit)) = fun d => tallyAt (((f d).tc : Thread nD τ), sm) () n from funext hj]
  exact Pipeline.launchCred_tallyAt sm f finv h1 h2 () n c

omit [FloatOps F] in
theorem cred_two (g : GSem nD τ sig) : iprop(cred (tallyAt g () 1) ∗ cred (tallyAt g () 1)) ⊢ (cred (tallyAt g () 2) : sProp 𝕄) := by
  rw [← tallyAt_add g () 1 1]; exact (cred_add _ _).2

omit [FloatOps F] in
theorem creds (c : Dev nD) : (Pipeline.launchCred O₀ c : sProp 𝕄) ⊢ credits (F := F) c := by
  have e : (Pipeline.launchCred O₀ c : sProp 𝕄) = bigSep (Finset.Ico 0 16) fun j : ℕ => Pipeline.launchCred (fun d : Dev nD => (tallyAt (tgt d j) () (amt j) : CellTallies nD τ sig Unit)) c :=
    Pipeline.launchCred_sum (Finset.Ico 0 16) (fun (j : ℕ) (d : Dev nD) => (tallyAt (tgt d j) () (amt j) : CellTallies nD τ sig Unit)) c
  rw [e, bigSep_eq_bigSepL_of_eq [0, 1, 2, 3, 4, 5, 6, 7, 8, 9, 10, 11, 12, 13, 14, 15] (by decide) (by decide)]
  simp only [bigSepL_cons_cons, bigSepL_singleton]
  show iprop(_ ∗ _ ∗ _ ∗ _ ∗ _ ∗ _ ∗ _ ∗ _ ∗ _ ∗ _ ∗ _ ∗ _ ∗ _ ∗ _ ∗ _ ∗ _) ⊢ _
  iintro ⟨H0, H1, H2, H3, H4, H5, H6, H7, H8, H9, H10, H11, H12, H13, H14, H15⟩
  ihave Hj0 := (cred_j (F := F) 0 (.reg barS) prv nxt prv_nxt nxt_prv 1 (fun d => rfl) c) $$ H0
  ihave Hj1 := (cred_j (F := F) 1 (.reg barS) nxt prv nxt_prv prv_nxt 1 (fun d => rfl) c) $$ H1
  ihave Hj2 := (cred_j (F := F) 2 (.dma (qsem (arr 1) 0 0)) nxt prv nxt_prv prv_nxt N (fun d => rfl) c) $$ H2
  ihave Hj3 := (cred_j (F := F) 3 (.dma (qsem (arr 3) 0 0)) prv nxt prv_nxt nxt_prv N (fun d => rfl) c) $$ H3
  ihave Hj4 := (cred_j (F := F) 4 (.dma (qsem (arr 1) 0 1)) nxt prv nxt_prv prv_nxt N (fun d => rfl) c) $$ H4
  ihave Hj5 := (cred_j (F := F) 5 (.dma (qsem (arr 3) 0 1)) prv nxt prv_nxt nxt_prv N (fun d => rfl) c) $$ H5
  ihave Hj6 := (cred_j (F := F) 6 (.dma (qsem (arr 1) 1 0)) nxt prv nxt_prv prv_nxt N (fun d => rfl) c) $$ H6
  ihave Hj7 := (cred_j (F := F) 7 (.dma (qsem (arr 3) 1 0)) prv nxt prv_nxt nxt_prv N (fun d => rfl) c) $$ H7
  ihave Hj8 := (cred_j (F := F) 8 (.dma (qsem (arr 1) 1 1)) nxt prv nxt_prv prv_nxt N (fun d => rfl) c) $$ H8
  ihave Hj9 := (cred_j (F := F) 9 (.dma (qsem (arr 3) 1 1)) prv nxt prv_nxt nxt_prv N (fun d => rfl) c) $$ H9
  ihave Hj10 := (cred_j (F := F) 10 (.dma (qsem (arr 1) 2 0)) nxt prv nxt_prv prv_nxt N (fun d => rfl) c) $$ H10
  ihave Hj11 := (cred_j (F := F) 11 (.dma (qsem (arr 3) 2 0)) prv nxt prv_nxt nxt_prv N (fun d => rfl) c) $$ H11
  ihave Hj12 := (cred_j (F := F) 12 (.dma (qsem (arr 1) 2 1)) nxt prv nxt_prv prv_nxt N (fun d => rfl) c) $$ H12
  ihave Hj13 := (cred_j (F := F) 13 (.dma (qsem (arr 3) 2 1)) prv nxt prv_nxt nxt_prv N (fun d => rfl) c) $$ H13
  ihave Hj14 := (cred_j (F := F) 14 (.reg endS) prv nxt prv_nxt nxt_prv 1 (fun d => rfl) c) $$ H14
  ihave Hj15 := (cred_j (F := F) 15 (.reg endS) nxt prv nxt_prv prv_nxt 1 (fun d => rfl) c) $$ H15
  unfold credits
  rw [bigSep_hp, bigSep_hp]
  isplitl [Hj0 Hj1]
  · iapply (cred_two (F := F) (regCell c barS)); isplitl [Hj0] <;> iassumption
  isplitl [Hj14 Hj15]
  · iapply (cred_two (F := F) (regCell c endS)); isplitl [Hj14] <;> iassumption
  isplitl [Hj2 Hj4 Hj6 Hj8 Hj10 Hj12]
  · isplitl [Hj2]; · iexact Hj2
    isplitl [Hj4]; · iexact Hj4
    isplitl [Hj6]; · iexact Hj6
    isplitl [Hj8]; · iexact Hj8
    isplitl [Hj10]; · iexact Hj10
    iexact Hj12
  · isplitl [Hj3]; · iexact Hj3
    isplitl [Hj5]; · iexact Hj5
    isplitl [Hj7]; · iexact Hj7
    isplitl [Hj9]; · iexact Hj9
    isplitl [Hj11]; · iexact Hj11
    iexact Hj13

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%fa, Ha⟩, ⟨%fb, Hb⟩⟩
  isplitl [Hs]; · iexact Hs
  isplitl [Ha]
  · iexists fa; iexact Ha
  · iexists fb; iexact Hb

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq]
  unfold Φ₁ Pipeline.ownSems0
  iintro ⟨⟨%fa, Ha⟩, ⟨%fb, Hb⟩, Hs⟩
  isplitr; · iempintro
  isplitl [Hs]; · iexact Hs
  isplitl [Ha]
  · iexists fa; iexact Ha
  · iexists fb; iexact Hb

/-- The pipeline's own waits, on its staging cells, are below everything a device owes at launch (and it owes nothing
    at the end). -/
theorem mayWait_stage (c : Dev nD) (q : DmaSem sig) (hq : q.val < 3) (O : CellTallies nD τ sig Unit) (hO : O = owed c 0 ∨ O = 0) :
    (levAts L lv : sProp 𝕄) ⊢ MayWait (c : Thread nD τ) (.dma q) () O := by
  rcases hO with rfl | rfl
  · exact mayWait_owed c (.dma q) 0 fun j _ hj => lev_stage c q ⟨j, hj⟩ hq
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- On the four devices, for any float values, from any memory with zero counters: every weakly fair execution of
    @main — the handshake, the transfers around the ring in both directions, the thirteen products, the closing
    handshake — terminates, and every final state has each device's arrays at the computed contents. -/
theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- An input array after the run holds what it held. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.KernelIdeal.Ag

end
-- ==== Proof.Claims.lean ====
/-
  The run of the four devices, with what it leaves named.

  Every weakly fair execution terminates without a fault; each device's arguments end as they began, and its result ends
  holding the thirteen stored pieces.
-/
import proofs.«900337_g7700000000000338_dist_ag_gemm_m2048_k2048_n2048_f32_none_v7x_i4_1_alg».proof.Proof.Body
import proofs.«900337_g7700000000000338_dist_ag_gemm_m2048_k2048_n2048_f32_none_v7x_i4_1_alg».proof.Proof.Launch

set_option maxRecDepth 16384

noncomputable section

namespace Cert.KernelIdeal.Ag

open Cert.KernelIdeal Cert.KernelIdeal.Gen

open Idealize.ShloMosaic
open Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

theorem run : θ_run defs (onTc (τ := τ) (main (F := F))) (s₀ m ρ) (QC m ρ) := run_main m ρ (body_obligation m ρ)

set_option maxHeartbeats 8000000 in
/-- What the one write-back writes: the result's staging buffer as the body left it. -/
theorem flushed_out (c : Dev nD) : (dats (F := F) m ρ 0 c).flushed (2 : Fin 3) ⟨0, by decide⟩ = outAt m c := rfl

set_option maxHeartbeats 8000000 in
/-- The result array after the run: the one write-back wrote the staging buffer's contents over it whole. -/
theorem finalA_out (c : Dev nD) : finalA m ρ c (2 : Fin 3) = outAt m c := by
  have h := (dats (F := F) m ρ 0 c).arrAt_succ (2 : Fin 3) ⟨0, by decide⟩
  rw [if_pos (flush0_2 _), flushed_out] at h
  exact h.trans (Memref.write_access_unit_zero_univ (Elt F) main_v1 (funext fun a => Nat.zero_mul _) _
    ((dats (F := F) m ρ 0 c).arrAt (2 : Fin 3) 0) (outAt m c))

theorem run_named : θ_run defs (onTc (τ := τ) (main (F := F))) ⟨m, fun _ => 0, ρ⟩ (fun r => ∀ c : Dev nD,
    r.2.mem ((c.tc : Thread nD τ).loc main_v1) = outAt m c
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c => ⟨(h c 2).trans (finalA_out m ρ c), (h c 0).trans (finalA_x m ρ c), (h c 1).trans (finalA_w m ρ c)⟩)
    (run m ρ)

end Cert.KernelIdeal.Ag

end
-- ==== Proof.K.Mesh.lean ====
/-
  The ring of four devices and the kernel's integer chains in closed form.

  Device `c`'s right neighbour is `c + 1` and its left neighbour `c + 3` (both modulo four); `shift c k` is the
  device `k` places to the right. Every `device_id` the body computes is one of the two neighbours, and every row
  offset of a store into the result is a block of 512 rows named by a device `h + 1` places to the left (the pieces
  that travelled rightwards) or to the right (those that travelled leftwards), plus the piece's place inside the block.
-/
import proofs.«900337_g7700000000000338_dist_ag_gemm_m2048_k2048_n2048_f32_none_v7x_i4_1_alg».proof.Proof.Gen.Kernel

noncomputable section

namespace Cert.Kernel.Ag

open Cert.Kernel Cert.Kernel.Gen
open Idealize.ShloMosaic

/-- The device `k` places to the right of `c` on the ring of four. -/
def shift (c : Dev nD) (k : ℕ) : Dev nD := ⟨(c.val + k) % 4, Nat.mod_lt _ (by decide)⟩

/-- The right neighbour. -/
abbrev nxt (c : Dev nD) : Dev nD := shift c 1
/-- The left neighbour. -/
abbrev prv (c : Dev nD) : Dev nD := shift c 3

theorem prv_nxt : ∀ c : Dev nD, prv (nxt c) = c := by decide
theorem nxt_prv : ∀ c : Dev nD, nxt (prv c) = c := by decide
theorem nxt_ne_prv : ∀ c : Dev nD, nxt c ≠ prv c := by decide
theorem nxt_ne_self : ∀ c : Dev nD, nxt c ≠ c := by decide
theorem prv_ne_self : ∀ c : Dev nD, prv c ≠ c := by decide

/-- The piece found `h` hops along the rightward road on `nxt c` is the one found `h - 1` hops along on `c`. -/
theorem shift_left_step : ∀ (c : Dev nD) (h : Fin 3), shift (nxt c) (3 * (h.val + 2)) = shift c (3 * (h.val + 1)) := by decide
/-- The same on the leftward road. -/
theorem shift_right_step : ∀ (c : Dev nD) (h : Fin 3), shift (prv c) (h.val + 2) = shift c (h.val + 1) := by decide
theorem shift_left_first : ∀ c : Dev nD, shift (nxt c) 3 = c := by decide
theorem shift_right_first : ∀ c : Dev nD, shift (prv c) 1 = c := by decide

/-! ## The body's `device_id` chains -/

theorem dev1_eq : ∀ c : Dev nD, (⟨k0_dev1 c, k0_dev1_lt c⟩ : Dev nD) = prv c := by decide +kernel
theorem dev2_eq : ∀ c : Dev nD, (⟨k0_dev2 c, k0_dev2_lt c⟩ : Dev nD) = nxt c := by decide +kernel
theorem dev3_eq : ∀ c : Dev nD, (⟨k0_dev3 c, k0_dev3_lt c⟩ : Dev nD) = nxt c := by decide +kernel
theorem dev4_eq : ∀ c : Dev nD, (⟨k0_dev4 c, k0_dev4_lt c⟩ : Dev nD) = prv c := by decide +kernel
theorem dev5_eq : ∀ c : Dev nD, (⟨k0_dev5 c, k0_dev5_lt c⟩ : Dev nD) = nxt c := by decide +kernel
theorem dev6_eq : ∀ c : Dev nD, (⟨k0_dev6 c, k0_dev6_lt c⟩ : Dev nD) = prv c := by decide +kernel
theorem dev7_eq : ∀ c : Dev nD, (⟨k0_dev7 c, k0_dev7_lt c⟩ : Dev nD) = nxt c := by decide +kernel
theorem dev8_eq : ∀ c : Dev nD, (⟨k0_dev8 c, k0_dev8_lt c⟩ : Dev nD) = prv c := by decide +kernel
theorem dev9_eq : ∀ c : Dev nD, (⟨k0_dev9 c, k0_dev9_lt c⟩ : Dev nD) = nxt c := by decide +kernel
theorem dev10_eq : ∀ c : Dev nD, (⟨k0_dev10 c, k0_dev10_lt c⟩ : Dev nD) = prv c := by decide +kernel
theorem dev11_eq : ∀ c : Dev nD, (⟨k0_dev11 c, k0_dev11_lt c⟩ : Dev nD) = nxt c := by decide +kernel
theorem dev12_eq : ∀ c : Dev nD, (⟨k0_dev12 c, k0_dev12_lt c⟩ : Dev nD) = prv c := by decide +kernel
theorem dev13_eq : ∀ c : Dev nD, (⟨k0_dev13 c, k0_dev13_lt c⟩ : Dev nD) = nxt c := by decide +kernel
theorem dev14_eq : ∀ c : Dev nD, (⟨k0_dev14 c, k0_dev14_lt c⟩ : Dev nD) = prv c := by decide +kernel
theorem dev15_eq : ∀ c : Dev nD, (⟨k0_dev15 c, k0_dev15_lt c⟩ : Dev nD) = prv c := by decide +kernel
theorem dev16_eq : ∀ c : Dev nD, (⟨k0_dev16 c, k0_dev16_lt c⟩ : Dev nD) = nxt c := by decide +kernel

/-! ## The stores' row offsets -/

/-- The rows of the piece that came `h + 1` hops from the left: block `c - 1 - h`, its first half, piece `p`. -/
theorem off2_eq : ∀ (c : Dev nD) (h : Fin 3) (p : Fin 2),
    k0_off2 c (BitVec.ofNat 32 h.val) (BitVec.ofNat 32 (128 * p.val)) = ![512 * (shift c (3 * (h.val + 1))).val + 128 * p.val, 0] := by
  decide +kernel
/-- The rows of the piece that came `h + 1` hops from the right: block `c + 1 + h`, its second half, piece `p`. -/
theorem off3_eq : ∀ (c : Dev nD) (h : Fin 3) (p : Fin 2),
    k0_off3 c (BitVec.ofNat 32 h.val) (BitVec.ofNat 32 (128 * p.val)) = ![512 * (shift c (h.val + 1)).val + 256 + 128 * p.val, 0] := by
  decide +kernel

end Cert.Kernel.Ag

end
-- ==== Proof.K.Cells.lean ====
/-
  The cells of the all-gather and what each hands its owner.

  Every device holds a block `x` of 512 rows and sends its first half (two pieces of 128 rows) rightwards and its
  second half leftwards; a piece is forwarded twice more, so that after three hops on each road every device has seen
  every other device's block. Landing slot `(h, p)` of the rightward road on device `c` receives piece `p` of the
  first half of the block of the device `h + 1` places to the left; on the leftward road, piece `p` of the second
  half of the block of the device `h + 1` places to the right.

  One round per cell. A barrier cell (the entry handshake's, and the closing one's) has two duties, one signal from each
  neighbour; the entry handshake's signal from the right neighbour hands over that neighbour's rightward landing slots
  (this device will write them), the one from the left neighbour its leftward slots. A send cell has one duty, the
  transfer's departure, which gives back the half share of the source it lent; a receive cell has one duty, the
  arrival, which hands over the slot holding the piece named above.
-/
import proofs.«900337_g7700000000000338_dist_ag_gemm_m2048_k2048_n2048_f32_none_v7x_i4_1_alg».proof.Proof.K.Mesh
import Idealize.ShloMosaic.Lib.Pipeline.Launch
import Idealize.ShloMosaic.Lib.Pipeline.Kit
import Idealize.ShloMosaic.Lib.Tactic

noncomputable section

namespace Cert.Kernel.Ag

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's cells beside the ring's (duty names `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ)

/-! ## Views -/

abbrev xM : Memref sig .tc .vmem S512x2048 .f32 := Memref.whole cc0_stg0_0
abbrev wM : Memref sig .tc .vmem S2048x512 .f32 := Memref.whole cc0_stg1_0
abbrev oM : Memref sig .tc .vmem S2048x512 .f32 := Memref.whole cc0_stg2_0
/-- The rightward road's landing slots, and the leftward road's. -/
abbrev aM : Memref sig .tc .vmem S3x2x128x2048 .f32 := Memref.whole cc0_scratch0
abbrev bM : Memref sig .tc .vmem S3x2x128x2048 .f32 := Memref.whole cc0_scratch1

theorem inb_x : ∀ (j : Fin 4) a, (![128 * j.val, 0] : Fin 2 → Nat) a + S128x2048.size a ≤ S512x2048.size a := by decide
/-- Rows `[128 j, 128 j + 128)` of the staged block of `x`. -/
abbrev xP (j : Fin 4) : Memref sig .tc .vmem S128x2048 .f32 :=
  xM.slice (Rect.unit (s := S512x2048) ![128 * j.val, 0] S128x2048.size (inb_x j)) (fun _ => rfl)

theorem inb_s : ∀ (h : Fin 3) (p : Fin 2) a, (![h.val, p.val, 0, 0] : Fin 4 → Nat) a + S1x1x128x2048.size a ≤ S3x2x128x2048.size a := by decide
/-- Landing slot `(h, p)` of a road's buffer, as the 128 × 2048 block the transfers move. -/
abbrev slot (M : Memref sig .tc .vmem S3x2x128x2048 .f32) (h : Fin 3) (p : Fin 2) : Memref sig .tc .vmem S128x2048 .f32 :=
  (M.slice (Rect.unit (s := S3x2x128x2048) ![h.val, p.val, 0, 0] S1x1x128x2048.size (inb_s h p)) (fun _ => rfl)).squeeze S128x2048 squeezes_S1x1x128x2048_S128x2048

theorem inb_q : ∀ (h : Fin 3) (p : Fin 2) a, (![h.val, p.val] : Fin 2 → Nat) a + S1x1.size a ≤ S3x2.size a := by decide
/-- Semaphore `(h, p)` of one of the four arrays of DMA semaphores. -/
abbrev qsem (Qs : DmaSems sig S3x2) (h : Fin 3) (p : Fin 2) : DmaSem sig :=
  ((Qs.slice (Rect.unit (s := S3x2) ![h.val, p.val] S1x1.size (inb_q h p))).squeeze S_ squeezes_S1x1_S_).sem

/-- The four arrays: rightward send, rightward receive, leftward send, leftward receive. -/
abbrev arr : Fin 4 → DmaSems sig S3x2
  | 0 => cc0_scratch2 | 1 => cc0_scratch3 | 2 => cc0_scratch4 | 3 => cc0_scratch5

theorem qsem_val : ∀ (a : Fin 4) (h : Fin 3) (p : Fin 2), (qsem (arr a) h p).val = 3 + 6 * a.val + 2 * h.val + p.val := by decide

/-- The entry handshake's semaphore (the runtime's), and the closing handshake's (the body's own). -/
abbrev barS : Sem sig := (SemArray.scalar (sig.barrier 0 rfl) : Sems sig S_).sem
abbrev endS : Sem sig := (cc0_scoped0 : Sems sig S_).sem

theorem barS_val : barS.val = 0 := by decide
theorem endS_val : endS.val = 1 := by decide

abbrev regCell (c : Dev nD) (s : Sem sig) : GSem nD τ sig := ((c : Thread nD τ), .reg s)
abbrev dcell (c : Dev nD) (a : Fin 4) (h : Fin 3) (p : Fin 2) : GSem nD τ sig := ((c : Thread nD τ), .dma (qsem (arr a) h p))

/-- One transfer's credit: the 128 × 2048 block's. -/
abbrev N : ℕ := (xP (0 : Fin 4)).view.dmaCredit
theorem N_pos : 0 < N := View.dmaCredit_pos _ (by decide)

/-! ## Contents -/

/-- Device `c`'s block of `x`, as staged. -/
def X (c : Dev nD) : (cc0_stg0_0 : Ref sig .tc).ty.Contents (Elt F) :=
  (win0_0.blk (0 : Fin 1)).view.read (Elt F) (m ((c : Thread nD τ).loc main_arg0))
/-- Device `c`'s block of the weights, as staged. -/
def Wt (c : Dev nD) : (cc0_stg1_0 : Ref sig .tc).ty.Contents (Elt F) :=
  (win0_1.blk (0 : Fin 1)).view.read (Elt F) (m ((c : Thread nD τ).loc main_arg1))

/-- Piece `j` (128 rows) of device `c`'s block of `x`. -/
def piece (c : Dev nD) (j : Fin 4) : S128x2048.Idx → Elt F .f32 := (xP j).view.read (Elt F) (X m c)

abbrev jR (p : Fin 2) : Fin 4 := ⟨p.val, by omega⟩
abbrev jL (p : Fin 2) : Fin 4 := ⟨2 + p.val, by omega⟩

/-- What rightward slot `(h, p)` of device `c` receives, and leftward slot `(h, p)`. -/
def srcR (c : Dev nD) (h : Fin 3) (p : Fin 2) : S128x2048.Idx → Elt F .f32 := piece m (shift c (3 * (h.val + 1))) (jR p)
def srcL (c : Dev nD) (h : Fin 3) (p : Fin 2) : S128x2048.Idx → Elt F .f32 := piece m (shift c (h.val + 1)) (jL p)

/-! ## Payloads -/

/-- A road's slot `(h, p)` on device `c`, held at share `q` and contents `f`. -/
def slotPts (M : Memref sig .tc .vmem S3x2x128x2048 .f32) (c : Dev nD) (h : Fin 3) (p : Fin 2) (q : PosShare TreeShare)
    (f : Buf (Elt F) ((slot M h p).view.loc (c : Thread nD τ))) : sProp 𝕄 :=
  (slot M h p).view.loc (c : Thread nD τ) ↦[(slot M h p).view.set]{q} f

/-- Piece `j` of the staged `x` of device `c`, at share `q`. -/
def xPts (c : Dev nD) (j : Fin 4) (q : PosShare TreeShare) : sProp 𝕄 :=
  (xP j).view.loc (c : Thread nD τ) ↦[(xP j).view.set]{q} X m c

/-- A slot arrived: the whole slot, reading the piece `v`. -/
def landed (M : Memref sig .tc .vmem S3x2x128x2048 .f32) (c : Dev nD) (h : Fin 3) (p : Fin 2) (v : S128x2048.Idx → Elt F .f32) : sProp 𝕄 :=
  iprop(∃ f : Buf (Elt F) ((slot M h p).view.loc (c : Thread nD τ)), ⌜(slot M h p).view.read (Elt F) f = v⌝ ∗ slotPts M c h p fullShare f)

/-- What a send's departure gives back: at hop 0 the lent half of the piece of `x`, later the lent half of the slot
    forwarded. -/
def departed (M : Memref sig .tc .vmem S3x2x128x2048 .f32) (c : Dev nD) (j : Fin 4) : Fin 3 → Fin 2 → sProp 𝕄
  | ⟨0, _⟩, _ => xPts m c j fullShare.left
  | ⟨k + 1, hk⟩, p =>
    iprop(∃ f : Buf (Elt F) ((slot M (⟨k, Nat.lt_of_succ_lt hk⟩ : Fin 3) p).view.loc (c : Thread nD τ)),
      slotPts M c (⟨k, Nat.lt_of_succ_lt hk⟩ : Fin 3) p fullShare.left f)

/-- A DMA cell's payload, by array. -/
def dpay (c : Dev nD) : Fin 4 → Fin 3 → Fin 2 → sProp 𝕄
  | 0, h, p => departed m aM c (jR p) h p
  | 1, h, p => landed aM c h p (srcR m c h p)
  | 2, h, p => departed m bM c (jL p) h p
  | 3, h, p => landed bM c h p (srcL m c h p)

theorem dma_lt (s : DmaSem sig) : s.val < 27 := s.isLt

/-- A DMA cell's payload, by the semaphore's number. -/
def dmaPay (c : Dev nD) (s : DmaSem sig) : sProp 𝕄 :=
  if h : 3 ≤ s.val then dpay m c ⟨(s.val - 3) / 6, by have := dma_lt s; omega⟩ ⟨((s.val - 3) % 6) / 2, by omega⟩ ⟨(s.val - 3) % 2, by omega⟩ else iprop(emp)

/-- All six receive cells of array `a` of device `c` have reached round 0. -/
def reachedAll (c : Dev nD) (a : Fin 4) : sProp 𝕄 := bigSep Finset.univ fun hp : Fin 3 × Fin 2 => reached ER (dcell c a hp.1 hp.2) 0

instance reachedAll_persistent (c : Dev nD) (a : Fin 4) : BI.Persistent (reachedAll (F := F) c a) := by unfold reachedAll; infer_instance

/-- A road's slot `(h, p)` on device `c`, whole, at some contents. -/
def slotAny (M : Memref sig .tc .vmem S3x2x128x2048 .f32) (c : Dev nD) (h : Fin 3) (p : Fin 2) : sProp 𝕄 :=
  iprop(∃ f, slotPts M c h p fullShare f)

instance slotAny_storable (M : Memref sig .tc .vmem S3x2x128x2048 .f32) (c : Dev nD) (h : Fin 3) (p : Fin 2) :
    BI.Storable (upEmb : UEmb _ 𝕄) (slotAny (F := F) M c h p) := by unfold slotAny slotPts; infer_instance
instance reachedAll_storable (c : Dev nD) (a : Fin 4) : BI.Storable (upEmb : UEmb _ 𝕄) (reachedAll (F := F) c a) := by
  unfold reachedAll; infer_instance

/-- The entry handshake: the signal from the right neighbour hands over the six slots of its rightward landing buffer
    (and that its receive cells stand at round 0), the one from the left neighbour those of its leftward one. -/
def barPayT (c : Dev nD) : sProp 𝕄 := iprop(slotAny aM (nxt c) 0 0 ∗ slotAny aM (nxt c) 0 1 ∗ slotAny aM (nxt c) 1 0 ∗ slotAny aM (nxt c) 1 1 ∗ slotAny aM (nxt c) 2 0 ∗ slotAny aM (nxt c) 2 1 ∗ reachedAll (F := F) (nxt c) 1)
def barPayF (c : Dev nD) : sProp 𝕄 := iprop(slotAny bM (prv c) 0 0 ∗ slotAny bM (prv c) 0 1 ∗ slotAny bM (prv c) 1 0 ∗ slotAny bM (prv c) 1 1 ∗ slotAny bM (prv c) 2 0 ∗ slotAny bM (prv c) 2 1 ∗ reachedAll (F := F) (prv c) 3)

/-! ## The schedule -/

def Rd : Rounds.Schedule (GSem nD τ sig) Bool 𝕄 where
  duties g r := if r = 0 ∧ g.1.2 = .tc then (match g.2 with | .reg _ => Finset.univ | .dma s => if 3 ≤ s.val then {false} else ∅) else ∅
  unitless _ := False
  amount g _ _ := match g.2 with | .reg _ => 1 | .dma _ => N
  payload g _ d := match g.2 with
    | .reg s => if s.val = 0 then (if d then barPayT g.1.1 else barPayF g.1.1) else iprop(emp)
    | .dma s => dmaPay m g.1.1 s
  amount_pos g _ _ _ := by
    rcases g with ⟨t, (s | s)⟩
    · exact Nat.one_pos
    · exact N_pos

instance departed_storable (M) (c : Dev nD) (j : Fin 4) (h : Fin 3) (p : Fin 2) : BI.Storable (upEmb : UEmb _ 𝕄) (departed m M c j h p) := by
  rcases h with ⟨_ | k, hk⟩
  · unfold departed xPts; infer_instance
  · unfold departed slotPts; infer_instance

instance dpay_storable (c : Dev nD) (a : Fin 4) (h : Fin 3) (p : Fin 2) : BI.Storable (upEmb : UEmb _ 𝕄) (dpay m c a h p) := by
  fin_cases a
  · show BI.Storable upEmb (departed m aM c (jR p) h p); infer_instance
  · show BI.Storable upEmb (landed aM c h p (srcR m c h p)); unfold landed slotPts; infer_instance
  · show BI.Storable upEmb (departed m bM c (jL p) h p); infer_instance
  · show BI.Storable upEmb (landed bM c h p (srcL m c h p)); unfold landed slotPts; infer_instance

instance Rd_payload_storable (g : GSem nD τ sig) (r : ℕ) (d : Bool) : BI.Storable (upEmb : UEmb _ 𝕄) ((Rd (F := F) m).payload g r d) := by
  rcases g with ⟨t, (s | s)⟩
  · show BI.Storable upEmb (if s.val = 0 then (if d then barPayT t.1 else barPayF t.1) else iprop(emp))
    unfold barPayT barPayF
    (repeat' split) <;> infer_instance
  · show BI.Storable upEmb (dmaPay m t.1 s)
    unfold dmaPay
    split <;> infer_instance

/-! ## The tables -/

section Tables
variable (c : Dev nD) (a : Fin 4) (h : Fin 3) (p : Fin 2)

theorem dmaPay_eq (s : DmaSem sig) (hs : s.val = 3 + 6 * a.val + 2 * h.val + p.val) : dmaPay m c s = dpay m c a h p := by
  have ha := a.isLt; have hh := h.isLt; have hp := p.isLt
  unfold dmaPay
  rw [dif_pos (by omega)]
  congr 1 <;> exact Fin.ext (by simp only []; omega)

theorem duties_reg (s : Sem sig) : (Rd (F := F) m).duties (regCell c s) 0 = Finset.univ := by
  dsimp only [Rd]; exact if_pos ⟨rfl, rfl⟩
theorem duties_dma : (Rd (F := F) m).duties (dcell c a h p) 0 = {false} := by
  dsimp only [Rd]; rw [if_pos ⟨rfl, rfl⟩]; exact if_pos (by rw [qsem_val]; omega)
theorem duties_later (g : GSem nD τ sig) : ∀ r, 1 ≤ r → (Rd (F := F) m).duties g r = ∅ :=
  fun r hr => by dsimp only [Rd]; exact if_neg fun hh => by omega

theorem amount_reg (s : Sem sig) (d : Bool) : (Rd (F := F) m).amount (regCell c s) 0 d = 1 := rfl
theorem amount_dma (d : Bool) : (Rd (F := F) m).amount (dcell c a h p) 0 d = N := rfl

theorem expect_reg (s : Sem sig) : (Rd (F := F) m).expect (regCell c s) 0 = 2 := by
  unfold Schedule.expect Schedule.amountOf
  rw [duties_reg, Finset.sum_congr rfl fun d _ => amount_reg m c s d, Finset.sum_const, Finset.card_univ, Fintype.card_bool, smul_eq_mul]
theorem expect_dma : (Rd (F := F) m).expect (dcell c a h p) 0 = N := by
  unfold Schedule.expect Schedule.amountOf; rw [duties_dma, Finset.sum_singleton, amount_dma]

theorem payload_bar_true : (Rd (F := F) m).payload (regCell c barS) 0 true = barPayT c := by
  show (if barS.val = 0 then (if true then barPayT c else barPayF c) else iprop(emp)) = _
  rw [if_pos barS_val, if_pos rfl]
theorem payload_bar_false : (Rd (F := F) m).payload (regCell c barS) 0 false = barPayF c := by
  show (if barS.val = 0 then (if false then barPayT c else barPayF c) else iprop(emp)) = _
  rw [if_pos barS_val]; exact if_neg Bool.false_ne_true
theorem payload_end (d : Bool) : (Rd (F := F) m).payload (regCell c endS) 0 d = iprop(emp) := by
  show (if endS.val = 0 then (if d then barPayT c else barPayF c) else iprop(emp)) = _
  exact if_neg (by rw [endS_val]; decide)
theorem payload_dma (d : Bool) : (Rd (F := F) m).payload (dcell c a h p) 0 d = dpay m c a h p :=
  dmaPay_eq m c a h p _ (qsem_val a h p)

/-- The whole round of a DMA cell: its one payload. -/
theorem rest_dma : bigSep ((Rd (F := F) m).duties (dcell c a h p) 0 \ ∅) (fun d => (Rd (F := F) m).payload (dcell c a h p) 0 d) = dpay m c a h p := by
  rw [Finset.sdiff_empty, duties_dma, bigSep_singleton, payload_dma]
/-- The whole round of the entry handshake's cell: both neighbours' payloads. -/
theorem rest_bar : bigSep ((Rd (F := F) m).duties (regCell c barS) 0 \ ∅) (fun d => (Rd (F := F) m).payload (regCell c barS) 0 d) = iprop(barPayF c ∗ barPayT c) := by
  rw [Finset.sdiff_empty, duties_reg, bigSep_univ_eq_bigSepL [false, true] (by decide) (by decide), bigSepL_cons_cons, bigSepL_singleton,
    payload_bar_false, payload_bar_true]
  rfl
/-- The whole round of the closing handshake's cell: nothing. -/
theorem rest_end : bigSep ((Rd (F := F) m).duties (regCell c endS) 0 \ ∅) (fun d => (Rd (F := F) m).payload (regCell c endS) 0 d) = iprop(emp ∗ emp) := by
  rw [Finset.sdiff_empty, duties_reg, bigSep_univ_eq_bigSepL [false, true] (by decide) (by decide), bigSepL_cons_cons, bigSepL_singleton,
    payload_end, payload_end]
  rfl

end Tables

end Cert.Kernel.Ag

end
-- ==== Proof.K.Levels.lean ====
/-
  What each device owes, in the order it pays, and why no wait can block for ever.

  A device pays sixteen debts in program order: one unit to each neighbour's entry-handshake cell, then twelve
  transfers' arrival credits — send `i` goes to the right neighbour's receive cell when `i` is even and to the left
  neighbour's when it is odd, for slot `(i / 4, (i / 2) % 2)` —, then one unit to each neighbour's closing-handshake
  cell. Levels: the entry handshake at 1, the receive cell that send `i` credits at `2 + i`, the closing handshake at
  20, every other cell at 0. A device waits on a receive cell only after it has issued every send whose target is not
  above that cell, so each wait is on a cell below everything still owed.
-/
import proofs.«900337_g7700000000000338_dist_ag_gemm_m2048_k2048_n2048_f32_none_v7x_i4_1_alg».proof.Proof.K.Cells
import Mathlib.Algebra.Order.BigOperators.Group.LocallyFinite

noncomputable section

namespace Cert.Kernel.Ag

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

def L (g : GSem nD τ sig) : Finset Unit := if g.1.2 = .tc then {()} else ∅

def lv (g : GSem nD τ sig) (_ : Unit) : ℕ := match g.2 with
  | .reg s => if s.val = 0 then 1 else 20
  | .dma s => if 9 ≤ s.val ∧ s.val < 15 then 2 + 2 * (s.val - 9) else if 21 ≤ s.val then 3 + 2 * (s.val - 21) else 0

theorem L_of_ne (g : GSem nD τ sig) (h : g.1.2 ≠ .tc) : L g = ∅ := if_neg h
theorem L_tc (c : Dev nD) (sm : SemLoc sig) : L ((c : Thread nD τ), sm) = {()} := if_pos rfl

/-- The cell the `j`-th payment credits. -/
def tgt (c : Dev nD) (j : ℕ) : GSem nD τ sig :=
  if j = 0 then regCell (prv c) barS else if j = 1 then regCell (nxt c) barS
  else if j = 14 then regCell (prv c) endS else if j = 15 then regCell (nxt c) endS
  else if j % 2 = 0 then dcell (nxt c) 1 ⟨((j - 2) / 4) % 3, Nat.mod_lt _ (by decide)⟩ ⟨((j - 2) / 2) % 2, Nat.mod_lt _ (by decide)⟩
  else dcell (prv c) 3 ⟨((j - 2) / 4) % 3, Nat.mod_lt _ (by decide)⟩ ⟨((j - 2) / 2) % 2, Nat.mod_lt _ (by decide)⟩

/-- Its amount: a unit for a signal, a block's credit for a transfer. -/
def amt (j : ℕ) : ℕ := if j < 2 ∨ 14 ≤ j then 1 else N

/-- What device `c` still owes after its first `k` payments. -/
def owed (c : Dev nD) (k : ℕ) : CellTallies nD τ sig Unit := ∑ j ∈ Finset.Ico k 16, tallyAt (tgt c j) () (amt j)

theorem owed_succ (c : Dev nD) (k : ℕ) (hk : k < 16) : owed c k = owed c (k + 1) + tallyAt (tgt c k) () (amt k) := by
  unfold owed; rw [Finset.sum_eq_sum_Ico_succ_bot hk, add_comm]

theorem owed_done (c : Dev nD) : owed c 16 = 0 := by unfold owed; rw [Finset.Ico_self, Finset.sum_empty]

theorem tgt_tc (c : Dev nD) (j : ℕ) : (tgt c j).1.2 = .tc := by unfold tgt; split_ifs <;> rfl

/-- A wait on the device's own cell `sm`, which sits below every cell still to be paid, may proceed. -/
theorem mayWait_owed (c : Dev nD) (sm : SemLoc sig) (k : ℕ)
    (h : ∀ j, k ≤ j → j < 16 → lv ((c : Thread nD τ), sm) () < lv (tgt c j) ()) :
    (levAts L lv : sProp 𝕄) ⊢ MayWait (c : Thread nD τ) sm () (owed c k) :=
  Pipeline.mayWait_of_levAts (by rw [L_tc]; exact Finset.mem_singleton_self _) fun g i hg => by
    obtain ⟨j, hj, hpos⟩ := Pipeline.sum_pos_exists hg
    obtain ⟨rfl, rfl⟩ := Pipeline.tallyAt_pos hpos
    have hj' := Finset.mem_Ico.mp hj
    refine ⟨?_, h j hj'.1 hj'.2⟩
    unfold L; rw [if_pos (tgt_tc c j)]; exact Finset.mem_singleton_self _

/-! ## The level facts, decided -/

theorem lev_bar : ∀ (c : Dev nD) (j : Fin 16), 2 ≤ j.val → lv (regCell c barS) () < lv (tgt c j.val) () := by decide +kernel
/-- Receive cell `(h, p)` of the rightward road is waited on after `6 + 4h + 2p` payments (all fourteen when `h = 2`). -/
theorem lev_rR : ∀ (c : Dev nD) (h : Fin 3) (p : Fin 2) (j : Fin 16), min 14 (6 + 4 * h.val + 2 * p.val) ≤ j.val →
    lv (dcell c 1 h p) () < lv (tgt c j.val) () := by decide +kernel
theorem lev_rL : ∀ (c : Dev nD) (h : Fin 3) (p : Fin 2) (j : Fin 16), min 14 (7 + 4 * h.val + 2 * p.val) ≤ j.val →
    lv (dcell c 3 h p) () < lv (tgt c j.val) () := by decide +kernel
theorem lev_sR : ∀ (c : Dev nD) (h : Fin 3) (p : Fin 2) (j : Fin 16), 14 ≤ j.val → lv (dcell c 0 h p) () < lv (tgt c j.val) () := by decide +kernel
theorem lev_sL : ∀ (c : Dev nD) (h : Fin 3) (p : Fin 2) (j : Fin 16), 14 ≤ j.val → lv (dcell c 2 h p) () < lv (tgt c j.val) () := by decide +kernel

theorem mayWait_bar (c : Dev nD) : (levAts L lv : sProp 𝕄) ⊢ MayWait (c : Thread nD τ) (.reg barS) () (owed c 2) :=
  mayWait_owed c _ 2 fun j h1 h2 => lev_bar c ⟨j, h2⟩ h1
theorem mayWait_rR (c : Dev nD) (h : Fin 3) (p : Fin 2) :
    (levAts L lv : sProp 𝕄) ⊢ MayWait (c : Thread nD τ) (.dma (qsem (arr 1) h p)) () (owed c (min 14 (6 + 4 * h.val + 2 * p.val))) :=
  mayWait_owed c _ _ fun j h1 h2 => lev_rR c h p ⟨j, h2⟩ h1
theorem mayWait_rL (c : Dev nD) (h : Fin 3) (p : Fin 2) :
    (levAts L lv : sProp 𝕄) ⊢ MayWait (c : Thread nD τ) (.dma (qsem (arr 3) h p)) () (owed c (min 14 (7 + 4 * h.val + 2 * p.val))) :=
  mayWait_owed c _ _ fun j h1 h2 => lev_rL c h p ⟨j, h2⟩ h1
theorem mayWait_sR (c : Dev nD) (h : Fin 3) (p : Fin 2) :
    (levAts L lv : sProp 𝕄) ⊢ MayWait (c : Thread nD τ) (.dma (qsem (arr 0) h p)) () (owed c 14) :=
  mayWait_owed c _ 14 fun j h1 h2 => lev_sR c h p ⟨j, h2⟩ h1
theorem mayWait_sL (c : Dev nD) (h : Fin 3) (p : Fin 2) :
    (levAts L lv : sProp 𝕄) ⊢ MayWait (c : Thread nD τ) (.dma (qsem (arr 2) h p)) () (owed c 14) :=
  mayWait_owed c _ 14 fun j h1 h2 => lev_sL c h p ⟨j, h2⟩ h1

/-- The pipeline's own waits (on its staging cells, numbers 0 to 2, at level 0) are below everything too. -/
theorem lev_stage : ∀ (c : Dev nD) (s : DmaSem sig) (j : Fin 16), s.val < 3 → lv ((c : Thread nD τ), .dma s) () < lv (tgt c j.val) () := by decide +kernel

end Cert.Kernel.Ag

end
-- ==== Proof.K.Spec.lean ====
/-
  What each device leaves in its block of the result.

  Device `c` stores thirteen pieces into its 2048 × 512 result: its own 512 rows (its block of `x` times its block of the
  weights) at row block `c`, and for every hop `h` and piece `p` the 128 rows that the rightward road delivered (rows
  `128 p` of the first half of row block `c - 1 - h`) and the 128 rows the leftward road delivered (rows `128 p` of the
  second half of row block `c + 1 + h`), each the delivered rows of `x` times the device's block of the weights.
  The pieces are listed last store first.
-/
import proofs.«900337_g7700000000000338_dist_ag_gemm_m2048_k2048_n2048_f32_none_v7x_i4_1_alg».proof.Proof.K.Cells
import proofs.«900337_g7700000000000338_dist_ag_gemm_m2048_k2048_n2048_f32_none_v7x_i4_1_alg».proof.Proof.Gen.Kernel.Skeleton
import Idealize.ShloMosaic.Lib.Writes

noncomputable section

namespace Cert.Kernel.Ag

open Cert.Kernel Cert.Kernel.Gen
open Idealize.ShloMosaic
open Idealize.ShloMosaic.TcCoe

variable {F : FTy → Type} [FloatOps F]
variable (m : (ℓ : Loc nD τ sig) → Buf (Elt F) ℓ)

/-- 128 rows of `x` times a block of the weights. -/
def mmP (P : FVec F S128x2048 .f32) (w : Vec F S2048x512 .f32) : FVec F S128x512 .f32 :=
  matmul dot_S128x2048_S2048x512_S128x512_1_0_0_1_n_n none P (shapeCast S2048x512 w shapeCasts_S2048x512_S2048x512) (constant S128x512 .f32 0x00000000#32)

/-- Each of the twelve printed products of a landing slot is that one function of the slot's 128 × 2048 contents. -/
theorem pay2_eq (v : Vec F S1x1x128x2048 .f32) (w : Vec F S2048x512 .f32) :
    k0_pay2 v w = mmP (shapeCast S128x2048 v shapeCasts_S1x1x128x2048_S128x2048) w := rfl
theorem pay3_eq (v : Vec F S1x1x128x2048 .f32) (w : Vec F S2048x512 .f32) :
    k0_pay3 v w = mmP (shapeCast S128x2048 v shapeCasts_S1x1x128x2048_S128x2048) w := rfl
theorem pay4_eq (v : Vec F S1x1x128x2048 .f32) (w : Vec F S2048x512 .f32) :
    k0_pay4 v w = mmP (shapeCast S128x2048 v shapeCasts_S1x1x128x2048_S128x2048) w := rfl
theorem pay5_eq (v : Vec F S1x1x128x2048 .f32) (w : Vec F S2048x512 .f32) :
    k0_pay5 v w = mmP (shapeCast S128x2048 v shapeCasts_S1x1x128x2048_S128x2048) w := rfl
theorem pay6_eq (v : Vec F S1x1x128x2048 .f32) (w : Vec F S2048x512 .f32) :
    k0_pay6 v w = mmP (shapeCast S128x2048 v shapeCasts_S1x1x128x2048_S128x2048) w := rfl
theorem pay7_eq (v : Vec F S1x1x128x2048 .f32) (w : Vec F S2048x512 .f32) :
    k0_pay7 v w = mmP (shapeCast S128x2048 v shapeCasts_S1x1x128x2048_S128x2048) w := rfl
theorem pay8_eq (v : Vec F S1x1x128x2048 .f32) (w : Vec F S2048x512 .f32) :
    k0_pay8 v w = mmP (shapeCast S128x2048 v shapeCasts_S1x1x128x2048_S128x2048) w := rfl
theorem pay9_eq (v : Vec F S1x1x128x2048 .f32) (w : Vec F S2048x512 .f32) :
    k0_pay9 v w = mmP (shapeCast S128x2048 v shapeCasts_S1x1x128x2048_S128x2048) w := rfl
theorem pay10_eq (v : Vec F S1x1x128x2048 .f32) (w : Vec F S2048x512 .f32) :
    k0_pay10 v w = mmP (shapeCast S128x2048 v shapeCasts_S1x1x128x2048_S128x2048) w := rfl
theorem pay11_eq (v : Vec F S1x1x128x2048 .f32) (w : Vec F S2048x512 .f32) :
    k0_pay11 v w = mmP (shapeCast S128x2048 v shapeCasts_S1x1x128x2048_S128x2048) w := rfl
theorem pay12_eq (v : Vec F S1x1x128x2048 .f32) (w : Vec F S2048x512 .f32) :
    k0_pay12 v w = mmP (shapeCast S128x2048 v shapeCasts_S1x1x128x2048_S128x2048) w := rfl
theorem pay13_eq (v : Vec F S1x1x128x2048 .f32) (w : Vec F S2048x512 .f32) :
    k0_pay13 v w = mmP (shapeCast S128x2048 v shapeCasts_S1x1x128x2048_S128x2048) w := rfl

abbrev OPiece : Type := View.Piece (Elt F) S2048x512 .f32

/-- The device's own rows. -/
def pieceOwn (c : Dev nD) : OPiece (F := F) :=
  ⟨Rect.unit (s := S2048x512) (k0_off1 c) S512x512.size (k0_off1_inb c), k0_pay1 (X m c) (Wt m c)⟩
/-- The rows the rightward road delivered at hop `h`, piece `p`. -/
def pieceR (c : Dev nD) (h : Fin 3) (p : Fin 2) : OPiece (F := F) :=
  ⟨Rect.unit (s := S2048x512) (k0_off2 c (BitVec.ofNat 32 h.val) (BitVec.ofNat 32 (128 * p.val))) S128x512.size (k0_off2_inb c h p),
    mmP (srcR m c h p) (Wt m c)⟩
/-- The rows the leftward road delivered at hop `h`, piece `p`. -/
def pieceL (c : Dev nD) (h : Fin 3) (p : Fin 2) : OPiece (F := F) :=
  ⟨Rect.unit (s := S2048x512) (k0_off3 c (BitVec.ofNat 32 h.val) (BitVec.ofNat 32 (128 * p.val))) S128x512.size (k0_off3_inb c h p),
    mmP (srcL m c h p) (Wt m c)⟩

/-- The thirteen stores, last first. -/
def Lout (c : Dev nD) : List (OPiece (F := F)) :=
  [pieceL m c 2 1, pieceR m c 2 1, pieceL m c 2 0, pieceR m c 2 0, pieceL m c 1 1, pieceR m c 1 1, pieceL m c 1 0, pieceR m c 1 0,
   pieceL m c 0 1, pieceR m c 0 1, pieceL m c 0 0, pieceR m c 0 0, pieceOwn m c]

/-- Some contents to write over: the stores cover the whole result, so which does not matter. -/
def base : (cc0_stg2_0 : Ref sig .tc).ty.Contents (Elt F) := fun _ => constant S_ .f32 0x00000000#32 (fun a => a.elim0)

/-- The result's staging buffer on device `c` after the body. -/
def outAt (c : Dev nD) : (cc0_stg2_0 : Ref sig .tc).ty.Contents (Elt F) := oM.view.writes (Elt F) (base (F := F)) (Lout m c)

end Cert.Kernel.Ag

end
-- ==== Proof.K.Ghost.lean ====
/-
  What a device holds when its body starts, and what it must hand back.

  Known to every device: every cell's invariant and that every cell stands at round 0. A device's own: its position at
  round 0 of each of its twenty-six cells; the token of each duty it will pay (a signal to each neighbour's handshake
  cells, the arrival on each receive cell it sends into, the departure on each of its own send cells); the credit for
  what its neighbours owe its handshake and receive cells; its two landing buffers. At the end it hands back the two
  landing buffers and its own twenty-five semaphores at zero (the entry handshake's semaphore is the runtime's).
-/
import proofs.«900337_g7700000000000338_dist_ag_gemm_m2048_k2048_n2048_f32_none_v7x_i4_1_alg».proof.Proof.K.Levels
import proofs.«900337_g7700000000000338_dist_ag_gemm_m2048_k2048_n2048_f32_none_v7x_i4_1_alg».proof.Proof.K.Spec
import proofs.«900337_g7700000000000338_dist_ag_gemm_m2048_k2048_n2048_f32_none_v7x_i4_1_alg».proof.Proof.Gen.Kernel.Launch
import proofs.«900337_g7700000000000338_dist_ag_gemm_m2048_k2048_n2048_f32_none_v7x_i4_1_alg».proof.Proof.Gen.Kernel.Points

set_option maxRecDepth 16384

noncomputable section

namespace Cert.Kernel.Ag

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-- The memory at launch. -/
def s₀ : MemSt nD τ sig (Elt F) := ⟨m, fun _ => 0, ρ⟩

/-! ## The cells, indexed -/

/-- A device's cells: the two handshakes' (entry, closing) and the twenty-four DMA cells (array, hop, piece). -/
abbrev CI : Type := Bool ⊕ (Fin 4 × Fin 3 × Fin 2)
abbrev csem : CI → SemLoc sig
  | .inl false => .reg barS
  | .inl true => .reg endS
  | .inr (a, h, p) => .dma (qsem (arr a) h p)
abbrev kcell (ck : Dev nD × CI) : GSem nD τ sig := ((ck.1 : Thread nD τ), csem ck.2)

/-- A device's own (scoped) semaphores: the closing handshake's and the twenty-four DMA semaphores. -/
abbrev OS : Type := Unit ⊕ (Fin 4 × Fin 3 × Fin 2)
abbrev osem : OS → SemLoc sig
  | .inl () => .reg endS
  | .inr (a, h, p) => .dma (qsem (arr a) h p)

/-! ## The ghost state -/

def records (K : Dev nD × CI → ℕ) : sProp 𝕄 :=
  iprop((bigSep Finset.univ fun ck : Dev nD × CI => cellInv ER (Rd m) (K ck) (kcell ck))
    ∗ bigSep Finset.univ fun ck : Dev nD × CI => reached ER (kcell ck) 0)

instance records_persistent (K : Dev nD × CI → ℕ) : BI.Persistent (records m K) := by unfold records; infer_instance

omit [FloatOps F] in
theorem inv_at (K : Dev nD × CI → ℕ) (ck : Dev nD × CI) : records m K ⊢ cellInv ER (Rd m) (K ck) (kcell ck) := by
  unfold records
  exact sep_elim_left.trans (bigSep_elim (Φ := fun ck : Dev nD × CI => (cellInv ER (Rd m) (K ck) (kcell ck) : sProp 𝕄)) (Finset.mem_univ ck))
omit [FloatOps F] in
theorem reached_at (K : Dev nD × CI → ℕ) (ck : Dev nD × CI) : records m K ⊢ reached ER (kcell ck) 0 := by
  unfold records
  exact sep_elim_right.trans (bigSep_elim (Φ := fun ck : Dev nD × CI => (reached ER (kcell ck) 0 : sProp 𝕄)) (Finset.mem_univ ck))

def positions (c : Dev nD) : sProp 𝕄 := bigSep Finset.univ fun k : CI => atPos ER (kcell (c, k)) 0 ∅ 0

/-- The duties a device pays: on each handshake (entry, closing) the signal to its left and to its right neighbour; the
    departures on its own send cells (arrays 0 and 2), the arrivals on its right neighbour's rightward receive cells
    (array 1) and on its left neighbour's leftward receive cells (array 3). -/
abbrev PI : Type := (Bool × Bool) ⊕ (Fin 4 × Fin 3 × Fin 2)
abbrev payOf (cj : Dev nD × PI) : GSem nD τ sig × ℕ × Bool := match cj.2 with
  | .inl (false, false) => (regCell (prv cj.1) barS, 0, true)
  | .inl (false, true) => (regCell (nxt cj.1) barS, 0, false)
  | .inl (true, false) => (regCell (prv cj.1) endS, 0, true)
  | .inl (true, true) => (regCell (nxt cj.1) endS, 0, false)
  | .inr (0, h, p) => (dcell cj.1 0 h p, 0, false)
  | .inr (1, h, p) => (dcell (nxt cj.1) 1 h p, 0, false)
  | .inr (2, h, p) => (dcell cj.1 2 h p, 0, false)
  | .inr (3, h, p) => (dcell (prv cj.1) 3 h p, 0, false)

def payToks (c : Dev nD) : sProp 𝕄 := bigSep Finset.univ fun j : PI => dutyTok ER (payOf (c, j)).1 (payOf (c, j)).2.1 (payOf (c, j)).2.2

def credits (c : Dev nD) : sProp 𝕄 :=
  iprop(cred (tallyAt (regCell c barS) () 2) ∗ cred (tallyAt (regCell c endS) () 2)
    ∗ (bigSep Finset.univ fun t : Fin 3 × Fin 2 => cred (tallyAt (dcell c 1 t.1 t.2) () N))
    ∗ (bigSep Finset.univ fun t : Fin 3 × Fin 2 => cred (tallyAt (dcell c 3 t.1 t.2) () N)))

def ghost (K : Dev nD × CI → ℕ) (c : Dev nD) : sProp 𝕄 := iprop(records m K ∗ positions (F := F) c ∗ payToks (F := F) c)

def start (c : Dev nD) : sProp 𝕄 := iprop((∃ K, ghost m K c) ∗ credits (F := F) c ∗ levAts L lv)

def Φ₀ (c : Dev nD) : sProp 𝕄 :=
  iprop(start m c ∗ (∃ f, (aM.view.loc (c : Thread nD τ)) ↦{fullShare} f) ∗ (∃ f, (bM.view.loc (c : Thread nD τ)) ↦{fullShare} f))

def Φ₁ (c : Dev nD) : sProp 𝕄 :=
  iprop((∃ f, (aM.view.loc (c : Thread nD τ)) ↦{fullShare} f) ∗ (∃ f, (bM.view.loc (c : Thread nD τ)) ↦{fullShare} f)
    ∗ bigSep Finset.univ fun k : OS => semVal ((c : Thread nD τ), osem k) 0)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m c
    | ⟨1, _⟩ => Wt m c
    | ⟨2, _⟩ => outAt m c
  Φ t := match t with
    | ⟨0, _⟩ => Φ₀ m c
    | ⟨_ + 1, _⟩ => Φ₁ (F := F) c
  q _ := fullShare
  owed t := match t with
    | ⟨0, _⟩ => owed c 0
    | ⟨_ + 1, _⟩ => 0

/-! ## The families, conjunct by conjunct -/

omit [FloatOps F] in
theorem bigSep_CI (Φ : CI → sProp 𝕄) : bigSep Finset.univ Φ = iprop(Φ (.inl false : CI) ∗ Φ (.inl true : CI) ∗ Φ (.inr (0, 0, 0) : CI) ∗ Φ (.inr (0, 0, 1) : CI) ∗ Φ (.inr (0, 1, 0) : CI) ∗ Φ (.inr (0, 1, 1) : CI) ∗ Φ (.inr (0, 2, 0) : CI) ∗ Φ (.inr (0, 2, 1) : CI) ∗ Φ (.inr (1, 0, 0) : CI) ∗ Φ (.inr (1, 0, 1) : CI) ∗ Φ (.inr (1, 1, 0) : CI) ∗ Φ (.inr (1, 1, 1) : CI) ∗ Φ (.inr (1, 2, 0) : CI) ∗ Φ (.inr (1, 2, 1) : CI) ∗ Φ (.inr (2, 0, 0) : CI) ∗ Φ (.inr (2, 0, 1) : CI) ∗ Φ (.inr (2, 1, 0) : CI) ∗ Φ (.inr (2, 1, 1) : CI) ∗ Φ (.inr (2, 2, 0) : CI) ∗ Φ (.inr (2, 2, 1) : CI) ∗ Φ (.inr (3, 0, 0) : CI) ∗ Φ (.inr (3, 0, 1) : CI) ∗ Φ (.inr (3, 1, 0) : CI) ∗ Φ (.inr (3, 1, 1) : CI) ∗ Φ (.inr (3, 2, 0) : CI) ∗ Φ (.inr (3, 2, 1) : CI)) :=
  bigSep_univ_eq_bigSepL [(.inl false : CI), (.inl true : CI), (.inr (0, 0, 0) : CI), (.inr (0, 0, 1) : CI), (.inr (0, 1, 0) : CI), (.inr (0, 1, 1) : CI), (.inr (0, 2, 0) : CI), (.inr (0, 2, 1) : CI), (.inr (1, 0, 0) : CI), (.inr (1, 0, 1) : CI), (.inr (1, 1, 0) : CI), (.inr (1, 1, 1) : CI), (.inr (1, 2, 0) : CI), (.inr (1, 2, 1) : CI), (.inr (2, 0, 0) : CI), (.inr (2, 0, 1) : CI), (.inr (2, 1, 0) : CI), (.inr (2, 1, 1) : CI), (.inr (2, 2, 0) : CI), (.inr (2, 2, 1) : CI), (.inr (3, 0, 0) : CI), (.inr (3, 0, 1) : CI), (.inr (3, 1, 0) : CI), (.inr (3, 1, 1) : CI), (.inr (3, 2, 0) : CI), (.inr (3, 2, 1) : CI)] (by decide) (by decide) Φ
omit [FloatOps F] in
theorem bigSep_OS (Φ : OS → sProp 𝕄) : bigSep Finset.univ Φ = iprop(Φ (.inl () : OS) ∗ Φ (.inr (0, 0, 0) : OS) ∗ Φ (.inr (0, 0, 1) : OS) ∗ Φ (.inr (0, 1, 0) : OS) ∗ Φ (.inr (0, 1, 1) : OS) ∗ Φ (.inr (0, 2, 0) : OS) ∗ Φ (.inr (0, 2, 1) : OS) ∗ Φ (.inr (1, 0, 0) : OS) ∗ Φ (.inr (1, 0, 1) : OS) ∗ Φ (.inr (1, 1, 0) : OS) ∗ Φ (.inr (1, 1, 1) : OS) ∗ Φ (.inr (1, 2, 0) : OS) ∗ Φ (.inr (1, 2, 1) : OS) ∗ Φ (.inr (2, 0, 0) : OS) ∗ Φ (.inr (2, 0, 1) : OS) ∗ Φ (.inr (2, 1, 0) : OS) ∗ Φ (.inr (2, 1, 1) : OS) ∗ Φ (.inr (2, 2, 0) : OS) ∗ Φ (.inr (2, 2, 1) : OS) ∗ Φ (.inr (3, 0, 0) : OS) ∗ Φ (.inr (3, 0, 1) : OS) ∗ Φ (.inr (3, 1, 0) : OS) ∗ Φ (.inr (3, 1, 1) : OS) ∗ Φ (.inr (3, 2, 0) : OS) ∗ Φ (.inr (3, 2, 1) : OS)) :=
  bigSep_univ_eq_bigSepL [(.inl () : OS), (.inr (0, 0, 0) : OS), (.inr (0, 0, 1) : OS), (.inr (0, 1, 0) : OS), (.inr (0, 1, 1) : OS), (.inr (0, 2, 0) : OS), (.inr (0, 2, 1) : OS), (.inr (1, 0, 0) : OS), (.inr (1, 0, 1) : OS), (.inr (1, 1, 0) : OS), (.inr (1, 1, 1) : OS), (.inr (1, 2, 0) : OS), (.inr (1, 2, 1) : OS), (.inr (2, 0, 0) : OS), (.inr (2, 0, 1) : OS), (.inr (2, 1, 0) : OS), (.inr (2, 1, 1) : OS), (.inr (2, 2, 0) : OS), (.inr (2, 2, 1) : OS), (.inr (3, 0, 0) : OS), (.inr (3, 0, 1) : OS), (.inr (3, 1, 0) : OS), (.inr (3, 1, 1) : OS), (.inr (3, 2, 0) : OS), (.inr (3, 2, 1) : OS)] (by decide) (by decide) Φ
omit [FloatOps F] in
theorem bigSep_hp (Φ : Fin 3 × Fin 2 → sProp 𝕄) :
    bigSep Finset.univ Φ = iprop(Φ (0, 0) ∗ Φ (0, 1) ∗ Φ (1, 0) ∗ Φ (1, 1) ∗ Φ (2, 0) ∗ Φ (2, 1)) :=
  bigSep_univ_eq_bigSepL [((0 : Fin 3), (0 : Fin 2)), (0, 1), (1, 0), (1, 1), (2, 0), (2, 1)] (by decide) (by decide) Φ

omit [FloatOps F] in
theorem bigSep_PI (Φ : PI → sProp 𝕄) : bigSep Finset.univ Φ = iprop(Φ (.inl (false, false) : PI) ∗ Φ (.inl (false, true) : PI) ∗ Φ (.inl (true, false) : PI) ∗ Φ (.inl (true, true) : PI) ∗ Φ (.inr (0, 0, 0) : PI) ∗ Φ (.inr (0, 0, 1) : PI) ∗ Φ (.inr (0, 1, 0) : PI) ∗ Φ (.inr (0, 1, 1) : PI) ∗ Φ (.inr (0, 2, 0) : PI) ∗ Φ (.inr (0, 2, 1) : PI) ∗ Φ (.inr (1, 0, 0) : PI) ∗ Φ (.inr (1, 0, 1) : PI) ∗ Φ (.inr (1, 1, 0) : PI) ∗ Φ (.inr (1, 1, 1) : PI) ∗ Φ (.inr (1, 2, 0) : PI) ∗ Φ (.inr (1, 2, 1) : PI) ∗ Φ (.inr (2, 0, 0) : PI) ∗ Φ (.inr (2, 0, 1) : PI) ∗ Φ (.inr (2, 1, 0) : PI) ∗ Φ (.inr (2, 1, 1) : PI) ∗ Φ (.inr (2, 2, 0) : PI) ∗ Φ (.inr (2, 2, 1) : PI) ∗ Φ (.inr (3, 0, 0) : PI) ∗ Φ (.inr (3, 0, 1) : PI) ∗ Φ (.inr (3, 1, 0) : PI) ∗ Φ (.inr (3, 1, 1) : PI) ∗ Φ (.inr (3, 2, 0) : PI) ∗ Φ (.inr (3, 2, 1) : PI)) :=
  bigSep_univ_eq_bigSepL [(.inl (false, false) : PI), (.inl (false, true) : PI), (.inl (true, false) : PI), (.inl (true, true) : PI), (.inr (0, 0, 0) : PI), (.inr (0, 0, 1) : PI), (.inr (0, 1, 0) : PI), (.inr (0, 1, 1) : PI), (.inr (0, 2, 0) : PI), (.inr (0, 2, 1) : PI), (.inr (1, 0, 0) : PI), (.inr (1, 0, 1) : PI), (.inr (1, 1, 0) : PI), (.inr (1, 1, 1) : PI), (.inr (1, 2, 0) : PI), (.inr (1, 2, 1) : PI), (.inr (2, 0, 0) : PI), (.inr (2, 0, 1) : PI), (.inr (2, 1, 0) : PI), (.inr (2, 1, 1) : PI), (.inr (2, 2, 0) : PI), (.inr (2, 2, 1) : PI), (.inr (3, 0, 0) : PI), (.inr (3, 0, 1) : PI), (.inr (3, 1, 0) : PI), (.inr (3, 1, 1) : PI), (.inr (3, 2, 0) : PI), (.inr (3, 2, 1) : PI)] (by decide) (by decide) Φ
omit [FloatOps F] in
theorem payToks_eq (c : Dev nD) : payToks (F := F) c = iprop(dutyTok ER (regCell (prv c) barS) 0 true ∗ dutyTok ER (regCell (nxt c) barS) 0 false ∗ dutyTok ER (regCell (prv c) endS) 0 true ∗ dutyTok ER (regCell (nxt c) endS) 0 false ∗ dutyTok ER (dcell c 0 0 0) 0 false ∗ dutyTok ER (dcell c 0 0 1) 0 false ∗ dutyTok ER (dcell c 0 1 0) 0 false ∗ dutyTok ER (dcell c 0 1 1) 0 false ∗ dutyTok ER (dcell c 0 2 0) 0 false ∗ dutyTok ER (dcell c 0 2 1) 0 false ∗ dutyTok ER (dcell (nxt c) 1 0 0) 0 false ∗ dutyTok ER (dcell (nxt c) 1 0 1) 0 false ∗ dutyTok ER (dcell (nxt c) 1 1 0) 0 false ∗ dutyTok ER (dcell (nxt c) 1 1 1) 0 false ∗ dutyTok ER (dcell (nxt c) 1 2 0) 0 false ∗ dutyTok ER (dcell (nxt c) 1 2 1) 0 false ∗ dutyTok ER (dcell c 2 0 0) 0 false ∗ dutyTok ER (dcell c 2 0 1) 0 false ∗ dutyTok ER (dcell c 2 1 0) 0 false ∗ dutyTok ER (dcell c 2 1 1) 0 false ∗ dutyTok ER (dcell c 2 2 0) 0 false ∗ dutyTok ER (dcell c 2 2 1) 0 false ∗ dutyTok ER (dcell (prv c) 3 0 0) 0 false ∗ dutyTok ER (dcell (prv c) 3 0 1) 0 false ∗ dutyTok ER (dcell (prv c) 3 1 0) 0 false ∗ dutyTok ER (dcell (prv c) 3 1 1) 0 false ∗ dutyTok ER (dcell (prv c) 3 2 0) 0 false ∗ dutyTok ER (dcell (prv c) 3 2 1) 0 false) := by
  unfold payToks; rw [bigSep_PI]
omit [FloatOps F] in
theorem positions_eq (c : Dev nD) : positions (F := F) c = iprop(atPos ER (regCell c barS) 0 ∅ 0 ∗ atPos ER (regCell c endS) 0 ∅ 0 ∗ atPos ER (dcell c 0 0 0) 0 ∅ 0 ∗ atPos ER (dcell c 0 0 1) 0 ∅ 0 ∗ atPos ER (dcell c 0 1 0) 0 ∅ 0 ∗ atPos ER (dcell c 0 1 1) 0 ∅ 0 ∗ atPos ER (dcell c 0 2 0) 0 ∅ 0 ∗ atPos ER (dcell c 0 2 1) 0 ∅ 0 ∗ atPos ER (dcell c 1 0 0) 0 ∅ 0 ∗ atPos ER (dcell c 1 0 1) 0 ∅ 0 ∗ atPos ER (dcell c 1 1 0) 0 ∅ 0 ∗ atPos ER (dcell c 1 1 1) 0 ∅ 0 ∗ atPos ER (dcell c 1 2 0) 0 ∅ 0 ∗ atPos ER (dcell c 1 2 1) 0 ∅ 0 ∗ atPos ER (dcell c 2 0 0) 0 ∅ 0 ∗ atPos ER (dcell c 2 0 1) 0 ∅ 0 ∗ atPos ER (dcell c 2 1 0) 0 ∅ 0 ∗ atPos ER (dcell c 2 1 1) 0 ∅ 0 ∗ atPos ER (dcell c 2 2 0) 0 ∅ 0 ∗ atPos ER (dcell c 2 2 1) 0 ∅ 0 ∗ atPos ER (dcell c 3 0 0) 0 ∅ 0 ∗ atPos ER (dcell c 3 0 1) 0 ∅ 0 ∗ atPos ER (dcell c 3 1 0) 0 ∅ 0 ∗ atPos ER (dcell c 3 1 1) 0 ∅ 0 ∗ atPos ER (dcell c 3 2 0) 0 ∅ 0 ∗ atPos ER (dcell c 3 2 1) 0 ∅ 0) := by
  unfold positions; rw [bigSep_CI]
omit [FloatOps F] in
theorem ownSems_eq (c : Dev nD) : (bigSep Finset.univ fun k : OS => (semVal ((c : Thread nD τ), osem k) 0 : sProp 𝕄))
    = iprop(semVal (regCell c endS) 0 ∗ semVal (dcell c 0 0 0) 0 ∗ semVal (dcell c 0 0 1) 0 ∗ semVal (dcell c 0 1 0) 0 ∗ semVal (dcell c 0 1 1) 0 ∗ semVal (dcell c 0 2 0) 0 ∗ semVal (dcell c 0 2 1) 0 ∗ semVal (dcell c 1 0 0) 0 ∗ semVal (dcell c 1 0 1) 0 ∗ semVal (dcell c 1 1 0) 0 ∗ semVal (dcell c 1 1 1) 0 ∗ semVal (dcell c 1 2 0) 0 ∗ semVal (dcell c 1 2 1) 0 ∗ semVal (dcell c 2 0 0) 0 ∗ semVal (dcell c 2 0 1) 0 ∗ semVal (dcell c 2 1 0) 0 ∗ semVal (dcell c 2 1 1) 0 ∗ semVal (dcell c 2 2 0) 0 ∗ semVal (dcell c 2 2 1) 0 ∗ semVal (dcell c 3 0 0) 0 ∗ semVal (dcell c 3 0 1) 0 ∗ semVal (dcell c 3 1 0) 0 ∗ semVal (dcell c 3 1 1) 0 ∗ semVal (dcell c 3 2 0) 0 ∗ semVal (dcell c 3 2 1) 0) := by
  rw [bigSep_OS]

end Cert.Kernel.Ag

end
-- ==== Proof.K.Split.lean ====
/-
  Carving a buffer into the parts the transfers move, and putting them back.

  A road's landing buffer holds six slots of 128 × 2048 elements; two different slots differ in their hop or in their
  piece, so their rectangles are separated along the first or the second axis and share no element. The block of `x`
  holds four pieces of 128 rows, separated along the rows. A buffer held whole is therefore its parts and what lies
  outside them, each held by itself; and parts held by themselves at whatever contents, with what lies outside them,
  are the buffer held whole at some contents.
-/
import proofs.«900337_g7700000000000338_dist_ag_gemm_m2048_k2048_n2048_f32_none_v7x_i4_1_alg».proof.Proof.K.Cells
import Idealize.ShloMosaic.Lib.ReshapeSlab
import Idealize.ShloMosaic.Rules.PointsTo

set_option maxRecDepth 65536

noncomputable section

namespace Cert.Kernel.Ag

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The slots of a road's buffer -/

section Slots
variable (M : Memref sig .tc .vmem S3x2x128x2048 .f32)

/-- A slot's elements are those of its rectangle (the squeeze renames indices, not elements). -/
theorem slot_set (h : Fin 3) (p : Fin 2) :
    (slot M h p).view.set = (M.view.slice (Rect.unit (s := S3x2x128x2048) ![h.val, p.val, 0, 0] S1x1x128x2048.size (inb_s h p))).set :=
  View.set_reshape _ _

/-- Two different slots share no element. -/
theorem slot_disj (h h' : Fin 3) (p p' : Fin 2) (hne : h ≠ h' ∨ p ≠ p') : Disjoint (slot M h p).view.set (slot M h' p').view.set := by
  rw [slot_set M h p, slot_set M h' p']
  rcases hne with hh | hp
  · refine View.disjoint_slice_of_sep M.view _ _ (0 : Fin 4) rfl rfl ?_
    show h.val + 1 ≤ h'.val ∨ h'.val + 1 ≤ h.val
    have := Fin.val_ne_of_ne hh; omega
  · refine View.disjoint_slice_of_sep M.view _ _ (1 : Fin 4) rfl rfl ?_
    show p.val + 1 ≤ p'.val ∨ p'.val + 1 ≤ p.val
    have := Fin.val_ne_of_ne hp; omega

/-- Slot `t`'s elements, by the pair (hop, piece). -/
abbrev slotSet (t : Fin 3 × Fin 2) : Finset M.view.ty.Idx := (slot M t.1 t.2).view.set

theorem slotSet_disj : ∀ t ∈ (Finset.univ : Finset (Fin 3 × Fin 2)), ∀ t' ∈ (Finset.univ : Finset (Fin 3 × Fin 2)), t ≠ t' →
    Disjoint (slotSet M t) (slotSet M t') := fun t _ t' _ hne => by
  refine slot_disj M t.1 t'.1 t.2 t'.2 ?_
  by_contra hc
  rw [not_or, not_not, not_not] at hc
  exact hne (Prod.ext hc.1 hc.2)

/-- All six slots' elements. -/
abbrev slotsAll : Finset M.view.ty.Idx := (Finset.univ : Finset (Fin 3 × Fin 2)).biUnion (slotSet M)

end Slots

omit [FloatOps F] in
theorem bigSep_slots (Φ : Fin 3 × Fin 2 → sProp 𝕄) :
    bigSep Finset.univ Φ = iprop(Φ (0, 0) ∗ Φ (0, 1) ∗ Φ (1, 0) ∗ Φ (1, 1) ∗ Φ (2, 0) ∗ Φ (2, 1)) :=
  bigSep_univ_eq_bigSepL [((0 : Fin 3), (0 : Fin 2)), (0, 1), (1, 0), (1, 1), (2, 0), (2, 1)] (by decide) (by decide) Φ

section SlotsPts
variable (M : Memref sig .tc .vmem S3x2x128x2048 .f32) (c : Dev nD)

omit [FloatOps F] in
/-- A slot held by itself, said through the buffer's own location and the slot's elements. -/
theorem slotPts_eq (h : Fin 3) (p : Fin 2) (q : PosShare TreeShare) (f : Buf (Elt F) (M.view.loc (c : Thread nD τ))) :
    (slotPts M c h p q f : sProp 𝕄) = ((M.view.loc (c : Thread nD τ)) ↦[slotSet M (h, p)]{q} f) := rfl

omit [FloatOps F] in
/-- The six slots held one by one, as the family over (hop, piece). -/
theorem six_eq (q : PosShare TreeShare) (g : Fin 3 × Fin 2 → Buf (Elt F) (M.view.loc (c : Thread nD τ))) :
    (bigSep Finset.univ fun t : Fin 3 × Fin 2 => ((M.view.loc (c : Thread nD τ)) ↦[slotSet M t]{q} g t : sProp 𝕄))
      = iprop(slotPts M c 0 0 q (g (0, 0)) ∗ slotPts M c 0 1 q (g (0, 1)) ∗ slotPts M c 1 0 q (g (1, 0)) ∗ slotPts M c 1 1 q (g (1, 1))
          ∗ slotPts M c 2 0 q (g (2, 0)) ∗ slotPts M c 2 1 q (g (2, 1))) :=
  bigSep_slots (F := F) fun t => ((M.view.loc (c : Thread nD τ)) ↦[slotSet M t]{q} g t : sProp 𝕄)

omit [FloatOps F] in
/-- A road's buffer held whole is its six slots, each held by itself, and what lies outside them. -/
theorem slots_split (f : Buf (Elt F) (M.view.loc (c : Thread nD τ))) :
    ((M.view.loc (c : Thread nD τ)) ↦{fullShare} f : sProp 𝕄)
      ⊢ iprop((slotPts M c 0 0 fullShare f ∗ slotPts M c 0 1 fullShare f ∗ slotPts M c 1 0 fullShare f ∗ slotPts M c 1 1 fullShare f
            ∗ slotPts M c 2 0 fullShare f ∗ slotPts M c 2 1 fullShare f)
          ∗ ((M.view.loc (c : Thread nD τ)) ↦[Finset.univ \ slotsAll M]{fullShare} f)) := by
  have h1 : ((M.view.loc (c : Thread nD τ)) ↦[Finset.univ]{fullShare} f : sProp 𝕄)
      ⊢ iprop(((M.view.loc (c : Thread nD τ)) ↦[slotsAll M]{fullShare} f) ∗ ((M.view.loc (c : Thread nD τ)) ↦[Finset.univ \ slotsAll M]{fullShare} f)) :=
    (pointsTo_split_subset (Finset.subset_univ _)).1
  have h2 : ((M.view.loc (c : Thread nD τ)) ↦[slotsAll M]{fullShare} f : sProp 𝕄)
      = bigSep Finset.univ fun t : Fin 3 × Fin 2 => ((M.view.loc (c : Thread nD τ)) ↦[slotSet M t]{fullShare} f : sProp 𝕄) :=
    pointsTo_biUnion (ℓ := M.view.loc (c : Thread nD τ)) (q := fullShare) (f := f) (T := Fin 3 × Fin 2) Finset.univ (slotSet M) (slotSet_disj M)
  exact h1.trans (sep_mono_left (Entails.of_eq (h2.trans (six_eq M c fullShare fun _ => f))))

omit [FloatOps F] in
/-- The six slots, each held by itself at whatever contents, and what lies outside them, are the buffer held whole at
    some contents. -/
theorem slots_join (g : Fin 3 × Fin 2 → Buf (Elt F) (M.view.loc (c : Thread nD τ))) (f : Buf (Elt F) (M.view.loc (c : Thread nD τ))) :
    iprop((slotPts M c 0 0 fullShare (g (0, 0)) ∗ slotPts M c 0 1 fullShare (g (0, 1)) ∗ slotPts M c 1 0 fullShare (g (1, 0))
          ∗ slotPts M c 1 1 fullShare (g (1, 1)) ∗ slotPts M c 2 0 fullShare (g (2, 0)) ∗ slotPts M c 2 1 fullShare (g (2, 1)))
        ∗ ((M.view.loc (c : Thread nD τ)) ↦[Finset.univ \ slotsAll M]{fullShare} f))
      ⊢ (iprop(∃ f', (M.view.loc (c : Thread nD τ)) ↦{fullShare} f') : sProp 𝕄) := by
  have hj : (bigSep Finset.univ fun t : Fin 3 × Fin 2 => ((M.view.loc (c : Thread nD τ)) ↦[slotSet M t]{fullShare} g t : sProp 𝕄))
      ⊢ iprop(∃ g', ⌜∀ t ∈ (Finset.univ : Finset (Fin 3 × Fin 2)), ∀ i ∈ slotSet M t, g' i = g t i⌝ ∗ ((M.view.loc (c : Thread nD τ)) ↦[slotsAll M]{fullShare} g')) :=
    pointsTo_biUnion_join (ℓ := M.view.loc (c : Thread nD τ)) (q := fullShare) (T := Fin 3 × Fin 2) Finset.univ (slotSet M) g f (slotSet_disj M)
  refine (sep_mono_left ((Entails.of_eq (six_eq M c fullShare g).symm).trans hj)).trans ?_
  iintro ⟨⟨%g', -, Hall⟩, Hrest⟩
  iexists (slotsAll M).piecewise g' f
  iapply (pointsTo_join_subset (I := slotsAll M) (S := Finset.univ) (Finset.subset_univ _))
  isplitl [Hall]
  · iexact Hall
  · iexact Hrest

end SlotsPts

/-! ## The two halves of a share -/

omit [FloatOps F] in
/-- Elements held at a share are held at its two halves, and back. -/
theorem halves {ℓ : Loc nD τ sig} (I : Finset (Idx ℓ)) (q : PosShare TreeShare) (f : Buf (Elt F) ℓ) :
    (ℓ ↦[I]{q} f : sProp 𝕄) ⊣⊢ iprop((ℓ ↦[I]{q.left} f) ∗ ℓ ↦[I]{q.right} f) :=
  pointsTo_share (PosShare.mem_left_op_right q)

omit [FloatOps F] in
/-- The two halves come back together even when they are held at contents named differently: the two namings agree on
    the elements held. -/
theorem halves_join {ℓ : Loc nD τ sig} (I : Finset (Idx ℓ)) (q : PosShare TreeShare) (f f' : Buf (Elt F) ℓ) :
    iprop((ℓ ↦[I]{q.left} f') ∗ ℓ ↦[I]{q.right} f) ⊢ (ℓ ↦[I]{q} f : sProp 𝕄) := by
  iintro H
  ihave H' := (persistent_entails_right (pointsTo_agree (I := I) (J := I) (q₁ := q.left) (q₂ := q.right) (f := f') (g := f))) $$ H
  icases H' with ⟨%hag, Hl, Hr⟩
  have e : (ℓ ↦[I]{q.left} f' : sProp 𝕄) = ℓ ↦[I]{q.left} f :=
    pointsTo_congr fun i hi => (hag i (Finset.mem_inter.mpr ⟨hi, hi⟩)).1
  iapply (halves I q f).2
  isplitl [Hl]
  · iapply (Entails.of_eq e); iexact Hl
  · iexact Hr

/-! ## The pieces of the block of `x` -/

omit [FloatOps F] in
theorem xP_disj (j j' : Fin 4) (hne : j ≠ j') : Disjoint (xP j).view.set (xP j').view.set := by
  refine View.disjoint_slice_of_sep xM.view _ _ (0 : Fin 2) rfl rfl ?_
  show 128 * j.val + 128 ≤ 128 * j'.val ∨ 128 * j'.val + 128 ≤ 128 * j.val
  have := Fin.val_ne_of_ne hne; omega

abbrev xSet (j : Fin 4) : Finset xM.view.ty.Idx := (xP j).view.set
abbrev xAll : Finset xM.view.ty.Idx := (Finset.univ : Finset (Fin 4)).biUnion xSet

theorem xSet_disj : ∀ j ∈ (Finset.univ : Finset (Fin 4)), ∀ j' ∈ (Finset.univ : Finset (Fin 4)), j ≠ j' → Disjoint (xSet j) (xSet j') :=
  fun j _ j' _ hne => xP_disj j j' hne

omit [FloatOps F] in
theorem bigSep_fin4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

section XPts
variable (c : Dev nD)

omit [FloatOps F] in
theorem xFour_eq (q : PosShare TreeShare) (f : Buf (Elt F) (xM.view.loc (c : Thread nD τ))) :
    (bigSep Finset.univ fun j : Fin 4 => ((xM.view.loc (c : Thread nD τ)) ↦[xSet j]{q} f : sProp 𝕄))
      = iprop(((xP 0).view.loc (c : Thread nD τ) ↦[(xP 0).view.set]{q} f) ∗ ((xP 1).view.loc (c : Thread nD τ) ↦[(xP 1).view.set]{q} f)
          ∗ ((xP 2).view.loc (c : Thread nD τ) ↦[(xP 2).view.set]{q} f) ∗ ((xP 3).view.loc (c : Thread nD τ) ↦[(xP 3).view.set]{q} f)) :=
  bigSep_fin4 (F := F) fun j => ((xM.view.loc (c : Thread nD τ)) ↦[xSet j]{q} f : sProp 𝕄)

omit [FloatOps F] in
/-- The block of `x` held whole at a share is its four pieces and what lies outside them, each held at that share; -/
theorem x_split (q : PosShare TreeShare) (f : Buf (Elt F) (xM.view.loc (c : Thread nD τ))) :
    ((xM.view.loc (c : Thread nD τ)) ↦{q} f : sProp 𝕄)
      ⊢ iprop((((xP 0).view.loc (c : Thread nD τ) ↦[(xP 0).view.set]{q} f) ∗ ((xP 1).view.loc (c : Thread nD τ) ↦[(xP 1).view.set]{q} f)
            ∗ ((xP 2).view.loc (c : Thread nD τ) ↦[(xP 2).view.set]{q} f) ∗ ((xP 3).view.loc (c : Thread nD τ) ↦[(xP 3).view.set]{q} f))
          ∗ ((xM.view.loc (c : Thread nD τ)) ↦[Finset.univ \ xAll]{q} f)) := by
  have h1 : ((xM.view.loc (c : Thread nD τ)) ↦[Finset.univ]{q} f : sProp 𝕄)
      ⊢ iprop(((xM.view.loc (c : Thread nD τ)) ↦[xAll]{q} f) ∗ ((xM.view.loc (c : Thread nD τ)) ↦[Finset.univ \ xAll]{q} f)) :=
    (pointsTo_split_subset (Finset.subset_univ _)).1
  have h2 : ((xM.view.loc (c : Thread nD τ)) ↦[xAll]{q} f : sProp 𝕄)
      = bigSep Finset.univ fun j : Fin 4 => ((xM.view.loc (c : Thread nD τ)) ↦[xSet j]{q} f : sProp 𝕄) :=
    pointsTo_biUnion (ℓ := xM.view.loc (c : Thread nD τ)) (q := q) (f := f) (T := Fin 4) Finset.univ xSet xSet_disj
  exact h1.trans (sep_mono_left (Entails.of_eq (h2.trans (xFour_eq c q f))))

omit [FloatOps F] in
/-- and back. -/
theorem x_join (q : PosShare TreeShare) (f : Buf (Elt F) (xM.view.loc (c : Thread nD τ))) :
    iprop((((xP 0).view.loc (c : Thread nD τ) ↦[(xP 0).view.set]{q} f) ∗ ((xP 1).view.loc (c : Thread nD τ) ↦[(xP 1).view.set]{q} f)
            ∗ ((xP 2).view.loc (c : Thread nD τ) ↦[(xP 2).view.set]{q} f) ∗ ((xP 3).view.loc (c : Thread nD τ) ↦[(xP 3).view.set]{q} f))
          ∗ ((xM.view.loc (c : Thread nD τ)) ↦[Finset.univ \ xAll]{q} f))
      ⊢ ((xM.view.loc (c : Thread nD τ)) ↦{q} f : sProp 𝕄) := by
  have h1 : iprop(((xM.view.loc (c : Thread nD τ)) ↦[xAll]{q} f) ∗ ((xM.view.loc (c : Thread nD τ)) ↦[Finset.univ \ xAll]{q} f))
      ⊢ ((xM.view.loc (c : Thread nD τ)) ↦[Finset.univ]{q} f : sProp 𝕄) :=
    (pointsTo_split_subset (Finset.subset_univ _)).2
  have h2 : ((xM.view.loc (c : Thread nD τ)) ↦[xAll]{q} f : sProp 𝕄)
      = bigSep Finset.univ fun j : Fin 4 => ((xM.view.loc (c : Thread nD τ)) ↦[xSet j]{q} f : sProp 𝕄) :=
    pointsTo_biUnion (ℓ := xM.view.loc (c : Thread nD τ)) (q := q) (f := f) (T := Fin 4) Finset.univ xSet xSet_disj
  exact (sep_mono_left (Entails.of_eq (h2.trans (xFour_eq c q f)).symm)).trans h1

end XPts

section SlotsJoin6
variable (M : Memref sig .tc .vmem S3x2x128x2048 .f32) (c : Dev nD)

omit [FloatOps F] in
/-- `slots_join` with the six slots' contents named one by one. -/
theorem slots_join6 (f00 f01 f10 f11 f20 f21 f : Buf (Elt F) (M.view.loc (c : Thread nD τ))) :
    iprop((slotPts M c 0 0 fullShare f00 ∗ slotPts M c 0 1 fullShare f01 ∗ slotPts M c 1 0 fullShare f10
          ∗ slotPts M c 1 1 fullShare f11 ∗ slotPts M c 2 0 fullShare f20 ∗ slotPts M c 2 1 fullShare f21)
        ∗ ((M.view.loc (c : Thread nD τ)) ↦[Finset.univ \ slotsAll M]{fullShare} f))
      ⊢ (iprop(∃ f', (M.view.loc (c : Thread nD τ)) ↦{fullShare} f') : sProp 𝕄) :=
  slots_join M c (fun t => if t = (0, 0) then f00 else if t = (0, 1) then f01 else if t = (1, 0) then f10 else if t = (1, 1) then f11
    else if t = (2, 0) then f20 else f21) f

end SlotsJoin6

end Cert.Kernel.Ag

end
-- ==== Proof.K.Sends.lean ====
/-
  The twelve transfers, as two rules per road.

  A transfer reads a 128 × 2048 block through its source view, lent at half its share, and overwrites the neighbour's
  slot with it; what the slot then reads is the source's reading, whatever it held before. The first hop's source is a
  piece of the device's own block; a later hop's is the slot the previous hop filled, so the piece that came `h + 1` hops
  to this device is the piece that comes `h + 2` hops to its neighbour.
-/
import proofs.«900337_g7700000000000338_dist_ag_gemm_m2048_k2048_n2048_f32_none_v7x_i4_1_alg».proof.Proof.K.Cells

noncomputable section

namespace Cert.Kernel.Ag

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The first hop on the rightward road: piece `p` of the device's own half-block goes into the neighbour's slot `(0, p)`;
    the neighbour's receive cell is handed the slot reading that piece, the send cell the lent half of the source. -/
theorem send0R (c n : Dev nD) (hn : n = nxt c) (p : Fin 2)
    (src : Memref sig .tc .vmem S128x2048 .f32) (hs : src = xP (jR p))
    (dst : Memref sig .tc .vmem S128x2048 .f32) (hd : dst = slot aM 0 p)
    (sS sV : DmaSem sig) (hsS : sS = qsem (arr 0) 0 p) (hsV : sV = qsem (arr 1) 0 p)
    {hsc : dst.view.ref.isScScratch = false} {hsrc : src.view.WordExact} {hdst : dst.view.WordExact}
    {hsem : DmaTarget.Typed .vmem (.dma sV) (.remote (Dev.tc n : Thread nD τ) dst (.dma sS) hsc)}
    {α : Type} {Q : α → sProp 𝕄} {k : PUnit → Prog (TpuEff nD τ sig (Elt F) Λ₀ .tc) α}
    (κ₁ κ₂ : ℕ) (fd : Buf (Elt F) ((slot aM 0 p).view.loc (nxt c : Thread nD τ))) (W : Waits sig Unit) (O : CellTallies nD τ sig Unit) :
    iprop(cellInv ER (Rd m) κ₁ (dcell c 0 0 p) ∗ cellInv ER (Rd m) κ₂ (dcell (nxt c) 1 0 p)
        ∗ xPts m c (jR p) fullShare.left ∗ slotPts aM (nxt c) 0 p fullShare fd
        ∗ owes (c : Thread nD τ) (O + tallyAt (dcell (nxt c) 1 0 p) () N) W
        ∗ dutyTok ER (dcell c 0 0 p) 0 false ∗ reached ER (dcell c 0 0 p) 0
        ∗ dutyTok ER (dcell (nxt c) 1 0 p) 0 false ∗ reached ER (dcell (nxt c) 1 0 p) 0)
      ⊢ iprop(((cred (tallyAt (dcell c 0 0 p) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sV) hsrc hdst hsem) k) Q) := by
  subst hn hs hd hsS hsV
  unfold xPts slotPts
  exact Rounds.wp_send_pointsTo 𝒱₀ ER (Rd m) (c : Thread nD τ) none (c' := (nxt c : Thread nD τ)) (src := xP (jR p)) (dst := slot aM 0 p)
    (sS := .dma (qsem (arr 0) 0 p)) (sem := .dma (qsem (arr 1) 0 p)) (q := fullShare.left) (fs := X m c) (κ₁ := κ₁) (κ₂ := κ₂)
    (r₁ := 0) (r₂ := 0) (d₁ := false) (d₂ := false) (fd := fd)
    (by rw [duties_dma]; exact Finset.mem_singleton_self _) (by rw [duties_dma]; exact Finset.mem_singleton_self _)
    () () N rfl (amount_dma m c 0 0 p false) (amount_dma m (nxt c) 1 0 p false) O rfl (W := W)
    (by rw [payload_dma]; exact BI.Entails.refl _)
    (by
      rw [payload_dma]
      show _ ⊢ landed aM (nxt c) 0 p (srcR m (nxt c) 0 p)
      unfold landed slotPts
      iintro H
      iexists ((slot aM 0 p).view.write (Elt F) fd ((xP (jR p)).view.read (Elt F) (X m c)) Finset.univ)
      isplitr
      · ipureintro
        rw [View.read_write_univ]
        show piece m c (jR p) = piece m (shift (nxt c) (3 * ((0 : Fin 3).val + 1))) (jR p)
        rw [show shift (nxt c) (3 * ((0 : Fin 3).val + 1)) = c from shift_left_first c]
      · iexact H)

/-- A later hop on the rightward road: slot `(h, p)`, which reads the piece that came `h + 1` hops, is forwarded into the
    neighbour's slot `(h + 1, p)`, where it is the piece that came `h + 2` hops. -/
theorem sendR (c n : Dev nD) (hn : n = nxt c) (h : Fin 3) (hh : h.val + 1 < 3) (p : Fin 2)
    (src : Memref sig .tc .vmem S128x2048 .f32) (hs : src = slot aM h p)
    (dst : Memref sig .tc .vmem S128x2048 .f32) (hd : dst = slot aM ⟨h.val + 1, hh⟩ p)
    (sS sV : DmaSem sig) (hsS : sS = qsem (arr 0) ⟨h.val + 1, hh⟩ p) (hsV : sV = qsem (arr 1) ⟨h.val + 1, hh⟩ p)
    {hsc : dst.view.ref.isScScratch = false} {hsrc : src.view.WordExact} {hdst : dst.view.WordExact}
    {hsem : DmaTarget.Typed .vmem (.dma sV) (.remote (Dev.tc n : Thread nD τ) dst (.dma sS) hsc)}
    {α : Type} {Q : α → sProp 𝕄} {k : PUnit → Prog (TpuEff nD τ sig (Elt F) Λ₀ .tc) α}
    (κ₁ κ₂ : ℕ) (fs : Buf (Elt F) ((slot aM h p).view.loc (c : Thread nD τ))) (hfs : (slot aM h p).view.read (Elt F) fs = srcR m c h p)
    (fd : Buf (Elt F) ((slot aM ⟨h.val + 1, hh⟩ p).view.loc (nxt c : Thread nD τ))) (W : Waits sig Unit) (O : CellTallies nD τ sig Unit) :
    iprop(cellInv ER (Rd m) κ₁ (dcell c 0 ⟨h.val + 1, hh⟩ p) ∗ cellInv ER (Rd m) κ₂ (dcell (nxt c) 1 ⟨h.val + 1, hh⟩ p)
        ∗ slotPts aM c h p fullShare.left fs ∗ slotPts aM (nxt c) ⟨h.val + 1, hh⟩ p fullShare fd
        ∗ owes (c : Thread nD τ) (O + tallyAt (dcell (nxt c) 1 ⟨h.val + 1, hh⟩ p) () N) W
        ∗ dutyTok ER (dcell c 0 ⟨h.val + 1, hh⟩ p) 0 false ∗ reached ER (dcell c 0 ⟨h.val + 1, hh⟩ p) 0
        ∗ dutyTok ER (dcell (nxt c) 1 ⟨h.val + 1, hh⟩ p) 0 false ∗ reached ER (dcell (nxt c) 1 ⟨h.val + 1, hh⟩ p) 0)
      ⊢ iprop(((cred (tallyAt (dcell c 0 ⟨h.val + 1, hh⟩ p) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sV) hsrc hdst hsem) k) Q) := by
  subst hn hs hd hsS hsV
  unfold slotPts
  exact Rounds.wp_send_pointsTo 𝒱₀ ER (Rd m) (c : Thread nD τ) none (c' := (nxt c : Thread nD τ)) (src := slot aM h p) (dst := slot aM ⟨h.val + 1, hh⟩ p)
    (sS := .dma (qsem (arr 0) ⟨h.val + 1, hh⟩ p)) (sem := .dma (qsem (arr 1) ⟨h.val + 1, hh⟩ p)) (q := fullShare.left) (fs := fs) (κ₁ := κ₁) (κ₂ := κ₂)
    (r₁ := 0) (r₂ := 0) (d₁ := false) (d₂ := false) (fd := fd)
    (by rw [duties_dma]; exact Finset.mem_singleton_self _) (by rw [duties_dma]; exact Finset.mem_singleton_self _)
    () () N rfl (amount_dma m c 0 ⟨h.val + 1, hh⟩ p false) (amount_dma m (nxt c) 1 ⟨h.val + 1, hh⟩ p false) O rfl (W := W)
    (by
      rw [payload_dma]
      show _ ⊢ departed m aM c (jR p) ⟨h.val + 1, hh⟩ p
      unfold departed slotPts
      iintro H
      iexists fs
      iexact H)
    (by
      rw [payload_dma]
      show _ ⊢ landed aM (nxt c) ⟨h.val + 1, hh⟩ p (srcR m (nxt c) ⟨h.val + 1, hh⟩ p)
      unfold landed slotPts
      iintro H
      iexists ((slot aM ⟨h.val + 1, hh⟩ p).view.write (Elt F) fd ((slot aM h p).view.read (Elt F) fs) Finset.univ)
      isplitr
      · ipureintro
        rw [View.read_write_univ, hfs]
        unfold srcR
        rw [show shift (nxt c) (3 * ((⟨h.val + 1, hh⟩ : Fin 3).val + 1)) = shift c (3 * (h.val + 1)) from shift_left_step c h]
      · iexact H)

/-- The first hop on the leftward road: piece `p` of the device's own half-block goes into the neighbour's slot `(0, p)`;
    the neighbour's receive cell is handed the slot reading that piece, the send cell the lent half of the source. -/
theorem send0L (c n : Dev nD) (hn : n = prv c) (p : Fin 2)
    (src : Memref sig .tc .vmem S128x2048 .f32) (hs : src = xP (jL p))
    (dst : Memref sig .tc .vmem S128x2048 .f32) (hd : dst = slot bM 0 p)
    (sS sV : DmaSem sig) (hsS : sS = qsem (arr 2) 0 p) (hsV : sV = qsem (arr 3) 0 p)
    {hsc : dst.view.ref.isScScratch = false} {hsrc : src.view.WordExact} {hdst : dst.view.WordExact}
    {hsem : DmaTarget.Typed .vmem (.dma sV) (.remote (Dev.tc n : Thread nD τ) dst (.dma sS) hsc)}
    {α : Type} {Q : α → sProp 𝕄} {k : PUnit → Prog (TpuEff nD τ sig (Elt F) Λ₀ .tc) α}
    (κ₁ κ₂ : ℕ) (fd : Buf (Elt F) ((slot bM 0 p).view.loc (prv c : Thread nD τ))) (W : Waits sig Unit) (O : CellTallies nD τ sig Unit) :
    iprop(cellInv ER (Rd m) κ₁ (dcell c 2 0 p) ∗ cellInv ER (Rd m) κ₂ (dcell (prv c) 3 0 p)
        ∗ xPts m c (jL p) fullShare.left ∗ slotPts bM (prv c) 0 p fullShare fd
        ∗ owes (c : Thread nD τ) (O + tallyAt (dcell (prv c) 3 0 p) () N) W
        ∗ dutyTok ER (dcell c 2 0 p) 0 false ∗ reached ER (dcell c 2 0 p) 0
        ∗ dutyTok ER (dcell (prv c) 3 0 p) 0 false ∗ reached ER (dcell (prv c) 3 0 p) 0)
      ⊢ iprop(((cred (tallyAt (dcell c 2 0 p) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sV) hsrc hdst hsem) k) Q) := by
  subst hn hs hd hsS hsV
  unfold xPts slotPts
  exact Rounds.wp_send_pointsTo 𝒱₀ ER (Rd m) (c : Thread nD τ) none (c' := (prv c : Thread nD τ)) (src := xP (jL p)) (dst := slot bM 0 p)
    (sS := .dma (qsem (arr 2) 0 p)) (sem := .dma (qsem (arr 3) 0 p)) (q := fullShare.left) (fs := X m c) (κ₁ := κ₁) (κ₂ := κ₂)
    (r₁ := 0) (r₂ := 0) (d₁ := false) (d₂ := false) (fd := fd)
    (by rw [duties_dma]; exact Finset.mem_singleton_self _) (by rw [duties_dma]; exact Finset.mem_singleton_self _)
    () () N rfl (amount_dma m c 2 0 p false) (amount_dma m (prv c) 3 0 p false) O rfl (W := W)
    (by rw [payload_dma]; exact BI.Entails.refl _)
    (by
      rw [payload_dma]
      show _ ⊢ landed bM (prv c) 0 p (srcL m (prv c) 0 p)
      unfold landed slotPts
      iintro H
      iexists ((slot bM 0 p).view.write (Elt F) fd ((xP (jL p)).view.read (Elt F) (X m c)) Finset.univ)
      isplitr
      · ipureintro
        rw [View.read_write_univ]
        show piece m c (jL p) = piece m (shift (prv c) ((0 : Fin 3).val + 1)) (jL p)
        rw [show shift (prv c) ((0 : Fin 3).val + 1) = c from shift_right_first c]
      · iexact H)

/-- A later hop on the leftward road: slot `(h, p)`, which reads the piece that came `h + 1` hops, is forwarded into the
    neighbour's slot `(h + 1, p)`, where it is the piece that came `h + 2` hops. -/
theorem sendL (c n : Dev nD) (hn : n = prv c) (h : Fin 3) (hh : h.val + 1 < 3) (p : Fin 2)
    (src : Memref sig .tc .vmem S128x2048 .f32) (hs : src = slot bM h p)
    (dst : Memref sig .tc .vmem S128x2048 .f32) (hd : dst = slot bM ⟨h.val + 1, hh⟩ p)
    (sS sV : DmaSem sig) (hsS : sS = qsem (arr 2) ⟨h.val + 1, hh⟩ p) (hsV : sV = qsem (arr 3) ⟨h.val + 1, hh⟩ p)
    {hsc : dst.view.ref.isScScratch = false} {hsrc : src.view.WordExact} {hdst : dst.view.WordExact}
    {hsem : DmaTarget.Typed .vmem (.dma sV) (.remote (Dev.tc n : Thread nD τ) dst (.dma sS) hsc)}
    {α : Type} {Q : α → sProp 𝕄} {k : PUnit → Prog (TpuEff nD τ sig (Elt F) Λ₀ .tc) α}
    (κ₁ κ₂ : ℕ) (fs : Buf (Elt F) ((slot bM h p).view.loc (c : Thread nD τ))) (hfs : (slot bM h p).view.read (Elt F) fs = srcL m c h p)
    (fd : Buf (Elt F) ((slot bM ⟨h.val + 1, hh⟩ p).view.loc (prv c : Thread nD τ))) (W : Waits sig Unit) (O : CellTallies nD τ sig Unit) :
    iprop(cellInv ER (Rd m) κ₁ (dcell c 2 ⟨h.val + 1, hh⟩ p) ∗ cellInv ER (Rd m) κ₂ (dcell (prv c) 3 ⟨h.val + 1, hh⟩ p)
        ∗ slotPts bM c h p fullShare.left fs ∗ slotPts bM (prv c) ⟨h.val + 1, hh⟩ p fullShare fd
        ∗ owes (c : Thread nD τ) (O + tallyAt (dcell (prv c) 3 ⟨h.val + 1, hh⟩ p) () N) W
        ∗ dutyTok ER (dcell c 2 ⟨h.val + 1, hh⟩ p) 0 false ∗ reached ER (dcell c 2 ⟨h.val + 1, hh⟩ p) 0
        ∗ dutyTok ER (dcell (prv c) 3 ⟨h.val + 1, hh⟩ p) 0 false ∗ reached ER (dcell (prv c) 3 ⟨h.val + 1, hh⟩ p) 0)
      ⊢ iprop(((cred (tallyAt (dcell c 2 ⟨h.val + 1, hh⟩ p) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sV) hsrc hdst hsem) k) Q) := by
  subst hn hs hd hsS hsV
  unfold slotPts
  exact Rounds.wp_send_pointsTo 𝒱₀ ER (Rd m) (c : Thread nD τ) none (c' := (prv c : Thread nD τ)) (src := slot bM h p) (dst := slot bM ⟨h.val + 1, hh⟩ p)
    (sS := .dma (qsem (arr 2) ⟨h.val + 1, hh⟩ p)) (sem := .dma (qsem (arr 3) ⟨h.val + 1, hh⟩ p)) (q := fullShare.left) (fs := fs) (κ₁ := κ₁) (κ₂ := κ₂)
    (r₁ := 0) (r₂ := 0) (d₁ := false) (d₂ := false) (fd := fd)
    (by rw [duties_dma]; exact Finset.mem_singleton_self _) (by rw [duties_dma]; exact Finset.mem_singleton_self _)
    () () N rfl (amount_dma m c 2 ⟨h.val + 1, hh⟩ p false) (amount_dma m (prv c) 3 ⟨h.val + 1, hh⟩ p false) O rfl (W := W)
    (by
      rw [payload_dma]
      show _ ⊢ departed m bM c (jL p) ⟨h.val + 1, hh⟩ p
      unfold departed slotPts
      iintro H
      iexists fs
      iexact H)
    (by
      rw [payload_dma]
      show _ ⊢ landed bM (prv c) ⟨h.val + 1, hh⟩ p (srcL m (prv c) ⟨h.val + 1, hh⟩ p)
      unfold landed slotPts
      iintro H
      iexists ((slot bM ⟨h.val + 1, hh⟩ p).view.write (Elt F) fd ((slot bM h p).view.read (Elt F) fs) Finset.univ)
      isplitr
      · ipureintro
        rw [View.read_write_univ, hfs]
        unfold srcL
        rw [show shift (prv c) ((⟨h.val + 1, hh⟩ : Fin 3).val + 1) = shift c (h.val + 1) from shift_right_step c h]
      · iexact H)

end Cert.Kernel.Ag

end
-- ==== Proof.K.Cover.lean ====
/-
  The thirteen stores cover the whole result, so what they leave does not depend on what was there before.

  Row `i` of the 2048 × 512 result lies in row block `i / 512` (a device of the ring) at row `i % 512` of that block.
  The device's own block is covered by its own 512 rows. Any other block is, on the ring of four, the block of the
  device `3 (h + 1)` places to the right for exactly one hop `h`, and of the device `h' + 1` places to the right for
  exactly one hop `h'`: its first 256 rows are covered by the two pieces of 128 rows the rightward road delivered at
  hop `h`, its last 256 rows by the two pieces the leftward road delivered at hop `h'`. Every piece spans all 512
  columns.
-/
import proofs.«900337_g7700000000000338_dist_ag_gemm_m2048_k2048_n2048_f32_none_v7x_i4_1_alg».proof.Proof.K.Spec

noncomputable section

namespace Cert.Kernel.Ag

open Cert.Kernel Cert.Kernel.Gen
open Idealize.ShloMosaic
open Idealize.ShloMosaic.TcCoe

variable {F : FTy → Type} [FloatOps F]
variable (m : (ℓ : Loc nD τ sig) → Buf (Elt F) ℓ)

/-! ## A band of rows -/

/-- The rows `[o, o + n)` at all 512 columns hold every index whose row is one of them. -/
theorem mem_band {off size : Fin 2 → Nat} {inb : ∀ a, off a + size a ≤ S2048x512.size a} (y : S2048x512.Idx) (o n : ℕ)
    (hoff : off = ![o, 0]) (hsize : size = ![n, 512]) (hlo : o ≤ (y 0).val) (hhi : (y 0).val < o + n) :
    y ∈ (Rect.unit (s := S2048x512) off size inb).set := by
  subst hoff hsize
  have h1 : (y 1).val < 512 := (y 1).isLt
  rw [Rect.mem_set_unit, Fin.forall_fin_two]
  refine ⟨⟨hlo, hhi⟩, ⟨Nat.zero_le _, ?_⟩⟩
  show (y 1).val < 0 + 512
  omega

theorem mem_pieceOwn (c : Dev nD) (y : S2048x512.Idx) (hlo : 512 * c.val ≤ (y 0).val) (hhi : (y 0).val < 512 * c.val + 512) :
    y ∈ (pieceOwn m c).1.set :=
  mem_band (inb := k0_off1_inb c) y (512 * c.val) 512 (k0_off1_eq c) rfl hlo hhi

theorem mem_pieceR (c : Dev nD) (h : Fin 3) (p : Fin 2) (y : S2048x512.Idx)
    (hlo : 512 * (shift c (3 * (h.val + 1))).val + 128 * p.val ≤ (y 0).val)
    (hhi : (y 0).val < 512 * (shift c (3 * (h.val + 1))).val + 128 * p.val + 128) :
    y ∈ (pieceR m c h p).1.set :=
  mem_band (inb := k0_off2_inb c h p) y (512 * (shift c (3 * (h.val + 1))).val + 128 * p.val) 128 (off2_eq c h p) rfl hlo hhi

theorem mem_pieceL (c : Dev nD) (h : Fin 3) (p : Fin 2) (y : S2048x512.Idx)
    (hlo : 512 * (shift c (h.val + 1)).val + 256 + 128 * p.val ≤ (y 0).val)
    (hhi : (y 0).val < 512 * (shift c (h.val + 1)).val + 256 + 128 * p.val + 128) :
    y ∈ (pieceL m c h p).1.set :=
  mem_band (inb := k0_off3_inb c h p) y (512 * (shift c (h.val + 1)).val + 256 + 128 * p.val) 128 (off3_eq c h p) rfl hlo hhi

/-! ## The pieces are in the list -/

theorem Lout_length (c : Dev nD) : (Lout m c).length = 13 := rfl

theorem pieceOwn_mem (c : Dev nD) : pieceOwn m c ∈ Lout m c :=
  List.getElem_mem (l := Lout m c) (n := 12) (by rw [Lout_length]; omega)

theorem pieceR_mem (c : Dev nD) (h : Fin 3) (p : Fin 2) : pieceR m c h p ∈ Lout m c := by
  fin_cases h <;> fin_cases p
  · exact List.getElem_mem (l := Lout m c) (n := 11) (by rw [Lout_length]; omega)
  · exact List.getElem_mem (l := Lout m c) (n := 9) (by rw [Lout_length]; omega)
  · exact List.getElem_mem (l := Lout m c) (n := 7) (by rw [Lout_length]; omega)
  · exact List.getElem_mem (l := Lout m c) (n := 5) (by rw [Lout_length]; omega)
  · exact List.getElem_mem (l := Lout m c) (n := 3) (by rw [Lout_length]; omega)
  · exact List.getElem_mem (l := Lout m c) (n := 1) (by rw [Lout_length]; omega)

theorem pieceL_mem (c : Dev nD) (h : Fin 3) (p : Fin 2) : pieceL m c h p ∈ Lout m c := by
  fin_cases h <;> fin_cases p
  · exact List.getElem_mem (l := Lout m c) (n := 10) (by rw [Lout_length]; omega)
  · exact List.getElem_mem (l := Lout m c) (n := 8) (by rw [Lout_length]; omega)
  · exact List.getElem_mem (l := Lout m c) (n := 6) (by rw [Lout_length]; omega)
  · exact List.getElem_mem (l := Lout m c) (n := 4) (by rw [Lout_length]; omega)
  · exact List.getElem_mem (l := Lout m c) (n := 2) (by rw [Lout_length]; omega)
  · exact List.getElem_mem (l := Lout m c) (n := 0) (by rw [Lout_length]; omega)

/-! ## Which hop brought a block -/

/-- Every block but the device's own came along the rightward road at some hop; -/
theorem hop_R : ∀ (c : Dev nD) (j : Fin 4), j.val ≠ c.val → ∃ h : Fin 3, (shift c (3 * (h.val + 1))).val = j.val := by decide
/-- and along the leftward road at some hop. -/
theorem hop_L : ∀ (c : Dev nD) (j : Fin 4), j.val ≠ c.val → ∃ h : Fin 3, (shift c (h.val + 1)).val = j.val := by decide

/-! ## The cover -/

theorem cover (c : Dev nD) : ∀ y : S2048x512.Idx, ∃ p ∈ Lout m c, y ∈ p.1.set := by
  intro y
  have h0 : (y 0).val < 2048 := (y 0).isLt
  have hc : c.val < 4 := c.isLt
  by_cases hj : (y 0).val / 512 = c.val
  · exact ⟨pieceOwn m c, pieceOwn_mem m c, mem_pieceOwn m c y (by omega) (by omega)⟩
  · by_cases hr : (y 0).val % 512 < 256
    · obtain ⟨h, hh⟩ := hop_R c ⟨(y 0).val / 512, by omega⟩ hj
      have hh' : (shift c (3 * (h.val + 1))).val = (y 0).val / 512 := hh
      have hp : (y 0).val % 512 / 128 < 2 := by omega
      have e : ((⟨(y 0).val % 512 / 128, hp⟩ : Fin 2)).val = (y 0).val % 512 / 128 := rfl
      exact ⟨pieceR m c h ⟨(y 0).val % 512 / 128, hp⟩, pieceR_mem m c h _,
        mem_pieceR m c h _ y (by rw [hh', e]; omega) (by rw [hh', e]; omega)⟩
    · obtain ⟨h, hh⟩ := hop_L c ⟨(y 0).val / 512, by omega⟩ hj
      have hh' : (shift c (h.val + 1)).val = (y 0).val / 512 := hh
      have hp : ((y 0).val % 512 - 256) / 128 < 2 := by omega
      have e : ((⟨((y 0).val % 512 - 256) / 128, hp⟩ : Fin 2)).val = ((y 0).val % 512 - 256) / 128 := rfl
      exact ⟨pieceL m c h ⟨((y 0).val % 512 - 256) / 128, hp⟩, pieceL_mem m c h _,
        mem_pieceL m c h _ y (by rw [hh', e]; omega) (by rw [hh', e]; omega)⟩

/-- What the thirteen stores leave is the same over any prior contents. -/
theorem out_any_base (c : Dev nD) (g : (cc0_stg2_0 : Ref sig .tc).ty.Contents (Elt F)) :
    oM.view.writes (Elt F) g (Lout m c) = outAt m c := by
  unfold outAt
  exact View.contents_ext oM.view
    (fun y => View.read_writes_apply_eq oM.view g oM.view (base (F := F)) y (Lout m c) (cover m c y))
    (fun i hi => absurd rfl (hi i))

end Cert.Kernel.Ag

end
-- ==== Proof.K.Steps.lean ====
/-
  The small steps of a device's run, and its last one.

  Before each payment the device's debt is read as "the rest, and this payment". A round's payloads, once waited for, are
  read off the schedule's tables. At the end: every cell of the device's own has seen its one round and is closed, its
  counter at zero the device's again; the pieces of `x` lent to the first hops are back and make the block whole with
  the half kept; each forwarded slot's lent half is back and makes the slot whole with the half kept, and the six slots
  of a road, with what lies outside them, are the road's buffer again.
-/
import proofs.«900337_g7700000000000338_dist_ag_gemm_m2048_k2048_n2048_f32_none_v7x_i4_1_alg».proof.Proof.K.Ghost
import proofs.«900337_g7700000000000338_dist_ag_gemm_m2048_k2048_n2048_f32_none_v7x_i4_1_alg».proof.Proof.K.Split
import proofs.«900337_g7700000000000338_dist_ag_gemm_m2048_k2048_n2048_f32_none_v7x_i4_1_alg».proof.Proof.K.Sends
import proofs.«900337_g7700000000000338_dist_ag_gemm_m2048_k2048_n2048_f32_none_v7x_i4_1_alg».proof.Proof.K.Cover

set_option maxRecDepth 16384

noncomputable section

namespace Cert.Kernel.Ag

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The tables at the cells a device pays into -/

theorem pay_bar_prv (c : Dev nD) : (Rd (F := F) m).payload (regCell (prv c) barS) 0 true
    = iprop((∃ f, (slot aM 0 0).view.loc (c : Thread nD τ) ↦[(slot aM 0 0).view.set]{fullShare} f) ∗ (∃ f, (slot aM 0 1).view.loc (c : Thread nD τ) ↦[(slot aM 0 1).view.set]{fullShare} f) ∗ (∃ f, (slot aM 1 0).view.loc (c : Thread nD τ) ↦[(slot aM 1 0).view.set]{fullShare} f) ∗ (∃ f, (slot aM 1 1).view.loc (c : Thread nD τ) ↦[(slot aM 1 1).view.set]{fullShare} f) ∗ (∃ f, (slot aM 2 0).view.loc (c : Thread nD τ) ↦[(slot aM 2 0).view.set]{fullShare} f) ∗ (∃ f, (slot aM 2 1).view.loc (c : Thread nD τ) ↦[(slot aM 2 1).view.set]{fullShare} f) ∗ reachedAll (F := F) c 1) := by
  rw [payload_bar_true]; unfold barPayT slotAny slotPts; rw [nxt_prv]
theorem pay_bar_nxt (c : Dev nD) : (Rd (F := F) m).payload (regCell (nxt c) barS) 0 false
    = iprop((∃ f, (slot bM 0 0).view.loc (c : Thread nD τ) ↦[(slot bM 0 0).view.set]{fullShare} f) ∗ (∃ f, (slot bM 0 1).view.loc (c : Thread nD τ) ↦[(slot bM 0 1).view.set]{fullShare} f) ∗ (∃ f, (slot bM 1 0).view.loc (c : Thread nD τ) ↦[(slot bM 1 0).view.set]{fullShare} f) ∗ (∃ f, (slot bM 1 1).view.loc (c : Thread nD τ) ↦[(slot bM 1 1).view.set]{fullShare} f) ∗ (∃ f, (slot bM 2 0).view.loc (c : Thread nD τ) ↦[(slot bM 2 0).view.set]{fullShare} f) ∗ (∃ f, (slot bM 2 1).view.loc (c : Thread nD τ) ↦[(slot bM 2 1).view.set]{fullShare} f) ∗ reachedAll (F := F) c 3) := by
  rw [payload_bar_false]; unfold barPayF slotAny slotPts; rw [prv_nxt]

theorem owed0 (c : Dev nD) : owed c 0 = owed c 1 + tallyAt (regCell (prv c) barS) () (1#32).toNat := owed_succ c 0 (by decide)
theorem owed1 (c : Dev nD) : owed c 1 = owed c 2 + tallyAt (regCell (nxt c) barS) () (1#32).toNat := owed_succ c 1 (by decide)
theorem owed2 (c : Dev nD) : owed c 2 = owed c 3 + tallyAt (dcell (nxt c) 1 0 0) () N := owed_succ c 2 (by decide)
theorem owed3 (c : Dev nD) : owed c 3 = owed c 4 + tallyAt (dcell (prv c) 3 0 0) () N := owed_succ c 3 (by decide)
theorem owed4 (c : Dev nD) : owed c 4 = owed c 5 + tallyAt (dcell (nxt c) 1 0 1) () N := owed_succ c 4 (by decide)
theorem owed5 (c : Dev nD) : owed c 5 = owed c 6 + tallyAt (dcell (prv c) 3 0 1) () N := owed_succ c 5 (by decide)
theorem owed6 (c : Dev nD) : owed c 6 = owed c 7 + tallyAt (dcell (nxt c) 1 1 0) () N := owed_succ c 6 (by decide)
theorem owed7 (c : Dev nD) : owed c 7 = owed c 8 + tallyAt (dcell (prv c) 3 1 0) () N := owed_succ c 7 (by decide)
theorem owed8 (c : Dev nD) : owed c 8 = owed c 9 + tallyAt (dcell (nxt c) 1 1 1) () N := owed_succ c 8 (by decide)
theorem owed9 (c : Dev nD) : owed c 9 = owed c 10 + tallyAt (dcell (prv c) 3 1 1) () N := owed_succ c 9 (by decide)
theorem owed10 (c : Dev nD) : owed c 10 = owed c 11 + tallyAt (dcell (nxt c) 1 2 0) () N := owed_succ c 10 (by decide)
theorem owed11 (c : Dev nD) : owed c 11 = owed c 12 + tallyAt (dcell (prv c) 3 2 0) () N := owed_succ c 11 (by decide)
theorem owed12 (c : Dev nD) : owed c 12 = owed c 13 + tallyAt (dcell (nxt c) 1 2 1) () N := owed_succ c 12 (by decide)
theorem owed13 (c : Dev nD) : owed c 13 = owed c 14 + tallyAt (dcell (prv c) 3 2 1) () N := owed_succ c 13 (by decide)
theorem owed14 (c : Dev nD) : owed c 14 = owed c 15 + tallyAt (regCell (prv c) endS) () (1#32).toNat := owed_succ c 14 (by decide)
theorem owed15 (c : Dev nD) : owed c 15 = owed c 16 + tallyAt (regCell (nxt c) endS) () (1#32).toNat := owed_succ c 15 (by decide)

omit [FloatOps F] in
theorem peel {O O' : CellTallies nD τ sig Unit} (h : O = O') (c : Dev nD) (W : Waits sig Unit) :
    (owes (c : Thread nD τ) O W : sProp 𝕄) ⊢ owes (c : Thread nD τ) O' W := Entails.of_eq (by rw [h])

/-- A part of the state set aside until the end. -/
def aside (P : sProp 𝕄) : sProp 𝕄 := P
omit [FloatOps F] in
theorem aside_eq (P : sProp 𝕄) : aside P = P := rfl

theorem round_dma (c : Dev nD) (a : Fin 4) (h : Fin 3) (p : Fin 2) :
    bigSep ((Rd (F := F) m).duties (dcell c a h p) 0) (fun d => (Rd (F := F) m).payload (dcell c a h p) 0 d) = dpay m c a h p := by
  rw [duties_dma, bigSep_singleton, payload_dma]

theorem bar_open (c : Dev nD) : (bigSep Finset.univ fun d : Bool => (Rd (F := F) m).payload (regCell c barS) 0 d) = iprop(barPayF c ∗ barPayT c) := by
  rw [bigSep_univ_eq_bigSepL [false, true] (by decide) (by decide), bigSepL_cons_cons, bigSepL_singleton, payload_bar_false, payload_bar_true]
  rfl

/-! ## The stored pieces: what is loaded, multiplied and stored is each piece -/

omit [FloatOps F] in
theorem zeros2 : (![0, 0] : Fin 2 → Nat) = fun _ => 0 := funext fun a => by fin_cases a <;> rfl
omit [FloatOps F] in
theorem readX (f : (cc0_stg0_0 : Ref sig .tc).ty.Contents (Elt F)) :
    xM.view.readAt (Elt F) (Rect.unit (s := S512x2048) ![0, 0] S512x2048.size inb_S512x2048_S512x2048_0_0).toLoadRect f = f :=
  Memref.readAt_unit_zero (Elt F) cc0_stg0_0 zeros2 _ f
omit [FloatOps F] in
theorem readW (f : (cc0_stg1_0 : Ref sig .tc).ty.Contents (Elt F)) :
    wM.view.readAt (Elt F) (Rect.unit (s := S2048x512) ![0, 0] S2048x512.size inb_S2048x512_S2048x512_0_0).toLoadRect f = f :=
  Memref.readAt_unit_zero (Elt F) cc0_stg1_0 zeros2 _ f

/-- The device's own rows: both operands are loaded whole. -/
theorem pieceOwn_eq (c : Dev nD) :
    (⟨Rect.unit (s := S2048x512) (k0_off1 c) S512x512.size (k0_off1_inb c),
      k0_pay1 (xM.view.readAt (Elt F) (Rect.unit (s := S512x2048) ![0, 0] S512x2048.size inb_S512x2048_S512x2048_0_0).toLoadRect (X m c))
        (wM.view.readAt (Elt F) (Rect.unit (s := S2048x512) ![0, 0] S2048x512.size inb_S2048x512_S2048x512_0_0).toLoadRect (Wt m c))⟩ : OPiece (F := F))
      = pieceOwn m c := by
  unfold pieceOwn; rw [readX, readW]

/-- A piece the rightward road delivered: the slot is loaded through the whole landing buffer at the slot's rectangle,
    which reads, reshaped, what the slot's own view reads. -/
theorem pieceR_eq (c : Dev nD) (h : Fin 3) (p : Fin 2) (fr : Buf (Elt F) ((slot aM h p).view.loc (c : Thread nD τ)))
    (hfr : (slot aM h p).view.read (Elt F) fr = srcR m c h p)
    (k : Vec F S1x1x128x2048 .f32 → Vec F S2048x512 .f32 → FVec F S128x512 .f32)
    (hk : ∀ v w, k v w = mmP (shapeCast S128x2048 v shapeCasts_S1x1x128x2048_S128x2048) w) :
    (⟨Rect.unit (s := S2048x512) (k0_off2 c (BitVec.ofNat 32 h.val) (BitVec.ofNat 32 (128 * p.val))) S128x512.size (k0_off2_inb c h p),
      k (aM.view.readAt (Elt F) (Rect.unit (s := S3x2x128x2048) ![h.val, p.val, 0, 0] S1x1x128x2048.size (inb_s h p)).toLoadRect fr)
        (wM.view.readAt (Elt F) (Rect.unit (s := S2048x512) ![0, 0] S2048x512.size inb_S2048x512_S2048x512_0_0).toLoadRect (Wt m c))⟩ : OPiece (F := F))
      = pieceR m c h p := by
  unfold pieceR
  rw [hk, readW, ← hfr]
  rfl

/-- A piece the leftward road delivered. -/
theorem pieceL_eq (c : Dev nD) (h : Fin 3) (p : Fin 2) (fl : Buf (Elt F) ((slot bM h p).view.loc (c : Thread nD τ)))
    (hfl : (slot bM h p).view.read (Elt F) fl = srcL m c h p)
    (k : Vec F S1x1x128x2048 .f32 → Vec F S2048x512 .f32 → FVec F S128x512 .f32)
    (hk : ∀ v w, k v w = mmP (shapeCast S128x2048 v shapeCasts_S1x1x128x2048_S128x2048) w) :
    (⟨Rect.unit (s := S2048x512) (k0_off3 c (BitVec.ofNat 32 h.val) (BitVec.ofNat 32 (128 * p.val))) S128x512.size (k0_off3_inb c h p),
      k (bM.view.readAt (Elt F) (Rect.unit (s := S3x2x128x2048) ![h.val, p.val, 0, 0] S1x1x128x2048.size (inb_s h p)).toLoadRect fl)
        (wM.view.readAt (Elt F) (Rect.unit (s := S2048x512) ![0, 0] S2048x512.size inb_S2048x512_S2048x512_0_0).toLoadRect (Wt m c))⟩ : OPiece (F := F))
      = pieceL m c h p := by
  unfold pieceL
  rw [hk, readW, ← hfl]
  rfl

/-- Thirteen stores that are the thirteen pieces leave the result at its stated contents, whatever was there before. -/
theorem out_final (c : Dev nD) (g : (cc0_stg2_0 : Ref sig .tc).ty.Contents (Elt F)) (Lx : List (OPiece (F := F))) (hL : Lx = Lout m c) :
    oM.view.writes (Elt F) g Lx = outAt m c := by
  subst hL; exact out_any_base m c g

/-- A cell's invariant, and that it stands at round 0, out of the record, with the cell spelt as it is used. -/
theorem inv_at' (K : Dev nD × CI → ℕ) (ck : Dev nD × CI) (g : GSem nD τ sig) (hg : kcell ck = g) : records m K ⊢ cellInv ER (Rd m) (K ck) g := by
  subst hg; exact inv_at m K ck
theorem reached_at' (K : Dev nD × CI → ℕ) (ck : Dev nD × CI) (g : GSem nD τ sig) (hg : kcell ck = g) : records m K ⊢ reached ER g 0 := by
  subst hg; exact reached_at m K ck

theorem reachedAll_of (K : Dev nD × CI → ℕ) (c : Dev nD) (a : Fin 4) : records m K ⊢ reachedAll (F := F) c a := by
  unfold reachedAll
  exact (BI.bigSep_of_persistent Finset.univ (records m K)).trans
    (bigSep_mono fun t _ => reached_at m K (c, .inr (a, t.1, t.2)))

omit [FloatOps F] in
theorem credits_eq (c : Dev nD) : credits (F := F) c = iprop(cred (tallyAt (regCell c barS) () 2) ∗ cred (tallyAt (regCell c endS) () 2) ∗ (cred (tallyAt (dcell c 1 0 0) () N) ∗ cred (tallyAt (dcell c 1 0 1) () N) ∗ cred (tallyAt (dcell c 1 1 0) () N) ∗ cred (tallyAt (dcell c 1 1 1) () N) ∗ cred (tallyAt (dcell c 1 2 0) () N) ∗ cred (tallyAt (dcell c 1 2 1) () N)) ∗ (cred (tallyAt (dcell c 3 0 0) () N) ∗ cred (tallyAt (dcell c 3 0 1) () N) ∗ cred (tallyAt (dcell c 3 1 0) () N) ∗ cred (tallyAt (dcell c 3 1 1) () N) ∗ cred (tallyAt (dcell c 3 2 0) () N) ∗ cred (tallyAt (dcell c 3 2 1) () N))) := by
  unfold credits; rw [bigSep_hp, bigSep_hp]

/-! ## The last step -/

set_option maxHeartbeats 1600000 in
theorem finish (K : Dev nD × CI → ℕ) (c : Dev nD)
    (fr00 : Buf (Elt F) ((slot aM 0 0).view.loc (c : Thread nD τ))) (fr01 : Buf (Elt F) ((slot aM 0 1).view.loc (c : Thread nD τ))) (fr10 : Buf (Elt F) ((slot aM 1 0).view.loc (c : Thread nD τ))) (fr11 : Buf (Elt F) ((slot aM 1 1).view.loc (c : Thread nD τ))) (fr20 : Buf (Elt F) ((slot aM 2 0).view.loc (c : Thread nD τ))) (fr21 : Buf (Elt F) ((slot aM 2 1).view.loc (c : Thread nD τ)))
    (fl00 : Buf (Elt F) ((slot bM 0 0).view.loc (c : Thread nD τ))) (fl01 : Buf (Elt F) ((slot bM 0 1).view.loc (c : Thread nD τ))) (fl10 : Buf (Elt F) ((slot bM 1 0).view.loc (c : Thread nD τ))) (fl11 : Buf (Elt F) ((slot bM 1 1).view.loc (c : Thread nD τ))) (fl20 : Buf (Elt F) ((slot bM 2 0).view.loc (c : Thread nD τ))) (fl21 : Buf (Elt F) ((slot bM 2 1).view.loc (c : Thread nD τ)))
    (A0 : Buf (Elt F) (aM.view.loc (c : Thread nD τ))) (B0 : Buf (Elt F) (bM.view.loc (c : Thread nD τ))) (W : Waits sig Unit) :
    iprop(records m K
        ∗ atPos ER (regCell c endS) 1 ∅ 0
        ∗ atPos ER (dcell c 0 0 0) 1 ∅ 0
        ∗ atPos ER (dcell c 0 0 1) 1 ∅ 0
        ∗ atPos ER (dcell c 0 1 0) 1 ∅ 0
        ∗ atPos ER (dcell c 0 1 1) 1 ∅ 0
        ∗ atPos ER (dcell c 0 2 0) 1 ∅ 0
        ∗ atPos ER (dcell c 0 2 1) 1 ∅ 0
        ∗ atPos ER (dcell c 1 0 0) 1 ∅ 0
        ∗ atPos ER (dcell c 1 0 1) 1 ∅ 0
        ∗ atPos ER (dcell c 1 1 0) 1 ∅ 0
        ∗ atPos ER (dcell c 1 1 1) 1 ∅ 0
        ∗ atPos ER (dcell c 1 2 0) 1 ∅ 0
        ∗ atPos ER (dcell c 1 2 1) 1 ∅ 0
        ∗ atPos ER (dcell c 2 0 0) 1 ∅ 0
        ∗ atPos ER (dcell c 2 0 1) 1 ∅ 0
        ∗ atPos ER (dcell c 2 1 0) 1 ∅ 0
        ∗ atPos ER (dcell c 2 1 1) 1 ∅ 0
        ∗ atPos ER (dcell c 2 2 0) 1 ∅ 0
        ∗ atPos ER (dcell c 2 2 1) 1 ∅ 0
        ∗ atPos ER (dcell c 3 0 0) 1 ∅ 0
        ∗ atPos ER (dcell c 3 0 1) 1 ∅ 0
        ∗ atPos ER (dcell c 3 1 0) 1 ∅ 0
        ∗ atPos ER (dcell c 3 1 1) 1 ∅ 0
        ∗ atPos ER (dcell c 3 2 0) 1 ∅ 0
        ∗ atPos ER (dcell c 3 2 1) 1 ∅ 0
        ∗ (bigSep ((Rd (F := F) m).duties (dcell c 0 0 0) 0) fun d => (Rd (F := F) m).payload (dcell c 0 0 0) 0 d)
        ∗ (bigSep ((Rd (F := F) m).duties (dcell c 0 0 1) 0) fun d => (Rd (F := F) m).payload (dcell c 0 0 1) 0 d)
        ∗ (bigSep ((Rd (F := F) m).duties (dcell c 0 1 0) 0) fun d => (Rd (F := F) m).payload (dcell c 0 1 0) 0 d)
        ∗ (bigSep ((Rd (F := F) m).duties (dcell c 0 1 1) 0) fun d => (Rd (F := F) m).payload (dcell c 0 1 1) 0 d)
        ∗ (bigSep ((Rd (F := F) m).duties (dcell c 0 2 0) 0) fun d => (Rd (F := F) m).payload (dcell c 0 2 0) 0 d)
        ∗ (bigSep ((Rd (F := F) m).duties (dcell c 0 2 1) 0) fun d => (Rd (F := F) m).payload (dcell c 0 2 1) 0 d)
        ∗ (bigSep ((Rd (F := F) m).duties (dcell c 2 0 0) 0) fun d => (Rd (F := F) m).payload (dcell c 2 0 0) 0 d)
        ∗ (bigSep ((Rd (F := F) m).duties (dcell c 2 0 1) 0) fun d => (Rd (F := F) m).payload (dcell c 2 0 1) 0 d)
        ∗ (bigSep ((Rd (F := F) m).duties (dcell c 2 1 0) 0) fun d => (Rd (F := F) m).payload (dcell c 2 1 0) 0 d)
        ∗ (bigSep ((Rd (F := F) m).duties (dcell c 2 1 1) 0) fun d => (Rd (F := F) m).payload (dcell c 2 1 1) 0 d)
        ∗ (bigSep ((Rd (F := F) m).duties (dcell c 2 2 0) 0) fun d => (Rd (F := F) m).payload (dcell c 2 2 0) 0 d)
        ∗ (bigSep ((Rd (F := F) m).duties (dcell c 2 2 1) 0) fun d => (Rd (F := F) m).payload (dcell c 2 2 1) 0 d)
        ∗ ((slot aM 0 0).view.loc (c : Thread nD τ) ↦[(slot aM 0 0).view.set]{fullShare.right} fr00)
        ∗ ((slot aM 0 1).view.loc (c : Thread nD τ) ↦[(slot aM 0 1).view.set]{fullShare.right} fr01)
        ∗ ((slot aM 1 0).view.loc (c : Thread nD τ) ↦[(slot aM 1 0).view.set]{fullShare.right} fr10)
        ∗ ((slot aM 1 1).view.loc (c : Thread nD τ) ↦[(slot aM 1 1).view.set]{fullShare.right} fr11)
        ∗ ((slot aM 2 0).view.loc (c : Thread nD τ) ↦[(slot aM 2 0).view.set]{fullShare} fr20)
        ∗ ((slot aM 2 1).view.loc (c : Thread nD τ) ↦[(slot aM 2 1).view.set]{fullShare} fr21)
        ∗ ((slot bM 0 0).view.loc (c : Thread nD τ) ↦[(slot bM 0 0).view.set]{fullShare.right} fl00)
        ∗ ((slot bM 0 1).view.loc (c : Thread nD τ) ↦[(slot bM 0 1).view.set]{fullShare.right} fl01)
        ∗ ((slot bM 1 0).view.loc (c : Thread nD τ) ↦[(slot bM 1 0).view.set]{fullShare.right} fl10)
        ∗ ((slot bM 1 1).view.loc (c : Thread nD τ) ↦[(slot bM 1 1).view.set]{fullShare.right} fl11)
        ∗ ((slot bM 2 0).view.loc (c : Thread nD τ) ↦[(slot bM 2 0).view.set]{fullShare} fl20)
        ∗ ((slot bM 2 1).view.loc (c : Thread nD τ) ↦[(slot bM 2 1).view.set]{fullShare} fl21)
        ∗ aside ((aM.view.loc (c : Thread nD τ)) ↦[Finset.univ \ slotsAll aM]{fullShare} A0)
        ∗ aside ((bM.view.loc (c : Thread nD τ)) ↦[Finset.univ \ slotsAll bM]{fullShare} B0)
        ∗ ((xM.view.loc (c : Thread nD τ)) ↦{fullShare.right} X m c)
        ∗ aside ((xM.view.loc (c : Thread nD τ)) ↦[Finset.univ \ xAll]{fullShare.left} X m c)
        ∗ owes (c : Thread nD τ) (owed c 16) W)
      ⊢ |={Set.univ}=> iprop(Φ₁ (F := F) c ∗ owes (c : Thread nD τ) 0 W ∗ ((xM.view.loc (c : Thread nD τ)) ↦{fullShare} X m c)) := by
  iintro ⟨#HR, Haec, Had000, Had001, Had010, Had011, Had020, Had021, Had100, Had101, Had110, Had111, Had120, Had121, Had200, Had201, Had210, Had211, Had220, Had221, Had300, Had301, Had310, Had311, Had320, Had321, Hpay000, Hpay001, Hpay010, Hpay011, Hpay020, Hpay021, Hpay200, Hpay201, Hpay210, Hpay211, Hpay220, Hpay221, Hsr00R, Hsr01R, Hsr10R, Hsr11R, Hsr20, Hsr21, Hsl00R, Hsl01R, Hsl10R, Hsl11R, Hsl20, Hsl21, Harest, Hbrest, HxR, Hxlrest, HO⟩
  ihave #HIec := (inv_at' m K (c, .inl true) (regCell c endS) rfl) $$ HR
  ihave #HId000 := (inv_at' m K (c, .inr (0, 0, 0)) (dcell c 0 0 0) rfl) $$ HR
  ihave #HId001 := (inv_at' m K (c, .inr (0, 0, 1)) (dcell c 0 0 1) rfl) $$ HR
  ihave #HId010 := (inv_at' m K (c, .inr (0, 1, 0)) (dcell c 0 1 0) rfl) $$ HR
  ihave #HId011 := (inv_at' m K (c, .inr (0, 1, 1)) (dcell c 0 1 1) rfl) $$ HR
  ihave #HId020 := (inv_at' m K (c, .inr (0, 2, 0)) (dcell c 0 2 0) rfl) $$ HR
  ihave #HId021 := (inv_at' m K (c, .inr (0, 2, 1)) (dcell c 0 2 1) rfl) $$ HR
  ihave #HId100 := (inv_at' m K (c, .inr (1, 0, 0)) (dcell c 1 0 0) rfl) $$ HR
  ihave #HId101 := (inv_at' m K (c, .inr (1, 0, 1)) (dcell c 1 0 1) rfl) $$ HR
  ihave #HId110 := (inv_at' m K (c, .inr (1, 1, 0)) (dcell c 1 1 0) rfl) $$ HR
  ihave #HId111 := (inv_at' m K (c, .inr (1, 1, 1)) (dcell c 1 1 1) rfl) $$ HR
  ihave #HId120 := (inv_at' m K (c, .inr (1, 2, 0)) (dcell c 1 2 0) rfl) $$ HR
  ihave #HId121 := (inv_at' m K (c, .inr (1, 2, 1)) (dcell c 1 2 1) rfl) $$ HR
  ihave #HId200 := (inv_at' m K (c, .inr (2, 0, 0)) (dcell c 2 0 0) rfl) $$ HR
  ihave #HId201 := (inv_at' m K (c, .inr (2, 0, 1)) (dcell c 2 0 1) rfl) $$ HR
  ihave #HId210 := (inv_at' m K (c, .inr (2, 1, 0)) (dcell c 2 1 0) rfl) $$ HR
  ihave #HId211 := (inv_at' m K (c, .inr (2, 1, 1)) (dcell c 2 1 1) rfl) $$ HR
  ihave #HId220 := (inv_at' m K (c, .inr (2, 2, 0)) (dcell c 2 2 0) rfl) $$ HR
  ihave #HId221 := (inv_at' m K (c, .inr (2, 2, 1)) (dcell c 2 2 1) rfl) $$ HR
  ihave #HId300 := (inv_at' m K (c, .inr (3, 0, 0)) (dcell c 3 0 0) rfl) $$ HR
  ihave #HId301 := (inv_at' m K (c, .inr (3, 0, 1)) (dcell c 3 0 1) rfl) $$ HR
  ihave #HId310 := (inv_at' m K (c, .inr (3, 1, 0)) (dcell c 3 1 0) rfl) $$ HR
  ihave #HId311 := (inv_at' m K (c, .inr (3, 1, 1)) (dcell c 3 1 1) rfl) $$ HR
  ihave #HId320 := (inv_at' m K (c, .inr (3, 2, 0)) (dcell c 3 2 0) rfl) $$ HR
  ihave #HId321 := (inv_at' m K (c, .inr (3, 2, 1)) (dcell c 3 2 1) rfl) $$ HR
  imod (Rounds.cell_close ER (Rd m) (Set.mem_univ (K (c, .inl true))) (fun h => h) (R := 1) (duties_later m (regCell c endS))) $$ [Haec] with Hzec
  · isplitr; · iexact HIec
    iexact Haec
  imod (Rounds.cell_close ER (Rd m) (Set.mem_univ (K (c, .inr (0, 0, 0)))) (fun h => h) (R := 1) (duties_later m (dcell c 0 0 0))) $$ [Had000] with Hzd000
  · isplitr; · iexact HId000
    iexact Had000
  imod (Rounds.cell_close ER (Rd m) (Set.mem_univ (K (c, .inr (0, 0, 1)))) (fun h => h) (R := 1) (duties_later m (dcell c 0 0 1))) $$ [Had001] with Hzd001
  · isplitr; · iexact HId001
    iexact Had001
  imod (Rounds.cell_close ER (Rd m) (Set.mem_univ (K (c, .inr (0, 1, 0)))) (fun h => h) (R := 1) (duties_later m (dcell c 0 1 0))) $$ [Had010] with Hzd010
  · isplitr; · iexact HId010
    iexact Had010
  imod (Rounds.cell_close ER (Rd m) (Set.mem_univ (K (c, .inr (0, 1, 1)))) (fun h => h) (R := 1) (duties_later m (dcell c 0 1 1))) $$ [Had011] with Hzd011
  · isplitr; · iexact HId011
    iexact Had011
  imod (Rounds.cell_close ER (Rd m) (Set.mem_univ (K (c, .inr (0, 2, 0)))) (fun h => h) (R := 1) (duties_later m (dcell c 0 2 0))) $$ [Had020] with Hzd020
  · isplitr; · iexact HId020
    iexact Had020
  imod (Rounds.cell_close ER (Rd m) (Set.mem_univ (K (c, .inr (0, 2, 1)))) (fun h => h) (R := 1) (duties_later m (dcell c 0 2 1))) $$ [Had021] with Hzd021
  · isplitr; · iexact HId021
    iexact Had021
  imod (Rounds.cell_close ER (Rd m) (Set.mem_univ (K (c, .inr (1, 0, 0)))) (fun h => h) (R := 1) (duties_later m (dcell c 1 0 0))) $$ [Had100] with Hzd100
  · isplitr; · iexact HId100
    iexact Had100
  imod (Rounds.cell_close ER (Rd m) (Set.mem_univ (K (c, .inr (1, 0, 1)))) (fun h => h) (R := 1) (duties_later m (dcell c 1 0 1))) $$ [Had101] with Hzd101
  · isplitr; · iexact HId101
    iexact Had101
  imod (Rounds.cell_close ER (Rd m) (Set.mem_univ (K (c, .inr (1, 1, 0)))) (fun h => h) (R := 1) (duties_later m (dcell c 1 1 0))) $$ [Had110] with Hzd110
  · isplitr; · iexact HId110
    iexact Had110
  imod (Rounds.cell_close ER (Rd m) (Set.mem_univ (K (c, .inr (1, 1, 1)))) (fun h => h) (R := 1) (duties_later m (dcell c 1 1 1))) $$ [Had111] with Hzd111
  · isplitr; · iexact HId111
    iexact Had111
  imod (Rounds.cell_close ER (Rd m) (Set.mem_univ (K (c, .inr (1, 2, 0)))) (fun h => h) (R := 1) (duties_later m (dcell c 1 2 0))) $$ [Had120] with Hzd120
  · isplitr; · iexact HId120
    iexact Had120
  imod (Rounds.cell_close ER (Rd m) (Set.mem_univ (K (c, .inr (1, 2, 1)))) (fun h => h) (R := 1) (duties_later m (dcell c 1 2 1))) $$ [Had121] with Hzd121
  · isplitr; · iexact HId121
    iexact Had121
  imod (Rounds.cell_close ER (Rd m) (Set.mem_univ (K (c, .inr (2, 0, 0)))) (fun h => h) (R := 1) (duties_later m (dcell c 2 0 0))) $$ [Had200] with Hzd200
  · isplitr; · iexact HId200
    iexact Had200
  imod (Rounds.cell_close ER (Rd m) (Set.mem_univ (K (c, .inr (2, 0, 1)))) (fun h => h) (R := 1) (duties_later m (dcell c 2 0 1))) $$ [Had201] with Hzd201
  · isplitr; · iexact HId201
    iexact Had201
  imod (Rounds.cell_close ER (Rd m) (Set.mem_univ (K (c, .inr (2, 1, 0)))) (fun h => h) (R := 1) (duties_later m (dcell c 2 1 0))) $$ [Had210] with Hzd210
  · isplitr; · iexact HId210
    iexact Had210
  imod (Rounds.cell_close ER (Rd m) (Set.mem_univ (K (c, .inr (2, 1, 1)))) (fun h => h) (R := 1) (duties_later m (dcell c 2 1 1))) $$ [Had211] with Hzd211
  · isplitr; · iexact HId211
    iexact Had211
  imod (Rounds.cell_close ER (Rd m) (Set.mem_univ (K (c, .inr (2, 2, 0)))) (fun h => h) (R := 1) (duties_later m (dcell c 2 2 0))) $$ [Had220] with Hzd220
  · isplitr; · iexact HId220
    iexact Had220
  imod (Rounds.cell_close ER (Rd m) (Set.mem_univ (K (c, .inr (2, 2, 1)))) (fun h => h) (R := 1) (duties_later m (dcell c 2 2 1))) $$ [Had221] with Hzd221
  · isplitr; · iexact HId221
    iexact Had221
  imod (Rounds.cell_close ER (Rd m) (Set.mem_univ (K (c, .inr (3, 0, 0)))) (fun h => h) (R := 1) (duties_later m (dcell c 3 0 0))) $$ [Had300] with Hzd300
  · isplitr; · iexact HId300
    iexact Had300
  imod (Rounds.cell_close ER (Rd m) (Set.mem_univ (K (c, .inr (3, 0, 1)))) (fun h => h) (R := 1) (duties_later m (dcell c 3 0 1))) $$ [Had301] with Hzd301
  · isplitr; · iexact HId301
    iexact Had301
  imod (Rounds.cell_close ER (Rd m) (Set.mem_univ (K (c, .inr (3, 1, 0)))) (fun h => h) (R := 1) (duties_later m (dcell c 3 1 0))) $$ [Had310] with Hzd310
  · isplitr; · iexact HId310
    iexact Had310
  imod (Rounds.cell_close ER (Rd m) (Set.mem_univ (K (c, .inr (3, 1, 1)))) (fun h => h) (R := 1) (duties_later m (dcell c 3 1 1))) $$ [Had311] with Hzd311
  · isplitr; · iexact HId311
    iexact Had311
  imod (Rounds.cell_close ER (Rd m) (Set.mem_univ (K (c, .inr (3, 2, 0)))) (fun h => h) (R := 1) (duties_later m (dcell c 3 2 0))) $$ [Had320] with Hzd320
  · isplitr; · iexact HId320
    iexact Had320
  imod (Rounds.cell_close ER (Rd m) (Set.mem_univ (K (c, .inr (3, 2, 1)))) (fun h => h) (R := 1) (duties_later m (dcell c 3 2 1))) $$ [Had321] with Hzd321
  · isplitr; · iexact HId321
    iexact Had321
  ihave Hq000 := (Entails.of_eq (round_dma m c 0 0 0)) $$ Hpay000
  ihave Hq000 := (show dpay m c 0 0 0 ⊢ ((xP (jR 0)).view.loc (c : Thread nD τ) ↦[(xP (jR 0)).view.set]{fullShare.left} X m c : sProp 𝕄) from BI.Entails.refl _) $$ Hq000
  ihave Hq001 := (Entails.of_eq (round_dma m c 0 0 1)) $$ Hpay001
  ihave Hq001 := (show dpay m c 0 0 1 ⊢ ((xP (jR 1)).view.loc (c : Thread nD τ) ↦[(xP (jR 1)).view.set]{fullShare.left} X m c : sProp 𝕄) from BI.Entails.refl _) $$ Hq001
  ihave Hq010 := (Entails.of_eq (round_dma m c 0 1 0)) $$ Hpay010
  ihave Hq010 := (show dpay m c 0 1 0 ⊢ (iprop(∃ f : Buf (Elt F) ((slot aM 0 0).view.loc (c : Thread nD τ)), (slot aM 0 0).view.loc (c : Thread nD τ) ↦[(slot aM 0 0).view.set]{fullShare.left} f) : sProp 𝕄) from BI.Entails.refl _) $$ Hq010
  icases Hq010 with ⟨%g010, Hq010⟩
  ihave Hq011 := (Entails.of_eq (round_dma m c 0 1 1)) $$ Hpay011
  ihave Hq011 := (show dpay m c 0 1 1 ⊢ (iprop(∃ f : Buf (Elt F) ((slot aM 0 1).view.loc (c : Thread nD τ)), (slot aM 0 1).view.loc (c : Thread nD τ) ↦[(slot aM 0 1).view.set]{fullShare.left} f) : sProp 𝕄) from BI.Entails.refl _) $$ Hq011
  icases Hq011 with ⟨%g011, Hq011⟩
  ihave Hq020 := (Entails.of_eq (round_dma m c 0 2 0)) $$ Hpay020
  ihave Hq020 := (show dpay m c 0 2 0 ⊢ (iprop(∃ f : Buf (Elt F) ((slot aM 1 0).view.loc (c : Thread nD τ)), (slot aM 1 0).view.loc (c : Thread nD τ) ↦[(slot aM 1 0).view.set]{fullShare.left} f) : sProp 𝕄) from BI.Entails.refl _) $$ Hq020
  icases Hq020 with ⟨%g020, Hq020⟩
  ihave Hq021 := (Entails.of_eq (round_dma m c 0 2 1)) $$ Hpay021
  ihave Hq021 := (show dpay m c 0 2 1 ⊢ (iprop(∃ f : Buf (Elt F) ((slot aM 1 1).view.loc (c : Thread nD τ)), (slot aM 1 1).view.loc (c : Thread nD τ) ↦[(slot aM 1 1).view.set]{fullShare.left} f) : sProp 𝕄) from BI.Entails.refl _) $$ Hq021
  icases Hq021 with ⟨%g021, Hq021⟩
  ihave Hq200 := (Entails.of_eq (round_dma m c 2 0 0)) $$ Hpay200
  ihave Hq200 := (show dpay m c 2 0 0 ⊢ ((xP (jL 0)).view.loc (c : Thread nD τ) ↦[(xP (jL 0)).view.set]{fullShare.left} X m c : sProp 𝕄) from BI.Entails.refl _) $$ Hq200
  ihave Hq201 := (Entails.of_eq (round_dma m c 2 0 1)) $$ Hpay201
  ihave Hq201 := (show dpay m c 2 0 1 ⊢ ((xP (jL 1)).view.loc (c : Thread nD τ) ↦[(xP (jL 1)).view.set]{fullShare.left} X m c : sProp 𝕄) from BI.Entails.refl _) $$ Hq201
  ihave Hq210 := (Entails.of_eq (round_dma m c 2 1 0)) $$ Hpay210
  ihave Hq210 := (show dpay m c 2 1 0 ⊢ (iprop(∃ f : Buf (Elt F) ((slot bM 0 0).view.loc (c : Thread nD τ)), (slot bM 0 0).view.loc (c : Thread nD τ) ↦[(slot bM 0 0).view.set]{fullShare.left} f) : sProp 𝕄) from BI.Entails.refl _) $$ Hq210
  icases Hq210 with ⟨%g210, Hq210⟩
  ihave Hq211 := (Entails.of_eq (round_dma m c 2 1 1)) $$ Hpay211
  ihave Hq211 := (show dpay m c 2 1 1 ⊢ (iprop(∃ f : Buf (Elt F) ((slot bM 0 1).view.loc (c : Thread nD τ)), (slot bM 0 1).view.loc (c : Thread nD τ) ↦[(slot bM 0 1).view.set]{fullShare.left} f) : sProp 𝕄) from BI.Entails.refl _) $$ Hq211
  icases Hq211 with ⟨%g211, Hq211⟩
  ihave Hq220 := (Entails.of_eq (round_dma m c 2 2 0)) $$ Hpay220
  ihave Hq220 := (show dpay m c 2 2 0 ⊢ (iprop(∃ f : Buf (Elt F) ((slot bM 1 0).view.loc (c : Thread nD τ)), (slot bM 1 0).view.loc (c : Thread nD τ) ↦[(slot bM 1 0).view.set]{fullShare.left} f) : sProp 𝕄) from BI.Entails.refl _) $$ Hq220
  icases Hq220 with ⟨%g220, Hq220⟩
  ihave Hq221 := (Entails.of_eq (round_dma m c 2 2 1)) $$ Hpay221
  ihave Hq221 := (show dpay m c 2 2 1 ⊢ (iprop(∃ f : Buf (Elt F) ((slot bM 1 1).view.loc (c : Thread nD τ)), (slot bM 1 1).view.loc (c : Thread nD τ) ↦[(slot bM 1 1).view.set]{fullShare.left} f) : sProp 𝕄) from BI.Entails.refl _) $$ Hq221
  icases Hq221 with ⟨%g221, Hq221⟩
  ihave Hxlrest := (Entails.of_eq (aside_eq _)) $$ Hxlrest
  ihave HxL := (x_join c fullShare.left (X m c)) $$ [Hq000 Hq001 Hq200 Hq201 Hxlrest]
  · isplitr [Hxlrest]
    · isplitl [Hq000]; · iexact Hq000
      isplitl [Hq001]; · iexact Hq001
      isplitl [Hq200]; · iexact Hq200
      iexact Hq201
    · iexact Hxlrest
  ihave Hx := (halves (ℓ := xM.view.loc (c : Thread nD τ)) Finset.univ fullShare (X m c)).2 $$ [HxL HxR]
  · isplitl [HxL]; · iexact HxL
    iexact HxR
  ihave Hsr00 := (halves_join (slot aM 0 0).view.set fullShare fr00 g010) $$ [Hq010 Hsr00R]
  · isplitl [Hq010]; · iexact Hq010
    iexact Hsr00R
  ihave Hsr01 := (halves_join (slot aM 0 1).view.set fullShare fr01 g011) $$ [Hq011 Hsr01R]
  · isplitl [Hq011]; · iexact Hq011
    iexact Hsr01R
  ihave Hsr10 := (halves_join (slot aM 1 0).view.set fullShare fr10 g020) $$ [Hq020 Hsr10R]
  · isplitl [Hq020]; · iexact Hq020
    iexact Hsr10R
  ihave Hsr11 := (halves_join (slot aM 1 1).view.set fullShare fr11 g021) $$ [Hq021 Hsr11R]
  · isplitl [Hq021]; · iexact Hq021
    iexact Hsr11R
  ihave Harest := (Entails.of_eq (aside_eq _)) $$ Harest
  ihave HwholeaM := (slots_join6 aM c fr00 fr01 fr10 fr11 fr20 fr21 A0) $$ [Hsr00 Hsr01 Hsr10 Hsr11 Hsr20 Hsr21 Harest]
  · unfold slotPts
    isplitr [Harest]
    · isplitl [Hsr00]; · iexact Hsr00
      isplitl [Hsr01]; · iexact Hsr01
      isplitl [Hsr10]; · iexact Hsr10
      isplitl [Hsr11]; · iexact Hsr11
      isplitl [Hsr20]; · iexact Hsr20
      iexact Hsr21
    · iexact Harest
  ihave Hsl00 := (halves_join (slot bM 0 0).view.set fullShare fl00 g210) $$ [Hq210 Hsl00R]
  · isplitl [Hq210]; · iexact Hq210
    iexact Hsl00R
  ihave Hsl01 := (halves_join (slot bM 0 1).view.set fullShare fl01 g211) $$ [Hq211 Hsl01R]
  · isplitl [Hq211]; · iexact Hq211
    iexact Hsl01R
  ihave Hsl10 := (halves_join (slot bM 1 0).view.set fullShare fl10 g220) $$ [Hq220 Hsl10R]
  · isplitl [Hq220]; · iexact Hq220
    iexact Hsl10R
  ihave Hsl11 := (halves_join (slot bM 1 1).view.set fullShare fl11 g221) $$ [Hq221 Hsl11R]
  · isplitl [Hq221]; · iexact Hq221
    iexact Hsl11R
  ihave Hbrest := (Entails.of_eq (aside_eq _)) $$ Hbrest
  ihave HwholebM := (slots_join6 bM c fl00 fl01 fl10 fl11 fl20 fl21 B0) $$ [Hsl00 Hsl01 Hsl10 Hsl11 Hsl20 Hsl21 Hbrest]
  · unfold slotPts
    isplitr [Hbrest]
    · isplitl [Hsl00]; · iexact Hsl00
      isplitl [Hsl01]; · iexact Hsl01
      isplitl [Hsl10]; · iexact Hsl10
      isplitl [Hsl11]; · iexact Hsl11
      isplitl [Hsl20]; · iexact Hsl20
      iexact Hsl21
    · iexact Hbrest
  ihave HO := (peel (owed_done c) c _) $$ HO
  imodintro
  unfold Φ₁
  isplitr [HO Hx]
  · isplitl [HwholeaM]; · iexact HwholeaM
    isplitl [HwholebM]; · iexact HwholebM
    iapply (Entails.of_eq (ownSems_eq (F := F) c).symm)
    isplitl [Hzec]; · iexact Hzec
    isplitl [Hzd000]; · iexact Hzd000
    isplitl [Hzd001]; · iexact Hzd001
    isplitl [Hzd010]; · iexact Hzd010
    isplitl [Hzd011]; · iexact Hzd011
    isplitl [Hzd020]; · iexact Hzd020
    isplitl [Hzd021]; · iexact Hzd021
    isplitl [Hzd100]; · iexact Hzd100
    isplitl [Hzd101]; · iexact Hzd101
    isplitl [Hzd110]; · iexact Hzd110
    isplitl [Hzd111]; · iexact Hzd111
    isplitl [Hzd120]; · iexact Hzd120
    isplitl [Hzd121]; · iexact Hzd121
    isplitl [Hzd200]; · iexact Hzd200
    isplitl [Hzd201]; · iexact Hzd201
    isplitl [Hzd210]; · iexact Hzd210
    isplitl [Hzd211]; · iexact Hzd211
    isplitl [Hzd220]; · iexact Hzd220
    isplitl [Hzd221]; · iexact Hzd221
    isplitl [Hzd300]; · iexact Hzd300
    isplitl [Hzd301]; · iexact Hzd301
    isplitl [Hzd310]; · iexact Hzd310
    isplitl [Hzd311]; · iexact Hzd311
    isplitl [Hzd320]; · iexact Hzd320
    iexact Hzd321
  · isplitl [HO]; · iexact HO
    iexact Hx

end Cert.Kernel.Ag

end
-- ==== Proof.K.Body.lean ====
/-
  One device's body, from what it holds at the start to what it hands back.

  In program order: the entry handshake (a signal to each neighbour, handing over the landing slots the neighbour will
  write; a wait for both neighbours' signals, which hand over theirs); the four first hops, each lending half of a piece
  of the device's own block; the device's own product; then, hop by hop and piece by piece on both roads, the wait for a
  slot, its forwarding at half its share while a further hop remains, and its product with the weights stored at the rows
  it came from; the waits for the twelve departures, which give the lent halves back; the closing handshake. What a
  transfer's arrival hands the neighbour is a statement about the slot's new contents: it reads the piece sent.
-/
import proofs.«900337_g7700000000000338_dist_ag_gemm_m2048_k2048_n2048_f32_none_v7x_i4_1_alg».proof.Proof.K.Steps
import proofs.«900337_g7700000000000338_dist_ag_gemm_m2048_k2048_n2048_f32_none_v7x_i4_1_alg».proof.Proof.Gen.Kernel.Skeleton

set_option maxRecDepth 16384

noncomputable section

namespace Cert.Kernel.Ag

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

attribute [local sl_rounds] duties_reg duties_dma amount_reg amount_dma expect_reg expect_dma pay_bar_prv pay_bar_nxt payload_end payload_dma

abbrev stg (c : Dev nD) (b : Ref sig .tc) (Xc : b.ty.Contents (Elt F)) : sProp 𝕄 :=
  iprop(∃ f : Buf (Elt F) (((c : Dev nD) : Thread nD τ).loc b), ⌜f = Xc⌝ ∗ (((c : Thread nD τ).loc b) ↦{fullShare} f))

def bodyPre (K : Dev nD × CI → ℕ) (c : Dev nD) : sProp 𝕄 :=
  iprop((ghost m K c ∗ credits (F := F) c ∗ levAts L lv ∗ (∃ f, (aM.view.loc (c : Thread nD τ)) ↦{fullShare} f) ∗ (∃ f, (bM.view.loc (c : Thread nD τ)) ↦{fullShare} f))
    ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ (F := F) c ∗ (dats m ρ 0 c).owesAt () t0_0.succ ∗ stg c cc0_stg0_0 (X m c) ∗ stg c cc0_stg1_0 (Wt m c) ∗ stg c cc0_stg2_0 (outAt m c))

set_option maxHeartbeats 8000000 in
theorem sound_body (K : Dev nD × CI → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3 cc0_scratch4 cc0_scratch5 cc0_scoped0) Kt := by
  unfold bodyPre ghost
  iintro ⟨⟨⟨⟨#HR, Hpos, Htoks⟩, Hcreds, #Hlev, ⟨%A0, Ha⟩, ⟨%B0, Hb⟩⟩, Ho', ⟨%d0, %g0, %hg0, Hx⟩, ⟨%d1, %g1, %hg1, Hw⟩, ⟨%d2, %g2, %hg2, Ho⟩⟩, Hk⟩
  have hx : g0 = X m c := by rw [hg0]; unfold Dat.before; rw [if_pos (fetch0_0 t0_0)]; rfl
  have hw : g1 = Wt m c := by rw [hg1]; unfold Dat.before; rw [if_pos (fetch0_1 t0_0)]; rfl
  subst hx hw
  unfold Dat.owesAt Pipeline.owesWithin
  icases Ho' with ⟨%W, %hW, HO⟩
  rw [show (dats m ρ 0 c).owed t0_0.castSucc = owed c 0 from rfl]
  -- the families, member by member
  ihave Hpos := (Entails.of_eq (positions_eq (F := F) c)) $$ Hpos
  icases Hpos with ⟨Habc, Haec, Had000, Had001, Had010, Had011, Had020, Had021, Had100, Had101, Had110, Had111, Had120, Had121, Had200, Had201, Had210, Had211, Had220, Had221, Had300, Had301, Had310, Had311, Had320, Had321⟩
  ihave Htoks := (Entails.of_eq (payToks_eq (F := F) c)) $$ Htoks
  icases Htoks with ⟨Htbp, Htbn, Htep, Hten, Htd000, Htd001, Htd010, Htd011, Htd020, Htd021, Htrn00, Htrn01, Htrn10, Htrn11, Htrn20, Htrn21, Htd200, Htd201, Htd210, Htd211, Htd220, Htd221, Htrp00, Htrp01, Htrp10, Htrp11, Htrp20, Htrp21⟩
  ihave Hcreds := (Entails.of_eq (credits_eq (F := F) c)) $$ Hcreds
  icases Hcreds with ⟨Hcbc, Hcec, ⟨Hcd100, Hcd101, Hcd110, Hcd111, Hcd120, Hcd121⟩, ⟨Hcd300, Hcd301, Hcd310, Hcd311, Hcd320, Hcd321⟩⟩
  ihave #HIbc := (inv_at' m K (c, .inl false) (regCell c barS) rfl) $$ HR
  ihave #HIec := (inv_at' m K (c, .inl true) (regCell c endS) rfl) $$ HR
  ihave #HId000 := (inv_at' m K (c, .inr (0, 0, 0)) (dcell c 0 0 0) rfl) $$ HR
  ihave #HId001 := (inv_at' m K (c, .inr (0, 0, 1)) (dcell c 0 0 1) rfl) $$ HR
  ihave #HId010 := (inv_at' m K (c, .inr (0, 1, 0)) (dcell c 0 1 0) rfl) $$ HR
  ihave #HId011 := (inv_at' m K (c, .inr (0, 1, 1)) (dcell c 0 1 1) rfl) $$ HR
  ihave #HId020 := (inv_at' m K (c, .inr (0, 2, 0)) (dcell c 0 2 0) rfl) $$ HR
  ihave #HId021 := (inv_at' m K (c, .inr (0, 2, 1)) (dcell c 0 2 1) rfl) $$ HR
  ihave #HId100 := (inv_at' m K (c, .inr (1, 0, 0)) (dcell c 1 0 0) rfl) $$ HR
  ihave #HId101 := (inv_at' m K (c, .inr (1, 0, 1)) (dcell c 1 0 1) rfl) $$ HR
  ihave #HId110 := (inv_at' m K (c, .inr (1, 1, 0)) (dcell c 1 1 0) rfl) $$ HR
  ihave #HId111 := (inv_at' m K (c, .inr (1, 1, 1)) (dcell c 1 1 1) rfl) $$ HR
  ihave #HId120 := (inv_at' m K (c, .inr (1, 2, 0)) (dcell c 1 2 0) rfl) $$ HR
  ihave #HId121 := (inv_at' m K (c, .inr (1, 2, 1)) (dcell c 1 2 1) rfl) $$ HR
  ihave #HId200 := (inv_at' m K (c, .inr (2, 0, 0)) (dcell c 2 0 0) rfl) $$ HR
  ihave #HId201 := (inv_at' m K (c, .inr (2, 0, 1)) (dcell c 2 0 1) rfl) $$ HR
  ihave #HId210 := (inv_at' m K (c, .inr (2, 1, 0)) (dcell c 2 1 0) rfl) $$ HR
  ihave #HId211 := (inv_at' m K (c, .inr (2, 1, 1)) (dcell c 2 1 1) rfl) $$ HR
  ihave #HId220 := (inv_at' m K (c, .inr (2, 2, 0)) (dcell c 2 2 0) rfl) $$ HR
  ihave #HId221 := (inv_at' m K (c, .inr (2, 2, 1)) (dcell c 2 2 1) rfl) $$ HR
  ihave #HId300 := (inv_at' m K (c, .inr (3, 0, 0)) (dcell c 3 0 0) rfl) $$ HR
  ihave #HId301 := (inv_at' m K (c, .inr (3, 0, 1)) (dcell c 3 0 1) rfl) $$ HR
  ihave #HId310 := (inv_at' m K (c, .inr (3, 1, 0)) (dcell c 3 1 0) rfl) $$ HR
  ihave #HId311 := (inv_at' m K (c, .inr (3, 1, 1)) (dcell c 3 1 1) rfl) $$ HR
  ihave #HId320 := (inv_at' m K (c, .inr (3, 2, 0)) (dcell c 3 2 0) rfl) $$ HR
  ihave #HId321 := (inv_at' m K (c, .inr (3, 2, 1)) (dcell c 3 2 1) rfl) $$ HR
  ihave #HIbp := (inv_at' m K (prv c, .inl false) (regCell (prv c) barS) rfl) $$ HR
  ihave #HIbn := (inv_at' m K (nxt c, .inl false) (regCell (nxt c) barS) rfl) $$ HR
  ihave #HIep := (inv_at' m K (prv c, .inl true) (regCell (prv c) endS) rfl) $$ HR
  ihave #HIen := (inv_at' m K (nxt c, .inl true) (regCell (nxt c) endS) rfl) $$ HR
  ihave #HIrn00 := (inv_at' m K (nxt c, .inr (1, 0, 0)) (dcell (nxt c) 1 0 0) rfl) $$ HR
  ihave #HIrn01 := (inv_at' m K (nxt c, .inr (1, 0, 1)) (dcell (nxt c) 1 0 1) rfl) $$ HR
  ihave #HIrn10 := (inv_at' m K (nxt c, .inr (1, 1, 0)) (dcell (nxt c) 1 1 0) rfl) $$ HR
  ihave #HIrn11 := (inv_at' m K (nxt c, .inr (1, 1, 1)) (dcell (nxt c) 1 1 1) rfl) $$ HR
  ihave #HIrn20 := (inv_at' m K (nxt c, .inr (1, 2, 0)) (dcell (nxt c) 1 2 0) rfl) $$ HR
  ihave #HIrn21 := (inv_at' m K (nxt c, .inr (1, 2, 1)) (dcell (nxt c) 1 2 1) rfl) $$ HR
  ihave #HIrp00 := (inv_at' m K (prv c, .inr (3, 0, 0)) (dcell (prv c) 3 0 0) rfl) $$ HR
  ihave #HIrp01 := (inv_at' m K (prv c, .inr (3, 0, 1)) (dcell (prv c) 3 0 1) rfl) $$ HR
  ihave #HIrp10 := (inv_at' m K (prv c, .inr (3, 1, 0)) (dcell (prv c) 3 1 0) rfl) $$ HR
  ihave #HIrp11 := (inv_at' m K (prv c, .inr (3, 1, 1)) (dcell (prv c) 3 1 1) rfl) $$ HR
  ihave #HIrp20 := (inv_at' m K (prv c, .inr (3, 2, 0)) (dcell (prv c) 3 2 0) rfl) $$ HR
  ihave #HIrp21 := (inv_at' m K (prv c, .inr (3, 2, 1)) (dcell (prv c) 3 2 1) rfl) $$ HR
  ihave #Hrbp := (reached_at' m K (prv c, .inl false) (regCell (prv c) barS) rfl) $$ HR
  ihave #Hrbn := (reached_at' m K (nxt c, .inl false) (regCell (nxt c) barS) rfl) $$ HR
  ihave #Hrep := (reached_at' m K (prv c, .inl true) (regCell (prv c) endS) rfl) $$ HR
  ihave #Hren := (reached_at' m K (nxt c, .inl true) (regCell (nxt c) endS) rfl) $$ HR
  ihave #Hrrn00 := (reached_at' m K (nxt c, .inr (1, 0, 0)) (dcell (nxt c) 1 0 0) rfl) $$ HR
  ihave #Hrrn01 := (reached_at' m K (nxt c, .inr (1, 0, 1)) (dcell (nxt c) 1 0 1) rfl) $$ HR
  ihave #Hrrn10 := (reached_at' m K (nxt c, .inr (1, 1, 0)) (dcell (nxt c) 1 1 0) rfl) $$ HR
  ihave #Hrrn11 := (reached_at' m K (nxt c, .inr (1, 1, 1)) (dcell (nxt c) 1 1 1) rfl) $$ HR
  ihave #Hrrn20 := (reached_at' m K (nxt c, .inr (1, 2, 0)) (dcell (nxt c) 1 2 0) rfl) $$ HR
  ihave #Hrrn21 := (reached_at' m K (nxt c, .inr (1, 2, 1)) (dcell (nxt c) 1 2 1) rfl) $$ HR
  ihave #Hrrp00 := (reached_at' m K (prv c, .inr (3, 0, 0)) (dcell (prv c) 3 0 0) rfl) $$ HR
  ihave #Hrrp01 := (reached_at' m K (prv c, .inr (3, 0, 1)) (dcell (prv c) 3 0 1) rfl) $$ HR
  ihave #Hrrp10 := (reached_at' m K (prv c, .inr (3, 1, 0)) (dcell (prv c) 3 1 0) rfl) $$ HR
  ihave #Hrrp11 := (reached_at' m K (prv c, .inr (3, 1, 1)) (dcell (prv c) 3 1 1) rfl) $$ HR
  ihave #Hrrp20 := (reached_at' m K (prv c, .inr (3, 2, 0)) (dcell (prv c) 3 2 0) rfl) $$ HR
  ihave #Hrrp21 := (reached_at' m K (prv c, .inr (3, 2, 1)) (dcell (prv c) 3 2 1) rfl) $$ HR
  ihave #Hrd000 := (reached_at' m K (c, .inr (0, 0, 0)) (dcell c 0 0 0) rfl) $$ HR
  ihave #Hrd001 := (reached_at' m K (c, .inr (0, 0, 1)) (dcell c 0 0 1) rfl) $$ HR
  ihave #Hrd010 := (reached_at' m K (c, .inr (0, 1, 0)) (dcell c 0 1 0) rfl) $$ HR
  ihave #Hrd011 := (reached_at' m K (c, .inr (0, 1, 1)) (dcell c 0 1 1) rfl) $$ HR
  ihave #Hrd020 := (reached_at' m K (c, .inr (0, 2, 0)) (dcell c 0 2 0) rfl) $$ HR
  ihave #Hrd021 := (reached_at' m K (c, .inr (0, 2, 1)) (dcell c 0 2 1) rfl) $$ HR
  ihave #Hrd200 := (reached_at' m K (c, .inr (2, 0, 0)) (dcell c 2 0 0) rfl) $$ HR
  ihave #Hrd201 := (reached_at' m K (c, .inr (2, 0, 1)) (dcell c 2 0 1) rfl) $$ HR
  ihave #Hrd210 := (reached_at' m K (c, .inr (2, 1, 0)) (dcell c 2 1 0) rfl) $$ HR
  ihave #Hrd211 := (reached_at' m K (c, .inr (2, 1, 1)) (dcell c 2 1 1) rfl) $$ HR
  ihave #Hrd220 := (reached_at' m K (c, .inr (2, 2, 0)) (dcell c 2 2 0) rfl) $$ HR
  ihave #Hrd221 := (reached_at' m K (c, .inr (2, 2, 1)) (dcell c 2 2 1) rfl) $$ HR
  ihave #HrA1 := (reachedAll_of m K c 1) $$ HR
  ihave #HrA3 := (reachedAll_of m K c 3) $$ HR
  -- the staging buffers, said through their memrefs
  ihave Hx := (show ((((c : Thread nD τ).loc cc0_stg0_0) ↦{fullShare} X m c : sProp 𝕄)) ⊢ ((xM.view.loc (c : Thread nD τ)) ↦{fullShare} X m c) from BI.Entails.refl _) $$ Hx
  ihave Hw := (show ((((c : Thread nD τ).loc cc0_stg1_0) ↦{fullShare} Wt m c : sProp 𝕄)) ⊢ ((wM.view.loc (c : Thread nD τ)) ↦{fullShare} Wt m c) from BI.Entails.refl _) $$ Hw
  ihave Ho := (show ((((c : Thread nD τ).loc cc0_stg2_0) ↦{fullShare} g2 : sProp 𝕄)) ⊢ ((oM.view.loc (c : Thread nD τ)) ↦{fullShare} g2) from BI.Entails.refl _) $$ Ho
  have hd1 := dev1_eq; have hd2 := dev2_eq; have hd3 := dev3_eq; have hd4 := dev4_eq; have hd5 := dev5_eq; have hd6 := dev6_eq
  have hd7 := dev7_eq; have hd8 := dev8_eq; have hd9 := dev9_eq; have hd10 := dev10_eq; have hd11 := dev11_eq; have hd12 := dev12_eq
  have hd13 := dev13_eq; have hd14 := dev14_eq; have hd15 := dev15_eq; have hd16 := dev16_eq
  have hmwb := mayWait_bar (F := F) c
  have hmw_r00 : (levAts L lv : sProp 𝕄) ⊢ MayWait (c : Thread nD τ) (.dma (qsem cc0_scratch3 0 0)) () (owed c 6) := mayWait_rR (F := F) c 0 0
  have hmw_l00 : (levAts L lv : sProp 𝕄) ⊢ MayWait (c : Thread nD τ) (.dma (qsem cc0_scratch5 0 0)) () (owed c 7) := mayWait_rL (F := F) c 0 0
  have hmw_sr00 : (levAts L lv : sProp 𝕄) ⊢ MayWait (c : Thread nD τ) (.dma (qsem cc0_scratch2 0 0)) () (owed c 14) := mayWait_sR (F := F) c 0 0
  have hmw_sl00 : (levAts L lv : sProp 𝕄) ⊢ MayWait (c : Thread nD τ) (.dma (qsem cc0_scratch4 0 0)) () (owed c 14) := mayWait_sL (F := F) c 0 0
  have hmw_r01 : (levAts L lv : sProp 𝕄) ⊢ MayWait (c : Thread nD τ) (.dma (qsem cc0_scratch3 0 1)) () (owed c 8) := mayWait_rR (F := F) c 0 1
  have hmw_l01 : (levAts L lv : sProp 𝕄) ⊢ MayWait (c : Thread nD τ) (.dma (qsem cc0_scratch5 0 1)) () (owed c 9) := mayWait_rL (F := F) c 0 1
  have hmw_sr01 : (levAts L lv : sProp 𝕄) ⊢ MayWait (c : Thread nD τ) (.dma (qsem cc0_scratch2 0 1)) () (owed c 14) := mayWait_sR (F := F) c 0 1
  have hmw_sl01 : (levAts L lv : sProp 𝕄) ⊢ MayWait (c : Thread nD τ) (.dma (qsem cc0_scratch4 0 1)) () (owed c 14) := mayWait_sL (F := F) c 0 1
  have hmw_r10 : (levAts L lv : sProp 𝕄) ⊢ MayWait (c : Thread nD τ) (.dma (qsem cc0_scratch3 1 0)) () (owed c 10) := mayWait_rR (F := F) c 1 0
  have hmw_l10 : (levAts L lv : sProp 𝕄) ⊢ MayWait (c : Thread nD τ) (.dma (qsem cc0_scratch5 1 0)) () (owed c 11) := mayWait_rL (F := F) c 1 0
  have hmw_sr10 : (levAts L lv : sProp 𝕄) ⊢ MayWait (c : Thread nD τ) (.dma (qsem cc0_scratch2 1 0)) () (owed c 14) := mayWait_sR (F := F) c 1 0
  have hmw_sl10 : (levAts L lv : sProp 𝕄) ⊢ MayWait (c : Thread nD τ) (.dma (qsem cc0_scratch4 1 0)) () (owed c 14) := mayWait_sL (F := F) c 1 0
  have hmw_r11 : (levAts L lv : sProp 𝕄) ⊢ MayWait (c : Thread nD τ) (.dma (qsem cc0_scratch3 1 1)) () (owed c 12) := mayWait_rR (F := F) c 1 1
  have hmw_l11 : (levAts L lv : sProp 𝕄) ⊢ MayWait (c : Thread nD τ) (.dma (qsem cc0_scratch5 1 1)) () (owed c 13) := mayWait_rL (F := F) c 1 1
  have hmw_sr11 : (levAts L lv : sProp 𝕄) ⊢ MayWait (c : Thread nD τ) (.dma (qsem cc0_scratch2 1 1)) () (owed c 14) := mayWait_sR (F := F) c 1 1
  have hmw_sl11 : (levAts L lv : sProp 𝕄) ⊢ MayWait (c : Thread nD τ) (.dma (qsem cc0_scratch4 1 1)) () (owed c 14) := mayWait_sL (F := F) c 1 1
  have hmw_r20 : (levAts L lv : sProp 𝕄) ⊢ MayWait (c : Thread nD τ) (.dma (qsem cc0_scratch3 2 0)) () (owed c 14) := mayWait_rR (F := F) c 2 0
  have hmw_l20 : (levAts L lv : sProp 𝕄) ⊢ MayWait (c : Thread nD τ) (.dma (qsem cc0_scratch5 2 0)) () (owed c 14) := mayWait_rL (F := F) c 2 0
  have hmw_sr20 : (levAts L lv : sProp 𝕄) ⊢ MayWait (c : Thread nD τ) (.dma (qsem cc0_scratch2 2 0)) () (owed c 14) := mayWait_sR (F := F) c 2 0
  have hmw_sl20 : (levAts L lv : sProp 𝕄) ⊢ MayWait (c : Thread nD τ) (.dma (qsem cc0_scratch4 2 0)) () (owed c 14) := mayWait_sL (F := F) c 2 0
  have hmw_r21 : (levAts L lv : sProp 𝕄) ⊢ MayWait (c : Thread nD τ) (.dma (qsem cc0_scratch3 2 1)) () (owed c 14) := mayWait_rR (F := F) c 2 1
  have hmw_l21 : (levAts L lv : sProp 𝕄) ⊢ MayWait (c : Thread nD τ) (.dma (qsem cc0_scratch5 2 1)) () (owed c 14) := mayWait_rL (F := F) c 2 1
  have hmw_sr21 : (levAts L lv : sProp 𝕄) ⊢ MayWait (c : Thread nD τ) (.dma (qsem cc0_scratch2 2 1)) () (owed c 14) := mayWait_sR (F := F) c 2 1
  have hmw_sl21 : (levAts L lv : sProp 𝕄) ⊢ MayWait (c : Thread nD τ) (.dma (qsem cc0_scratch4 2 1)) () (owed c 14) := mayWait_sL (F := F) c 2 1
  have hmw_end : (levAts L lv : sProp 𝕄) ⊢ MayWait (c : Thread nD τ) (.reg endS) () (owed c 16) := by rw [owed_done, MayWait_zero]; iintro -; iempintro
  -- the device's two landing buffers, slot by slot: what the entry handshake hands the neighbours
  ihave Ha' := (slots_split aM c A0) $$ Ha
  icases Ha' with ⟨⟨Hsa00, Hsa01, Hsa10, Hsa11, Hsa20, Hsa21⟩, Harest⟩
  ihave Hb' := (slots_split bM c B0) $$ Hb
  icases Hb' with ⟨⟨Hsb00, Hsb01, Hsb10, Hsb11, Hsb20, Hsb21⟩, Hbrest⟩
  ihave Harest := (Entails.of_eq (aside_eq _).symm) $$ Harest
  ihave Hbrest := (Entails.of_eq (aside_eq _).symm) $$ Hbrest
  unfold slotPts
  ihave HO := (peel (owed0 c) c _) $$ HO
  sl_exec_parts
  ihave HO := (peel (owed1 c) c _) $$ HO
  sl_exec_parts
  -- what the handshake's round handed over: the neighbours' landing slots
  ihave Hp := (Entails.of_eq (bar_open m c)) $$ Habc_pay1
  unfold barPayF barPayT slotAny slotPts
  icases Hp with ⟨⟨⟨%fb00, Hpb00⟩, ⟨%fb01, Hpb01⟩, ⟨%fb10, Hpb10⟩, ⟨%fb11, Hpb11⟩, ⟨%fb20, Hpb20⟩, ⟨%fb21, Hpb21⟩, -⟩, ⟨⟨%fa00, Hpa00⟩, ⟨%fa01, Hpa01⟩, ⟨%fa10, Hpa10⟩, ⟨%fa11, Hpa11⟩, ⟨%fa20, Hpa20⟩, ⟨%fa21, Hpa21⟩, -⟩⟩
  -- the block of x: one half stays for the loads, the other goes, piece by piece, to the four first hops
  ihave Hx2 := (halves Finset.univ fullShare (X m c)).1 $$ Hx
  icases Hx2 with ⟨HxL, HxR⟩
  ihave HxL' := (x_split c fullShare.left (X m c)) $$ HxL
  icases HxL' with ⟨⟨Hxl0, Hxl1, Hxl2, Hxl3⟩, Hxlrest⟩
  ihave Hxlrest := (Entails.of_eq (aside_eq _).symm) $$ Hxlrest
  -- the first hop, rightwards, piece 0
  ihave HO := (peel (owed2 c) c _) $$ HO
  iapply (send0R m c (nxt c) rfl 0 _ rfl _ rfl _ _ rfl rfl (K (c, .inr (0, 0, 0))) (K (nxt c, .inr (1, 0, 0))) fa00 _ (owed c 3)) $$ [Hxl0 Hpa00 HO Htd000 Htrn00]
  · isplitr; · iexact HId000
    isplitr; · iexact HIrn00
    isplitl [Hxl0]; · (first | iexact Hxl0 | (unfold xPts; iexact Hxl0))
    isplitl [Hpa00]; · (first | iexact Hpa00 | (unfold slotPts; iexact Hpa00))
    isplitl [HO]; · iexact HO
    isplitl [Htd000]; · iexact Htd000
    isplitr; · iexact Hrd000
    isplitl [Htrn00]; · iexact Htrn00
    iexact Hrrn00
  iintro ⟨Hcs000, HO⟩
  sl_exec_parts
  -- the first hop, leftwards, piece 0
  ihave HO := (peel (owed3 c) c _) $$ HO
  iapply (send0L m c (prv c) rfl 0 _ rfl _ rfl _ _ rfl rfl (K (c, .inr (2, 0, 0))) (K (prv c, .inr (3, 0, 0))) fb00 _ (owed c 4)) $$ [Hxl2 Hpb00 HO Htd200 Htrp00]
  · isplitr; · iexact HId200
    isplitr; · iexact HIrp00
    isplitl [Hxl2]; · (first | iexact Hxl2 | (unfold xPts; iexact Hxl2))
    isplitl [Hpb00]; · (first | iexact Hpb00 | (unfold slotPts; iexact Hpb00))
    isplitl [HO]; · iexact HO
    isplitl [Htd200]; · iexact Htd200
    isplitr; · iexact Hrd200
    isplitl [Htrp00]; · iexact Htrp00
    iexact Hrrp00
  iintro ⟨Hcs200, HO⟩
  sl_exec_parts
  -- the first hop, rightwards, piece 1
  ihave HO := (peel (owed4 c) c _) $$ HO
  iapply (send0R m c (nxt c) rfl 1 _ rfl _ rfl _ _ rfl rfl (K (c, .inr (0, 0, 1))) (K (nxt c, .inr (1, 0, 1))) fa01 _ (owed c 5)) $$ [Hxl1 Hpa01 HO Htd001 Htrn01]
  · isplitr; · iexact HId001
    isplitr; · iexact HIrn01
    isplitl [Hxl1]; · (first | iexact Hxl1 | (unfold xPts; iexact Hxl1))
    isplitl [Hpa01]; · (first | iexact Hpa01 | (unfold slotPts; iexact Hpa01))
    isplitl [HO]; · iexact HO
    isplitl [Htd001]; · iexact Htd001
    isplitr; · iexact Hrd001
    isplitl [Htrn01]; · iexact Htrn01
    iexact Hrrn01
  iintro ⟨Hcs001, HO⟩
  sl_exec_parts
  -- the first hop, leftwards, piece 1
  ihave HO := (peel (owed5 c) c _) $$ HO
  iapply (send0L m c (prv c) rfl 1 _ rfl _ rfl _ _ rfl rfl (K (c, .inr (2, 0, 1))) (K (prv c, .inr (3, 0, 1))) fb01 _ (owed c 6)) $$ [Hxl3 Hpb01 HO Htd201 Htrp01]
  · isplitr; · iexact HId201
    isplitr; · iexact HIrp01
    isplitl [Hxl3]; · (first | iexact Hxl3 | (unfold xPts; iexact Hxl3))
    isplitl [Hpb01]; · (first | iexact Hpb01 | (unfold slotPts; iexact Hpb01))
    isplitl [HO]; · iexact HO
    isplitl [Htd201]; · iexact Htd201
    isplitr; · iexact Hrd201
    isplitl [Htrp01]; · iexact Htrp01
    iexact Hrrp01
  iintro ⟨Hcs201, HO⟩
  sl_exec_parts
  -- slot (0, 0) of the rightward road has arrived
  ihave Hp := (Entails.of_eq (round_dma m c 1 0 0)) $$ Had100_pay1
  ihave Hp := (show dpay m c 1 0 0 ⊢ landed aM c 0 0 (srcR m c 0 0) from BI.Entails.refl _) $$ Hp
  unfold landed slotPts
  icases Hp with ⟨%fr00, %hfr00, Hsr00⟩
  -- half of it is lent to the next hop; the other half stays for the product
  ihave Hh := (halves (slot aM 0 0).view.set fullShare fr00).1 $$ Hsr00
  icases Hh with ⟨Hsr00L, Hsr00R⟩
  ihave HO := (peel (owed6 c) c _) $$ HO
  iapply (sendR m c (nxt c) rfl 0 (by decide) 0 _ rfl _ rfl _ _ rfl rfl (K (c, .inr (0, 1, 0))) (K (nxt c, .inr (1, 1, 0))) fr00 hfr00 fa10 _ (owed c 7)) $$ [Hsr00L Hpa10 HO Htd010 Htrn10]
  · isplitr; · iexact HId010
    isplitr; · iexact HIrn10
    isplitl [Hsr00L]; · (first | iexact Hsr00L | (unfold slotPts; iexact Hsr00L))
    isplitl [Hpa10]; · (first | iexact Hpa10 | (unfold slotPts; iexact Hpa10))
    isplitl [HO]; · iexact HO
    isplitl [Htd010]; · iexact Htd010
    isplitr; · iexact Hrd010
    isplitl [Htrn10]; · iexact Htrn10
    iexact Hrrn10
  iintro ⟨Hcs010, HO⟩
  sl_exec_parts
  -- slot (0, 0) of the leftward road has arrived
  ihave Hp := (Entails.of_eq (round_dma m c 3 0 0)) $$ Had300_pay1
  ihave Hp := (show dpay m c 3 0 0 ⊢ landed bM c 0 0 (srcL m c 0 0) from BI.Entails.refl _) $$ Hp
  unfold landed slotPts
  icases Hp with ⟨%fl00, %hfl00, Hsl00⟩
  -- half of it is lent to the next hop; the other half stays for the product
  ihave Hh := (halves (slot bM 0 0).view.set fullShare fl00).1 $$ Hsl00
  icases Hh with ⟨Hsl00L, Hsl00R⟩
  ihave HO := (peel (owed7 c) c _) $$ HO
  iapply (sendL m c (prv c) rfl 0 (by decide) 0 _ rfl _ rfl _ _ rfl rfl (K (c, .inr (2, 1, 0))) (K (prv c, .inr (3, 1, 0))) fl00 hfl00 fb10 _ (owed c 8)) $$ [Hsl00L Hpb10 HO Htd210 Htrp10]
  · isplitr; · iexact HId210
    isplitr; · iexact HIrp10
    isplitl [Hsl00L]; · (first | iexact Hsl00L | (unfold slotPts; iexact Hsl00L))
    isplitl [Hpb10]; · (first | iexact Hpb10 | (unfold slotPts; iexact Hpb10))
    isplitl [HO]; · iexact HO
    isplitl [Htd210]; · iexact Htd210
    isplitr; · iexact Hrd210
    isplitl [Htrp10]; · iexact Htrp10
    iexact Hrrp10
  iintro ⟨Hcs210, HO⟩
  sl_exec_parts
  -- slot (0, 1) of the rightward road has arrived
  ihave Hp := (Entails.of_eq (round_dma m c 1 0 1)) $$ Had101_pay1
  ihave Hp := (show dpay m c 1 0 1 ⊢ landed aM c 0 1 (srcR m c 0 1) from BI.Entails.refl _) $$ Hp
  unfold landed slotPts
  icases Hp with ⟨%fr01, %hfr01, Hsr01⟩
  -- half of it is lent to the next hop; the other half stays for the product
  ihave Hh := (halves (slot aM 0 1).view.set fullShare fr01).1 $$ Hsr01
  icases Hh with ⟨Hsr01L, Hsr01R⟩
  ihave HO := (peel (owed8 c) c _) $$ HO
  iapply (sendR m c (nxt c) rfl 0 (by decide) 1 _ rfl _ rfl _ _ rfl rfl (K (c, .inr (0, 1, 1))) (K (nxt c, .inr (1, 1, 1))) fr01 hfr01 fa11 _ (owed c 9)) $$ [Hsr01L Hpa11 HO Htd011 Htrn11]
  · isplitr; · iexact HId011
    isplitr; · iexact HIrn11
    isplitl [Hsr01L]; · (first | iexact Hsr01L | (unfold slotPts; iexact Hsr01L))
    isplitl [Hpa11]; · (first | iexact Hpa11 | (unfold slotPts; iexact Hpa11))
    isplitl [HO]; · iexact HO
    isplitl [Htd011]; · iexact Htd011
    isplitr; · iexact Hrd011
    isplitl [Htrn11]; · iexact Htrn11
    iexact Hrrn11
  iintro ⟨Hcs011, HO⟩
  sl_exec_parts
  -- slot (0, 1) of the leftward road has arrived
  ihave Hp := (Entails.of_eq (round_dma m c 3 0 1)) $$ Had301_pay1
  ihave Hp := (show dpay m c 3 0 1 ⊢ landed bM c 0 1 (srcL m c 0 1) from BI.Entails.refl _) $$ Hp
  unfold landed slotPts
  icases Hp with ⟨%fl01, %hfl01, Hsl01⟩
  -- half of it is lent to the next hop; the other half stays for the product
  ihave Hh := (halves (slot bM 0 1).view.set fullShare fl01).1 $$ Hsl01
  icases Hh with ⟨Hsl01L, Hsl01R⟩
  ihave HO := (peel (owed9 c) c _) $$ HO
  iapply (sendL m c (prv c) rfl 0 (by decide) 1 _ rfl _ rfl _ _ rfl rfl (K (c, .inr (2, 1, 1))) (K (prv c, .inr (3, 1, 1))) fl01 hfl01 fb11 _ (owed c 10)) $$ [Hsl01L Hpb11 HO Htd211 Htrp11]
  · isplitr; · iexact HId211
    isplitr; · iexact HIrp11
    isplitl [Hsl01L]; · (first | iexact Hsl01L | (unfold slotPts; iexact Hsl01L))
    isplitl [Hpb11]; · (first | iexact Hpb11 | (unfold slotPts; iexact Hpb11))
    isplitl [HO]; · iexact HO
    isplitl [Htd211]; · iexact Htd211
    isplitr; · iexact Hrd211
    isplitl [Htrp11]; · iexact Htrp11
    iexact Hrrp11
  iintro ⟨Hcs211, HO⟩
  sl_exec_parts
  -- slot (1, 0) of the rightward road has arrived
  ihave Hp := (Entails.of_eq (round_dma m c 1 1 0)) $$ Had110_pay1
  ihave Hp := (show dpay m c 1 1 0 ⊢ landed aM c 1 0 (srcR m c 1 0) from BI.Entails.refl _) $$ Hp
  unfold landed slotPts
  icases Hp with ⟨%fr10, %hfr10, Hsr10⟩
  -- half of it is lent to the next hop; the other half stays for the product
  ihave Hh := (halves (slot aM 1 0).view.set fullShare fr10).1 $$ Hsr10
  icases Hh with ⟨Hsr10L, Hsr10R⟩
  ihave HO := (peel (owed10 c) c _) $$ HO
  iapply (sendR m c (nxt c) rfl 1 (by decide) 0 _ rfl _ rfl _ _ rfl rfl (K (c, .inr (0, 2, 0))) (K (nxt c, .inr (1, 2, 0))) fr10 hfr10 fa20 _ (owed c 11)) $$ [Hsr10L Hpa20 HO Htd020 Htrn20]
  · isplitr; · iexact HId020
    isplitr; · iexact HIrn20
    isplitl [Hsr10L]; · (first | iexact Hsr10L | (unfold slotPts; iexact Hsr10L))
    isplitl [Hpa20]; · (first | iexact Hpa20 | (unfold slotPts; iexact Hpa20))
    isplitl [HO]; · iexact HO
    isplitl [Htd020]; · iexact Htd020
    isplitr; · iexact Hrd020
    isplitl [Htrn20]; · iexact Htrn20
    iexact Hrrn20
  iintro ⟨Hcs020, HO⟩
  sl_exec_parts
  -- slot (1, 0) of the leftward road has arrived
  ihave Hp := (Entails.of_eq (round_dma m c 3 1 0)) $$ Had310_pay1
  ihave Hp := (show dpay m c 3 1 0 ⊢ landed bM c 1 0 (srcL m c 1 0) from BI.Entails.refl _) $$ Hp
  unfold landed slotPts
  icases Hp with ⟨%fl10, %hfl10, Hsl10⟩
  -- half of it is lent to the next hop; the other half stays for the product
  ihave Hh := (halves (slot bM 1 0).view.set fullShare fl10).1 $$ Hsl10
  icases Hh with ⟨Hsl10L, Hsl10R⟩
  ihave HO := (peel (owed11 c) c _) $$ HO
  iapply (sendL m c (prv c) rfl 1 (by decide) 0 _ rfl _ rfl _ _ rfl rfl (K (c, .inr (2, 2, 0))) (K (prv c, .inr (3, 2, 0))) fl10 hfl10 fb20 _ (owed c 12)) $$ [Hsl10L Hpb20 HO Htd220 Htrp20]
  · isplitr; · iexact HId220
    isplitr; · iexact HIrp20
    isplitl [Hsl10L]; · (first | iexact Hsl10L | (unfold slotPts; iexact Hsl10L))
    isplitl [Hpb20]; · (first | iexact Hpb20 | (unfold slotPts; iexact Hpb20))
    isplitl [HO]; · iexact HO
    isplitl [Htd220]; · iexact Htd220
    isplitr; · iexact Hrd220
    isplitl [Htrp20]; · iexact Htrp20
    iexact Hrrp20
  iintro ⟨Hcs220, HO⟩
  sl_exec_parts
  -- slot (1, 1) of the rightward road has arrived
  ihave Hp := (Entails.of_eq (round_dma m c 1 1 1)) $$ Had111_pay1
  ihave Hp := (show dpay m c 1 1 1 ⊢ landed aM c 1 1 (srcR m c 1 1) from BI.Entails.refl _) $$ Hp
  unfold landed slotPts
  icases Hp with ⟨%fr11, %hfr11, Hsr11⟩
  -- half of it is lent to the next hop; the other half stays for the product
  ihave Hh := (halves (slot aM 1 1).view.set fullShare fr11).1 $$ Hsr11
  icases Hh with ⟨Hsr11L, Hsr11R⟩
  ihave HO := (peel (owed12 c) c _) $$ HO
  iapply (sendR m c (nxt c) rfl 1 (by decide) 1 _ rfl _ rfl _ _ rfl rfl (K (c, .inr (0, 2, 1))) (K (nxt c, .inr (1, 2, 1))) fr11 hfr11 fa21 _ (owed c 13)) $$ [Hsr11L Hpa21 HO Htd021 Htrn21]
  · isplitr; · iexact HId021
    isplitr; · iexact HIrn21
    isplitl [Hsr11L]; · (first | iexact Hsr11L | (unfold slotPts; iexact Hsr11L))
    isplitl [Hpa21]; · (first | iexact Hpa21 | (unfold slotPts; iexact Hpa21))
    isplitl [HO]; · iexact HO
    isplitl [Htd021]; · iexact Htd021
    isplitr; · iexact Hrd021
    isplitl [Htrn21]; · iexact Htrn21
    iexact Hrrn21
  iintro ⟨Hcs021, HO⟩
  sl_exec_parts
  -- slot (1, 1) of the leftward road has arrived
  ihave Hp := (Entails.of_eq (round_dma m c 3 1 1)) $$ Had311_pay1
  ihave Hp := (show dpay m c 3 1 1 ⊢ landed bM c 1 1 (srcL m c 1 1) from BI.Entails.refl _) $$ Hp
  unfold landed slotPts
  icases Hp with ⟨%fl11, %hfl11, Hsl11⟩
  -- half of it is lent to the next hop; the other half stays for the product
  ihave Hh := (halves (slot bM 1 1).view.set fullShare fl11).1 $$ Hsl11
  icases Hh with ⟨Hsl11L, Hsl11R⟩
  ihave HO := (peel (owed13 c) c _) $$ HO
  iapply (sendL m c (prv c) rfl 1 (by decide) 1 _ rfl _ rfl _ _ rfl rfl (K (c, .inr (2, 2, 1))) (K (prv c, .inr (3, 2, 1))) fl11 hfl11 fb21 _ (owed c 14)) $$ [Hsl11L Hpb21 HO Htd221 Htrp21]
  · isplitr; · iexact HId221
    isplitr; · iexact HIrp21
    isplitl [Hsl11L]; · (first | iexact Hsl11L | (unfold slotPts; iexact Hsl11L))
    isplitl [Hpb21]; · (first | iexact Hpb21 | (unfold slotPts; iexact Hpb21))
    isplitl [HO]; · iexact HO
    isplitl [Htd221]; · iexact Htd221
    isplitr; · iexact Hrd221
    isplitl [Htrp21]; · iexact Htrp21
    iexact Hrrp21
  iintro ⟨Hcs221, HO⟩
  sl_exec_parts
  -- slot (2, 0) of the rightward road has arrived
  ihave Hp := (Entails.of_eq (round_dma m c 1 2 0)) $$ Had120_pay1
  ihave Hp := (show dpay m c 1 2 0 ⊢ landed aM c 2 0 (srcR m c 2 0) from BI.Entails.refl _) $$ Hp
  unfold landed slotPts
  icases Hp with ⟨%fr20, %hfr20, Hsr20⟩
  sl_exec_parts
  -- slot (2, 0) of the leftward road has arrived
  ihave Hp := (Entails.of_eq (round_dma m c 3 2 0)) $$ Had320_pay1
  ihave Hp := (show dpay m c 3 2 0 ⊢ landed bM c 2 0 (srcL m c 2 0) from BI.Entails.refl _) $$ Hp
  unfold landed slotPts
  icases Hp with ⟨%fl20, %hfl20, Hsl20⟩
  sl_exec_parts
  -- slot (2, 1) of the rightward road has arrived
  ihave Hp := (Entails.of_eq (round_dma m c 1 2 1)) $$ Had121_pay1
  ihave Hp := (show dpay m c 1 2 1 ⊢ landed aM c 2 1 (srcR m c 2 1) from BI.Entails.refl _) $$ Hp
  unfold landed slotPts
  icases Hp with ⟨%fr21, %hfr21, Hsr21⟩
  sl_exec_parts
  -- slot (2, 1) of the leftward road has arrived
  ihave Hp := (Entails.of_eq (round_dma m c 3 2 1)) $$ Had321_pay1
  ihave Hp := (show dpay m c 3 2 1 ⊢ landed bM c 2 1 (srcL m c 2 1) from BI.Entails.refl _) $$ Hp
  unfold landed slotPts
  icases Hp with ⟨%fl21, %hfl21, Hsl21⟩
  sl_exec_parts
  -- the closing handshake
  ihave HO := (peel (owed14 c) c _) $$ HO
  sl_exec_parts
  ihave HO := (peel (owed15 c) c _) $$ HO
  sl_exec_parts
  -- the return: the cells closed, the buffers whole again
  rw [wp_ret]
  imod (finish m K c fr00 fr01 fr10 fr11 fr20 fr21 fl00 fl01 fl10 fl11 fl20 fl21 A0 B0 _) $$ [Haec Had000 Had001 Had010 Had011 Had020 Had021 Had100 Had101 Had110 Had111 Had120 Had121 Had200 Had201 Had210 Had211 Had220 Had221 Had300 Had301 Had310 Had311 Had320 Had321 Had000_pay1 Had001_pay1 Had010_pay1 Had011_pay1 Had020_pay1 Had021_pay1 Had200_pay1 Had201_pay1 Had210_pay1 Had211_pay1 Had220_pay1 Had221_pay1 Hsr00R Hsr01R Hsr10R Hsr11R Hsr20 Hsr21 Hsl00R Hsl01R Hsl10R Hsl11R Hsl20 Hsl21 Harest Hbrest HxR Hxlrest HO] with ⟨HΦ, HO, Hx⟩
  · isplitr; · iexact HR
    isplitl [Haec]; · iexact Haec
    isplitl [Had000]; · iexact Had000
    isplitl [Had001]; · iexact Had001
    isplitl [Had010]; · iexact Had010
    isplitl [Had011]; · iexact Had011
    isplitl [Had020]; · iexact Had020
    isplitl [Had021]; · iexact Had021
    isplitl [Had100]; · iexact Had100
    isplitl [Had101]; · iexact Had101
    isplitl [Had110]; · iexact Had110
    isplitl [Had111]; · iexact Had111
    isplitl [Had120]; · iexact Had120
    isplitl [Had121]; · iexact Had121
    isplitl [Had200]; · iexact Had200
    isplitl [Had201]; · iexact Had201
    isplitl [Had210]; · iexact Had210
    isplitl [Had211]; · iexact Had211
    isplitl [Had220]; · iexact Had220
    isplitl [Had221]; · iexact Had221
    isplitl [Had300]; · iexact Had300
    isplitl [Had301]; · iexact Had301
    isplitl [Had310]; · iexact Had310
    isplitl [Had311]; · iexact Had311
    isplitl [Had320]; · iexact Had320
    isplitl [Had321]; · iexact Had321
    isplitl [Had000_pay1]; · iexact Had000_pay1
    isplitl [Had001_pay1]; · iexact Had001_pay1
    isplitl [Had010_pay1]; · iexact Had010_pay1
    isplitl [Had011_pay1]; · iexact Had011_pay1
    isplitl [Had020_pay1]; · iexact Had020_pay1
    isplitl [Had021_pay1]; · iexact Had021_pay1
    isplitl [Had200_pay1]; · iexact Had200_pay1
    isplitl [Had201_pay1]; · iexact Had201_pay1
    isplitl [Had210_pay1]; · iexact Had210_pay1
    isplitl [Had211_pay1]; · iexact Had211_pay1
    isplitl [Had220_pay1]; · iexact Had220_pay1
    isplitl [Had221_pay1]; · iexact Had221_pay1
    isplitl [Hsr00R]; · iexact Hsr00R
    isplitl [Hsr01R]; · iexact Hsr01R
    isplitl [Hsr10R]; · iexact Hsr10R
    isplitl [Hsr11R]; · iexact Hsr11R
    isplitl [Hsr20]; · iexact Hsr20
    isplitl [Hsr21]; · iexact Hsr21
    isplitl [Hsl00R]; · iexact Hsl00R
    isplitl [Hsl01R]; · iexact Hsl01R
    isplitl [Hsl10R]; · iexact Hsl10R
    isplitl [Hsl11R]; · iexact Hsl11R
    isplitl [Hsl20]; · iexact Hsl20
    isplitl [Hsl21]; · iexact Hsl21
    isplitl [Harest]; · iexact Harest
    isplitl [Hbrest]; · iexact Hbrest
    isplitl [HxR]; · iexact HxR
    isplitl [Hxlrest]; · iexact Hxlrest
    iexact HO
  imodintro
  iapply Hk
  unfold bodyPost Dat.owesAt Pipeline.owesWithin
  rw [show (dats m ρ 0 c).owed t0_0.succ = 0 from rfl]
  isplitl [HΦ]; · iexact HΦ
  isplitl [HO]
  · iexists _
    isplitr
    rotate_left
    · iexact HO
    · ipureintro; exact fun _ _ => Or.inl trivial
  isplitl [Hx]
  · iexists _; isplitr; · (ipureintro; rfl)
    iexact Hx
  isplitl [Hw]
  · iexists _; isplitr; · (ipureintro; rfl)
    iexact Hw
  -- the thirteen stores are the thirteen pieces
  iexists _
  isplitr
  rotate_left
  · iexact Ho
  · ipureintro
    exact out_final m c g2 _ (List.cons_eq_cons.mpr ⟨pieceL_eq m c 2 1 fl21 hfl21 k0_pay13 pay13_eq,
      List.cons_eq_cons.mpr ⟨pieceR_eq m c 2 1 fr21 hfr21 k0_pay12 pay12_eq,
      List.cons_eq_cons.mpr ⟨pieceL_eq m c 2 0 fl20 hfl20 k0_pay11 pay11_eq,
      List.cons_eq_cons.mpr ⟨pieceR_eq m c 2 0 fr20 hfr20 k0_pay10 pay10_eq,
      List.cons_eq_cons.mpr ⟨pieceL_eq m c 1 1 fl11 hfl11 k0_pay9 pay9_eq,
      List.cons_eq_cons.mpr ⟨pieceR_eq m c 1 1 fr11 hfr11 k0_pay8 pay8_eq,
      List.cons_eq_cons.mpr ⟨pieceL_eq m c 1 0 fl10 hfl10 k0_pay7 pay7_eq,
      List.cons_eq_cons.mpr ⟨pieceR_eq m c 1 0 fr10 hfr10 k0_pay6 pay6_eq,
      List.cons_eq_cons.mpr ⟨pieceL_eq m c 0 1 fl01 hfl01 k0_pay5 pay5_eq,
      List.cons_eq_cons.mpr ⟨pieceR_eq m c 0 1 fr01 hfr01 k0_pay4 pay4_eq,
      List.cons_eq_cons.mpr ⟨pieceL_eq m c 0 0 fl00 hfl00 k0_pay3 pay3_eq,
      List.cons_eq_cons.mpr ⟨pieceR_eq m c 0 0 fr00 hfr00 k0_pay2 pay2_eq,
      List.cons_eq_cons.mpr ⟨pieceOwn_eq m c, rfl⟩⟩⟩⟩⟩⟩⟩⟩⟩⟩⟩⟩⟩)

def bodyPre' (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

omit [FloatOps F] in
theorem owns_whole_eq (c : Dev nD) (b : Ref sig .tc) (Xc : b.ty.Contents (Elt F)) :
    (owns (Ix := Unit) (Name := ℕ) (U := UU) (Lvl := ℕ) (c : Thread nD τ) (Memref.whole b) fullShare Xc : sProp 𝕄)
      = iprop(∃ f : Buf (Elt F) (((c : Dev nD) : Thread nD τ).loc b), ⌜f = Xc⌝ ∗ (((c : Thread nD τ).loc b) ↦{fullShare} f)) := by
  unfold owns; simp only [Memref.view_whole, View.read_whole, View.set_whole]

set_option maxRecDepth 65536 in
set_option maxHeartbeats 4000000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  sl_whnfR [defs₀, Defs.onTc]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) cc0_scratch2 cc0_scratch3 cc0_scratch4 cc0_scratch5 cc0_scoped0) (fun _ => bodyPost m ρ c)
  unfold bodyPre' Φ₀ start
  iintro ⟨⟨⟨⟨%K, Hg⟩, Hcr, Hlev⟩, Ha, Hb⟩, Ho, Hx, Hw, Hout⟩
  iapply (sound_body m ρ K c fun _ => bodyPost m ρ c)
  unfold bodyPre
  isplitr []
  · isplitl [Hg Hcr Hlev Ha Hb]
    · isplitl [Hg]; · iexact Hg
      isplitl [Hcr]; · iexact Hcr
      isplitl [Hlev]; · iexact Hlev
      isplitl [Ha]; · iexact Ha
      iexact Hb
    isplitl [Ho]; · iexact Ho
    isplitl [Hx]; · iexact Hx
    isplitl [Hw]; · iexact Hw
    iexact Hout
  · iintro H; iexact H

end Cert.Kernel.Ag

end
-- ==== Proof.K.Launch.lean ====
/-
  From the four bodies to the whole run.

  At launch every counter is zero. Each device's twenty-six cells get their invariants, all devices' at once (a device
  pays into its neighbours' cells, so the names must be known around the ring); each cell's tokens are minted with it and
  dealt to the duties' payers: a handshake cell's token for the signal from the right neighbour goes to the right
  neighbour, the one for the signal from the left neighbour to the left neighbour, a rightward receive cell's token to
  the left neighbour (who sends into it), a leftward receive cell's to the right neighbour, a send cell's stays. What the
  neighbours owe a device at launch is dealt to it as credit: two units on each handshake cell, a block's credit on each
  receive cell. Levels as in the ledger: the pipeline's own staging waits sit at level 0, below everything.
-/
import proofs.«900337_g7700000000000338_dist_ag_gemm_m2048_k2048_n2048_f32_none_v7x_i4_1_alg».proof.Proof.K.Ghost

set_option maxRecDepth 16384

noncomputable section

namespace Cert.Kernel.Ag

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The ring -/

def ring : Dev nD ≃ Dev nD := ⟨nxt, prv, prv_nxt, nxt_prv⟩

/-! ## The layout -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × CI → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def ringCells : Finset (GSem nD τ sig) := Finset.univ.map ⟨kcell, kcell_injective⟩

theorem payOf_injective : Function.Injective (payOf : Dev nD × PI → GSem nD τ sig × ℕ × Bool) := by decide +kernel

/-- Every duty's token, listed by the device that pays it. -/
def ringToks : Finset (GSem nD τ sig × ℕ × Bool) := Finset.univ.map ⟨payOf, payOf_injective⟩

def u₀ : UU :=
  (initOf (Pipeline.cells cfgs cellOf_inj) (Pipeline.launchToks cfgs cellOf_inj), initOf ringCells ringToks)

/-! ## What the launch deals, and what the global step makes of it -/

def G (c : Dev nD) : sProp 𝕄 :=
  iprop((bigSep Finset.univ fun k : CI => roundState ER (Rd m) (kcell (c, k)) 0)
    ∗ (bigSep Finset.univ fun k : CI => iprop(atPos ER (kcell (c, k)) 0 ∅ 0 ∗ reached ER (kcell (c, k)) 0)) ∗ payToks (F := F) c)

def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => payToks c := by
    unfold ringToks payToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Allocating the invariants -/

omit [FloatOps F] in
theorem unscopedSems0_eq (c : Dev nD) : (unscopedSems0 c : sProp 𝕄) = semVal (regCell c barS) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [unscopedSems0_eq, bigSep_CI]
  unfold Pipeline.ownSems0
  rw [bigSep_OS]
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (Rd m) κ (kcell (c, k))))
          ∗ (bigSep Finset.univ fun k : CI => iprop(atPos ER (kcell (c, k)) 0 ∅ 0 ∗ reached ER (kcell (c, k)) 0)) ∗ payToks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (Rd m) (kcell (c, k)) 0)
      ⊢ (|={Set.univ}=> bigSep Finset.univ fun k : CI => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CI → ℕ) (c : Dev nD) : iprop(records m K ∗ (positions (F := F) c ∗ payToks (F := F) c)) ⊢ G' m c := by
  unfold G' ghost
  iintro ⟨#HR, Hp, Ht⟩
  iexists K
  isplitr; · iexact HR
  isplitl [Hp]; · iexact Hp
  iexact Ht

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CI => iprop(∃ κ : ℕ, cellInv ER (Rd m) κ (kcell (c, k))))
          ∗ (bigSep Finset.univ fun k : CI => iprop(atPos ER (kcell (c, k)) 0 ∅ 0 ∗ reached ER (kcell (c, k)) 0)) ∗ payToks (F := F) c) : sProp 𝕄)
      ⊢ bigSep Finset.univ (G' m) := by
  rw [bigSep_sep', bigSep_sep', ← bigSep_univ_prod (fun ck : Dev nD × CI => iprop(∃ κ : ℕ, cellInv ER (Rd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd m) κ (kcell ck) : sProp 𝕄))) $$ HI
  icases HK with ⟨%K, #HI⟩
  iapply (bigSep_with_persistent (R := records m K) fun c _ => ghost_intro m K c)
  isplitr
  · unfold records; isplitl; · iexact HI
    iexact HR
  · iapply (Entails.of_eq (bigSep_sep' Finset.univ (fun c : Dev nD => positions (F := F) c) (fun c : Dev nD => payToks (F := F) c)).symm)
    isplitl [Hat]; · iexact Hat
    iexact Htok

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

abbrev O₀ (d : Dev nD) : CellTallies nD τ sig Unit := owed d 0

omit [FloatOps F] in
/-- Payment `j`, which every device `d` makes to semaphore `sm` of its neighbour `f d`, is dealt to the neighbour as credit. -/
theorem cred_j (j : ℕ) (sm : SemLoc sig) (f finv : Dev nD → Dev nD) (h1 : ∀ c, f (finv c) = c) (h2 : ∀ d, finv (f d) = d) (n : ℕ)
    (hj : ∀ d : Dev nD, (tallyAt (tgt d j) () (amt j) : CellTallies nD τ sig Unit) = tallyAt (((f d).tc : Thread nD τ), sm) () n) (c : Dev nD) :
    (Pipeline.launchCred (fun d : Dev nD => (tallyAt (tgt d j) () (amt j) : CellTallies nD τ sig Unit)) c : sProp 𝕄)
      ⊢ cred (tallyAt ((c.tc : Thread nD τ), sm) () n) := by
  rw [show (fun d : Dev nD => (tallyAt (tgt d j) () (amt j) : CellTallies nD τ sig Unit)) = fun d => tallyAt (((f d).tc : Thread nD τ), sm) () n from funext hj]
  exact Pipeline.launchCred_tallyAt sm f finv h1 h2 () n c

omit [FloatOps F] in
theorem cred_two (g : GSem nD τ sig) : iprop(cred (tallyAt g () 1) ∗ cred (tallyAt g () 1)) ⊢ (cred (tallyAt g () 2) : sProp 𝕄) := by
  rw [← tallyAt_add g () 1 1]; exact (cred_add _ _).2

omit [FloatOps F] in
theorem creds (c : Dev nD) : (Pipeline.launchCred O₀ c : sProp 𝕄) ⊢ credits (F := F) c := by
  have e : (Pipeline.launchCred O₀ c : sProp 𝕄) = bigSep (Finset.Ico 0 16) fun j : ℕ => Pipeline.launchCred (fun d : Dev nD => (tallyAt (tgt d j) () (amt j) : CellTallies nD τ sig Unit)) c :=
    Pipeline.launchCred_sum (Finset.Ico 0 16) (fun (j : ℕ) (d : Dev nD) => (tallyAt (tgt d j) () (amt j) : CellTallies nD τ sig Unit)) c
  rw [e, bigSep_eq_bigSepL_of_eq [0, 1, 2, 3, 4, 5, 6, 7, 8, 9, 10, 11, 12, 13, 14, 15] (by decide) (by decide)]
  simp only [bigSepL_cons_cons, bigSepL_singleton]
  show iprop(_ ∗ _ ∗ _ ∗ _ ∗ _ ∗ _ ∗ _ ∗ _ ∗ _ ∗ _ ∗ _ ∗ _ ∗ _ ∗ _ ∗ _ ∗ _) ⊢ _
  iintro ⟨H0, H1, H2, H3, H4, H5, H6, H7, H8, H9, H10, H11, H12, H13, H14, H15⟩
  ihave Hj0 := (cred_j (F := F) 0 (.reg barS) prv nxt prv_nxt nxt_prv 1 (fun d => rfl) c) $$ H0
  ihave Hj1 := (cred_j (F := F) 1 (.reg barS) nxt prv nxt_prv prv_nxt 1 (fun d => rfl) c) $$ H1
  ihave Hj2 := (cred_j (F := F) 2 (.dma (qsem (arr 1) 0 0)) nxt prv nxt_prv prv_nxt N (fun d => rfl) c) $$ H2
  ihave Hj3 := (cred_j (F := F) 3 (.dma (qsem (arr 3) 0 0)) prv nxt prv_nxt nxt_prv N (fun d => rfl) c) $$ H3
  ihave Hj4 := (cred_j (F := F) 4 (.dma (qsem (arr 1) 0 1)) nxt prv nxt_prv prv_nxt N (fun d => rfl) c) $$ H4
  ihave Hj5 := (cred_j (F := F) 5 (.dma (qsem (arr 3) 0 1)) prv nxt prv_nxt nxt_prv N (fun d => rfl) c) $$ H5
  ihave Hj6 := (cred_j (F := F) 6 (.dma (qsem (arr 1) 1 0)) nxt prv nxt_prv prv_nxt N (fun d => rfl) c) $$ H6
  ihave Hj7 := (cred_j (F := F) 7 (.dma (qsem (arr 3) 1 0)) prv nxt prv_nxt nxt_prv N (fun d => rfl) c) $$ H7
  ihave Hj8 := (cred_j (F := F) 8 (.dma (qsem (arr 1) 1 1)) nxt prv nxt_prv prv_nxt N (fun d => rfl) c) $$ H8
  ihave Hj9 := (cred_j (F := F) 9 (.dma (qsem (arr 3) 1 1)) prv nxt prv_nxt nxt_prv N (fun d => rfl) c) $$ H9
  ihave Hj10 := (cred_j (F := F) 10 (.dma (qsem (arr 1) 2 0)) nxt prv nxt_prv prv_nxt N (fun d => rfl) c) $$ H10
  ihave Hj11 := (cred_j (F := F) 11 (.dma (qsem (arr 3) 2 0)) prv nxt prv_nxt nxt_prv N (fun d => rfl) c) $$ H11
  ihave Hj12 := (cred_j (F := F) 12 (.dma (qsem (arr 1) 2 1)) nxt prv nxt_prv prv_nxt N (fun d => rfl) c) $$ H12
  ihave Hj13 := (cred_j (F := F) 13 (.dma (qsem (arr 3) 2 1)) prv nxt prv_nxt nxt_prv N (fun d => rfl) c) $$ H13
  ihave Hj14 := (cred_j (F := F) 14 (.reg endS) prv nxt prv_nxt nxt_prv 1 (fun d => rfl) c) $$ H14
  ihave Hj15 := (cred_j (F := F) 15 (.reg endS) nxt prv nxt_prv prv_nxt 1 (fun d => rfl) c) $$ H15
  unfold credits
  rw [bigSep_hp, bigSep_hp]
  isplitl [Hj0 Hj1]
  · iapply (cred_two (F := F) (regCell c barS)); isplitl [Hj0] <;> iassumption
  isplitl [Hj14 Hj15]
  · iapply (cred_two (F := F) (regCell c endS)); isplitl [Hj14] <;> iassumption
  isplitl [Hj2 Hj4 Hj6 Hj8 Hj10 Hj12]
  · isplitl [Hj2]; · iexact Hj2
    isplitl [Hj4]; · iexact Hj4
    isplitl [Hj6]; · iexact Hj6
    isplitl [Hj8]; · iexact Hj8
    isplitl [Hj10]; · iexact Hj10
    iexact Hj12
  · isplitl [Hj3]; · iexact Hj3
    isplitl [Hj5]; · iexact Hj5
    isplitl [Hj7]; · iexact Hj7
    isplitl [Hj9]; · iexact Hj9
    isplitl [Hj11]; · iexact Hj11
    iexact Hj13

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%fa, Ha⟩, ⟨%fb, Hb⟩⟩
  isplitl [Hs]; · iexact Hs
  isplitl [Ha]
  · iexists fa; iexact Ha
  · iexists fb; iexact Hb

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq]
  unfold Φ₁ Pipeline.ownSems0
  iintro ⟨⟨%fa, Ha⟩, ⟨%fb, Hb⟩, Hs⟩
  isplitr; · iempintro
  isplitl [Hs]; · iexact Hs
  isplitl [Ha]
  · iexists fa; iexact Ha
  · iexists fb; iexact Hb

/-- The pipeline's own waits, on its staging cells, are below everything a device owes at launch (and it owes nothing
    at the end). -/
theorem mayWait_stage (c : Dev nD) (q : DmaSem sig) (hq : q.val < 3) (O : CellTallies nD τ sig Unit) (hO : O = owed c 0 ∨ O = 0) :
    (levAts L lv : sProp 𝕄) ⊢ MayWait (c : Thread nD τ) (.dma q) () O := by
  rcases hO with rfl | rfl
  · exact mayWait_owed c (.dma q) 0 fun j _ hj => lev_stage c q ⟨j, hj⟩ hq
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- On the four devices, for any float values, from any memory with zero counters: every weakly fair execution of
    @main — the handshake, the transfers around the ring in both directions, the thirteen products, the closing
    handshake — terminates, and every final state has each device's arrays at the computed contents. -/
theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- An input array after the run holds what it held. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.Kernel.Ag

end
-- ==== Proof.K.Claims.lean ====
/-
  The run of the four devices, with what it leaves named.

  Every weakly fair execution terminates without a fault; each device's arguments end as they began, and its result ends
  holding the thirteen stored pieces.
-/
import proofs.«900337_g7700000000000338_dist_ag_gemm_m2048_k2048_n2048_f32_none_v7x_i4_1_alg».proof.Proof.K.Body
import proofs.«900337_g7700000000000338_dist_ag_gemm_m2048_k2048_n2048_f32_none_v7x_i4_1_alg».proof.Proof.K.Launch

set_option maxRecDepth 16384

noncomputable section

namespace Cert.Kernel.Ag

open Cert.Kernel Cert.Kernel.Gen

open Idealize.ShloMosaic
open Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

theorem run : θ_run defs (onTc (τ := τ) (main (F := F))) (s₀ m ρ) (QC m ρ) := run_main m ρ (body_obligation m ρ)

set_option maxHeartbeats 8000000 in
/-- What the one write-back writes: the result's staging buffer as the body left it. -/
theorem flushed_out (c : Dev nD) : (dats (F := F) m ρ 0 c).flushed (2 : Fin 3) ⟨0, by decide⟩ = outAt m c := rfl

set_option maxHeartbeats 8000000 in
/-- The result array after the run: the one write-back wrote the staging buffer's contents over it whole. -/
theorem finalA_out (c : Dev nD) : finalA m ρ c (2 : Fin 3) = outAt m c := by
  have h := (dats (F := F) m ρ 0 c).arrAt_succ (2 : Fin 3) ⟨0, by decide⟩
  rw [if_pos (flush0_2 _), flushed_out] at h
  exact h.trans (Memref.write_access_unit_zero_univ (Elt F) main_v1 (funext fun a => Nat.zero_mul _) _
    ((dats (F := F) m ρ 0 c).arrAt (2 : Fin 3) 0) (outAt m c))

theorem run_named : θ_run defs (onTc (τ := τ) (main (F := F))) ⟨m, fun _ => 0, ρ⟩ (fun r => ∀ c : Dev nD,
    r.2.mem ((c.tc : Thread nD τ).loc main_v1) = outAt m c
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c => ⟨(h c 2).trans (finalA_out m ρ c), (h c 0).trans (finalA_x m ρ c), (h c 1).trans (finalA_w m ρ c)⟩)
    (run m ρ)

end Cert.Kernel.Ag

end
-- ==== Proof.Value.lean ====
/-
  The value every device leaves: its column block of the whole matrix product.

  Write `A` and `B` for the reference's whole 2048 × 2048 arrays. Device `c'` holds rows `[512 c', 512 c' + 512)` of `A` as its
  block of `x`, and device `c` holds columns `[512 c, 512 c + 512)` of `B` as its block of the weights. Entry `(i, j)` of the
  reference's product is `∑ k, A (i, k) * B (k, j)`; device `c` should end with entry `(r, q)` of its 2048 × 512 result equal to
  entry `(r, 512 c + q)` of the product. Its result is written in thirteen pieces: its own 512 rows at row `512 c`, and twelve
  pieces of 128 rows, each the rows `[128 j, 128 j + 128)` of the block of `x` of some device `c'`, times the device's own
  block of the weights, stored at row `512 c' + 128 j`. Each piece is, entry by entry, the sum over `k` of a row of `A` against a
  column of `B`, the row and the column being exactly those the piece's place in the result names; as the pieces cover the
  result, the result is the column block.
-/
import proofs.«900337_g7700000000000338_dist_ag_gemm_m2048_k2048_n2048_f32_none_v7x_i4_1_alg».proof.Proof.Spec
import proofs.«900337_g7700000000000338_dist_ag_gemm_m2048_k2048_n2048_f32_none_v7x_i4_1_alg».proof.Proof.Gen.ReferenceIdeal.Read
import Idealize.ShloMosaic.Lib.Layout
import Idealize.ShloMosaic.Lib.ValueIdx
import Idealize.ShloMosaic.Lib.Pipeline.Value
import Idealize.ShloMosaic.PureOps.Ideal.Laws

noncomputable section

namespace Cert.KernelIdeal.Ag

open Cert.KernelIdeal Cert.KernelIdeal.Gen
open Idealize.ShloMosaic
open Idealize.ShloMosaic.TcCoe
open Idealize.ShloMosaic.ValueIdx (ix2 eq_ix2)

/-! ## The two matrix products at an index -/

theorem dP_lhs0 (i : S128x512.Idx) (q : dot_S128x2048_S2048x512_S128x512_1_0_0_1_n_n.contr.Idx) : (dot_S128x2048_S2048x512_S128x512_1_0_0_1_n_n.lhsIdx i q 0).val = (i 0).val := by
  unfold DotDims.lhsIdx
  rw [dif_neg (show ¬(0 : Fin S128x2048.rank) ∈ dot_S128x2048_S2048x512_S128x512_1_0_0_1_n_n.lhsBatch by decide), dif_pos (show (0 : Fin S128x2048.rank) ∈ dot_S128x2048_S2048x512_S128x512_1_0_0_1_n_n.lhsNonContracting by decide)]
  rfl
theorem dP_lhs1 (i : S128x512.Idx) (q : dot_S128x2048_S2048x512_S128x512_1_0_0_1_n_n.contr.Idx) : (dot_S128x2048_S2048x512_S128x512_1_0_0_1_n_n.lhsIdx i q 1).val = (q ⟨0, by decide⟩).val :=
  dot_S128x2048_S2048x512_S128x512_1_0_0_1_n_n.lhsIdx_val_of_single rfl i q
theorem dP_rhs0 (i : S128x512.Idx) (q : dot_S128x2048_S2048x512_S128x512_1_0_0_1_n_n.contr.Idx) : (dot_S128x2048_S2048x512_S128x512_1_0_0_1_n_n.rhsIdx i q 0).val = (q ⟨0, by decide⟩).val :=
  dot_S128x2048_S2048x512_S128x512_1_0_0_1_n_n.rhsIdx_val_of_single rfl i q
theorem dP_rhs1 (i : S128x512.Idx) (q : dot_S128x2048_S2048x512_S128x512_1_0_0_1_n_n.contr.Idx) : (dot_S128x2048_S2048x512_S128x512_1_0_0_1_n_n.rhsIdx i q 1).val = (i 1).val := by
  unfold DotDims.rhsIdx
  rw [dif_neg (show ¬(1 : Fin S2048x512.rank) ∈ dot_S128x2048_S2048x512_S128x512_1_0_0_1_n_n.rhsBatch by decide), dif_pos (show (1 : Fin S2048x512.rank) ∈ dot_S128x2048_S2048x512_S128x512_1_0_0_1_n_n.rhsNonContracting by decide)]
  rfl

theorem dO_lhs0 (i : S512x512.Idx) (q : dot_S512x2048_S2048x512_S512x512_1_0_0_1_n_n.contr.Idx) : (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem dO_lhs1 (i : S512x512.Idx) (q : dot_S512x2048_S2048x512_S512x512_1_0_0_1_n_n.contr.Idx) : (dot_S512x2048_S2048x512_S512x512_1_0_0_1_n_n.lhsIdx i q 1).val = (q ⟨0, by decide⟩).val :=
  dot_S512x2048_S2048x512_S512x512_1_0_0_1_n_n.lhsIdx_val_of_single rfl i q
theorem dO_rhs0 (i : S512x512.Idx) (q : dot_S512x2048_S2048x512_S512x512_1_0_0_1_n_n.contr.Idx) : (dot_S512x2048_S2048x512_S512x512_1_0_0_1_n_n.rhsIdx i q 0).val = (q ⟨0, by decide⟩).val :=
  dot_S512x2048_S2048x512_S512x512_1_0_0_1_n_n.rhsIdx_val_of_single rfl i q
theorem dO_rhs1 (i : S512x512.Idx) (q : dot_S512x2048_S2048x512_S512x512_1_0_0_1_n_n.contr.Idx) : (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- 128 rows times a block of the weights: entry `(a, b)` is the sum over `k` of row `a` at `k` times column `b` at `k`. -/
theorem mmP_apply (P : FVec Ideal S128x2048 .f32) (w : Vec Ideal S2048x512 .f32) (j : S128x512.Idx) :
    mmP P w j = ∑ k : Fin 2048, P (ix2 (j 0) k) * w (ix2 k (j 1)) := by
  unfold mmP
  rw [shapeCast_self]
  simp only [matmul]

  rw [Ideal.matmul_constant_zero_apply, ← Equiv.sum_comp (ValueIdx.contrEquiv1 dot_S128x2048_S2048x512_S128x512_1_0_0_1_n_n 2048 rfl rfl).symm]
  refine Finset.sum_congr rfl fun k _ => ?_
  have hk := ValueIdx.contrEquiv1_symm_val dot_S128x2048_S2048x512_S128x512_1_0_0_1_n_n 2048 rfl rfl k
  have el : dot_S128x2048_S2048x512_S128x512_1_0_0_1_n_n.lhsIdx j ((ValueIdx.contrEquiv1 dot_S128x2048_S2048x512_S128x512_1_0_0_1_n_n 2048 rfl rfl).symm k) = ix2 (j 0) k := funext fun a => Fin.ext (by
    match a with
    | ⟨0, _⟩ => exact dP_lhs0 _ _
    | ⟨1, _⟩ => exact (dP_lhs1 _ _).trans hk)
  have er : dot_S128x2048_S2048x512_S128x512_1_0_0_1_n_n.rhsIdx j ((ValueIdx.contrEquiv1 dot_S128x2048_S2048x512_S128x512_1_0_0_1_n_n 2048 rfl rfl).symm k) = ix2 k (j 1) := funext fun a => Fin.ext (by
    match a with
    | ⟨0, _⟩ => exact (dP_rhs0 _ _).trans hk
    | ⟨1, _⟩ => exact dP_rhs1 _ _)
  rw [el, er]
  rfl

/-- The device's own 512 rows times its block of the weights, likewise. -/
theorem pay1_apply (P : Vec Ideal S512x2048 .f32) (w : Vec Ideal S2048x512 .f32) (j : S512x512.Idx) :
    k0_pay1 P w j = ∑ k : Fin 2048, P (ix2 (j 0) k) * w (ix2 k (j 1)) := by
  unfold k0_pay1
  rw [shapeCast_self, shapeCast_self]
  simp only [matmul]

  rw [Ideal.matmul_constant_zero_apply, ← Equiv.sum_comp (ValueIdx.contrEquiv1 dot_S512x2048_S2048x512_S512x512_1_0_0_1_n_n 2048 rfl rfl).symm]
  refine Finset.sum_congr rfl fun k _ => ?_
  have hk := ValueIdx.contrEquiv1_symm_val dot_S512x2048_S2048x512_S512x512_1_0_0_1_n_n 2048 rfl rfl k
  have el : dot_S512x2048_S2048x512_S512x512_1_0_0_1_n_n.lhsIdx j ((ValueIdx.contrEquiv1 dot_S512x2048_S2048x512_S512x512_1_0_0_1_n_n 2048 rfl rfl).symm k) = ix2 (j 0) k := funext fun a => Fin.ext (by
    match a with
    | ⟨0, _⟩ => exact dO_lhs0 _ _
    | ⟨1, _⟩ => exact (dO_lhs1 _ _).trans hk)
  have er : dot_S512x2048_S2048x512_S512x512_1_0_0_1_n_n.rhsIdx j ((ValueIdx.contrEquiv1 dot_S512x2048_S2048x512_S512x512_1_0_0_1_n_n 2048 rfl rfl).symm k) = ix2 k (j 1) := funext fun a => Fin.ext (by
    match a with
    | ⟨0, _⟩ => exact (dO_rhs0 _ _).trans hk
    | ⟨1, _⟩ => exact dO_rhs1 _ _)
  rw [el, er]
  rfl

/-! ## What the devices hold -/

section Hold

variable (m : (ℓ : Loc nD τ sig) → Buf (Elt Ideal) ℓ)

/-- The staged block of `x` is the device's argument read whole. -/
theorem X_eq (c : Dev nD) : X m c = m ((c.tc : Thread nD τ).loc main_arg0) := by
  unfold X
  exact Memref.read_access_unit_zero (Elt Ideal) main_arg0 (funext fun a => Nat.zero_mul _) _ _

theorem Wt_eq (c : Dev nD) : Wt m c = m ((c.tc : Thread nD τ).loc main_arg1) := by
  unfold Wt
  exact Memref.read_access_unit_zero (Elt Ideal) main_arg1 (funext fun a => Nat.zero_mul _) _ _

end Hold

/-! ## The reference's arrays and the block each device holds of them -/

section Ref

variable (m : (ℓ : Loc nD τ sig) → Buf (Elt Ideal) ℓ)
variable (m' : (ℓ : Loc Cert.ReferenceIdeal.nD Cert.ReferenceIdeal.τ Cert.ReferenceIdeal.sig) → Buf (Elt Ideal) ℓ)

/-- The staged blocks, as arrays of extended reals. -/
abbrev Xv (c : Dev nD) : S512x2048.Idx → EReal := X m c
abbrev Wv (c : Dev nD) : S2048x512.Idx → EReal := Wt m c

/-- The reference's whole `x` and whole weights. -/
abbrev RA : (⟨2, ![2048, 2048]⟩ : Shape).Idx → EReal :=
  m' (((0 : Dev Cert.ReferenceIdeal.nD).tc : Thread Cert.ReferenceIdeal.nD Cert.ReferenceIdeal.τ).loc Cert.ReferenceIdeal.main_arg0)
abbrev RB : (⟨2, ![2048, 2048]⟩ : Shape).Idx → EReal :=
  m' (((0 : Dev Cert.ReferenceIdeal.nD).tc : Thread Cert.ReferenceIdeal.nD Cert.ReferenceIdeal.τ).loc Cert.ReferenceIdeal.main_arg1)

/-- Device `c`'s column block of the reference's product. -/
abbrev blockOfRef (c : Dev nD) : S2048x512.Idx → EReal :=
  Layout.block ⟨2, ![2048, 512]⟩ ⟨2, ![2048, 2048]⟩ 1 4 c (Cert.ReferenceIdeal.Read.val_main_v0 (F := Ideal) (RA m') (RB m'))

variable (hagree : ∀ c : Dev nD,
  m ((c.tc : Thread nD τ).loc main_arg0) = Layout.block ⟨2, ![512, 2048]⟩ ⟨2, ![2048, 2048]⟩ 0 4 c (RA m')
  ∧ m ((c.tc : Thread nD τ).loc main_arg1) = Layout.block ⟨2, ![2048, 512]⟩ ⟨2, ![2048, 2048]⟩ 1 4 c (RB m'))

include hagree

/-- Row `r` of device `c`'s block of `x` is row `512 c + r` of the whole. -/
theorem X_apply (c : Dev nD) (r : Fin 512) (k : Fin 2048) :
    Xv m c (ix2 r k) = RA m' (ix2 ⟨512 * c.val + r.val, by have : c.val < 4 := c.isLt; have := r.isLt; omega⟩ k) := by
  show X m c (ix2 r k) = _
  rw [X_eq, (hagree c).1, Layout.block_apply]
  exact congrArg (RA m') (funext fun a => Fin.ext (by
    match a with
    | ⟨0, _⟩ => show c.val * 512 + r.val = 512 * c.val + r.val; omega
    | ⟨1, _⟩ => rfl))

/-- Column `q` of device `c`'s block of the weights is column `512 c + q` of the whole. -/
theorem Wt_apply (c : Dev nD) (k : Fin 2048) (q : Fin 512) :
    Wv m c (ix2 k q) = RB m' (ix2 k ⟨512 * c.val + q.val, by have : c.val < 4 := c.isLt; have := q.isLt; omega⟩) := by
  show Wt m c (ix2 k q) = _
  rw [Wt_eq, (hagree c).2, Layout.block_apply]
  exact congrArg (RB m') (funext fun a => Fin.ext (by
    match a with
    | ⟨0, _⟩ => rfl
    | ⟨1, _⟩ => show c.val * 512 + q.val = 512 * c.val + q.val; omega))

/-- Entry `(512 c' + r, q)` of device `c`'s block of the product is row `r` of device `c'`'s `x` against column `q` of device
    `c`'s weights. -/
theorem blockOfRef_apply (c c' : Dev nD) (r : Fin 512) (q : Fin 512) (y : S2048x512.Idx) (hy0 : (y 0).val = 512 * c'.val + r.val)
    (hy1 : (y 1).val = q.val) :
    blockOfRef m' c y = ∑ k : Fin 2048, Xv m c' (ix2 r k) * Wv m c (ix2 k q) := by
  show Cert.ReferenceIdeal.Read.val_main_v0 (F := Ideal) (RA m') (RB m') _ = _
  rw [Cert.ReferenceIdeal.Read.val_main_v0_apply]
  refine Finset.sum_congr rfl fun k _ => ?_
  have e1 : ∀ i : (⟨2, ![2048, 2048]⟩ : Shape).Idx, (i 0).val = 512 * c'.val + r.val →
      RA m' (Cert.ReferenceIdeal.Read.lidx_main_v0 i k) = Xv m c' (ix2 r k) := fun i hi => by
    rw [X_apply m m' hagree c' r k]
    exact congrArg (RA m') (funext fun a => Fin.ext (by
      match a with
      | ⟨0, _⟩ => exact hi
      | ⟨1, _⟩ => rfl))
  have e2 : ∀ i : (⟨2, ![2048, 2048]⟩ : Shape).Idx, (i 1).val = 512 * c.val + q.val →
      RB m' (Cert.ReferenceIdeal.Read.ridx_main_v0 i k) = Wv m c (ix2 k q) := fun i hi => by
    rw [Wt_apply m m' hagree c k q]
    exact congrArg (RB m') (funext fun a => Fin.ext (by
      match a with
      | ⟨0, _⟩ => rfl
      | ⟨1, _⟩ => exact hi))
  exact congrArg₂ (· * ·) (e1 _ hy0) (e2 _ (by show c.val * 512 + (y 1).val = _; omega))

end Ref

/-! ## The thirteen pieces -/

section Pieces

variable (m : (ℓ : Loc nD τ sig) → Buf (Elt Ideal) ℓ)
variable (m' : (ℓ : Loc Cert.ReferenceIdeal.nD Cert.ReferenceIdeal.τ Cert.ReferenceIdeal.sig) → Buf (Elt Ideal) ℓ)

/-- Row `a` of piece `j` of a block of `x` is row `128 j + a` of the block. -/
theorem piece_apply (c : Dev nD) (j : Fin 4) (a : Fin 128) (k : Fin 2048) :
    piece m c j (ix2 a k) = Xv m c (ix2 ⟨128 * j.val + a.val, by have := j.isLt; have := a.isLt; omega⟩ k) := by
  unfold piece
  rw [View.read_apply, cast_eq]
  exact congrArg (X m c) (funext fun d => Fin.ext (by
    match d with
    | ⟨0, _⟩ => show 128 * j.val + 1 * a.val = 128 * j.val + a.val; omega
    | ⟨1, _⟩ => show 0 + 1 * k.val = k.val; omega))

variable (hagree : ∀ c : Dev nD,
  m ((c.tc : Thread nD τ).loc main_arg0) = Layout.block ⟨2, ![512, 2048]⟩ ⟨2, ![2048, 2048]⟩ 0 4 c (RA m')
  ∧ m ((c.tc : Thread nD τ).loc main_arg1) = Layout.block ⟨2, ![2048, 512]⟩ ⟨2, ![2048, 2048]⟩ 1 4 c (RB m'))

include hagree

/-- The device's own rows: rows `512 c + r` of its block of the product. -/
theorem own_ok (c : Dev nD) (x : (pieceOwn m c).1.shape.Idx) :
    (pieceOwn m c).2 x = blockOfRef m' c ((pieceOwn m c).1.emb x) := by
  have h0 : (((pieceOwn m c).1.emb x) 0).val = 512 * c.val + (x 0).val := by
    show k0_off1 c 0 + 1 * (x 0).val = _
    rw [k0_off1_eq]
    show 512 * c.val + 1 * (x 0).val = 512 * c.val + (x 0).val
    omega
  have h1 : (((pieceOwn m c).1.emb x) 1).val = (x 1).val := by
    show k0_off1 c 1 + 1 * (x 1).val = _
    rw [k0_off1_eq]
    show 0 + 1 * (x 1).val = (x 1).val
    omega
  exact (pay1_apply _ _ x).trans (blockOfRef_apply m m' hagree c c (x 0) (x 1) _ h0 h1).symm

/-- 128 delivered rows (piece `j` of device `c'`'s block of `x`) times device `c`'s weights, stored at rows `512 c' + 128 j`. -/
theorem road_sum (c c' : Dev nD) (j : Fin 4) (x : S128x512.Idx) (y : S2048x512.Idx)
    (hy0 : (y 0).val = 512 * c'.val + 128 * j.val + (x 0).val) (hy1 : (y 1).val = (x 1).val) :
    mmP (piece m c' j) (Wt m c) x = blockOfRef m' c y := by
  have hj := j.isLt
  have hx0 : (x 0).val < 128 := (x 0).isLt
  refine (mmP_apply _ _ x).trans (Eq.trans ?_ (blockOfRef_apply m m' hagree c c' ⟨128 * j.val + (x 0).val, by omega⟩ (x 1) y
    (by show (y 0).val = 512 * c'.val + (128 * j.val + (x 0).val); omega) hy1).symm)
  exact Finset.sum_congr rfl fun k _ => congrArg₂ (· * ·) (piece_apply m c' j (x 0) k) rfl

/-- The rightward road's piece `(h, p)`. -/
theorem pieceR_ok (c : Dev nD) (h : Fin 3) (p : Fin 2) (x : (pieceR m c h p).1.shape.Idx) :
    (pieceR m c h p).2 x = blockOfRef m' c ((pieceR m c h p).1.emb x) := by
  refine road_sum m m' hagree c (shift c (3 * (h.val + 1))) (jR p) x _ ?_ ?_
  · show k0_off2 c (BitVec.ofNat 32 h.val) (BitVec.ofNat 32 (128 * p.val)) 0 + 1 * (x 0).val = _
    rw [off2_eq]
    show 512 * (shift c (3 * (h.val + 1))).val + 128 * p.val + 1 * (x 0).val
      = 512 * (shift c (3 * (h.val + 1))).val + 128 * p.val + (x 0).val
    omega
  · show k0_off2 c (BitVec.ofNat 32 h.val) (BitVec.ofNat 32 (128 * p.val)) 1 + 1 * (x 1).val = _
    rw [off2_eq]
    show 0 + 1 * (x 1).val = (x 1).val
    omega

/-- The leftward road's piece `(h, p)`. -/
theorem pieceL_ok (c : Dev nD) (h : Fin 3) (p : Fin 2) (x : (pieceL m c h p).1.shape.Idx) :
    (pieceL m c h p).2 x = blockOfRef m' c ((pieceL m c h p).1.emb x) := by
  refine road_sum m m' hagree c (shift c (h.val + 1)) (jL p) x _ ?_ ?_
  · show k0_off3 c (BitVec.ofNat 32 h.val) (BitVec.ofNat 32 (128 * p.val)) 0 + 1 * (x 0).val = _
    rw [off3_eq]
    show 512 * (shift c (h.val + 1)).val + 256 + 128 * p.val + 1 * (x 0).val
      = 512 * (shift c (h.val + 1)).val + 128 * (2 + p.val) + (x 0).val
    omega
  · show k0_off3 c (BitVec.ofNat 32 h.val) (BitVec.ofNat 32 (128 * p.val)) 1 + 1 * (x 1).val = _
    rw [off3_eq]
    show 0 + 1 * (x 1).val = (x 1).val
    omega

/-- Every stored piece agrees, on its rectangle, with the device's block of the product. -/
theorem pieces_ok (c : Dev nD) : ∀ p ∈ Lout m c, ∀ x : p.1.shape.Idx, p.2 x = blockOfRef m' c (p.1.emb x) := by
  unfold Lout
  refine List.forall_mem_cons.mpr ⟨pieceL_ok m m' hagree c 2 1, ?_⟩
  refine List.forall_mem_cons.mpr ⟨pieceR_ok m m' hagree c 2 1, ?_⟩
  refine List.forall_mem_cons.mpr ⟨pieceL_ok m m' hagree c 2 0, ?_⟩
  refine List.forall_mem_cons.mpr ⟨pieceR_ok m m' hagree c 2 0, ?_⟩
  refine List.forall_mem_cons.mpr ⟨pieceL_ok m m' hagree c 1 1, ?_⟩
  refine List.forall_mem_cons.mpr ⟨pieceR_ok m m' hagree c 1 1, ?_⟩
  refine List.forall_mem_cons.mpr ⟨pieceL_ok m m' hagree c 1 0, ?_⟩
  refine List.forall_mem_cons.mpr ⟨pieceR_ok m m' hagree c 1 0, ?_⟩
  refine List.forall_mem_cons.mpr ⟨pieceL_ok m m' hagree c 0 1, ?_⟩
  refine List.forall_mem_cons.mpr ⟨pieceR_ok m m' hagree c 0 1, ?_⟩
  refine List.forall_mem_cons.mpr ⟨pieceL_ok m m' hagree c 0 0, ?_⟩
  refine List.forall_mem_cons.mpr ⟨pieceR_ok m m' hagree c 0 0, ?_⟩
  refine List.forall_mem_cons.mpr ⟨own_ok m m' hagree c, ?_⟩
  exact fun _ h => absurd h List.not_mem_nil

end Pieces

/-- What every device leaves in its result: its column block of the reference's product. -/
theorem out_value
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 512]⟩ ⟨2, ![2048, 2048]⟩ 1 4 c (m' (((0 : Dev Cert.ReferenceIdeal.nD).tc : Thread Cert.ReferenceIdeal.nD Cert.ReferenceIdeal.τ).loc Cert.ReferenceIdeal.main_arg1)))
    (hcov : ∀ (c : Dev Cert.KernelIdeal.nD) (y : Cert.KernelIdeal.S2048x512.Idx), ∃ p ∈ Lout m c, y ∈ p.1.set)
    (c : Dev Cert.KernelIdeal.nD) :
    outAt (F := Ideal) m c = Layout.block ⟨2, ![2048, 512]⟩ ⟨2, ![2048, 2048]⟩ 1 4 c
      (Cert.ReferenceIdeal.Read.val_main_v0 (F := Ideal)
        (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1))) := by
  funext y
  have h1 := View.read_writes_apply_of_pieces oM.view (base (F := Ideal)) (blockOfRef m' c) (Lout m c) (pieces_ok m m' hagree c) y (hcov c y)
  have h2 := congrFun (View.read_whole (Val := Elt Ideal) (cc0_stg2_0 : Ref sig .tc) (outAt (F := Ideal) m c)) y
  exact h2.symm.trans h1

end Cert.KernelIdeal.Ag

end
-- ==== Proof.RefValue.lean ====
/-
  The reference, read back: one matrix product of the whole arrays.
-/
import proofs.«900337_g7700000000000338_dist_ag_gemm_m2048_k2048_n2048_f32_none_v7x_i4_1_alg».proof.Proof.Gen.ReferenceIdeal.Run
import proofs.«900337_g7700000000000338_dist_ag_gemm_m2048_k2048_n2048_f32_none_v7x_i4_1_alg».proof.Proof.Gen.ReferenceIdeal.Read

noncomputable section

namespace Cert.ReferenceIdeal.RefValue

end Cert.ReferenceIdeal.RefValue

end
-- ==== Proof.lean ====
/-
  The certificate of the all-gather matrix product on four devices.

  Each device holds 512 rows of `x` and 512 columns of the weights. The devices send their halves of `x` around the ring
  in both directions, three hops each way, so that every device sees every row of `x`, and each multiplies every piece it
  sees with its own columns of the weights: device `c` ends with columns `[512 c, 512 c + 512)` of the whole product.

  The three frames: the kernel's run (at the word level and at the extended reals alike, the proof not depending on
  the float instance) terminates from any memory with zero counters, faults nowhere and leaves the arguments as they
  were — no wait blocks for ever because every cell a device waits on lies below every cell it still owes; the
  reference is a single product of the whole arrays, which leaves its arguments alone. Nothing was rewritten by the idealization, so there is nothing to preserve. At the
  extended reals the kernel's result on device `c` is, entry by entry, a sum over `k` of a row of `x` against a column
  of the weights — the thirteen stored pieces cover the result and each is such a sum at the rows it came from —, which
  is the reference's entry at the same row and at column `512 c` further on.
-/
import proofs.«900337_g7700000000000338_dist_ag_gemm_m2048_k2048_n2048_f32_none_v7x_i4_1_alg».proof.Defs
import proofs.«900337_g7700000000000338_dist_ag_gemm_m2048_k2048_n2048_f32_none_v7x_i4_1_alg».proof.Proof.Gen.Kernel
import proofs.«900337_g7700000000000338_dist_ag_gemm_m2048_k2048_n2048_f32_none_v7x_i4_1_alg».proof.Proof.Gen.KernelIdeal
import proofs.«900337_g7700000000000338_dist_ag_gemm_m2048_k2048_n2048_f32_none_v7x_i4_1_alg».proof.Proof.Gen.ReferenceIdeal
import proofs.«900337_g7700000000000338_dist_ag_gemm_m2048_k2048_n2048_f32_none_v7x_i4_1_alg».proof.Proof.Gen.Pre_finite_inputs_Kernel
import proofs.«900337_g7700000000000338_dist_ag_gemm_m2048_k2048_n2048_f32_none_v7x_i4_1_alg».proof.Proof.Gen.Pre_finite_inputs_ReferenceIdeal
import proofs.«900337_g7700000000000338_dist_ag_gemm_m2048_k2048_n2048_f32_none_v7x_i4_1_alg».proof.Proof.Gen.ReferenceIdeal.Run
import proofs.«900337_g7700000000000338_dist_ag_gemm_m2048_k2048_n2048_f32_none_v7x_i4_1_alg».proof.Proof.Gen.ReferenceIdeal.Read
import proofs.«900337_g7700000000000338_dist_ag_gemm_m2048_k2048_n2048_f32_none_v7x_i4_1_alg».proof.Proof.Claims
import proofs.«900337_g7700000000000338_dist_ag_gemm_m2048_k2048_n2048_f32_none_v7x_i4_1_alg».proof.Proof.K.Claims
import proofs.«900337_g7700000000000338_dist_ag_gemm_m2048_k2048_n2048_f32_none_v7x_i4_1_alg».proof.Proof.Value
import proofs.«900337_g7700000000000338_dist_ag_gemm_m2048_k2048_n2048_f32_none_v7x_i4_1_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs_Kernel := Cert.Pre_finite_inputs_Kernel.Gen.facts) :=
  fun m ρ _ => (θ_run Cert.Kernel.defs _ _).mono (fun _ h c => ⟨(h c).2.1, (h c).2.2⟩) (Cert.Kernel.Ag.run_named (F := Bits) m ρ)

theorem frame_ki : Cert.frame_KernelIdeal (hKernelIdeal := Cert.KernelIdeal.Gen.facts) (hPre_finite_inputs_Kernel := Cert.Pre_finite_inputs_Kernel.Gen.facts) :=
  fun m ρ _ => (θ_run Cert.KernelIdeal.defs _ _).mono (fun _ h c => ⟨(h c).2.1, (h c).2.2⟩) (Cert.KernelIdeal.Ag.run_named (F := Ideal) m ρ)

theorem frame_ri : Cert.frame_ReferenceIdeal (hReferenceIdeal := Cert.ReferenceIdeal.Gen.facts) (hPre_finite_inputs_ReferenceIdeal := Cert.Pre_finite_inputs_ReferenceIdeal.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- Both runs end; the reference's result is the whole product, and each device's result is its column block of it. -/
theorem algebraic : Cert.algebraic_KernelIdeal_ReferenceIdeal (hKernelIdeal := Cert.KernelIdeal.Gen.facts) (hReferenceIdeal := Cert.ReferenceIdeal.Gen.facts)
    (hPre_finite_inputs_Kernel := Cert.Pre_finite_inputs_Kernel.Gen.facts) := by
  intro m ρ m' ρ' _ hagree
  refine ⟨Cert.ReferenceIdeal.Read.val_main_v0 (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨(h c).1.trans (Cert.KernelIdeal.Ag.out_value m m' hagree (Cert.KernelIdeal.Ag.cover m) c), (h c).2.1, (h c).2.2⟩)
      (Cert.KernelIdeal.Ag.run_named (F := Ideal) m ρ)
  · exact (θ_run Cert.ReferenceIdeal.defs _ _).mono (fun _ h => ⟨(h 0).1.trans (Cert.ReferenceIdeal.Read.val_main_v0_eq _ _), (h 0).2.1, (h 0).2.2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, frame_ri, preserves, algebraic⟩

end Cert.Proof

end
